-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4096x128 : Shape := ⟨2, ![4096, 128]⟩
abbrev S8192x8192 : Shape := ⟨2, ![8192, 8192]⟩
abbrev S8192x4096 : Shape := ⟨2, ![8192, 4096]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_arg21 : FVec F S64x16 .f32) (main_arg22 : FVec F S16 .f32) (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  let main_v104 : FVec F S64x16 .f32 := Host.absf main_arg21
  let main_cst_40 : FVec F S_ .f32 := constant S_ .f32 0x7F800000#32
  let main_v105 : FVec F S64x16 .f32 := broadcastInDim S64x16 ![] bcast_S_S64x16 main_cst_40
  let main_v106 : IVec S64x16 1 := cmpf .olt main_v104 main_v105
  let main_c_41 : IVec S_ 1 := constantI S_ 1 1#1
  let main_v107 : IVec S_ 1 := (fun x v => Host.reduce IntOp.andi x v reducesTo_S64x16_S_d0_1 h_S_) main_v106 main_c_41
  let main_v108 : IVec S_ 1 := andi main_v103 main_v107
  let main_v109 : FVec F S16 .f32 := Host.absf main_arg22
  let main_cst_42 : FVec F S_ .f32 := constant S_ .f32 0x7F800000#32
  let main_v110 : FVec F S16 .f32 := broadcastInDim S16 ![] bcast_S_S16 main_cst_42
  let main_v111 : IVec S16 1 := cmpf .olt main_v109 main_v110
  let main_c_43 : IVec S_ 1 := constantI S_ 1 1#1
  let main_v112 : IVec S_ 1 := (fun x v => Host.reduce IntOp.andi x v reducesTo_S16_S_d0 h_S_) main_v111 main_c_43
  let main_v113 : IVec S_ 1 := andi main_v108 main_v112
  main_v113

def fn_part5 {F : FTy → Type} [FloatOps F] (main_arg18 : FVec F S16 .f32) (main_arg19 : FVec F S64x16 .f32) (main_arg20 : FVec F S16 .f32) (main_arg21 : FVec F S64x16 .f32) (main_arg22 : FVec F S16 .f32) (main_v83 : IVec S_ 1) (main_v84 : FVec F S64x16 .f32) (main_cst_32 : FVec F S_ .f32) : IVec S_ 1 :=
  let main_v85 : FVec F S64x16 .f32 := broadcastInDim S64x16 ![] bcast_S_S64x16 main_cst_32
  let main_v86 : IVec S64x16 1 := cmpf .olt main_v84 main_v85
  let main_c_33 : IVec S_ 1 := constantI S_ 1 1#1
  let main_v87 : IVec S_ 1 := (fun x v => Host.reduce IntOp.andi x v reducesTo_S64x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S64x16 .f32 := Host.absf main_arg19
  let main_cst_36 : FVec F S_ .f32 := constant S_ .f32 0x7F800000#32
  let main_v95 : FVec F S64x16 .f32 := broadcastInDim S64x16 ![] bcast_S_S64x16 main_cst_36
  let main_v96 : IVec S64x16 1 := cmpf .olt main_v94 main_v95
  let main_c_37 : IVec S_ 1 := constantI S_ 1 1#1
  let main_v97 : IVec S_ 1 := (fun x v => Host.reduce IntOp.andi x v reducesTo_S64x16_S_d0_1 h_S_) main_v96 main_c_37
  let main_v98 : IVec S_ 1 := andi main_v93 main_v97
  let main_v99 : FVec F S16 .f32 := Host.absf main_arg20
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S64x64 .f32) (main_arg15 : FVec F S64x64 .f32) (main_arg16 : FVec F S64 .f32) (main_arg17 : FVec F S64x16 .f32) (main_arg18 : FVec F S16 .f32) (main_arg19 : FVec F S64x16 .f32) (main_arg20 : FVec F S16 .f32) (main_arg21 : FVec F S64x16 .f32) (main_arg22 : FVec F S16 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x16 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S64 .f32) (main_arg12 : FVec F S64x64 .f32) (main_arg13 : FVec F S64x64 .f32) (main_arg14 : FVec F S64x64 .f32) (main_arg15 : FVec F S64x64 .f32) (main_arg16 : FVec F S64 .f32) (main_arg17 : FVec F S64x16 .f32) (main_arg18 : FVec F S16 .f32) (main_arg19 : FVec F S64x16 .f32) (main_arg20 : FVec F S16 .f32) (main_arg21 : FVec F S64x16 .f32) (main_arg22 : FVec F S16 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S64 .f32) (main_arg8 : FVec F S128x64 .f32) (main_arg9 : FVec F S64 .f32) (main_arg10 : FVec F S128x64 .f32) (main_arg11 : FVec F S64 .f32) (main_arg12 : FVec F S64x64 .f32) (main_arg13 : FVec F S64x64 .f32) (main_arg14 : FVec F S64x64 .f32) (main_arg15 : FVec F S64x64 .f32) (main_arg16 : FVec F S64 .f32) (main_arg17 : FVec F S64x16 .f32) (main_arg18 : FVec F S16 .f32) (main_arg19 : FVec F S64x16 .f32) (main_arg20 : FVec F S16 .f32) (main_arg21 : FVec F S64x16 .f32) (main_arg22 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S8192x4096 .f32) (main_arg5 : FVec F S8192x8192 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_arg12 : FVec F S64x64 .f32) (main_arg13 : FVec F S64x64 .f32) (main_arg14 : FVec F S64x64 .f32) (main_arg15 : FVec F S64x64 .f32) (main_arg16 : FVec F S64 .f32) (main_arg17 : FVec F S64x16 .f32) (main_arg18 : FVec F S16 .f32) (main_arg19 : FVec F S64x16 .f32) (main_arg20 : FVec F S16 .f32) (main_arg21 : FVec F S64x16 .f32) (main_arg22 : FVec F S16 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x128 .f32) (main_arg1 : FVec F S8192x128 .f32) (main_arg2 : FVec F S4096x128 .f32) (main_arg3 : FVec F S8192x8192 .f32) (main_arg4 : FVec F S8192x4096 .f32) (main_arg5 : FVec F S8192x8192 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_arg12 : FVec F S64x64 .f32) (main_arg13 : FVec F S64x64 .f32) (main_arg14 : FVec F S64x64 .f32) (main_arg15 : FVec F S64x64 .f32) (main_arg16 : FVec F S64 .f32) (main_arg17 : FVec F S64x16 .f32) (main_arg18 : FVec F S16 .f32) (main_arg19 : FVec F S64x16 .f32) (main_arg20 : FVec F S16 .f32) (main_arg21 : FVec F S64x16 .f32) (main_arg22 : FVec F S16 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x128 : Shape := ⟨2, ![8192, 128]⟩
abbrev S4096x128 : Shape := ⟨2, ![4096, 128]⟩
abbrev S8192x8192 : Shape := ⟨2, ![8192, 8192]⟩
abbrev S8192x4096 : Shape := ⟨2, ![8192, 4096]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S128x4096 : Shape := ⟨2, ![128, 4096]⟩
abbrev S8192x64 : Shape := ⟨2, ![8192, 64]⟩
abbrev S4096x64 : Shape := ⟨2, ![4096, 64]⟩

abbrev nBuf : Space → Nat
  | .hbm => 32
  | .vmem => 35
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S4096x128, .f32⟩
  | .hbm, ⟨3, _⟩ => ⟨S8192x8192, .f32⟩
  | .hbm, ⟨4, _⟩ => ⟨S8192x4096, .f32⟩
  | .hbm, ⟨5, _⟩ => ⟨S8192x8192, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64, .f32⟩
  | .hbm, ⟨17, _⟩ => ⟨S64x16, .f32⟩
  | .hbm, ⟨18, _⟩ => ⟨S16, .f32⟩
  | .hbm, ⟨19, _⟩ => ⟨S64x16, .f32⟩
  | .hbm, ⟨20, _⟩ => ⟨S16, .f32⟩
  | .hbm, ⟨21, _⟩ => ⟨S64x16, .f32⟩
  | .hbm, ⟨22, _⟩ => ⟨S16, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S1x16, .f32⟩
  | .hbm, ⟨31, _⟩ => ⟨S16, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S8192x128, .f32⟩
  | .local _ .vmem, ⟨11, _⟩ => ⟨S8192x128, .f32⟩
  | .local _ .vmem, ⟨12, _⟩ => ⟨S4096x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S1x64, .f32⟩
  | .local _ .vmem, ⟨17, _⟩ => ⟨S128x64, .f32⟩
  | .local _ .vmem, ⟨18, _⟩ => ⟨S1x64, .f32⟩
  | .local _ .vmem, ⟨19, _⟩ => ⟨S64x64, .f32⟩
  | .local _ .vmem, ⟨20, _⟩ => ⟨S64x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S64x16, .f32⟩
  | .local _ .vmem, ⟨25, _⟩ => ⟨S1x16, .f32⟩
  | .local _ .vmem, ⟨26, _⟩ => ⟨S64x16, .f32⟩
  | .local _ .vmem, ⟨27, _⟩ => ⟨S1x16, .f32⟩
  | .local _ .vmem, ⟨28, _⟩ => ⟨S64x16, .f32⟩
  | .local _ .vmem, ⟨29, _⟩ => ⟨S1x16, .f32⟩
  | .local _ .vmem, ⟨30, _⟩ => ⟨S1x16, .f32⟩
  | .local _ .vmem, ⟨31, _⟩ => ⟨S8192x64, .f32⟩
  | .local _ .vmem, ⟨32, _⟩ => ⟨S8192x64, .f32⟩
  | .local _ .vmem, ⟨33, _⟩ => ⟨S4096x64, .f32⟩
  | .local _ .vmem, ⟨34, _⟩ => ⟨S1x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c63_i32 : BitVec 32 := 63#32
  let v60 : BitVec 1 := Scalar.cmpi .eq arg0 c63_i32
  let v61 : BitVec 32 := Scalar.extui v60
  let c0_i32_41 : BitVec 32 := 0#32
  let v62 : BitVec 1 := Scalar.cmpi .ne v61 c0_i32_41
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x16 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S64x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

class Facts₀ : Prop where
  shapeCasts_S64_S1x64 : S64.ShapeCasts S1x64
  shapeCasts_S16_S1x16 : S16.ShapeCasts S1x16
  inb_S8192x128_S8192x128_0_0 : ∀ a, (![0, 0] : Fin 2 → Nat) a + S8192x128.size a ≤ S8192x128.size a
  h_S8192x128 : 0 < S8192x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S4096x128_S4096x128_0_0 : ∀ a, (![0, 0] : Fin 2 → Nat) a + S4096x128.size a ≤ S4096x128.size a
  h_S4096x128 : 0 < S4096x128.numel
  broadcasts_S1x64_S4096x64 : S1x64.Broadcasts S4096x64
  inb_S64x64_S64x64_0_0 : ∀ a, (![0, 0] : Fin 2 → Nat) a + S64x64.size a ≤ S64x64.size a
  h_S64x64 : 0 < S64x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S8192x64_S64 : S8192x64.Reduces [0] S64
  reduces_S4096x64_S64 : S4096x64.Reduces [0] S64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S128x4096_S128x4096_0_0 : ∀ a, (![0, 0] : Fin 2 → Nat) a + S128x4096.size a ≤ S128x4096.size a
  h_S128x4096 : 0 < S128x4096.numel
  inb_S8192x64_S4096x64_0_0 : ∀ a, (![0, 0] : Fin 2 → Nat) a + S4096x64.size a ≤ S8192x64.size a
  inb_S8192x64_S4096x64_4096_0 : ∀ a, (![4096, 0] : Fin 2 → Nat) a + S4096x64.size a ≤ S8192x64.size a
  broadcasts_S1x64_S128x64 : S1x64.Broadcasts S128x64
  reduces_S128x64_S64 : S128x64.Reduces [0] S64
  shapeCasts_S1x16_S16 : S1x16.ShapeCasts S16
  dot_S8192x128_S128x64_S8192x64_1_0_0_1_n_n_wf : DotDims.WF S8192x128 S128x64 S8192x64 [1] [0] [0] [1] [] []
  dot_S4096x128_S128x64_S4096x64_1_0_0_1_n_n_wf : DotDims.WF S4096x128 S128x64 S4096x64 [1] [0] [0] [1] [] []
  dot_S8192x64_S64x64_S8192x64_1_0_0_1_n_n_wf : DotDims.WF S8192x64 S64x64 S8192x64 [1] [0] [0] [1] [] []
  dot_S4096x64_S64x64_S4096x64_1_0_0_1_n_n_wf : DotDims.WF S4096x64 S64x64 S4096x64 [1] [0] [0] [1] [] []
  dot_S1x64_S64x16_S1x16_1_0_0_1_n_n_wf : DotDims.WF S1x64 S64x16 S1x16 [1] [0] [0] [1] [] []
  dot_S128x4096_S4096x64_S128x64_1_0_0_1_n_n_wf : DotDims.WF S128x4096 S4096x64 S128x64 [1] [0] [0] [1] [] []
  dot_S128x64_S64x64_S128x64_1_0_0_1_n_n_wf : DotDims.WF S128x64 S64x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x8192.size a
  hwx0_0 : ∀ i : grid0.Coords, EltTy.bits .f32 = 32 ∨ (Rect.block (s := S8192x8192) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x8192.size a
  hwx0_1 : ∀ i : grid0.Coords, EltTy.bits .f32 = 32 ∨ (Rect.block (s := S8192x8192) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x8192.size a
  hwx0_3 : ∀ i : grid0.Coords, EltTy.bits .f32 = 32 ∨ (Rect.block (s := S8192x8192) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x8192.size a
  hwx0_4 : ∀ i : grid0.Coords, EltTy.bits .f32 = 32 ∨ (Rect.block (s := S8192x8192) S128x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S8192x128.size a
  hwx0_5 : ∀ i : grid0.Coords, EltTy.bits .f32 = 32 ∨ (Rect.block (s := S8192x128) S8192x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S8192x128.size a
  hwx0_6 : ∀ i : grid0.Coords, EltTy.bits .f32 = 32 ∨ (Rect.block (s := S8192x128) S8192x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S4096x128.size a
  hwx0_7 : ∀ i : grid0.Coords, EltTy.bits .f32 = 32 ∨ (Rect.block (s := S4096x128) S4096x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x64.size a ≤ S64x64.size a
  hwx0_14 : ∀ i : grid0.Coords, EltTy.bits .f32 = 32 ∨ (Rect.block (s := S64x64) S64x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x64.size a ≤ S64x64.size a
  hwx0_16 : ∀ i : grid0.Coords, EltTy.bits .f32 = 32 ∨ (Rect.block (s := S64x64) S64x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x64.size a ≤ S64x64.size a
  hwx0_17 : ∀ i : grid0.Coords, EltTy.bits .f32 = 32 ∨ (Rect.block (s := S64x64) S64x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x16.size a ≤ S64x16.size a
  hwx0_19 : ∀ i : grid0.Coords, EltTy.bits .f32 = 32 ∨ (Rect.block (s := S64x16) S64x16.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x16.size a ≤ S1x16.size a
  hwx0_20 : ∀ i : grid0.Coords, EltTy.bits .f32 = 32 ∨ (Rect.block (s := S1x16) S1x16.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64x16.size a ≤ S64x16.size a
  hwx0_21 : ∀ i : grid0.Coords, EltTy.bits .f32 = 32 ∨ (Rect.block (s := S64x16) S64x16.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x16.size a ≤ S1x16.size a
  hwx0_22 : ∀ i : grid0.Coords, EltTy.bits .f32 = 32 ∨ (Rect.block (s := S1x16) S1x16.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64x16.size a ≤ S64x16.size a
  hwx0_23 : ∀ i : grid0.Coords, EltTy.bits .f32 = 32 ∨ (Rect.block (s := S64x16) S64x16.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x16.size a ≤ S1x16.size a
  hwx0_24 : ∀ i : grid0.Coords, EltTy.bits .f32 = 32 ∨ (Rect.block (s := S1x16) S1x16.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x16.size a ≤ S1x16.size a
  hwx0_25 : ∀ i : grid0.Coords, EltTy.bits .f32 = 32 ∨ (Rect.block (s := S1x16) S1x16.size (cc0_transform_25 i) (hinb0_25 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S1x64_S64x16_S1x16_1_0_0_1_n_n : DotDims S1x64 S64x16 S1x16 where
  lhsContracting := [1]
  rhsContracting := [0]
  lhsNonContracting := [0]
  rhsNonContracting := [1]
  lhsBatch := []
  rhsBatch := []
  wf := dot_S1x64_S64x16_S1x16_1_0_0_1_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf

abbrev win0_0 : Pipeline.Window sig grid0 :=
  Pipeline.Window.ofSpec (Memref.whole main_arg3) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S8192x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S8192x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S4096x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S64x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg14) S64x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S64x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v3) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg17) S64x16.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v4) S1x16.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg19) S64x16.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v5) S1x16.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg21) S64x16.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v6) S1x16.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v7) S1x16.size cc0_transform_25 reads0_25 true true 1 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

abbrev idle0 : Fin 26 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun i => !(k0_cond1 i == 1#1) && !(k0_cond4 i == 1#1) | ⟨_ + 26, h⟩ => absurd h (Nat.not_lt.2 (Nat.le_add_left _ _))

class Facts : Prop extends Facts₀ where

variable [Facts]
-- ==== ReferenceIdeal.lean ====
abbrev S8192x128 : Shape := ⟨2, ![8192, 128]⟩
abbrev S4096x128 : Shape := ⟨2, ![4096, 128]⟩
abbrev S8192x8192 : Shape := ⟨2, ![8192, 8192]⟩
abbrev S8192x4096 : Shape := ⟨2, ![8192, 4096]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S8192x64 : Shape := ⟨2, ![8192, 64]⟩
abbrev S1x64 : Shape := ⟨2, ![1, 64]⟩
abbrev S_ : Shape := ⟨0, ![]⟩
abbrev S4096x64 : Shape := ⟨2, ![4096, 64]⟩
abbrev S8192x16 : Shape := ⟨2, ![8192, 16]⟩
abbrev S1x16 : Shape := ⟨2, ![1, 16]⟩
abbrev S4096x16 : Shape := ⟨2, ![4096, 16]⟩

abbrev nBuf : Space → Nat
  | .hbm => 217
  | .vmem => 0
  | .smem => 0
  | _ => 0

abbrev hbmTy0_0 (i : Nat) : BufTy := match i % 128 with
  | 0 => ⟨S8192x128, .f32⟩
  | 1 => ⟨S8192x128, .f32⟩
  | 2 => ⟨S4096x128, .f32⟩
  | 3 => ⟨S8192x8192, .f32⟩
  | 4 => ⟨S8192x4096, .f32⟩
  | 5 => ⟨S8192x8192, .f32⟩
  | 6 => ⟨S128x64, .f32⟩
  | 7 => ⟨S64, .f32⟩
  | 8 => ⟨S128x64, .f32⟩
  | 9 => ⟨S64, .f32⟩
  | 10 => ⟨S128x64, .f32⟩
  | 11 => ⟨S64, .f32⟩
  | 12 => ⟨S64x64, .f32⟩
  | 13 => ⟨S64x64, .f32⟩
  | 14 => ⟨S64x64, .f32⟩
  | 15 => ⟨S64x64, .f32⟩
  | 16 => ⟨S64, .f32⟩
  | 17 => ⟨S64x16, .f32⟩
  | 18 => ⟨S16, .f32⟩
  | 19 => ⟨S64x16, .f32⟩
  | 20 => ⟨S16, .f32⟩
  | 21 => ⟨S64x16, .f32⟩
  | 22 => ⟨S16, .f32⟩
  | 23 => ⟨S8192x64, .f32⟩
  | 24 => ⟨S1x64, .f32⟩
  | 25 => ⟨S8192x64, .f32⟩
  | 26 => ⟨S8192x64, .f32⟩
  | 27 => ⟨S_, .f32⟩
  | 28 => ⟨S8192x64, .f32⟩
  | 29 => ⟨S8192x64, .i1⟩
  | 30 => ⟨S_, .f32⟩
  | 31 => ⟨S8192x64, .f32⟩
  | 32 => ⟨S8192x64, .i1⟩
  | 33 => ⟨S_, .f32⟩
  | 34 => ⟨S_, .f32⟩
  | 35 => ⟨S8192x64, .f32⟩
  | 36 => ⟨S8192x64, .f32⟩
  | 37 => ⟨S8192x64, .f32⟩
  | 38 => ⟨S_, .f32⟩
  | 39 => ⟨S8192x64, .f32⟩
  | 40 => ⟨S8192x64, .f32⟩
  | 41 => ⟨S8192x64, .f32⟩
  | 42 => ⟨S8192x64, .f32⟩
  | 43 => ⟨S1x64, .f32⟩
  | 44 => ⟨S8192x64, .f32⟩
  | 45 => ⟨S8192x64, .f32⟩
  | 46 => ⟨S_, .f32⟩
  | 47 => ⟨S8192x64, .f32⟩
  | 48 => ⟨S8192x64, .i1⟩
  | 49 => ⟨S_, .f32⟩
  | 50 => ⟨S8192x64, .f32⟩
  | 51 => ⟨S8192x64, .i1⟩
  | 52 => ⟨S_, .f32⟩
  | 53 => ⟨S_, .f32⟩
  | 54 => ⟨S8192x64, .f32⟩
  | 55 => ⟨S8192x64, .f32⟩
  | 56 => ⟨S8192x64, .f32⟩
  | 57 => ⟨S_, .f32⟩
  | 58 => ⟨S8192x64, .f32⟩
  | 59 => ⟨S8192x64, .f32⟩
  | 60 => ⟨S8192x64, .f32⟩
  | 61 => ⟨S4096x64, .f32⟩
  | 62 => ⟨S1x64, .f32⟩
  | 63 => ⟨S4096x64, .f32⟩
  | 64 => ⟨S4096x64, .f32⟩
  | 65 => ⟨S_, .f32⟩
  | 66 => ⟨S4096x64, .f32⟩
  | 67 => ⟨S4096x64, .i1⟩
  | 68 => ⟨S_, .f32⟩
  | 69 => ⟨S4096x64, .f32⟩
  | 70 => ⟨S4096x64, .i1⟩
  | 71 => ⟨S_, .f32⟩
  | 72 => ⟨S_, .f32⟩
  | 73 => ⟨S4096x64, .f32⟩
  | 74 => ⟨S4096x64, .f32⟩
  | 75 => ⟨S4096x64, .f32⟩
  | 76 => ⟨S_, .f32⟩
  | 77 => ⟨S4096x64, .f32⟩
  | 78 => ⟨S4096x64, .f32⟩
  | 79 => ⟨S4096x64, .f32⟩
  | 80 => ⟨S8192x64, .f32⟩
  | 81 => ⟨S8192x64, .f32⟩
  | 82 => ⟨S_, .f32⟩
  | 83 => ⟨S8192x64, .f32⟩
  | 84 => ⟨S8192x64, .i1⟩
  | 85 => ⟨S_, .f32⟩
  | 86 => ⟨S8192x64, .f32⟩
  | 87 => ⟨S8192x64, .i1⟩
  | 88 => ⟨S_, .f32⟩
  | 89 => ⟨S_, .f32⟩
  | 90 => ⟨S8192x64, .f32⟩
  | 91 => ⟨S8192x64, .f32⟩
  | 92 => ⟨S8192x64, .f32⟩
  | 93 => ⟨S_, .f32⟩
  | 94 => ⟨S8192x64, .f32⟩
  | 95 => ⟨S8192x64, .f32⟩
  | 96 => ⟨S8192x64, .f32⟩
  | 97 => ⟨S4096x64, .f32⟩
  | 98 => ⟨S8192x64, .f32⟩
  | 99 => ⟨S_, .f32⟩
  | 100 => ⟨S8192x64, .f32⟩
  | 101 => ⟨S8192x64, .i1⟩
  | 102 => ⟨S_, .f32⟩
  | 103 => ⟨S8192x64, .f32⟩
  | 104 => ⟨S8192x64, .i1⟩
  | 105 => ⟨S_, .f32⟩
  | 106 => ⟨S_, .f32⟩
  | 107 => ⟨S8192x64, .f32⟩
  | 108 => ⟨S8192x64, .f32⟩
  | 109 => ⟨S8192x64, .f32⟩
  | 110 => ⟨S_, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S_, .f32⟩
  | 118 => ⟨S8192x64, .f32⟩
  | 119 => ⟨S8192x64, .i1⟩
  | 120 => ⟨S_, .f32⟩
  | 121 => ⟨S8192x64, .f32⟩
  | 122 => ⟨S8192x64, .i1⟩
  | 123 => ⟨S_, .f32⟩
  | 124 => ⟨S_, .f32⟩
  | 125 => ⟨S8192x64, .f32⟩
  | 126 => ⟨S8192x64, .f32⟩
  | 127 => ⟨S8192x64, .f32⟩
  | _ => ⟨S8192x128, .f32⟩

abbrev hbmTy0_1 (i : Nat) : BufTy := match i % 128 with
  | 0 => ⟨S_, .f32⟩
  | 1 => ⟨S8192x64, .f32⟩
  | 2 => ⟨S8192x64, .f32⟩
  | 3 => ⟨S8192x64, .f32⟩
  | 4 => ⟨S8192x64, .f32⟩
  | 5 => ⟨S8192x64, .f32⟩
  | 6 => ⟨S1x64, .f32⟩
  | 7 => ⟨S8192x64, .f32⟩
  | 8 => ⟨S8192x64, .f32⟩
  | 9 => ⟨S_, .f32⟩
  | 10 => ⟨S8192x64, .f32⟩
  | 11 => ⟨S8192x64, .i1⟩
  | 12 => ⟨S_, .f32⟩
  | 13 => ⟨S8192x64, .f32⟩
  | 14 => ⟨S8192x64, .i1⟩
  | 15 => ⟨S_, .f32⟩
  | 16 => ⟨S_, .f32⟩
  | 17 => ⟨S8192x64, .f32⟩
  | 18 => ⟨S8192x64, .f32⟩
  | 19 => ⟨S8192x64, .f32⟩
  | 20 => ⟨S_, .f32⟩
  | 21 => ⟨S8192x64, .f32⟩
  | 22 => ⟨S8192x64, .f32⟩
  | 23 => ⟨S8192x64, .f32⟩
  | 24 => ⟨S8192x16, .f32⟩
  | 25 => ⟨S1x16, .f32⟩
  | 26 => ⟨S8192x16, .f32⟩
  | 27 => ⟨S8192x16, .f32⟩
  | 28 => ⟨S8192x16, .f32⟩
  | 29 => ⟨S1x16, .f32⟩
  | 30 => ⟨S8192x16, .f32⟩
  | 31 => ⟨S8192x16, .f32⟩
  | 32 => ⟨S4096x16, .f32⟩
  | 33 => ⟨S1x16, .f32⟩
  | 34 => ⟨S4096x16, .f32⟩
  | 35 => ⟨S4096x16, .f32⟩
  | 36 => ⟨S4096x16, .i1⟩
  | 37 => ⟨S4096x16, .i1⟩
  | 38 => ⟨S4096x16, .i32⟩
  | 39 => ⟨S4096x16, .f32⟩
  | 40 => ⟨S_, .f32⟩
  | 41 => ⟨S16, .f32⟩
  | 42 => ⟨S4096x16, .i1⟩
  | 43 => ⟨S_, .f32⟩
  | 44 => ⟨S4096x16, .f32⟩
  | 45 => ⟨S4096x16, .f32⟩
  | 46 => ⟨S_, .f32⟩
  | 47 => ⟨S16, .f32⟩
  | 48 => ⟨S16, .f32⟩
  | 49 => ⟨S16, .i1⟩
  | 50 => ⟨S_, .f32⟩
  | 51 => ⟨S16, .f32⟩
  | 52 => ⟨S16, .f32⟩
  | 53 => ⟨S8192x16, .i1⟩
  | 54 => ⟨S8192x16, .i1⟩
  | 55 => ⟨S8192x16, .i32⟩
  | 56 => ⟨S8192x16, .f32⟩
  | 57 => ⟨S_, .f32⟩
  | 58 => ⟨S16, .f32⟩
  | 59 => ⟨S8192x16, .i1⟩
  | 60 => ⟨S_, .f32⟩
  | 61 => ⟨S8192x16, .f32⟩
  | 62 => ⟨S8192x16, .f32⟩
  | 63 => ⟨S_, .f32⟩
  | 64 => ⟨S16, .f32⟩
  | 65 => ⟨S16, .f32⟩
  | 66 => ⟨S16, .i1⟩
  | 67 => ⟨S_, .f32⟩
  | 68 => ⟨S16, .f32⟩
  | 69 => ⟨S16, .f32⟩
  | 70 => ⟨S16, .f32⟩
  | 71 => ⟨S8192x16, .i1⟩
  | 72 => ⟨S8192x16, .i1⟩
  | 73 => ⟨S8192x16, .i32⟩
  | 74 => ⟨S8192x16, .f32⟩
  | 75 => ⟨S_, .f32⟩
  | 76 => ⟨S16, .f32⟩
  | 77 => ⟨S8192x16, .i1⟩
  | 78 => ⟨S_, .f32⟩
  | 79 => ⟨S8192x16, .f32⟩
  | 80 => ⟨S8192x16, .f32⟩
  | 81 => ⟨S_, .f32⟩
  | 82 => ⟨S16, .f32⟩
  | 83 => ⟨S16, .f32⟩
  | 84 => ⟨S16, .i1⟩
  | 85 => ⟨S_, .f32⟩
  | 86 => ⟨S16, .f32⟩
  | 87 => ⟨S16, .f32⟩
  | 88 => ⟨S16, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_cst_1 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_v4 : Ref sig .tc := ⟨.hbm, 36, rfl⟩
abbrev main_call0_v5 : Ref sig .tc := ⟨.hbm, 37, rfl⟩
abbrev main_call0_cst_2 : Ref sig .tc := ⟨.hbm, 38, rfl⟩
abbrev main_call0_v6 : Ref sig .tc := ⟨.hbm, 39, rfl⟩
abbrev main_call0_v7 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_cst_1 : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_v4 : Ref sig .tc := ⟨.hbm, 55, rfl⟩
abbrev main_call1_v5 : Ref sig .tc := ⟨.hbm, 56, rfl⟩
abbrev main_call1_cst_2 : Ref sig .tc := ⟨.hbm, 57, rfl⟩
abbrev main_call1_v6 : Ref sig .tc := ⟨.hbm, 58, rfl⟩
abbrev main_call1_v7 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_cst_0 : Ref sig .tc := ⟨.hbm, 68, rfl⟩
abbrev main_call2_v2 : Ref sig .tc := ⟨.hbm, 69, rfl⟩
abbrev main_call2_v3 : Ref sig .tc := ⟨.hbm, 70, rfl⟩
abbrev main_call2_cst_1 : Ref sig .tc := ⟨.hbm, 71, rfl⟩
abbrev main_call2_call0_v0 : Ref sig .tc := ⟨.hbm, 72, rfl⟩
abbrev main_call2_call0_v1 : Ref sig .tc := ⟨.hbm, 73, rfl⟩
abbrev main_call2_v4 : Ref sig .tc := ⟨.hbm, 74, rfl⟩
abbrev main_call2_v5 : Ref sig .tc := ⟨.hbm, 75, rfl⟩
abbrev main_call2_cst_2 : Ref sig .tc := ⟨.hbm, 76, rfl⟩
abbrev main_call2_v6 : Ref sig .tc := ⟨.hbm, 77, rfl⟩
abbrev main_call2_v7 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_call3_cst : Ref sig .tc := ⟨.hbm, 82, rfl⟩
abbrev main_call3_v0 : Ref sig .tc := ⟨.hbm, 83, rfl⟩
abbrev main_call3_v1 : Ref sig .tc := ⟨.hbm, 84, rfl⟩
abbrev main_call3_cst_0 : Ref sig .tc := ⟨.hbm, 85, rfl⟩
abbrev main_call3_v2 : Ref sig .tc := ⟨.hbm, 86, rfl⟩
abbrev main_call3_v3 : Ref sig .tc := ⟨.hbm, 87, rfl⟩
abbrev main_call3_cst_1 : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_v4 : Ref sig .tc := ⟨.hbm, 91, rfl⟩
abbrev main_call3_v5 : Ref sig .tc := ⟨.hbm, 92, rfl⟩
abbrev main_call3_cst_2 : Ref sig .tc := ⟨.hbm, 93, rfl⟩
abbrev main_call3_v6 : Ref sig .tc := ⟨.hbm, 94, rfl⟩
abbrev main_call3_v7 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_call4_cst : Ref sig .tc := ⟨.hbm, 99, rfl⟩
abbrev main_call4_v0 : Ref sig .tc := ⟨.hbm, 100, rfl⟩
abbrev main_call4_v1 : Ref sig .tc := ⟨.hbm, 101, rfl⟩
abbrev main_call4_cst_0 : Ref sig .tc := ⟨.hbm, 102, rfl⟩
abbrev main_call4_v2 : Ref sig .tc := ⟨.hbm, 103, rfl⟩
abbrev main_call4_v3 : Ref sig .tc := ⟨.hbm, 104, rfl⟩
abbrev main_call4_cst_1 : Ref sig .tc := ⟨.hbm, 105, rfl⟩
abbrev main_call4_call0_v0 : Ref sig .tc := ⟨.hbm, 106, rfl⟩
abbrev main_call4_call0_v1 : Ref sig .tc := ⟨.hbm, 107, rfl⟩
abbrev main_call4_v4 : Ref sig .tc := ⟨.hbm, 108, rfl⟩
abbrev main_call4_v5 : Ref sig .tc := ⟨.hbm, 109, rfl⟩
abbrev main_call4_cst_2 : Ref sig .tc := ⟨.hbm, 110, rfl⟩
abbrev main_call4_v6 : Ref sig .tc := ⟨.hbm, 111, rfl⟩
abbrev main_call4_v7 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_call5_cst : Ref sig .tc := ⟨.hbm, 117, rfl⟩
abbrev main_call5_v0 : Ref sig .tc := ⟨.hbm, 118, rfl⟩
abbrev main_call5_v1 : Ref sig .tc := ⟨.hbm, 119, rfl⟩
abbrev main_call5_cst_0 : Ref sig .tc := ⟨.hbm, 120, rfl⟩
abbrev main_call5_v2 : Ref sig .tc := ⟨.hbm, 121, rfl⟩
abbrev main_call5_v3 : Ref sig .tc := ⟨.hbm, 122, rfl⟩
abbrev main_call5_cst_1 : Ref sig .tc := ⟨.hbm, 123, rfl⟩
abbrev main_call5_call0_v0 : Ref sig .tc := ⟨.hbm, 124, rfl⟩
abbrev main_call5_call0_v1 : Ref sig .tc := ⟨.hbm, 125, rfl⟩
abbrev main_call5_v4 : Ref sig .tc := ⟨.hbm, 126, rfl⟩
abbrev main_call5_v5 : Ref sig .tc := ⟨.hbm, 127, rfl⟩
abbrev main_call5_cst_2 : Ref sig .tc := ⟨.hbm, 128, rfl⟩
abbrev main_call5_v6 : Ref sig .tc := ⟨.hbm, 129, rfl⟩
abbrev main_call5_v7 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_call6_cst : Ref sig .tc := ⟨.hbm, 137, rfl⟩
abbrev main_call6_v0 : Ref sig .tc := ⟨.hbm, 138, rfl⟩
abbrev main_call6_v1 : Ref sig .tc := ⟨.hbm, 139, rfl⟩
abbrev main_call6_cst_0 : Ref sig .tc := ⟨.hbm, 140, rfl⟩
abbrev main_call6_v2 : Ref sig .tc := ⟨.hbm, 141, rfl⟩
abbrev main_call6_v3 : Ref sig .tc := ⟨.hbm, 142, rfl⟩
abbrev main_call6_cst_1 : Ref sig .tc := ⟨.hbm, 143, rfl⟩
abbrev main_call6_call0_v0 : Ref sig .tc := ⟨.hbm, 144, rfl⟩
abbrev main_call6_call0_v1 : Ref sig .tc := ⟨.hbm, 145, rfl⟩
abbrev main_call6_v4 : Ref sig .tc := ⟨.hbm, 146, rfl⟩
abbrev main_call6_v5 : Ref sig .tc := ⟨.hbm, 147, rfl⟩
abbrev main_call6_cst_2 : Ref sig .tc := ⟨.hbm, 148, rfl⟩
abbrev main_call6_v6 : Ref sig .tc := ⟨.hbm, 149, rfl⟩
abbrev main_call6_v7 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_cst : Ref sig .tc := ⟨.hbm, 168, rfl⟩
abbrev main_call7_v4 : Ref sig .tc := ⟨.hbm, 169, rfl⟩
abbrev main_call7_call0_v0 : Ref sig .tc := ⟨.hbm, 170, rfl⟩
abbrev main_call7_call0_cst : Ref sig .tc := ⟨.hbm, 171, rfl⟩
abbrev main_call7_call0_call0_v0 : Ref sig .tc := ⟨.hbm, 172, rfl⟩
abbrev main_call7_call0_v1 : Ref sig .tc := ⟨.hbm, 173, rfl⟩
abbrev main_call7_call0_cst_0 : Ref sig .tc := ⟨.hbm, 174, rfl⟩
abbrev main_call7_v5 : Ref sig .tc := ⟨.hbm, 175, rfl⟩
abbrev main_v43 : Ref sig .tc := ⟨.hbm, 176, rfl⟩
abbrev main_v44 : Ref sig .tc := ⟨.hbm, 177, rfl⟩
abbrev main_cst : Ref sig .tc := ⟨.hbm, 178, rfl⟩
abbrev main_v45 : Ref sig .tc := ⟨.hbm, 179, rfl⟩
abbrev main_v46 : Ref sig .tc := ⟨.hbm, 180, rfl⟩
abbrev main_call9_v0 : Ref sig .tc := ⟨.hbm, 181, rfl⟩
abbrev main_call9_v1 : Ref sig .tc := ⟨.hbm, 182, rfl⟩
abbrev main_call9_v2 : Ref sig .tc := ⟨.hbm, 183, rfl⟩
abbrev main_call9_v3 : Ref sig .tc := ⟨.hbm, 184, rfl⟩
abbrev main_call9_cst : Ref sig .tc := ⟨.hbm, 185, rfl⟩
abbrev main_call9_v4 : Ref sig .tc := ⟨.hbm, 186, rfl⟩
abbrev main_call9_call0_v0 : Ref sig .tc := ⟨.hbm, 187, rfl⟩
abbrev main_call9_call0_cst : Ref sig .tc := ⟨.hbm, 188, rfl⟩
abbrev main_call9_call0_call0_v0 : Ref sig .tc := ⟨.hbm, 189, rfl⟩
abbrev main_call9_call0_v1 : Ref sig .tc := ⟨.hbm, 190, rfl⟩
abbrev main_call9_call0_cst_0 : Ref sig .tc := ⟨.hbm, 191, rfl⟩
abbrev main_call9_v5 : Ref sig .tc := ⟨.hbm, 192, rfl⟩
abbrev main_v47 : Ref sig .tc := ⟨.hbm, 193, rfl⟩
abbrev main_v48 : Ref sig .tc := ⟨.hbm, 194, rfl⟩
abbrev main_cst_0 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_call11_v0 : Ref sig .tc := ⟨.hbm, 199, rfl⟩
abbrev main_call11_v1 : Ref sig .tc := ⟨.hbm, 200, rfl⟩
abbrev main_call11_v2 : Ref sig .tc := ⟨.hbm, 201, rfl⟩
abbrev main_call11_v3 : Ref sig .tc := ⟨.hbm, 202, rfl⟩
abbrev main_call11_cst : Ref sig .tc := ⟨.hbm, 203, rfl⟩
abbrev main_call11_v4 : Ref sig .tc := ⟨.hbm, 204, rfl⟩
abbrev main_call11_call0_v0 : Ref sig .tc := ⟨.hbm, 205, rfl⟩
abbrev main_call11_call0_cst : Ref sig .tc := ⟨.hbm, 206, rfl⟩
abbrev main_call11_call0_call0_v0 : Ref sig .tc := ⟨.hbm, 207, rfl⟩
abbrev main_call11_call0_v1 : Ref sig .tc := ⟨.hbm, 208, rfl⟩
abbrev main_call11_call0_cst_0 : Ref sig .tc := ⟨.hbm, 209, rfl⟩
abbrev main_call11_v5 : Ref sig .tc := ⟨.hbm, 210, rfl⟩
abbrev main_v52 : Ref sig .tc := ⟨.hbm, 211, rfl⟩
abbrev main_v53 : Ref sig .tc := ⟨.hbm, 212, rfl⟩
abbrev main_cst_1 : Ref sig .tc := ⟨.hbm, 213, rfl⟩
abbrev main_v54 : Ref sig .tc := ⟨.hbm, 214, rfl⟩
abbrev main_v55 : Ref sig .tc := ⟨.hbm, 215, rfl⟩
abbrev main_v56 : Ref sig .tc := ⟨.hbm, 216, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S1x16_S4096x16_0_1 : S1x16.BroadcastsInDim S4096x16 (![0, 1] : Fin 2 → Fin S4096x16.rank)
  natLt_1_32 : 1 < 32
  reducesTo_S4096x16_S16_d0 : S4096x16.ReducesTo [0] S16
  h_S_ : 0 < S_.numel
  bcast_S_S4096x16 : S_.BroadcastsInDim S4096x16 (![] : Fin 0 → Fin S4096x16.rank)
  bcast_S_S16 : S_.BroadcastsInDim S16 (![] : Fin 0 → Fin S16.rank)
  reducesTo_S8192x16_S16_d0 : S8192x16.ReducesTo [0] S16
  bcast_S_S8192x16 : S_.BroadcastsInDim S8192x16 (![] : Fin 0 → Fin S8192x16.rank)
  dot_S8192x128_S128x64_S8192x64_1_0_0_1_n_n_wf : DotDims.WF S8192x128 S128x64 S8192x64 [1] [0] [0] [1] [] []
  dot_S4096x128_S128x64_S4096x64_1_0_0_1_n_n_wf : DotDims.WF S4096x128 S128x64 S4096x64 [1] [0] [0] [1] [] []
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S4096x64_S64x64_S4096x64_1_0_0_1_n_n_wf : DotDims.WF S4096x64 S64x64 S4096x64 [1] [0] [0] [1] [] []
  dot_S8192x4096_S4096x64_S8192x64_1_0_0_1_n_n_wf : DotDims.WF S8192x4096 S4096x64 S8192x64 [1] [0] [0] [1] [] []
  dot_S8192x64_S64x16_S8192x16_1_0_0_1_n_n_wf : DotDims.WF S8192x64 S64x16 S8192x16 [1] [0] [0] [1] [] []
  dot_S4096x64_S64x16_S4096x16_1_0_0_1_n_n_wf : DotDims.WF S4096x64 S64x16 S4096x16 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf

class Facts : Prop extends Facts₀ where

variable [Facts]
-- ==== Proof.KPreB.lean ====
import proofs.«140626_g76854144795175_cont_sun_m_49_16_alg».proof.Proof.Gen.Kernel.Launch
import proofs.«140626_g76854144795175_cont_sun_m_49_16_alg».proof.Proof.Gen.Kernel.Skeleton
import proofs.«140626_g76854144795175_cont_sun_m_49_16_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branches, from the grid coordinate

The body tests the row-block index `i` four times: `i = 0` (the prologue: project the three ranks' features, form the
three weighted feature arrays in scratch, seed the result with the heads of ranks 0 and 2), `i = 0` again (the running
row sum starts), `i > 0` (it accumulates), `i = 63` (the last block: the rank-1 head is added). -/

abbrev c1 (i : grid0.Coords) : Prop := k0_cond1 i = 1#1
abbrev c2 (i : grid0.Coords) : Prop := (Scalar.cmpi .ne (Scalar.extui (Scalar.cmpi .eq (BitVec.ofNat 32 (i 0).val) 0#32)) 0#32) = 1#1
abbrev c3 (i : grid0.Coords) : Prop := (Scalar.cmpi .ne (Scalar.extui (Scalar.cmpi .sgt (BitVec.ofNat 32 (i 0).val) 0#32)) 0#32) = 1#1
abbrev c4 (i : grid0.Coords) : Prop := k0_cond4 i = 1#1

/-- Over the 64 row blocks: the first two tests hold at block 0 only, the third everywhere else, the fourth at block 63 only. -/
theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val = 0 :=
  (by decide +kernel : ∀ t : Fin grid0.N, c2 (grid0.coords t) ↔ t.val = 0)
theorem hc3 : ∀ t : Fin cfg0.N, c3 (grid0.coords t) ↔ t.val ≠ 0 :=
  (by decide +kernel : ∀ t : Fin grid0.N, c3 (grid0.coords t) ↔ t.val ≠ 0)
theorem hc4 : ∀ t : Fin cfg0.N, c4 (grid0.coords t) ↔ t.val = 63 :=
  (by decide +kernel : ∀ t : Fin grid0.N, c4 (grid0.coords t) ↔ t.val = 63)

/-- Every input window is live at every point; the result window is idle exactly at the blocks strictly between the first and the last. -/
theorem liveIn : ∀ w : Fin 26, w ≠ 25 → ∀ t : Fin cfg0.N, cfg0.idle w (grid0.coords t) = false := by decide +kernel
theorem idleOut : ∀ t : Fin cfg0.N, cfg0.idle 25 (grid0.coords t) = (decide (t.val ≠ 0) && decide (t.val ≠ 63)) := by decide +kernel
theorem flushOut : ∀ t : Fin cfg0.N, (cfg0.win 25).flush t = decide (t.val = 63) := by decide +kernel

/-! ## The memrefs the body is called with -/

abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x64 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S64x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S64x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x64 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x64 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S64x16 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x16 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S64x16 .f32 := win0_21.stage (cfg0.slots t 21)
abbrev hs21 (t : Fin cfg0.N) : (ms21 t).IsWhole := hstage0_21 ((cfg0.slots t 21).cast nbuf0_21)
abbrev ms22 (t : Fin cfg0.N) : Memref sig .tc .vmem S1x16 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S64x16 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S1x16 .f32 := win0_24.stage (cfg0.slots t 24)
abbrev hs24 (t : Fin cfg0.N) : (ms24 t).IsWhole := hstage0_24 ((cfg0.slots t 24).cast nbuf0_24)
abbrev ms25 (t : Fin cfg0.N) : Memref sig .tc .vmem S1x16 .f32 := win0_25.stage (cfg0.slots t 25)
abbrev hs25 (t : Fin cfg0.N) : (ms25 t).IsWhole := hstage0_25 ((cfg0.slots t 25).cast nbuf0_25)
/-- The four scratch operands: the three weighted feature arrays and the running row sum. -/
abbrev scM0 : Memref sig .tc .vmem S8192x64 .f32 := Memref.whole cc0_scratch0
abbrev scM1 : Memref sig .tc .vmem S8192x64 .f32 := Memref.whole cc0_scratch1
abbrev scM2 : Memref sig .tc .vmem S4096x64 .f32 := Memref.whole cc0_scratch2
abbrev scM3 : Memref sig .tc .vmem S1x64 .f32 := Memref.whole cc0_scratch3
/-- Views through which the result's and the scratch buffers' contents are stated. -/
abbrev VO : View sig .tc .vmem S1x16 .f32 := (Memref.whole cc0_stg25_0 : Memref sig .tc .vmem S1x16 .f32).view
abbrev VS0 : View sig .tc .vmem S8192x64 .f32 := scM0.view
abbrev VS1 : View sig .tc .vmem S8192x64 .f32 := scM1.view
abbrev VS2 : View sig .tc .vmem S4096x64 .f32 := scM2.view
abbrev VS3 : View sig .tc .vmem S1x64 .f32 := scM3.view

/-- The scoped buffers no window stages are the four scratch operands, each owned whole at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) := by
  rw [scopedRest0_eq]; simp only [scM0, scM1, scM2, scM3, owns_whole]; try rfl

end Cert.Kernel.Hand

end
-- ==== Proof.KRunAB.lean ====
import proofs.«140626_g76854144795175_cont_sun_m_49_16_alg».proof.Proof.KPreB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole memrefs at given contents, in the case of the stated branch outcomes: it runs to the end, faults
    nowhere, leaves every buffer it only reads as it was and each buffer it stores into with the stored pieces written. -/
noncomputable def runA (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S4096x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x16 .f32) (harg20 : arg20.IsWhole) (arg21 : Memref sig .tc .vmem S1x16 .f32) (harg21 : arg21.IsWhole) (arg22 : Memref sig .tc .vmem S64x16 .f32) (harg22 : arg22.IsWhole) (arg23 : Memref sig .tc .vmem S1x16 .f32) (harg23 : arg23.IsWhole) (arg24 : Memref sig .tc .vmem S64x16 .f32) (harg24 : arg24.IsWhole) (arg25 : Memref sig .tc .vmem S1x16 .f32) (harg25 : arg25.IsWhole) (arg26 : Memref sig .tc .vmem S1x16 .f32) (harg26 : arg26.IsWhole) (arg27 : Memref sig .tc .vmem S8192x64 .f32) (harg27 : arg27.IsWhole) (arg28 : Memref sig .tc .vmem S8192x64 .f32) (harg28 : arg28.IsWhole) (arg29 : Memref sig .tc .vmem S4096x64 .f32) (harg29 : arg29.IsWhole) (arg30 : Memref sig .tc .vmem S1x64 .f32) (harg30 : arg30.IsWhole)
    (h1 : c1 i) (h2 : c2 i) (h3 : ¬c3 i) (h4 : ¬c4 i)
    (x1 : Vec F S128x4096 .f32) (x2 : Vec F S128x4096 .f32) (x3 : Vec F S128x4096 .f32) (x4 : Vec F S128x4096 .f32) (x5 : Vec F S128x4096 .f32) (x6 : Vec F S8192x128 .f32) (x7 : Vec F S8192x128 .f32) (x8 : Vec F S4096x128 .f32) (x9 : Vec F S128x64 .f32) (x10 : Vec F S1x64 .f32) (x11 : Vec F S128x64 .f32) (x12 : Vec F S1x64 .f32) (x13 : Vec F S128x64 .f32) (x14 : Vec F S1x64 .f32) (x15 : Vec F S64x64 .f32) (x16 : Vec F S64x64 .f32) (x17 : Vec F S64x64 .f32) (x18 : Vec F S64x64 .f32) (x19 : Vec F S1x64 .f32) (x20 : Vec F S64x16 .f32) (x21 : Vec F S1x16 .f32) (x22 : Vec F S64x16 .f32) (x23 : Vec F S1x16 .f32) (x24 : Vec F S64x16 .f32) (x25 : Vec F S1x16 .f32) :
    Σ' (L26 : List (View.Piece (Elt F) S1x16 .f32)) (L27 : List (View.Piece (Elt F) S8192x64 .f32)) (L28 : List (View.Piece (Elt F) S8192x64 .f32)) (L29 : List (View.Piece (Elt F) S4096x64 .f32)), { L30 : List (View.Piece (Elt F) S1x64 .f32) //
      ∀ (x26 : Vec F S1x16 .f32) (x27 : Vec F S8192x64 .f32) (x28 : Vec F S8192x64 .f32) (x29 : Vec F S4096x64 .f32) (x30 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ f, arg28.view.loc (c : Thread nD τ) ↦[arg28.view.set]{fullShare} arg28.view.writes (Elt F) f L28) ∗ (∃ f, arg29.view.loc (c : Thread nD τ) ↦[arg29.view.set]{fullShare} arg29.view.writes (Elt F) f L29) ∗ (∃ f, arg30.view.loc (c : Thread nD τ) ↦[arg30.view.set]{fullShare} arg30.view.writes (Elt F) f L30)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, fun x26 x27 x28 x29 x30 E K => ?run⟩
  case run =>
    simp only [cc0__body_eq_skeleton]; unfold cc0__body_skel
    simp only [k0_part3_eq_skeleton]; unfold k0_part3_skel
    simp only [k0_part1_eq_skeleton, k0_part2_eq_skeleton]; unfold k0_part1_skel k0_part2_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | exact h1 | exact h2 | exact h3 | exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; iexact H26
    isplitl [H27]
    · iexists _; iexact H27
    isplitl [H28]
    · iexists _; iexact H28
    isplitl [H29]
    · iexists _; iexact H29
    iexists _; iexact H30

end Cert.Kernel.Hand

end
-- ==== Proof.KRunBB.lean ====
import proofs.«140626_g76854144795175_cont_sun_m_49_16_alg».proof.Proof.KPreB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole memrefs at given contents, in the case of the stated branch outcomes: it runs to the end, faults
    nowhere, leaves every buffer it only reads as it was and each buffer it stores into with the stored pieces written. -/
noncomputable def runB (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S4096x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x16 .f32) (harg20 : arg20.IsWhole) (arg21 : Memref sig .tc .vmem S1x16 .f32) (harg21 : arg21.IsWhole) (arg22 : Memref sig .tc .vmem S64x16 .f32) (harg22 : arg22.IsWhole) (arg23 : Memref sig .tc .vmem S1x16 .f32) (harg23 : arg23.IsWhole) (arg24 : Memref sig .tc .vmem S64x16 .f32) (harg24 : arg24.IsWhole) (arg25 : Memref sig .tc .vmem S1x16 .f32) (harg25 : arg25.IsWhole) (arg26 : Memref sig .tc .vmem S1x16 .f32) (harg26 : arg26.IsWhole) (arg27 : Memref sig .tc .vmem S8192x64 .f32) (harg27 : arg27.IsWhole) (arg28 : Memref sig .tc .vmem S8192x64 .f32) (harg28 : arg28.IsWhole) (arg29 : Memref sig .tc .vmem S4096x64 .f32) (harg29 : arg29.IsWhole) (arg30 : Memref sig .tc .vmem S1x64 .f32) (harg30 : arg30.IsWhole)
    (h1 : ¬c1 i) (h2 : ¬c2 i) (h3 : c3 i) (h4 : ¬c4 i)
    (x1 : Vec F S128x4096 .f32) (x2 : Vec F S128x4096 .f32) (x3 : Vec F S128x4096 .f32) (x4 : Vec F S128x4096 .f32) (x5 : Vec F S128x4096 .f32) (x6 : Vec F S8192x128 .f32) (x7 : Vec F S8192x128 .f32) (x8 : Vec F S4096x128 .f32) (x9 : Vec F S128x64 .f32) (x10 : Vec F S1x64 .f32) (x11 : Vec F S128x64 .f32) (x12 : Vec F S1x64 .f32) (x13 : Vec F S128x64 .f32) (x14 : Vec F S1x64 .f32) (x15 : Vec F S64x64 .f32) (x16 : Vec F S64x64 .f32) (x17 : Vec F S64x64 .f32) (x18 : Vec F S64x64 .f32) (x19 : Vec F S1x64 .f32) (x20 : Vec F S64x16 .f32) (x21 : Vec F S1x16 .f32) (x22 : Vec F S64x16 .f32) (x23 : Vec F S1x16 .f32) (x24 : Vec F S64x16 .f32) (x25 : Vec F S1x16 .f32) (x27 : Vec F S8192x64 .f32) (x28 : Vec F S8192x64 .f32) (x29 : Vec F S4096x64 .f32) (x30 : Vec F S1x64 .f32) :
    { L30 : List (View.Piece (Elt F) S1x64 .f32) //
      ∀ (x26 : Vec F S1x16 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ (∃ f, arg30.view.loc (c : Thread nD τ) ↦[arg30.view.set]{fullShare} arg30.view.writes (Elt F) f L30)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, fun x26 E K => ?run⟩
  case run =>
    simp only [cc0__body_eq_skeleton]; unfold cc0__body_skel
    simp only [k0_part3_eq_skeleton]; unfold k0_part3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | exact h1 | exact h2 | exact h3 | exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    iexists _; iexact H30

end Cert.Kernel.Hand

end
-- ==== Proof.KRunCB.lean ====
import proofs.«140626_g76854144795175_cont_sun_m_49_16_alg».proof.Proof.KPreB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole memrefs at given contents, in the case of the stated branch outcomes: it runs to the end, faults
    nowhere, leaves every buffer it only reads as it was and each buffer it stores into with the stored pieces written. -/
noncomputable def runC (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S4096x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x16 .f32) (harg20 : arg20.IsWhole) (arg21 : Memref sig .tc .vmem S1x16 .f32) (harg21 : arg21.IsWhole) (arg22 : Memref sig .tc .vmem S64x16 .f32) (harg22 : arg22.IsWhole) (arg23 : Memref sig .tc .vmem S1x16 .f32) (harg23 : arg23.IsWhole) (arg24 : Memref sig .tc .vmem S64x16 .f32) (harg24 : arg24.IsWhole) (arg25 : Memref sig .tc .vmem S1x16 .f32) (harg25 : arg25.IsWhole) (arg26 : Memref sig .tc .vmem S1x16 .f32) (harg26 : arg26.IsWhole) (arg27 : Memref sig .tc .vmem S8192x64 .f32) (harg27 : arg27.IsWhole) (arg28 : Memref sig .tc .vmem S8192x64 .f32) (harg28 : arg28.IsWhole) (arg29 : Memref sig .tc .vmem S4096x64 .f32) (harg29 : arg29.IsWhole) (arg30 : Memref sig .tc .vmem S1x64 .f32) (harg30 : arg30.IsWhole)
    (h1 : ¬c1 i) (h2 : ¬c2 i) (h3 : c3 i) (h4 : c4 i)
    (x1 : Vec F S128x4096 .f32) (x2 : Vec F S128x4096 .f32) (x3 : Vec F S128x4096 .f32) (x4 : Vec F S128x4096 .f32) (x5 : Vec F S128x4096 .f32) (x6 : Vec F S8192x128 .f32) (x7 : Vec F S8192x128 .f32) (x8 : Vec F S4096x128 .f32) (x9 : Vec F S128x64 .f32) (x10 : Vec F S1x64 .f32) (x11 : Vec F S128x64 .f32) (x12 : Vec F S1x64 .f32) (x13 : Vec F S128x64 .f32) (x14 : Vec F S1x64 .f32) (x15 : Vec F S64x64 .f32) (x16 : Vec F S64x64 .f32) (x17 : Vec F S64x64 .f32) (x18 : Vec F S64x64 .f32) (x19 : Vec F S1x64 .f32) (x20 : Vec F S64x16 .f32) (x21 : Vec F S1x16 .f32) (x22 : Vec F S64x16 .f32) (x23 : Vec F S1x16 .f32) (x24 : Vec F S64x16 .f32) (x25 : Vec F S1x16 .f32) (x26 : Vec F S1x16 .f32) (x27 : Vec F S8192x64 .f32) (x28 : Vec F S8192x64 .f32) (x29 : Vec F S4096x64 .f32) (x30 : Vec F S1x64 .f32) :
    Σ' (L26 : List (View.Piece (Elt F) S1x16 .f32)), { L30 : List (View.Piece (Elt F) S1x64 .f32) //
      ∀  (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ f, arg26.view.loc (c : Thread nD τ) ↦[arg26.view.set]{fullShare} arg26.view.writes (Elt F) f L26) ∗ owns (c : Thread nD τ) arg27 fullShare x27 ∗ owns (c : Thread nD τ) arg28 fullShare x28 ∗ owns (c : Thread nD τ) arg29 fullShare x29 ∗ (∃ f, arg30.view.loc (c : Thread nD τ) ↦[arg30.view.set]{fullShare} arg30.view.writes (Elt F) f L30)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, fun E K => ?run⟩
  case run =>
    simp only [cc0__body_eq_skeleton]; unfold cc0__body_skel
    simp only [k0_part3_eq_skeleton]; unfold k0_part3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | exact h1 | exact h2 | exact h3 | exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    iexists _; iexact H30

end Cert.Kernel.Hand

end
-- ==== Proof.KDatB.lean ====
import proofs.«140626_g76854144795175_cont_sun_m_49_16_alg».proof.Proof.KRunAB
import proofs.«140626_g76854144795175_cont_sun_m_49_16_alg».proof.Proof.KRunBB
import proofs.«140626_g76854144795175_cont_sun_m_49_16_alg».proof.Proof.KRunCB
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the launch contents after the seven reshapes of the bias vectors. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves, point by point

After a point the kernel's own state is five arrays: the result's staging buffer `o`, the three weighted feature arrays
`z0`, `z1`, `z2` (written once, at the first point) and the running row sum `a`. -/

structure St (F : FTy → Type) where
  o : Vec F S1x16 .f32
  z0 : Vec F S8192x64 .f32
  z1 : Vec F S8192x64 .f32
  z2 : Vec F S4096x64 .f32
  a : Vec F S1x64 .f32

/-- The first point: everything is stored afresh. -/
def stA (c : Dev nD) (t : Fin cfg0.N) (h0 : t.val = 0) : St F :=
  ⟨VO.read (Elt F) (VO.writes (Elt F) VO.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1),
   VS0.read (Elt F) (VS0.writes (Elt F) VS0.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.1),
   VS1.read (Elt F) (VS1.writes (Elt F) VS1.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.1),
   VS2.read (Elt F) (VS2.writes (Elt F) VS2.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.1),
   VS3.read (Elt F) (VS3.writes (Elt F) VS3.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.1)⟩

/-- A point strictly between the first and the last: only the running sum moves. -/
def stB (c : Dev nD) (t : Fin cfg0.N) (h0 : t.val ≠ 0) (h63 : t.val ≠ 63) (p : St F) : St F :=
  ⟨p.o, p.z0, p.z1, p.z2, VS3.read (Elt F) (VS3.writes (Elt F) VS3.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.z0 p.z1 p.z2 p.a).1)⟩

/-- The last point: the running sum moves and the result is rewritten from it. -/
def stC (c : Dev nD) (t : Fin cfg0.N) (h63 : t.val = 63) (p : St F) : St F :=
  ⟨VO.read (Elt F) (VO.writes (Elt F) VO.junk (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).1), p.z0, p.z1, p.z2,
   VS3.read (Elt F) (VS3.writes (Elt F) VS3.junk (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).2.1)⟩

/-- The state after point `n`. -/
def stAt (c : Dev nD) : (n : ℕ) → n < cfg0.N → St F
  | 0, hn => stA m c ⟨0, hn⟩ rfl
  | n + 1, hn =>
    if h63 : n + 1 = 63 then stC m c ⟨n + 1, hn⟩ h63 (stAt c n (Nat.lt_of_succ_lt hn))
    else stB m c ⟨n + 1, hn⟩ (Nat.succ_ne_zero n) h63 (stAt c n (Nat.lt_of_succ_lt hn))

theorem stAt_A (c : Dev nD) (t : Fin cfg0.N) (h0 : t.val = 0) : stAt m c t.val t.isLt = stA m c t h0 := by
  obtain ⟨n, hn⟩ := t
  cases n with
  | zero => rfl
  | succ n => exact absurd h0 (Nat.succ_ne_zero n)

theorem stAt_B (c : Dev nD) (t : Fin cfg0.N) (h0 : t.val ≠ 0) (h63 : t.val ≠ 63) :
    stAt m c t.val t.isLt = stB m c t h0 h63 (stAt m c (t.val - 1) (Nat.lt_of_le_of_lt (Nat.sub_le _ _) t.isLt)) := by
  obtain ⟨n, hn⟩ := t
  cases n with
  | zero => exact absurd rfl h0
  | succ n => exact (dif_neg h63).trans rfl

theorem stAt_C (c : Dev nD) (t : Fin cfg0.N) (h63 : t.val = 63) :
    stAt m c t.val t.isLt = stC m c t h63 (stAt m c (t.val - 1) (Nat.lt_of_le_of_lt (Nat.sub_le _ _) t.isLt)) := by
  obtain ⟨n, hn⟩ := t
  cases n with
  | zero => exact absurd h63 (by show ¬ (0 : ℕ) = 63; decide)
  | succ n => exact (dif_pos h63).trans rfl

/-! ## The invariant between points: the four scratch buffers -/

def PhiS (c : Dev nD) : (n : ℕ) → n ≤ cfg0.N → sProp 𝕄
  | 0, _ => iprop((∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d))
  | n + 1, hn => iprop(owns (c : Thread nD τ) scM0 fullShare (stAt m c n hn).z0 ∗ owns (c : Thread nD τ) scM1 fullShare (stAt m c n hn).z1
      ∗ owns (c : Thread nD τ) scM2 fullShare (stAt m c n hn).z2 ∗ owns (c : Thread nD τ) scM3 fullShare (stAt m c n hn).a)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)) := by
  subst hz; rfl

theorem PhiS_succ (c : Dev nD) (n : ℕ) (hn : n < cfg0.N) :
    PhiS m c (n + 1) hn = iprop(owns (c : Thread nD τ) scM0 fullShare (stAt m c n hn).z0 ∗ owns (c : Thread nD τ) scM1 fullShare (stAt m c n hn).z1
      ∗ owns (c : Thread nD τ) scM2 fullShare (stAt m c n hn).z2 ∗ owns (c : Thread nD τ) scM3 fullShare (stAt m c n hn).a) := rfl

theorem PhiS_pos (c : Dev nD) (n : ℕ) (h : n ≤ cfg0.N) (hz : n ≠ 0) :
    PhiS m c n h = iprop(owns (c : Thread nD τ) scM0 fullShare (stAt m c (n - 1) (by omega)).z0 ∗ owns (c : Thread nD τ) scM1 fullShare (stAt m c (n - 1) (by omega)).z1
      ∗ owns (c : Thread nD τ) scM2 fullShare (stAt m c (n - 1) (by omega)).z2 ∗ owns (c : Thread nD τ) scM3 fullShare (stAt m c (n - 1) (by omega)).a) := by
  cases n with
  | zero => exact absurd rfl hz
  | succ n => rfl

/-! ## The pipeline's proof data -/

/-- The arrays as the region finds them; after the body each input's buffer at its block and the result's at the state's
    `o`; the invariant the scratch buffers at the state; nothing owed. The neighbourhood matrices of ranks 1 and 0 are
    each read through two windows (column halves), which hold half of the array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (stAt m c t.val t.isLt).o
    | ⟨_ + 26, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨23, _⟩ => fullShare
    | ⟨24, _⟩ => fullShare
    | ⟨25, _⟩ => fullShare
    | ⟨_ + 26, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = (stAt m c t.val t.isLt).o := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem before_20 (c : Dev nD) (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem before_21 (c : Dev nD) (t : Fin cfg0.N) (d) : (dats m 0 c).before 21 t d = iblk m c 21 t :=
  ((dats m 0 c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem before_22 (c : Dev nD) (t : Fin cfg0.N) (d) : (dats m 0 c).before 22 t d = iblk m c 22 t :=
  ((dats m 0 c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)
theorem before_23 (c : Dev nD) (t : Fin cfg0.N) (d) : (dats m 0 c).before 23 t d = iblk m c 23 t :=
  ((dats m 0 c).before_in_eq_fetched 23 rfl (fun _ => rfl) (fun _ _ _ => rfl) (fun t => by rw [after_23]; unfold Dat.blockOf iblk; rw [A_eq]; try rfl) t d).trans
    (by unfold Dat.fetched Dat.blockOf iblk; rw [A_eq]; try rfl)
theorem before_24 (c : Dev nD) (t : Fin cfg0.N) (d) : (dats m 0 c).before 24 t d = iblk m c 24 t :=
  ((dats m 0 c).before_in_eq_fetched 24 rfl (fun _ => rfl) (fun _ _ _ => rfl) (fun t => by rw [after_24]; unfold Dat.blockOf iblk; rw [A_eq]; try rfl) t d).trans
    (by unfold Dat.fetched Dat.blockOf iblk; rw [A_eq]; try rfl)

/-- The result's buffer is fresh at the first point only: it is written back at the last. -/
theorem freshOut : ∀ t : Fin cfg0.N, t.val ≠ 0 → cfg0.fresh 25 t.val = false := by decide +kernel

/-- The result's buffer, after the first point, holds what the point before left: between the first and the last
    point nothing stores into it and nothing writes it back. -/
theorem before_25 (c : Dev nD) (t : Fin cfg0.N) (ht : t.val ≠ 0) (d) :
    (dats m 0 c).before 25 t d = (stAt m c (t.val - 1) (Nat.lt_of_le_of_lt (Nat.sub_le _ _) t.isLt)).o := by
  have h := (dats m 0 c).before_out_traj 25 rfl (fun _ _ => rfl)
    (fun t ht hi _ => by
      rw [after_25, after_25]
      rw [idleOut t] at hi
      simp only [Bool.and_eq_true, decide_eq_true_eq] at hi
      rw [stAt_B m c t hi.1 hi.2]; rfl)
    t.val t rfl d
  rw [h, after_25]
  rw [freshOut t ht]; rfl

end Cert.Kernel.Hand

end
-- ==== Proof.KBodyB.lean ====
import proofs.«140626_g76854144795175_cont_sun_m_49_16_alg».proof.Proof.KDatB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Where the result window is live, idle, written back. -/
theorem liveOut0 : ∀ t : Fin cfg0.N, t.val = 0 → cfg0.idle 25 (grid0.coords t) = false := by decide +kernel
theorem liveOut63 : ∀ t : Fin cfg0.N, t.val = 63 → cfg0.idle 25 (grid0.coords t) = false := by decide +kernel
theorem idleMid : ∀ t : Fin cfg0.N, t.val ≠ 0 → t.val ≠ 63 → cfg0.idle 25 (grid0.coords t) = true := by decide +kernel
theorem noFlushMid : ∀ t : Fin cfg0.N, t.val ≠ 63 → (cfg0.win 25).flush t = false := by decide +kernel

/-! ## The stored pieces cover their buffers -/

theorem coverA_o (c : Dev nD) (t : Fin cfg0.N) (h0 : t.val = 0) (y : S1x16.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1 S1x16.size (by sl_kernel_rfl) y
theorem coverA_z0 (c : Dev nD) (t : Fin cfg0.N) (h0 : t.val = 0) (y : S8192x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.1 S8192x64.size (by sl_kernel_rfl) y
theorem coverA_z1 (c : Dev nD) (t : Fin cfg0.N) (h0 : t.val = 0) (y : S8192x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.1 S8192x64.size (by sl_kernel_rfl) y
theorem coverA_z2 (c : Dev nD) (t : Fin cfg0.N) (h0 : t.val = 0) (y : S4096x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.1 S4096x64.size (by sl_kernel_rfl) y
theorem coverA_a (c : Dev nD) (t : Fin cfg0.N) (h0 : t.val = 0) (y : S1x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.1 S1x64.size (by sl_kernel_rfl) y
theorem coverB_a (c : Dev nD) (t : Fin cfg0.N) (h0 : t.val ≠ 0) (h63 : t.val ≠ 63) (p : St F) (y : S1x64.Idx) : ∃ pc ∈ (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.z0 p.z1 p.z2 p.a).1, y ∈ pc.1.set :=
  View.cover_of_tiledL (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.z0 p.z1 p.z2 p.a).1 S1x64.size (by sl_kernel_rfl) y
theorem coverC_o (c : Dev nD) (t : Fin cfg0.N) (h63 : t.val = 63) (p : St F) (y : S1x16.Idx) : ∃ pc ∈ (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).1, y ∈ pc.1.set :=
  View.cover_of_tiledL (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).1 S1x16.size (by sl_kernel_rfl) y
theorem coverC_a (c : Dev nD) (t : Fin cfg0.N) (h63 : t.val = 63) (p : St F) (y : S1x64.Idx) : ∃ pc ∈ (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).2.1, y ∈ pc.1.set :=
  View.cover_of_tiledL (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).2.1 S1x64.size (by sl_kernel_rfl) y

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d))
    ∗ (∃ d, owns (c : Thread nD τ) (ms24 t) fullShare ((dats m 0 c).before 24 t d))
    ∗ (∃ d, owns (c : Thread nD τ) (ms25 t) fullShare ((dats m 0 c).before 25 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

set_option maxHeartbeats 16000000 in
/-- At any point the body, handed the invariant and every window's current buffer, runs to the next point's invariant
    and the buffers as the proof data names them: the closed forms of the branch tests say which of the three cases the
    point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  rw [show (dats m 0 c).leavesExact 9 t = owns (c : Thread nD τ) (ms9 t) fullShare ((dats m 0 c).after 9 t) from by
    unfold Dat.leavesExact; rw [liveIn 9 (by decide) t], after_9]
  rw [show (dats m 0 c).leavesExact 10 t = owns (c : Thread nD τ) (ms10 t) fullShare ((dats m 0 c).after 10 t) from by
    unfold Dat.leavesExact; rw [liveIn 10 (by decide) t], after_10]
  rw [show (dats m 0 c).leavesExact 11 t = owns (c : Thread nD τ) (ms11 t) fullShare ((dats m 0 c).after 11 t) from by
    unfold Dat.leavesExact; rw [liveIn 11 (by decide) t], after_11]
  rw [show (dats m 0 c).leavesExact 12 t = owns (c : Thread nD τ) (ms12 t) fullShare ((dats m 0 c).after 12 t) from by
    unfold Dat.leavesExact; rw [liveIn 12 (by decide) t], after_12]
  rw [show (dats m 0 c).leavesExact 13 t = owns (c : Thread nD τ) (ms13 t) fullShare ((dats m 0 c).after 13 t) from by
    unfold Dat.leavesExact; rw [liveIn 13 (by decide) t], after_13]
  rw [show (dats m 0 c).leavesExact 14 t = owns (c : Thread nD τ) (ms14 t) fullShare ((dats m 0 c).after 14 t) from by
    unfold Dat.leavesExact; rw [liveIn 14 (by decide) t], after_14]
  rw [show (dats m 0 c).leavesExact 15 t = owns (c : Thread nD τ) (ms15 t) fullShare ((dats m 0 c).after 15 t) from by
    unfold Dat.leavesExact; rw [liveIn 15 (by decide) t], after_15]
  rw [show (dats m 0 c).leavesExact 16 t = owns (c : Thread nD τ) (ms16 t) fullShare ((dats m 0 c).after 16 t) from by
    unfold Dat.leavesExact; rw [liveIn 16 (by decide) t], after_16]
  rw [show (dats m 0 c).leavesExact 17 t = owns (c : Thread nD τ) (ms17 t) fullShare ((dats m 0 c).after 17 t) from by
    unfold Dat.leavesExact; rw [liveIn 17 (by decide) t], after_17]
  rw [show (dats m 0 c).leavesExact 18 t = owns (c : Thread nD τ) (ms18 t) fullShare ((dats m 0 c).after 18 t) from by
    unfold Dat.leavesExact; rw [liveIn 18 (by decide) t], after_18]
  rw [show (dats m 0 c).leavesExact 19 t = owns (c : Thread nD τ) (ms19 t) fullShare ((dats m 0 c).after 19 t) from by
    unfold Dat.leavesExact; rw [liveIn 19 (by decide) t], after_19]
  rw [show (dats m 0 c).leavesExact 20 t = owns (c : Thread nD τ) (ms20 t) fullShare ((dats m 0 c).after 20 t) from by
    unfold Dat.leavesExact; rw [liveIn 20 (by decide) t], after_20]
  rw [show (dats m 0 c).leavesExact 21 t = owns (c : Thread nD τ) (ms21 t) fullShare ((dats m 0 c).after 21 t) from by
    unfold Dat.leavesExact; rw [liveIn 21 (by decide) t], after_21]
  rw [show (dats m 0 c).leavesExact 22 t = owns (c : Thread nD τ) (ms22 t) fullShare ((dats m 0 c).after 22 t) from by
    unfold Dat.leavesExact; rw [liveIn 22 (by decide) t], after_22]
  rw [show (dats m 0 c).leavesExact 23 t = owns (c : Thread nD τ) (ms23 t) fullShare ((dats m 0 c).after 23 t) from by
    unfold Dat.leavesExact; rw [liveIn 23 (by decide) t], after_23]
  rw [show (dats m 0 c).leavesExact 24 t = owns (c : Thread nD τ) (ms24 t) fullShare ((dats m 0 c).after 24 t) from by
    unfold Dat.leavesExact; rw [liveIn 24 (by decide) t], after_24]
  by_cases h0 : t.val = 0
  · rw [show (dats m 0 c).leavesExact 25 t = owns (c : Thread nD τ) (ms25 t) fullShare ((dats m 0 c).after 25 t) from by
      unfold Dat.leavesExact; rw [liveOut0 t h0], after_25]
    rw [stAt_A m c t h0]
    unfold stA; dsimp only
    rw [PhiS_castSucc m c t, PhiS_zero m c _ _ h0]
    iintro ⟨⟨⟨%e0, HS0⟩, ⟨%e1, HS1⟩, ⟨%e2, HS2⟩, ⟨%e3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.2 _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, ⟨%f25, H25⟩, ⟨%f0, HS0⟩, ⟨%f1, HS1⟩, ⟨%f2, HS2⟩, ⟨%f3, HS3⟩⟩
    isplitl [HS0 HS1 HS2 HS3]
    · isplitl [HS0]
      · unfold owns; iexists _; isplitr
        swap; · iexact HS0
        ipureintro; exact View.read_writes_of_cover _ _ _ _ _ (coverA_z0 m c t h0)
      isplitl [HS1]
      · unfold owns; iexists _; isplitr
        swap; · iexact HS1
        ipureintro; exact View.read_writes_of_cover _ _ _ _ _ (coverA_z1 m c t h0)
      isplitl [HS2]
      · unfold owns; iexists _; isplitr
        swap; · iexact HS2
        ipureintro; exact View.read_writes_of_cover _ _ _ _ _ (coverA_z2 m c t h0)
      unfold owns; iexists _; isplitr
      swap; · iexact HS3
      ipureintro; exact View.read_writes_of_cover _ _ _ _ _ (coverA_a m c t h0)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    unfold owns; iexists _; isplitr
    swap; · iexact H25
    ipureintro; exact View.read_writes_of_cover _ _ _ _ _ (coverA_o m c t h0)
  · by_cases h63 : t.val = 63
    · rw [show (dats m 0 c).leavesExact 25 t = owns (c : Thread nD τ) (ms25 t) fullShare ((dats m 0 c).after 25 t) from by
        unfold Dat.leavesExact; rw [liveOut63 t h63], after_25]
      simp only [before_25 m c t h0]
      rw [stAt_C m c t h63]
      unfold stC; dsimp only
      rw [PhiS_castSucc m c t, PhiS_pos m c _ _ h0]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (stAt m c (t.val - 1) (Nat.lt_of_le_of_lt (Nat.sub_le _ _) t.isLt)).o (stAt m c (t.val - 1) (Nat.lt_of_le_of_lt (Nat.sub_le _ _) t.isLt)).z0 (stAt m c (t.val - 1) (Nat.lt_of_le_of_lt (Nat.sub_le _ _) t.isLt)).z1 (stAt m c (t.val - 1) (Nat.lt_of_le_of_lt (Nat.sub_le _ _) t.isLt)).z2 (stAt m c (t.val - 1) (Nat.lt_of_le_of_lt (Nat.sub_le _ _) t.isLt)).a).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, H21, H22, H23, H24, ⟨%f25, H25⟩, HS0, HS1, HS2, ⟨%f3, HS3⟩⟩
      isplitl [HS0 HS1 HS2 HS3]
      · isplitl [HS0]; · iexact HS0
        isplitl [HS1]; · iexact HS1
        isplitl [HS2]; · iexact HS2
        unfold owns; iexists _; isplitr
        swap; · iexact HS3
        ipureintro; exact View.read_writes_of_cover _ _ _ _ _ (coverC_a m c t h63 (stAt m c (t.val - 1) (Nat.lt_of_le_of_lt (Nat.sub_le _ _) t.isLt)))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      unfold owns; iexists _; isplitr
      swap; · iexact H25
      ipureintro; exact View.read_writes_of_cover _ _ _ _ _ (coverC_o m c t h63 (stAt m c (t.val - 1) (Nat.lt_of_le_of_lt (Nat.sub_le _ _) t.isLt)))
    · rw [Dat.leavesExact_idle (dats m 0 c) 25 t (idleMid t h0 h63) (noFlushMid t h63)]
      rw [stAt_B m c t h0 h63]
      unfold stB; dsimp only
      rw [PhiS_castSucc m c t, PhiS_pos m c _ _ h0]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (stAt m c (t.val - 1) (Nat.lt_of_le_of_lt (Nat.sub_le _ _) t.isLt)).z0 (stAt m c (t.val - 1) (Nat.lt_of_le_of_lt (Nat.sub_le _ _) t.isLt)).z1 (stAt m c (t.val - 1) (Nat.lt_of_le_of_lt (Nat.sub_le _ _) t.isLt)).z2 (stAt m c (t.val - 1) (Nat.lt_of_le_of_lt (Nat.sub_le _ _) t.isLt)).a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, H21, H22, H23, H24, H25, HS0, HS1, HS2, ⟨%f3, HS3⟩⟩
      isplitl [HS0 HS1 HS2 HS3]
      · isplitl [HS0]; · iexact HS0
        isplitl [HS1]; · iexact HS1
        isplitl [HS2]; · iexact HS2
        unfold owns; iexists _; isplitr
        swap; · iexact HS3
        ipureintro; exact View.read_writes_of_cover _ _ _ _ _ (coverB_a m c t h0 h63 (stAt m c (t.val - 1) (Nat.lt_of_le_of_lt (Nat.sub_le _ _) t.isLt)))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexists _; iexact H25

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KArrB.lean ====
import proofs.«140626_g76854144795175_cont_sun_m_49_16_alg».proof.Proof.KDatB
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' arrays and the buffers behind them

Twenty-six windows read twenty-four buffers: the neighbourhood matrix of rank 1 is read through windows 0 and 1 (its
left and right column halves), that of rank 0 through windows 3 and 4. Each such pair holds its buffer by halves of the
share; every other window holds its buffer whole. -/

abbrev arrRefs : List (Ref sig .tc) := [main_arg3, main_arg4, main_arg5, main_arg0, main_arg1, main_arg2, main_arg6, main_v0, main_arg8, main_v1, main_arg10, main_v2, main_arg12, main_arg13, main_arg14, main_arg15, main_v3, main_arg17, main_v4, main_arg19, main_v5, main_arg21, main_v6, main_v7]

/-- The distinct buffers behind the arrays, one by one, each whole at the full share. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg6) ↦{fullShare} V main_arg6) ∗ (((c : Thread nD τ).loc main_v0) ↦{fullShare} V main_v0) ∗ (((c : Thread nD τ).loc main_arg8) ↦{fullShare} V main_arg8) ∗ (((c : Thread nD τ).loc main_v1) ↦{fullShare} V main_v1) ∗ (((c : Thread nD τ).loc main_arg10) ↦{fullShare} V main_arg10) ∗ (((c : Thread nD τ).loc main_v2) ↦{fullShare} V main_v2) ∗ (((c : Thread nD τ).loc main_arg12) ↦{fullShare} V main_arg12) ∗ (((c : Thread nD τ).loc main_arg13) ↦{fullShare} V main_arg13) ∗ (((c : Thread nD τ).loc main_arg14) ↦{fullShare} V main_arg14) ∗ (((c : Thread nD τ).loc main_arg15) ↦{fullShare} V main_arg15) ∗ (((c : Thread nD τ).loc main_v3) ↦{fullShare} V main_v3) ∗ (((c : Thread nD τ).loc main_arg17) ↦{fullShare} V main_arg17) ∗ (((c : Thread nD τ).loc main_v4) ↦{fullShare} V main_v4) ∗ (((c : Thread nD τ).loc main_arg19) ↦{fullShare} V main_arg19) ∗ (((c : Thread nD τ).loc main_v5) ↦{fullShare} V main_v5) ∗ (((c : Thread nD τ).loc main_arg21) ↦{fullShare} V main_arg21) ∗ (((c : Thread nD τ).loc main_v6) ↦{fullShare} V main_v6) ∗ (((c : Thread nD τ).loc main_v7) ↦{fullShare} V main_v7)) := by
  unfold Pipeline.arrBufs; exact bigSep_eq_bigSepL_of_eq arrRefs (by decide) (by decide) _

/-- Each window's array is a whole buffer, held at the window's share. -/
theorem e0 (c : Dev nD) (V : (b : Ref sig .tc) → Buf (Elt F) ((c : Thread nD τ).loc b)) :
    (((cfg0.win 0).arr.view.loc (c : Thread nD τ)) ↦[(cfg0.win 0).arr.view.set]{(dats m 0 c).share 0} V (Pipeline.arrRef spec0 0) : sProp 𝕄)
      = (((c : Thread nD τ).loc main_arg3) ↦{fullShare.left} V main_arg3) := by rw [(arr_whole0 0).set_eq_univ]; rfl
theorem e1 (c : Dev nD) (V : (b : Ref sig .tc) → Buf (Elt F) ((c : Thread nD τ).loc b)) :
    (((cfg0.win 1).arr.view.loc (c : Thread nD τ)) ↦[(cfg0.win 1).arr.view.set]{(dats m 0 c).share 1} V (Pipeline.arrRef spec0 1) : sProp 𝕄)
      = (((c : Thread nD τ).loc main_arg3) ↦{fullShare.right} V main_arg3) := by rw [(arr_whole0 1).set_eq_univ]; rfl
theorem e2 (c : Dev nD) (V : (b : Ref sig .tc) → Buf (Elt F) ((c : Thread nD τ).loc b)) :
    (((cfg0.win 2).arr.view.loc (c : Thread nD τ)) ↦[(cfg0.win 2).arr.view.set]{(dats m 0 c).share 2} V (Pipeline.arrRef spec0 2) : sProp 𝕄)
      = (((c : Thread nD τ).loc main_arg4) ↦{fullShare} V main_arg4) := by rw [(arr_whole0 2).set_eq_univ]; rfl
theorem e3 (c : Dev nD) (V : (b : Ref sig .tc) → Buf (Elt F) ((c : Thread nD τ).loc b)) :
    (((cfg0.win 3).arr.view.loc (c : Thread nD τ)) ↦[(cfg0.win 3).arr.view.set]{(dats m 0 c).share 3} V (Pipeline.arrRef spec0 3) : sProp 𝕄)
      = (((c : Thread nD τ).loc main_arg5) ↦{fullShare.left} V main_arg5) := by rw [(arr_whole0 3).set_eq_univ]; rfl
theorem e4 (c : Dev nD) (V : (b : Ref sig .tc) → Buf (Elt F) ((c : Thread nD τ).loc b)) :
    (((cfg0.win 4).arr.view.loc (c : Thread nD τ)) ↦[(cfg0.win 4).arr.view.set]{(dats m 0 c).share 4} V (Pipeline.arrRef spec0 4) : sProp 𝕄)
      = (((c : Thread nD τ).loc main_arg5) ↦{fullShare.right} V main_arg5) := by rw [(arr_whole0 4).set_eq_univ]; rfl
theorem e5 (c : Dev nD) (V : (b : Ref sig .tc) → Buf (Elt F) ((c : Thread nD τ).loc b)) :
    (((cfg0.win 5).arr.view.loc (c : Thread nD τ)) ↦[(cfg0.win 5).arr.view.set]{(dats m 0 c).share 5} V (Pipeline.arrRef spec0 5) : sProp 𝕄)
      = (((c : Thread nD τ).loc main_arg0) ↦{fullShare} V main_arg0) := by rw [(arr_whole0 5).set_eq_univ]; rfl
theorem e6 (c : Dev nD) (V : (b : Ref sig .tc) → Buf (Elt F) ((c : Thread nD τ).loc b)) :
    (((cfg0.win 6).arr.view.loc (c : Thread nD τ)) ↦[(cfg0.win 6).arr.view.set]{(dats m 0 c).share 6} V (Pipeline.arrRef spec0 6) : sProp 𝕄)
      = (((c : Thread nD τ).loc main_arg1) ↦{fullShare} V main_arg1) := by rw [(arr_whole0 6).set_eq_univ]; rfl
theorem e7 (c : Dev nD) (V : (b : Ref sig .tc) → Buf (Elt F) ((c : Thread nD τ).loc b)) :
    (((cfg0.win 7).arr.view.loc (c : Thread nD τ)) ↦[(cfg0.win 7).arr.view.set]{(dats m 0 c).share 7} V (Pipeline.arrRef spec0 7) : sProp 𝕄)
      = (((c : Thread nD τ).loc main_arg2) ↦{fullShare} V main_arg2) := by rw [(arr_whole0 7).set_eq_univ]; rfl
theorem e8 (c : Dev nD) (V : (b : Ref sig .tc) → Buf (Elt F) ((c : Thread nD τ).loc b)) :
    (((cfg0.win 8).arr.view.loc (c : Thread nD τ)) ↦[(cfg0.win 8).arr.view.set]{(dats m 0 c).share 8} V (Pipeline.arrRef spec0 8) : sProp 𝕄)
      = (((c : Thread nD τ).loc main_arg6) ↦{fullShare} V main_arg6) := by rw [(arr_whole0 8).set_eq_univ]; rfl
theorem e9 (c : Dev nD) (V : (b : Ref sig .tc) → Buf (Elt F) ((c : Thread nD τ).loc b)) :
    (((cfg0.win 9).arr.view.loc (c : Thread nD τ)) ↦[(cfg0.win 9).arr.view.set]{(dats m 0 c).share 9} V (Pipeline.arrRef spec0 9) : sProp 𝕄)
      = (((c : Thread nD τ).loc main_v0) ↦{fullShare} V main_v0) := by rw [(arr_whole0 9).set_eq_univ]; rfl
theorem e10 (c : Dev nD) (V : (b : Ref sig .tc) → Buf (Elt F) ((c : Thread nD τ).loc b)) :
    (((cfg0.win 10).arr.view.loc (c : Thread nD τ)) ↦[(cfg0.win 10).arr.view.set]{(dats m 0 c).share 10} V (Pipeline.arrRef spec0 10) : sProp 𝕄)
      = (((c : Thread nD τ).loc main_arg8) ↦{fullShare} V main_arg8) := by rw [(arr_whole0 10).set_eq_univ]; rfl
theorem e11 (c : Dev nD) (V : (b : Ref sig .tc) → Buf (Elt F) ((c : Thread nD τ).loc b)) :
    (((cfg0.win 11).arr.view.loc (c : Thread nD τ)) ↦[(cfg0.win 11).arr.view.set]{(dats m 0 c).share 11} V (Pipeline.arrRef spec0 11) : sProp 𝕄)
      = (((c : Thread nD τ).loc main_v1) ↦{fullShare} V main_v1) := by rw [(arr_whole0 11).set_eq_univ]; rfl
theorem e12 (c : Dev nD) (V : (b : Ref sig .tc) → Buf (Elt F) ((c : Thread nD τ).loc b)) :
    (((cfg0.win 12).arr.view.loc (c : Thread nD τ)) ↦[(cfg0.win 12).arr.view.set]{(dats m 0 c).share 12} V (Pipeline.arrRef spec0 12) : sProp 𝕄)
      = (((c : Thread nD τ).loc main_arg10) ↦{fullShare} V main_arg10) := by rw [(arr_whole0 12).set_eq_univ]; rfl
theorem e13 (c : Dev nD) (V : (b : Ref sig .tc) → Buf (Elt F) ((c : Thread nD τ).loc b)) :
    (((cfg0.win 13).arr.view.loc (c : Thread nD τ)) ↦[(cfg0.win 13).arr.view.set]{(dats m 0 c).share 13} V (Pipeline.arrRef spec0 13) : sProp 𝕄)
      = (((c : Thread nD τ).loc main_v2) ↦{fullShare} V main_v2) := by rw [(arr_whole0 13).set_eq_univ]; rfl
theorem e14 (c : Dev nD) (V : (b : Ref sig .tc) → Buf (Elt F) ((c : Thread nD τ).loc b)) :
    (((cfg0.win 14).arr.view.loc (c : Thread nD τ)) ↦[(cfg0.win 14).arr.view.set]{(dats m 0 c).share 14} V (Pipeline.arrRef spec0 14) : sProp 𝕄)
      = (((c : Thread nD τ).loc main_arg12) ↦{fullShare} V main_arg12) := by rw [(arr_whole0 14).set_eq_univ]; rfl
theorem e15 (c : Dev nD) (V : (b : Ref sig .tc) → Buf (Elt F) ((c : Thread nD τ).loc b)) :
    (((cfg0.win 15).arr.view.loc (c : Thread nD τ)) ↦[(cfg0.win 15).arr.view.set]{(dats m 0 c).share 15} V (Pipeline.arrRef spec0 15) : sProp 𝕄)
      = (((c : Thread nD τ).loc main_arg13) ↦{fullShare} V main_arg13) := by rw [(arr_whole0 15).set_eq_univ]; rfl
theorem e16 (c : Dev nD) (V : (b : Ref sig .tc) → Buf (Elt F) ((c : Thread nD τ).loc b)) :
    (((cfg0.win 16).arr.view.loc (c : Thread nD τ)) ↦[(cfg0.win 16).arr.view.set]{(dats m 0 c).share 16} V (Pipeline.arrRef spec0 16) : sProp 𝕄)
      = (((c : Thread nD τ).loc main_arg14) ↦{fullShare} V main_arg14) := by rw [(arr_whole0 16).set_eq_univ]; rfl
theorem e17 (c : Dev nD) (V : (b : Ref sig .tc) → Buf (Elt F) ((c : Thread nD τ).loc b)) :
    (((cfg0.win 17).arr.view.loc (c : Thread nD τ)) ↦[(cfg0.win 17).arr.view.set]{(dats m 0 c).share 17} V (Pipeline.arrRef spec0 17) : sProp 𝕄)
      = (((c : Thread nD τ).loc main_arg15) ↦{fullShare} V main_arg15) := by rw [(arr_whole0 17).set_eq_univ]; rfl
theorem e18 (c : Dev nD) (V : (b : Ref sig .tc) → Buf (Elt F) ((c : Thread nD τ).loc b)) :
    (((cfg0.win 18).arr.view.loc (c : Thread nD τ)) ↦[(cfg0.win 18).arr.view.set]{(dats m 0 c).share 18} V (Pipeline.arrRef spec0 18) : sProp 𝕄)
      = (((c : Thread nD τ).loc main_v3) ↦{fullShare} V main_v3) := by rw [(arr_whole0 18).set_eq_univ]; rfl
theorem e19 (c : Dev nD) (V : (b : Ref sig .tc) → Buf (Elt F) ((c : Thread nD τ).loc b)) :
    (((cfg0.win 19).arr.view.loc (c : Thread nD τ)) ↦[(cfg0.win 19).arr.view.set]{(dats m 0 c).share 19} V (Pipeline.arrRef spec0 19) : sProp 𝕄)
      = (((c : Thread nD τ).loc main_arg17) ↦{fullShare} V main_arg17) := by rw [(arr_whole0 19).set_eq_univ]; rfl
theorem e20 (c : Dev nD) (V : (b : Ref sig .tc) → Buf (Elt F) ((c : Thread nD τ).loc b)) :
    (((cfg0.win 20).arr.view.loc (c : Thread nD τ)) ↦[(cfg0.win 20).arr.view.set]{(dats m 0 c).share 20} V (Pipeline.arrRef spec0 20) : sProp 𝕄)
      = (((c : Thread nD τ).loc main_v4) ↦{fullShare} V main_v4) := by rw [(arr_whole0 20).set_eq_univ]; rfl
theorem e21 (c : Dev nD) (V : (b : Ref sig .tc) → Buf (Elt F) ((c : Thread nD τ).loc b)) :
    (((cfg0.win 21).arr.view.loc (c : Thread nD τ)) ↦[(cfg0.win 21).arr.view.set]{(dats m 0 c).share 21} V (Pipeline.arrRef spec0 21) : sProp 𝕄)
      = (((c : Thread nD τ).loc main_arg19) ↦{fullShare} V main_arg19) := by rw [(arr_whole0 21).set_eq_univ]; rfl
theorem e22 (c : Dev nD) (V : (b : Ref sig .tc) → Buf (Elt F) ((c : Thread nD τ).loc b)) :
    (((cfg0.win 22).arr.view.loc (c : Thread nD τ)) ↦[(cfg0.win 22).arr.view.set]{(dats m 0 c).share 22} V (Pipeline.arrRef spec0 22) : sProp 𝕄)
      = (((c : Thread nD τ).loc main_v5) ↦{fullShare} V main_v5) := by rw [(arr_whole0 22).set_eq_univ]; rfl
theorem e23 (c : Dev nD) (V : (b : Ref sig .tc) → Buf (Elt F) ((c : Thread nD τ).loc b)) :
    (((cfg0.win 23).arr.view.loc (c : Thread nD τ)) ↦[(cfg0.win 23).arr.view.set]{(dats m 0 c).share 23} V (Pipeline.arrRef spec0 23) : sProp 𝕄)
      = (((c : Thread nD τ).loc main_arg21) ↦{fullShare} V main_arg21) := by rw [(arr_whole0 23).set_eq_univ]; rfl
theorem e24 (c : Dev nD) (V : (b : Ref sig .tc) → Buf (Elt F) ((c : Thread nD τ).loc b)) :
    (((cfg0.win 24).arr.view.loc (c : Thread nD τ)) ↦[(cfg0.win 24).arr.view.set]{(dats m 0 c).share 24} V (Pipeline.arrRef spec0 24) : sProp 𝕄)
      = (((c : Thread nD τ).loc main_v6) ↦{fullShare} V main_v6) := by rw [(arr_whole0 24).set_eq_univ]; rfl
theorem e25 (c : Dev nD) (V : (b : Ref sig .tc) → Buf (Elt F) ((c : Thread nD τ).loc b)) :
    (((cfg0.win 25).arr.view.loc (c : Thread nD τ)) ↦[(cfg0.win 25).arr.view.set]{(dats m 0 c).share 25} V (Pipeline.arrRef spec0 25) : sProp 𝕄)
      = (((c : Thread nD τ).loc main_v7) ↦{fullShare} V main_v7) := by rw [(arr_whole0 25).set_eq_univ]; rfl

set_option maxHeartbeats 8000000 in
/-- The proof data's arrays at `V`, window by window. -/
theorem arrays_chain (c : Dev nD) (V : (b : Ref sig .tc) → Buf (Elt F) ((c : Thread nD τ).loc b)) :
    ((dats m 0 c).arrays fun w => V (Pipeline.arrRef spec0 w))
      = iprop((((c : Thread nD τ).loc main_arg3) ↦{fullShare.left} V main_arg3) ∗ (((c : Thread nD τ).loc main_arg3) ↦{fullShare.right} V main_arg3) ∗ (((c : Thread nD τ).loc main_arg4) ↦{fullShare} V main_arg4) ∗ (((c : Thread nD τ).loc main_arg5) ↦{fullShare.left} V main_arg5) ∗ (((c : Thread nD τ).loc main_arg5) ↦{fullShare.right} V main_arg5) ∗ (((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg6) ↦{fullShare} V main_arg6) ∗ (((c : Thread nD τ).loc main_v0) ↦{fullShare} V main_v0) ∗ (((c : Thread nD τ).loc main_arg8) ↦{fullShare} V main_arg8) ∗ (((c : Thread nD τ).loc main_v1) ↦{fullShare} V main_v1) ∗ (((c : Thread nD τ).loc main_arg10) ↦{fullShare} V main_arg10) ∗ (((c : Thread nD τ).loc main_v2) ↦{fullShare} V main_v2) ∗ (((c : Thread nD τ).loc main_arg12) ↦{fullShare} V main_arg12) ∗ (((c : Thread nD τ).loc main_arg13) ↦{fullShare} V main_arg13) ∗ (((c : Thread nD τ).loc main_arg14) ↦{fullShare} V main_arg14) ∗ (((c : Thread nD τ).loc main_arg15) ↦{fullShare} V main_arg15) ∗ (((c : Thread nD τ).loc main_v3) ↦{fullShare} V main_v3) ∗ (((c : Thread nD τ).loc main_arg17) ↦{fullShare} V main_arg17) ∗ (((c : Thread nD τ).loc main_v4) ↦{fullShare} V main_v4) ∗ (((c : Thread nD τ).loc main_arg19) ↦{fullShare} V main_arg19) ∗ (((c : Thread nD τ).loc main_v5) ↦{fullShare} V main_v5) ∗ (((c : Thread nD τ).loc main_arg21) ↦{fullShare} V main_arg21) ∗ (((c : Thread nD τ).loc main_v6) ↦{fullShare} V main_v6) ∗ (((c : Thread nD τ).loc main_v7) ↦{fullShare} V main_v7)) := by
  unfold Dat.arrays; rw [bigSep_W0]
  simp only [e0 m c V, e1 m c V, e2 m c V, e3 m c V, e4 m c V, e5 m c V, e6 m c V, e7 m c V, e8 m c V, e9 m c V, e10 m c V, e11 m c V, e12 m c V, e13 m c V, e14 m c V, e15 m c V, e16 m c V, e17 m c V, e18 m c V, e19 m c V, e20 m c V, e21 m c V, e22 m c V, e23 m c V, e24 m c V, e25 m c V]

/-- The buffers, each whole at the full share at `V`, make the proof data's arrays at `V`: the two shared buffers are split. -/
theorem arrays_of_arrBufs (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      ⊢ (dats m 0 c).arrays fun w => V (Pipeline.arrRef spec0 w) := by
  rw [arrBufs_chain, arrays_chain]
  iintro ⟨H_arg3, H_arg4, H_arg5, H_arg0, H_arg1, H_arg2, H_arg6, H_v0, H_arg8, H_v1, H_arg10, H_v2, H_arg12, H_arg13, H_arg14, H_arg15, H_v3, H_arg17, H_v4, H_arg19, H_v5, H_arg21, H_v6, H_v7⟩
  ihave H3s := (pointsTo_share (PosShare.mem_left_op_right fullShare)).1 $$ H_arg3
  icases H3s with ⟨H3l, H3r⟩
  ihave H5s := (pointsTo_share (PosShare.mem_left_op_right fullShare)).1 $$ H_arg5
  icases H5s with ⟨H5l, H5r⟩
  isplitl [H3l]; · iexact H3l
  isplitl [H3r]; · iexact H3r
  isplitl [H_arg4]; · iexact H_arg4
  isplitl [H5l]; · iexact H5l
  isplitl [H5r]; · iexact H5r
  isplitl [H_arg0]; · iexact H_arg0
  isplitl [H_arg1]; · iexact H_arg1
  isplitl [H_arg2]; · iexact H_arg2
  isplitl [H_arg6]; · iexact H_arg6
  isplitl [H_v0]; · iexact H_v0
  isplitl [H_arg8]; · iexact H_arg8
  isplitl [H_v1]; · iexact H_v1
  isplitl [H_arg10]; · iexact H_arg10
  isplitl [H_v2]; · iexact H_v2
  isplitl [H_arg12]; · iexact H_arg12
  isplitl [H_arg13]; · iexact H_arg13
  isplitl [H_arg14]; · iexact H_arg14
  isplitl [H_arg15]; · iexact H_arg15
  isplitl [H_v3]; · iexact H_v3
  isplitl [H_arg17]; · iexact H_arg17
  isplitl [H_v4]; · iexact H_v4
  isplitl [H_arg19]; · iexact H_arg19
  isplitl [H_v5]; · iexact H_v5
  isplitl [H_arg21]; · iexact H_arg21
  isplitl [H_v6]; · iexact H_v6
  iexact H_v7

/-- And back: the arrays at `V` give the buffers whole at `V`: the halves are rejoined. -/
theorem arrBufs_of_arrays (c : Dev nD) (V : (b : Ref sig .tc) → Buf (Elt F) ((c : Thread nD τ).loc b)) :
    ((dats m 0 c).arrays fun w => V (Pipeline.arrRef spec0 w))
      ⊢ (Pipeline.arrBufs (Ix := Unit) (Name := ℕ) (U := UR sig nD τ) (Lvl := ℕ) spec0 c V : sProp 𝕄) := by
  rw [arrBufs_chain, arrays_chain]
  iintro ⟨G0, G1, G2, G3, G4, G5, G6, G7, G8, G9, G10, G11, G12, G13, G14, G15, G16, G17, G18, G19, G20, G21, G22, G23, G24, G25⟩
  isplitl [G0 G1]
  · iapply (pointsTo_share (PosShare.mem_left_op_right fullShare)).2
    isplitl [G0] <;> iassumption
  isplitl [G2]; · iexact G2
  isplitl [G3 G4]
  · iapply (pointsTo_share (PosShare.mem_left_op_right fullShare)).2
    isplitl [G3] <;> iassumption
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  isplitl [G23]; · iexact G23
  isplitl [G24]; · iexact G24
  iexact G25

end Cert.Kernel.Hand

end
-- ==== Proof.KLaunchB.lean ====
import proofs.«140626_g76854144795175_cont_sun_m_49_16_alg».proof.Proof.KBodyB
import proofs.«140626_g76854144795175_cont_sun_m_49_16_alg».proof.Proof.KArrB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The buffers' contents through the program -/

/-- At launch. -/
abbrev W0 : Dev nD → Valuation τ sig (Elt F) := fun c b => m ((c : Dev nD), b)
/-- After the region: the result's array at what the pipeline leaves, every other buffer as the region found it. -/
def W2 (c : Dev nD) : Valuation τ sig (Elt F) :=
  Function.update (V0 m c) (Proc.devRef .tc main_v7) ((dats m 0 c).arrAt 25 cfg0.N)
abbrev V2 (c : Dev nD) (b : Ref sig .tc) : Buf (Elt F) ((c : Thread nD τ).loc b) := W2 m c (Proc.devRef .tc b)
/-- After the last reshape. -/
abbrev W3 : Dev nD → Valuation τ sig (Elt F) := fun c => StableHlo.after hostOps1 (W2 m c)

theorem V2_v7 (c : Dev nD) : V2 m c main_v7 = (dats m 0 c).arrAt 25 cfg0.N := Function.update_self ..
theorem V2_of_ne (c : Dev nD) (b : Ref sig .tc) (hb : b ≠ main_v7) : V2 m c b = V m c b :=
  Function.update_of_ne (StableHlo.devRef_ne_of_ne hb) ..

theorem inOf : ∀ w : Fin 26, w ≠ 25 → (cfg0.win w).isOut = false := by decide
theorem arrNe : ∀ w : Fin 26, w ≠ 25 → Pipeline.arrRef spec0 w ≠ main_v7 := by decide

/-- At the region's exit each array holds what `V2` says: an input as the region found it, the result what the pipeline leaves. -/
theorem hF2 (c : Dev nD) : ((dats m 0 c).arrAt · cfg0.N) = fun w => V2 m c (Pipeline.arrRef spec0 w) := by
  funext w
  by_cases h : w = 25
  · subst h; exact (V2_v7 m c).symm
  · rw [(dats m 0 c).arrAt_in w (inOf w h) _, A_eq]; exact (V2_of_ne m c _ (arrNe w h)).symm

/-- Off the arrays the region changes nothing: the bypassing buffers at the exit contents are those at the entry contents. -/
theorem rest_eq (c : Dev nD) :
    (Pipeline.unscopedRest (Ix := Unit) (Name := ℕ) (U := UR sig nD τ) (Lvl := ℕ) spec0 c (V2 m c) : sProp 𝕄)
      = Pipeline.unscopedRest (Ix := Unit) (Name := ℕ) (U := UR sig nD τ) (Lvl := ℕ) spec0 c (V m c) := by
  rw [unscopedRest0_eq c (V2 m c), unscopedRest0_eq c (V m c), V2_of_ne m c main_arg7 (by decide), V2_of_ne m c main_arg9 (by decide), V2_of_ne m c main_arg11 (by decide), V2_of_ne m c main_arg16 (by decide), V2_of_ne m c main_arg18 (by decide), V2_of_ne m c main_arg20 (by decide), V2_of_ne m c main_arg22 (by decide), V2_of_ne m c main_v8 (by decide)]

/-! ### The arguments end as launched: no host operation writes one, and the region reads them only -/

theorem W3_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Function.update_of_ne (StableHlo.devRef_ne_of_ne (by decide)) ..
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Function.update_of_ne (StableHlo.devRef_ne_of_ne (by decide)) ..
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg2) := Function.update_of_ne (StableHlo.devRef_ne_of_ne (by decide)) ..
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg3) := Function.update_of_ne (StableHlo.devRef_ne_of_ne (by decide)) ..
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg4) := Function.update_of_ne (StableHlo.devRef_ne_of_ne (by decide)) ..
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg5) := Function.update_of_ne (StableHlo.devRef_ne_of_ne (by decide)) ..
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg6) := Function.update_of_ne (StableHlo.devRef_ne_of_ne (by decide)) ..
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg7) := Function.update_of_ne (StableHlo.devRef_ne_of_ne (by decide)) ..
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W3_arg8 (c : Dev nD) : W3 m c (Proc.devRef .tc main_arg8) = m ((c : Thread nD τ).loc main_arg8) :=
  calc W3 m c (Proc.devRef .tc main_arg8)
    _ = W2 m c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg8) := Function.update_of_ne (StableHlo.devRef_ne_of_ne (by decide)) ..
    _ = W0 m c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W3_arg9 (c : Dev nD) : W3 m c (Proc.devRef .tc main_arg9) = m ((c : Thread nD τ).loc main_arg9) :=
  calc W3 m c (Proc.devRef .tc main_arg9)
    _ = W2 m c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg9) := Function.update_of_ne (StableHlo.devRef_ne_of_ne (by decide)) ..
    _ = W0 m c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W3_arg10 (c : Dev nD) : W3 m c (Proc.devRef .tc main_arg10) = m ((c : Thread nD τ).loc main_arg10) :=
  calc W3 m c (Proc.devRef .tc main_arg10)
    _ = W2 m c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg10) := Function.update_of_ne (StableHlo.devRef_ne_of_ne (by decide)) ..
    _ = W0 m c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W3_arg11 (c : Dev nD) : W3 m c (Proc.devRef .tc main_arg11) = m ((c : Thread nD τ).loc main_arg11) :=
  calc W3 m c (Proc.devRef .tc main_arg11)
    _ = W2 m c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg11) := Function.update_of_ne (StableHlo.devRef_ne_of_ne (by decide)) ..
    _ = W0 m c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W3_arg12 (c : Dev nD) : W3 m c (Proc.devRef .tc main_arg12) = m ((c : Thread nD τ).loc main_arg12) :=
  calc W3 m c (Proc.devRef .tc main_arg12)
    _ = W2 m c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg12) := Function.update_of_ne (StableHlo.devRef_ne_of_ne (by decide)) ..
    _ = W0 m c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W3_arg13 (c : Dev nD) : W3 m c (Proc.devRef .tc main_arg13) = m ((c : Thread nD τ).loc main_arg13) :=
  calc W3 m c (Proc.devRef .tc main_arg13)
    _ = W2 m c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg13) := Function.update_of_ne (StableHlo.devRef_ne_of_ne (by decide)) ..
    _ = W0 m c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
theorem W3_arg14 (c : Dev nD) : W3 m c (Proc.devRef .tc main_arg14) = m ((c : Thread nD τ).loc main_arg14) :=
  calc W3 m c (Proc.devRef .tc main_arg14)
    _ = W2 m c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg14) := Function.update_of_ne (StableHlo.devRef_ne_of_ne (by decide)) ..
    _ = W0 m c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
theorem W3_arg15 (c : Dev nD) : W3 m c (Proc.devRef .tc main_arg15) = m ((c : Thread nD τ).loc main_arg15) :=
  calc W3 m c (Proc.devRef .tc main_arg15)
    _ = W2 m c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg15) := Function.update_of_ne (StableHlo.devRef_ne_of_ne (by decide)) ..
    _ = W0 m c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
theorem W3_arg16 (c : Dev nD) : W3 m c (Proc.devRef .tc main_arg16) = m ((c : Thread nD τ).loc main_arg16) :=
  calc W3 m c (Proc.devRef .tc main_arg16)
    _ = W2 m c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg16) := Function.update_of_ne (StableHlo.devRef_ne_of_ne (by decide)) ..
    _ = W0 m c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
theorem W3_arg17 (c : Dev nD) : W3 m c (Proc.devRef .tc main_arg17) = m ((c : Thread nD τ).loc main_arg17) :=
  calc W3 m c (Proc.devRef .tc main_arg17)
    _ = W2 m c (Proc.devRef .tc main_arg17) := StableHlo.after_of_forall_not_mem (b := Proc.devRef .tc main_arg17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg17) := Function.update_of_ne (StableHlo.devRef_ne_of_ne (by decide)) ..
    _ = W0 m c (Proc.devRef .tc main_arg17) := StableHlo.after_of_forall_not_mem (b := Proc.devRef .tc main_arg17) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
theorem W3_arg18 (c : Dev nD) : W3 m c (Proc.devRef .tc main_arg18) = m ((c : Thread nD τ).loc main_arg18) :=
  calc W3 m c (Proc.devRef .tc main_arg18)
    _ = W2 m c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg18) := Function.update_of_ne (StableHlo.devRef_ne_of_ne (by decide)) ..
    _ = W0 m c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl
theorem W3_arg19 (c : Dev nD) : W3 m c (Proc.devRef .tc main_arg19) = m ((c : Thread nD τ).loc main_arg19) :=
  calc W3 m c (Proc.devRef .tc main_arg19)
    _ = W2 m c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg19) := Function.update_of_ne (StableHlo.devRef_ne_of_ne (by decide)) ..
    _ = W0 m c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl
theorem W3_arg20 (c : Dev nD) : W3 m c (Proc.devRef .tc main_arg20) = m ((c : Thread nD τ).loc main_arg20) :=
  calc W3 m c (Proc.devRef .tc main_arg20)
    _ = W2 m c (Proc.devRef .tc main_arg20) := StableHlo.after_of_forall_not_mem (b := Proc.devRef .tc main_arg20) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg20) := Function.update_of_ne (StableHlo.devRef_ne_of_ne (by decide)) ..
    _ = W0 m c (Proc.devRef .tc main_arg20) := StableHlo.after_of_forall_not_mem (b := Proc.devRef .tc main_arg20) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl
theorem W3_arg21 (c : Dev nD) : W3 m c (Proc.devRef .tc main_arg21) = m ((c : Thread nD τ).loc main_arg21) :=
  calc W3 m c (Proc.devRef .tc main_arg21)
    _ = W2 m c (Proc.devRef .tc main_arg21) := StableHlo.after_of_forall_not_mem (b := Proc.devRef .tc main_arg21) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg21) := Function.update_of_ne (StableHlo.devRef_ne_of_ne (by decide)) ..
    _ = W0 m c (Proc.devRef .tc main_arg21) := StableHlo.after_of_forall_not_mem (b := Proc.devRef .tc main_arg21) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl
theorem W3_arg22 (c : Dev nD) : W3 m c (Proc.devRef .tc main_arg22) = m ((c : Thread nD τ).loc main_arg22) :=
  calc W3 m c (Proc.devRef .tc main_arg22)
    _ = W2 m c (Proc.devRef .tc main_arg22) := StableHlo.after_of_forall_not_mem (b := Proc.devRef .tc main_arg22) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg22) := Function.update_of_ne (StableHlo.devRef_ne_of_ne (by decide)) ..
    _ = W0 m c (Proc.devRef .tc main_arg22) := StableHlo.after_of_forall_not_mem (b := Proc.devRef .tc main_arg22) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-! ## The region as a segment -/

set_option backward.isDefEq.respectTransparency.types false in
set_option maxHeartbeats 4000000 in
/-- The region over the thread state: entered from every unscoped buffer at the contents after the first reshapes, left
    with the result's array at what the pipeline computes. The arrays are split out of the unscoped buffers (the two shared
    ones by halves) and put back; the scratch buffers are the invariant's; nothing is owed; no semaphore of the kernel's own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V m c) ∗ ∃ r, prngReg c r)
  hentry c := by
    rw [Pipeline.ownSems0_none]
    rw [← Pipeline.unscopedBufs_held c (V0 m c)]
    rw [Pipeline.unscopedBufs_split₀ cfgs (0 : Fin 1) winFacts₀0.arr_unscoped c]
    rw [show ((dats m 0 c).arrAt · 0) = fun w => V m c (Pipeline.arrRef spec0 w) from funext fun w => A_eq m c w]
    iintro ⟨⟨⟨Ha, Hrest⟩, Hp, HO⟩, -, -⟩
    imodintro
    isplitl [Ha]; · iapply (arrays_of_arrBufs m c (V m c)); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (dats m 0 c).Φ 0 = PhiS m c 0 (Nat.zero_le _) from rfl, PhiS_zero m c 0 _ rfl]
    iintro ⟨-, -, Hr⟩
    iapply (Entails.of_eq (scoped_eq c)); iexact Hr
  hout c := by
    rw [Pipeline.ownSems0_none, show (dats m 0 c).Φ (Fin.last _) = PhiS m c cfg0.N (Nat.le_refl _) from rfl,
      PhiS_pos m c _ _ (by have : cfg0.N = 64 := N_0; omega)]
    iintro ⟨H0, H1, H2, H3⟩
    isplitr; · iempintro
    isplitr; · iempintro
    iapply (Entails.of_eq (scoped_eq c).symm)
    isplitl [H0]; · iexists _; iexact H0
    isplitl [H1]; · iexists _; iexact H1
    isplitl [H2]; · iexists _; iexact H2
    iexists _; iexact H3
  hexit c := by
    rw [hF2 m c]
    rw [← Pipeline.unscopedBufs_held c (W2 m c)]
    rw [Pipeline.unscopedBufs_split₀ cfgs (0 : Fin 1) winFacts₀0.arr_unscoped c]
    rw [rest_eq m c]
    iintro ⟨Ha, HO, -, ⟨Hrest, Hp⟩⟩
    imodintro
    isplitl [Ha Hrest]
    · isplitl [Ha]; · iapply (arrBufs_of_arrays m c (V2 m c)); iexact Ha
      iexact Hrest
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (dats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W3 m c) ∗ ∃ r, prngReg c r)

set_option backward.isDefEq.respectTransparency.types false in
set_option maxHeartbeats 4000000 in
/-- From any memory with zero counters every weakly fair execution of @main terminates, nothing faulting, with the result
    buffer at the last valuation's contents and every argument array as launched. -/
theorem run_main : θ_run defs (onTc (τ := τ) (main (F := F))) ⟨m, fun _ => 0, ρ⟩ (fun r => ∀ c : Dev nD,
      r.2.mem ((c.tc : Thread nD τ).loc main_v8) = W3 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c.tc : Thread nD τ) (Pipeline.ucRefs τ sig) (StableHlo.after hostOps1 (W2 m c)) ∗ R c) : sProp 𝕄)
        ⊢ iprop(Tₙ m c ∗ ∃ W, owes (c.tc : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v8 (by decide)), (h c _ (mem_uc main_arg0 (by decide))).trans (W3_arg0 m c), (h c _ (mem_uc main_arg1 (by decide))).trans (W3_arg1 m c), (h c _ (mem_uc main_arg2 (by decide))).trans (W3_arg2 m c), (h c _ (mem_uc main_arg3 (by decide))).trans (W3_arg3 m c), (h c _ (mem_uc main_arg4 (by decide))).trans (W3_arg4 m c), (h c _ (mem_uc main_arg5 (by decide))).trans (W3_arg5 m c), (h c _ (mem_uc main_arg6 (by decide))).trans (W3_arg6 m c), (h c _ (mem_uc main_arg7 (by decide))).trans (W3_arg7 m c), (h c _ (mem_uc main_arg8 (by decide))).trans (W3_arg8 m c), (h c _ (mem_uc main_arg9 (by decide))).trans (W3_arg9 m c), (h c _ (mem_uc main_arg10 (by decide))).trans (W3_arg10 m c), (h c _ (mem_uc main_arg11 (by decide))).trans (W3_arg11 m c), (h c _ (mem_uc main_arg12 (by decide))).trans (W3_arg12 m c), (h c _ (mem_uc main_arg13 (by decide))).trans (W3_arg13 m c), (h c _ (mem_uc main_arg14 (by decide))).trans (W3_arg14 m c), (h c _ (mem_uc main_arg15 (by decide))).trans (W3_arg15 m c), (h c _ (mem_uc main_arg16 (by decide))).trans (W3_arg16 m c), (h c _ (mem_uc main_arg17 (by decide))).trans (W3_arg17 m c), (h c _ (mem_uc main_arg18 (by decide))).trans (W3_arg18 m c), (h c _ (mem_uc main_arg19 (by decide))).trans (W3_arg19 m c), (h c _ (mem_uc main_arg20 (by decide))).trans (W3_arg20 m c), (h c _ (mem_uc main_arg21 (by decide))).trans (W3_arg21 m c), (h c _ (mem_uc main_arg22 (by decide))).trans (W3_arg22 m c)⟩)

end Cert.Kernel.Hand

end
-- ==== Proof.KPreI.lean ====
import proofs.«140626_g76854144795175_cont_sun_m_49_16_alg».proof.Proof.Gen.KernelIdeal.Launch
import proofs.«140626_g76854144795175_cont_sun_m_49_16_alg».proof.Proof.Gen.KernelIdeal.Skeleton
import proofs.«140626_g76854144795175_cont_sun_m_49_16_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branches, from the grid coordinate

The body tests the row-block index `i` four times: `i = 0` (the prologue: project the three ranks' features, form the
three weighted feature arrays in scratch, seed the result with the heads of ranks 0 and 2), `i = 0` again (the running
row sum starts), `i > 0` (it accumulates), `i = 63` (the last block: the rank-1 head is added). -/

abbrev c1 (i : grid0.Coords) : Prop := k0_cond1 i = 1#1
abbrev c2 (i : grid0.Coords) : Prop := (Scalar.cmpi .ne (Scalar.extui (Scalar.cmpi .eq (BitVec.ofNat 32 (i 0).val) 0#32)) 0#32) = 1#1
abbrev c3 (i : grid0.Coords) : Prop := (Scalar.cmpi .ne (Scalar.extui (Scalar.cmpi .sgt (BitVec.ofNat 32 (i 0).val) 0#32)) 0#32) = 1#1
abbrev c4 (i : grid0.Coords) : Prop := k0_cond4 i = 1#1

/-- Over the 64 row blocks: the first two tests hold at block 0 only, the third everywhere else, the fourth at block 63 only. -/
theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val = 0 :=
  (by decide +kernel : ∀ t : Fin grid0.N, c2 (grid0.coords t) ↔ t.val = 0)
theorem hc3 : ∀ t : Fin cfg0.N, c3 (grid0.coords t) ↔ t.val ≠ 0 :=
  (by decide +kernel : ∀ t : Fin grid0.N, c3 (grid0.coords t) ↔ t.val ≠ 0)
theorem hc4 : ∀ t : Fin cfg0.N, c4 (grid0.coords t) ↔ t.val = 63 :=
  (by decide +kernel : ∀ t : Fin grid0.N, c4 (grid0.coords t) ↔ t.val = 63)

/-- Every input window is live at every point; the result window is idle exactly at the blocks strictly between the first and the last. -/
theorem liveIn : ∀ w : Fin 26, w ≠ 25 → ∀ t : Fin cfg0.N, cfg0.idle w (grid0.coords t) = false := by decide +kernel
theorem idleOut : ∀ t : Fin cfg0.N, cfg0.idle 25 (grid0.coords t) = (decide (t.val ≠ 0) && decide (t.val ≠ 63)) := by decide +kernel
theorem flushOut : ∀ t : Fin cfg0.N, (cfg0.win 25).flush t = decide (t.val = 63) := by decide +kernel

/-! ## The memrefs the body is called with -/

abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x64 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S64x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S64x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x64 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x64 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S64x16 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x16 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S64x16 .f32 := win0_21.stage (cfg0.slots t 21)
abbrev hs21 (t : Fin cfg0.N) : (ms21 t).IsWhole := hstage0_21 ((cfg0.slots t 21).cast nbuf0_21)
abbrev ms22 (t : Fin cfg0.N) : Memref sig .tc .vmem S1x16 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S64x16 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S1x16 .f32 := win0_24.stage (cfg0.slots t 24)
abbrev hs24 (t : Fin cfg0.N) : (ms24 t).IsWhole := hstage0_24 ((cfg0.slots t 24).cast nbuf0_24)
abbrev ms25 (t : Fin cfg0.N) : Memref sig .tc .vmem S1x16 .f32 := win0_25.stage (cfg0.slots t 25)
abbrev hs25 (t : Fin cfg0.N) : (ms25 t).IsWhole := hstage0_25 ((cfg0.slots t 25).cast nbuf0_25)
/-- The four scratch operands: the three weighted feature arrays and the running row sum. -/
abbrev scM0 : Memref sig .tc .vmem S8192x64 .f32 := Memref.whole cc0_scratch0
abbrev scM1 : Memref sig .tc .vmem S8192x64 .f32 := Memref.whole cc0_scratch1
abbrev scM2 : Memref sig .tc .vmem S4096x64 .f32 := Memref.whole cc0_scratch2
abbrev scM3 : Memref sig .tc .vmem S1x64 .f32 := Memref.whole cc0_scratch3
/-- Views through which the result's and the scratch buffers' contents are stated. -/
abbrev VO : View sig .tc .vmem S1x16 .f32 := (Memref.whole cc0_stg25_0 : Memref sig .tc .vmem S1x16 .f32).view
abbrev VS0 : View sig .tc .vmem S8192x64 .f32 := scM0.view
abbrev VS1 : View sig .tc .vmem S8192x64 .f32 := scM1.view
abbrev VS2 : View sig .tc .vmem S4096x64 .f32 := scM2.view
abbrev VS3 : View sig .tc .vmem S1x64 .f32 := scM3.view

/-- The scoped buffers no window stages are the four scratch operands, each owned whole at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) := by
  rw [scopedRest0_eq]; simp only [scM0, scM1, scM2, scM3, owns_whole]; try rfl

end Cert.KernelIdeal.Hand

end
-- ==== Proof.KRunAI.lean ====
import proofs.«140626_g76854144795175_cont_sun_m_49_16_alg».proof.Proof.KPreI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole memrefs at given contents, in the case of the stated branch outcomes: it runs to the end, faults
    nowhere, leaves every buffer it only reads as it was and each buffer it stores into with the stored pieces written. -/
noncomputable def runA (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S4096x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x16 .f32) (harg20 : arg20.IsWhole) (arg21 : Memref sig .tc .vmem S1x16 .f32) (harg21 : arg21.IsWhole) (arg22 : Memref sig .tc .vmem S64x16 .f32) (harg22 : arg22.IsWhole) (arg23 : Memref sig .tc .vmem S1x16 .f32) (harg23 : arg23.IsWhole) (arg24 : Memref sig .tc .vmem S64x16 .f32) (harg24 : arg24.IsWhole) (arg25 : Memref sig .tc .vmem S1x16 .f32) (harg25 : arg25.IsWhole) (arg26 : Memref sig .tc .vmem S1x16 .f32) (harg26 : arg26.IsWhole) (arg27 : Memref sig .tc .vmem S8192x64 .f32) (harg27 : arg27.IsWhole) (arg28 : Memref sig .tc .vmem S8192x64 .f32) (harg28 : arg28.IsWhole) (arg29 : Memref sig .tc .vmem S4096x64 .f32) (harg29 : arg29.IsWhole) (arg30 : Memref sig .tc .vmem S1x64 .f32) (harg30 : arg30.IsWhole)
    (h1 : c1 i) (h2 : c2 i) (h3 : ¬c3 i) (h4 : ¬c4 i)
    (x1 : Vec F S128x4096 .f32) (x2 : Vec F S128x4096 .f32) (x3 : Vec F S128x4096 .f32) (x4 : Vec F S128x4096 .f32) (x5 : Vec F S128x4096 .f32) (x6 : Vec F S8192x128 .f32) (x7 : Vec F S8192x128 .f32) (x8 : Vec F S4096x128 .f32) (x9 : Vec F S128x64 .f32) (x10 : Vec F S1x64 .f32) (x11 : Vec F S128x64 .f32) (x12 : Vec F S1x64 .f32) (x13 : Vec F S128x64 .f32) (x14 : Vec F S1x64 .f32) (x15 : Vec F S64x64 .f32) (x16 : Vec F S64x64 .f32) (x17 : Vec F S64x64 .f32) (x18 : Vec F S64x64 .f32) (x19 : Vec F S1x64 .f32) (x20 : Vec F S64x16 .f32) (x21 : Vec F S1x16 .f32) (x22 : Vec F S64x16 .f32) (x23 : Vec F S1x16 .f32) (x24 : Vec F S64x16 .f32) (x25 : Vec F S1x16 .f32) :
    Σ' (L26 : List (View.Piece (Elt F) S1x16 .f32)) (L27 : List (View.Piece (Elt F) S8192x64 .f32)) (L28 : List (View.Piece (Elt F) S8192x64 .f32)) (L29 : List (View.Piece (Elt F) S4096x64 .f32)), { L30 : List (View.Piece (Elt F) S1x64 .f32) //
      ∀ (x26 : Vec F S1x16 .f32) (x27 : Vec F S8192x64 .f32) (x28 : Vec F S8192x64 .f32) (x29 : Vec F S4096x64 .f32) (x30 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ f, arg28.view.loc (c : Thread nD τ) ↦[arg28.view.set]{fullShare} arg28.view.writes (Elt F) f L28) ∗ (∃ f, arg29.view.loc (c : Thread nD τ) ↦[arg29.view.set]{fullShare} arg29.view.writes (Elt F) f L29) ∗ (∃ f, arg30.view.loc (c : Thread nD τ) ↦[arg30.view.set]{fullShare} arg30.view.writes (Elt F) f L30)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, fun x26 x27 x28 x29 x30 E K => ?run⟩
  case run =>
    simp only [cc0__body_eq_skeleton]; unfold cc0__body_skel
    simp only [k0_part3_eq_skeleton]; unfold k0_part3_skel
    simp only [k0_part1_eq_skeleton, k0_part2_eq_skeleton]; unfold k0_part1_skel k0_part2_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | exact h1 | exact h2 | exact h3 | exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; iexact H26
    isplitl [H27]
    · iexists _; iexact H27
    isplitl [H28]
    · iexists _; iexact H28
    isplitl [H29]
    · iexists _; iexact H29
    iexists _; iexact H30

end Cert.KernelIdeal.Hand

end
-- ==== Proof.KRunBI.lean ====
import proofs.«140626_g76854144795175_cont_sun_m_49_16_alg».proof.Proof.KPreI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole memrefs at given contents, in the case of the stated branch outcomes: it runs to the end, faults
    nowhere, leaves every buffer it only reads as it was and each buffer it stores into with the stored pieces written. -/
noncomputable def runB (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S4096x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x16 .f32) (harg20 : arg20.IsWhole) (arg21 : Memref sig .tc .vmem S1x16 .f32) (harg21 : arg21.IsWhole) (arg22 : Memref sig .tc .vmem S64x16 .f32) (harg22 : arg22.IsWhole) (arg23 : Memref sig .tc .vmem S1x16 .f32) (harg23 : arg23.IsWhole) (arg24 : Memref sig .tc .vmem S64x16 .f32) (harg24 : arg24.IsWhole) (arg25 : Memref sig .tc .vmem S1x16 .f32) (harg25 : arg25.IsWhole) (arg26 : Memref sig .tc .vmem S1x16 .f32) (harg26 : arg26.IsWhole) (arg27 : Memref sig .tc .vmem S8192x64 .f32) (harg27 : arg27.IsWhole) (arg28 : Memref sig .tc .vmem S8192x64 .f32) (harg28 : arg28.IsWhole) (arg29 : Memref sig .tc .vmem S4096x64 .f32) (harg29 : arg29.IsWhole) (arg30 : Memref sig .tc .vmem S1x64 .f32) (harg30 : arg30.IsWhole)
    (h1 : ¬c1 i) (h2 : ¬c2 i) (h3 : c3 i) (h4 : ¬c4 i)
    (x1 : Vec F S128x4096 .f32) (x2 : Vec F S128x4096 .f32) (x3 : Vec F S128x4096 .f32) (x4 : Vec F S128x4096 .f32) (x5 : Vec F S128x4096 .f32) (x6 : Vec F S8192x128 .f32) (x7 : Vec F S8192x128 .f32) (x8 : Vec F S4096x128 .f32) (x9 : Vec F S128x64 .f32) (x10 : Vec F S1x64 .f32) (x11 : Vec F S128x64 .f32) (x12 : Vec F S1x64 .f32) (x13 : Vec F S128x64 .f32) (x14 : Vec F S1x64 .f32) (x15 : Vec F S64x64 .f32) (x16 : Vec F S64x64 .f32) (x17 : Vec F S64x64 .f32) (x18 : Vec F S64x64 .f32) (x19 : Vec F S1x64 .f32) (x20 : Vec F S64x16 .f32) (x21 : Vec F S1x16 .f32) (x22 : Vec F S64x16 .f32) (x23 : Vec F S1x16 .f32) (x24 : Vec F S64x16 .f32) (x25 : Vec F S1x16 .f32) (x27 : Vec F S8192x64 .f32) (x28 : Vec F S8192x64 .f32) (x29 : Vec F S4096x64 .f32) (x30 : Vec F S1x64 .f32) :
    { L30 : List (View.Piece (Elt F) S1x64 .f32) //
      ∀ (x26 : Vec F S1x16 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ (∃ f, arg30.view.loc (c : Thread nD τ) ↦[arg30.view.set]{fullShare} arg30.view.writes (Elt F) f L30)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, fun x26 E K => ?run⟩
  case run =>
    simp only [cc0__body_eq_skeleton]; unfold cc0__body_skel
    simp only [k0_part3_eq_skeleton]; unfold k0_part3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | exact h1 | exact h2 | exact h3 | exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    iexists _; iexact H30

end Cert.KernelIdeal.Hand

end
-- ==== Proof.KRunCI.lean ====
import proofs.«140626_g76854144795175_cont_sun_m_49_16_alg».proof.Proof.KPreI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole memrefs at given contents, in the case of the stated branch outcomes: it runs to the end, faults
    nowhere, leaves every buffer it only reads as it was and each buffer it stores into with the stored pieces written. -/
noncomputable def runC (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S4096x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x16 .f32) (harg20 : arg20.IsWhole) (arg21 : Memref sig .tc .vmem S1x16 .f32) (harg21 : arg21.IsWhole) (arg22 : Memref sig .tc .vmem S64x16 .f32) (harg22 : arg22.IsWhole) (arg23 : Memref sig .tc .vmem S1x16 .f32) (harg23 : arg23.IsWhole) (arg24 : Memref sig .tc .vmem S64x16 .f32) (harg24 : arg24.IsWhole) (arg25 : Memref sig .tc .vmem S1x16 .f32) (harg25 : arg25.IsWhole) (arg26 : Memref sig .tc .vmem S1x16 .f32) (harg26 : arg26.IsWhole) (arg27 : Memref sig .tc .vmem S8192x64 .f32) (harg27 : arg27.IsWhole) (arg28 : Memref sig .tc .vmem S8192x64 .f32) (harg28 : arg28.IsWhole) (arg29 : Memref sig .tc .vmem S4096x64 .f32) (harg29 : arg29.IsWhole) (arg30 : Memref sig .tc .vmem S1x64 .f32) (harg30 : arg30.IsWhole)
    (h1 : ¬c1 i) (h2 : ¬c2 i) (h3 : c3 i) (h4 : c4 i)
    (x1 : Vec F S128x4096 .f32) (x2 : Vec F S128x4096 .f32) (x3 : Vec F S128x4096 .f32) (x4 : Vec F S128x4096 .f32) (x5 : Vec F S128x4096 .f32) (x6 : Vec F S8192x128 .f32) (x7 : Vec F S8192x128 .f32) (x8 : Vec F S4096x128 .f32) (x9 : Vec F S128x64 .f32) (x10 : Vec F S1x64 .f32) (x11 : Vec F S128x64 .f32) (x12 : Vec F S1x64 .f32) (x13 : Vec F S128x64 .f32) (x14 : Vec F S1x64 .f32) (x15 : Vec F S64x64 .f32) (x16 : Vec F S64x64 .f32) (x17 : Vec F S64x64 .f32) (x18 : Vec F S64x64 .f32) (x19 : Vec F S1x64 .f32) (x20 : Vec F S64x16 .f32) (x21 : Vec F S1x16 .f32) (x22 : Vec F S64x16 .f32) (x23 : Vec F S1x16 .f32) (x24 : Vec F S64x16 .f32) (x25 : Vec F S1x16 .f32) (x26 : Vec F S1x16 .f32) (x27 : Vec F S8192x64 .f32) (x28 : Vec F S8192x64 .f32) (x29 : Vec F S4096x64 .f32) (x30 : Vec F S1x64 .f32) :
    Σ' (L26 : List (View.Piece (Elt F) S1x16 .f32)), { L30 : List (View.Piece (Elt F) S1x64 .f32) //
      ∀  (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (∃ f, arg26.view.loc (c : Thread nD τ) ↦[arg26.view.set]{fullShare} arg26.view.writes (Elt F) f L26) ∗ owns (c : Thread nD τ) arg27 fullShare x27 ∗ owns (c : Thread nD τ) arg28 fullShare x28 ∗ owns (c : Thread nD τ) arg29 fullShare x29 ∗ (∃ f, arg30.view.loc (c : Thread nD τ) ↦[arg30.view.set]{fullShare} arg30.view.writes (Elt F) f L30)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, fun E K => ?run⟩
  case run =>
    simp only [cc0__body_eq_skeleton]; unfold cc0__body_skel
    simp only [k0_part3_eq_skeleton]; unfold k0_part3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | exact h1 | exact h2 | exact h3 | exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    iexists _; iexact H30

end Cert.KernelIdeal.Hand

end
-- ==== Proof.KDatI.lean ====
import proofs.«140626_g76854144795175_cont_sun_m_49_16_alg».proof.Proof.KRunAI
import proofs.«140626_g76854144795175_cont_sun_m_49_16_alg».proof.Proof.KRunBI
import proofs.«140626_g76854144795175_cont_sun_m_49_16_alg».proof.Proof.KRunCI
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the launch contents after the seven reshapes of the bias vectors. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves, point by point

After a point the kernel's own state is five arrays: the result's staging buffer `o`, the three weighted feature arrays
`z0`, `z1`, `z2` (written once, at the first point) and the running row sum `a`. -/

structure St (F : FTy → Type) where
  o : Vec F S1x16 .f32
  z0 : Vec F S8192x64 .f32
  z1 : Vec F S8192x64 .f32
  z2 : Vec F S4096x64 .f32
  a : Vec F S1x64 .f32

/-- The first point: everything is stored afresh. -/
def stA (c : Dev nD) (t : Fin cfg0.N) (h0 : t.val = 0) : St F :=
  ⟨VO.read (Elt F) (VO.writes (Elt F) VO.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1),
   VS0.read (Elt F) (VS0.writes (Elt F) VS0.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.1),
   VS1.read (Elt F) (VS1.writes (Elt F) VS1.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.1),
   VS2.read (Elt F) (VS2.writes (Elt F) VS2.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.1),
   VS3.read (Elt F) (VS3.writes (Elt F) VS3.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.1)⟩

/-- A point strictly between the first and the last: only the running sum moves. -/
def stB (c : Dev nD) (t : Fin cfg0.N) (h0 : t.val ≠ 0) (h63 : t.val ≠ 63) (p : St F) : St F :=
  ⟨p.o, p.z0, p.z1, p.z2, VS3.read (Elt F) (VS3.writes (Elt F) VS3.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.z0 p.z1 p.z2 p.a).1)⟩

/-- The last point: the running sum moves and the result is rewritten from it. -/
def stC (c : Dev nD) (t : Fin cfg0.N) (h63 : t.val = 63) (p : St F) : St F :=
  ⟨VO.read (Elt F) (VO.writes (Elt F) VO.junk (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).1), p.z0, p.z1, p.z2,
   VS3.read (Elt F) (VS3.writes (Elt F) VS3.junk (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).2.1)⟩

/-- The state after point `n`. -/
def stAt (c : Dev nD) : (n : ℕ) → n < cfg0.N → St F
  | 0, hn => stA m c ⟨0, hn⟩ rfl
  | n + 1, hn =>
    if h63 : n + 1 = 63 then stC m c ⟨n + 1, hn⟩ h63 (stAt c n (Nat.lt_of_succ_lt hn))
    else stB m c ⟨n + 1, hn⟩ (Nat.succ_ne_zero n) h63 (stAt c n (Nat.lt_of_succ_lt hn))

theorem stAt_A (c : Dev nD) (t : Fin cfg0.N) (h0 : t.val = 0) : stAt m c t.val t.isLt = stA m c t h0 := by
  obtain ⟨n, hn⟩ := t
  cases n with
  | zero => rfl
  | succ n => exact absurd h0 (Nat.succ_ne_zero n)

theorem stAt_B (c : Dev nD) (t : Fin cfg0.N) (h0 : t.val ≠ 0) (h63 : t.val ≠ 63) :
    stAt m c t.val t.isLt = stB m c t h0 h63 (stAt m c (t.val - 1) (Nat.lt_of_le_of_lt (Nat.sub_le _ _) t.isLt)) := by
  obtain ⟨n, hn⟩ := t
  cases n with
  | zero => exact absurd rfl h0
  | succ n => exact (dif_neg h63).trans rfl

theorem stAt_C (c : Dev nD) (t : Fin cfg0.N) (h63 : t.val = 63) :
    stAt m c t.val t.isLt = stC m c t h63 (stAt m c (t.val - 1) (Nat.lt_of_le_of_lt (Nat.sub_le _ _) t.isLt)) := by
  obtain ⟨n, hn⟩ := t
  cases n with
  | zero => exact absurd h63 (by show ¬ (0 : ℕ) = 63; decide)
  | succ n => exact (dif_pos h63).trans rfl

/-! ## The invariant between points: the four scratch buffers -/

def PhiS (c : Dev nD) : (n : ℕ) → n ≤ cfg0.N → sProp 𝕄
  | 0, _ => iprop((∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d))
  | n + 1, hn => iprop(owns (c : Thread nD τ) scM0 fullShare (stAt m c n hn).z0 ∗ owns (c : Thread nD τ) scM1 fullShare (stAt m c n hn).z1
      ∗ owns (c : Thread nD τ) scM2 fullShare (stAt m c n hn).z2 ∗ owns (c : Thread nD τ) scM3 fullShare (stAt m c n hn).a)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)) := by
  subst hz; rfl

theorem PhiS_succ (c : Dev nD) (n : ℕ) (hn : n < cfg0.N) :
    PhiS m c (n + 1) hn = iprop(owns (c : Thread nD τ) scM0 fullShare (stAt m c n hn).z0 ∗ owns (c : Thread nD τ) scM1 fullShare (stAt m c n hn).z1
      ∗ owns (c : Thread nD τ) scM2 fullShare (stAt m c n hn).z2 ∗ owns (c : Thread nD τ) scM3 fullShare (stAt m c n hn).a) := rfl

theorem PhiS_pos (c : Dev nD) (n : ℕ) (h : n ≤ cfg0.N) (hz : n ≠ 0) :
    PhiS m c n h = iprop(owns (c : Thread nD τ) scM0 fullShare (stAt m c (n - 1) (by omega)).z0 ∗ owns (c : Thread nD τ) scM1 fullShare (stAt m c (n - 1) (by omega)).z1
      ∗ owns (c : Thread nD τ) scM2 fullShare (stAt m c (n - 1) (by omega)).z2 ∗ owns (c : Thread nD τ) scM3 fullShare (stAt m c (n - 1) (by omega)).a) := by
  cases n with
  | zero => exact absurd rfl hz
  | succ n => rfl

/-! ## The pipeline's proof data -/

/-- The arrays as the region finds them; after the body each input's buffer at its block and the result's at the state's
    `o`; the invariant the scratch buffers at the state; nothing owed. The neighbourhood matrices of ranks 1 and 0 are
    each read through two windows (column halves), which hold half of the array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (stAt m c t.val t.isLt).o
    | ⟨_ + 26, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨23, _⟩ => fullShare
    | ⟨24, _⟩ => fullShare
    | ⟨25, _⟩ => fullShare
    | ⟨_ + 26, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = (stAt m c t.val t.isLt).o := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem before_20 (c : Dev nD) (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem before_21 (c : Dev nD) (t : Fin cfg0.N) (d) : (dats m 0 c).before 21 t d = iblk m c 21 t :=
  ((dats m 0 c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem before_22 (c : Dev nD) (t : Fin cfg0.N) (d) : (dats m 0 c).before 22 t d = iblk m c 22 t :=
  ((dats m 0 c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)
theorem before_23 (c : Dev nD) (t : Fin cfg0.N) (d) : (dats m 0 c).before 23 t d = iblk m c 23 t :=
  ((dats m 0 c).before_in_eq_fetched 23 rfl (fun _ => rfl) (fun _ _ _ => rfl) (fun t => by rw [after_23]; unfold Dat.blockOf iblk; rw [A_eq]; try rfl) t d).trans
    (by unfold Dat.fetched Dat.blockOf iblk; rw [A_eq]; try rfl)
theorem before_24 (c : Dev nD) (t : Fin cfg0.N) (d) : (dats m 0 c).before 24 t d = iblk m c 24 t :=
  ((dats m 0 c).before_in_eq_fetched 24 rfl (fun _ => rfl) (fun _ _ _ => rfl) (fun t => by rw [after_24]; unfold Dat.blockOf iblk; rw [A_eq]; try rfl) t d).trans
    (by unfold Dat.fetched Dat.blockOf iblk; rw [A_eq]; try rfl)

/-- The result's buffer is fresh at the first point only: it is written back at the last. -/
theorem freshOut : ∀ t : Fin cfg0.N, t.val ≠ 0 → cfg0.fresh 25 t.val = false := by decide +kernel

/-- The result's buffer, after the first point, holds what the point before left: between the first and the last
    point nothing stores into it and nothing writes it back. -/
theorem before_25 (c : Dev nD) (t : Fin cfg0.N) (ht : t.val ≠ 0) (d) :
    (dats m 0 c).before 25 t d = (stAt m c (t.val - 1) (Nat.lt_of_le_of_lt (Nat.sub_le _ _) t.isLt)).o := by
  have h := (dats m 0 c).before_out_traj 25 rfl (fun _ _ => rfl)
    (fun t ht hi _ => by
      rw [after_25, after_25]
      rw [idleOut t] at hi
      simp only [Bool.and_eq_true, decide_eq_true_eq] at hi
      rw [stAt_B m c t hi.1 hi.2]; rfl)
    t.val t rfl d
  rw [h, after_25]
  rw [freshOut t ht]; rfl

end Cert.KernelIdeal.Hand

end
-- ==== Proof.KBodyI.lean ====
import proofs.«140626_g76854144795175_cont_sun_m_49_16_alg».proof.Proof.KDatI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Where the result window is live, idle, written back. -/
theorem liveOut0 : ∀ t : Fin cfg0.N, t.val = 0 → cfg0.idle 25 (grid0.coords t) = false := by decide +kernel
theorem liveOut63 : ∀ t : Fin cfg0.N, t.val = 63 → cfg0.idle 25 (grid0.coords t) = false := by decide +kernel
theorem idleMid : ∀ t : Fin cfg0.N, t.val ≠ 0 → t.val ≠ 63 → cfg0.idle 25 (grid0.coords t) = true := by decide +kernel
theorem noFlushMid : ∀ t : Fin cfg0.N, t.val ≠ 63 → (cfg0.win 25).flush t = false := by decide +kernel

/-! ## The stored pieces cover their buffers -/

theorem coverA_o (c : Dev nD) (t : Fin cfg0.N) (h0 : t.val = 0) (y : S1x16.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).1 S1x16.size (by sl_kernel_rfl) y
theorem coverA_z0 (c : Dev nD) (t : Fin cfg0.N) (h0 : t.val = 0) (y : S8192x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.1 S8192x64.size (by sl_kernel_rfl) y
theorem coverA_z1 (c : Dev nD) (t : Fin cfg0.N) (h0 : t.val = 0) (y : S8192x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.1 S8192x64.size (by sl_kernel_rfl) y
theorem coverA_z2 (c : Dev nD) (t : Fin cfg0.N) (h0 : t.val = 0) (y : S4096x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.1 S4096x64.size (by sl_kernel_rfl) y
theorem coverA_a (c : Dev nD) (t : Fin cfg0.N) (h0 : t.val = 0) (y : S1x64.Idx) : ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.1 S1x64.size (by sl_kernel_rfl) y
theorem coverB_a (c : Dev nD) (t : Fin cfg0.N) (h0 : t.val ≠ 0) (h63 : t.val ≠ 63) (p : St F) (y : S1x64.Idx) : ∃ pc ∈ (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.z0 p.z1 p.z2 p.a).1, y ∈ pc.1.set :=
  View.cover_of_tiledL (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.z0 p.z1 p.z2 p.a).1 S1x64.size (by sl_kernel_rfl) y
theorem coverC_o (c : Dev nD) (t : Fin cfg0.N) (h63 : t.val = 63) (p : St F) (y : S1x16.Idx) : ∃ pc ∈ (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).1, y ∈ pc.1.set :=
  View.cover_of_tiledL (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).1 S1x16.size (by sl_kernel_rfl) y
theorem coverC_a (c : Dev nD) (t : Fin cfg0.N) (h63 : t.val = 63) (p : St F) (y : S1x64.Idx) : ∃ pc ∈ (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).2.1, y ∈ pc.1.set :=
  View.cover_of_tiledL (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p.o p.z0 p.z1 p.z2 p.a).2.1 S1x64.size (by sl_kernel_rfl) y

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d))
    ∗ (∃ d, owns (c : Thread nD τ) (ms24 t) fullShare ((dats m 0 c).before 24 t d))
    ∗ (∃ d, owns (c : Thread nD τ) (ms25 t) fullShare ((dats m 0 c).before 25 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

set_option maxHeartbeats 16000000 in
/-- At any point the body, handed the invariant and every window's current buffer, runs to the next point's invariant
    and the buffers as the proof data names them: the closed forms of the branch tests say which of the three cases the
    point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn 0 (by decide) t], after_0]
  rw [show (dats m 0 c).leavesExact 1 t = owns (c : Thread nD τ) (ms1 t) fullShare ((dats m 0 c).after 1 t) from by
    unfold Dat.leavesExact; rw [liveIn 1 (by decide) t], after_1]
  rw [show (dats m 0 c).leavesExact 2 t = owns (c : Thread nD τ) (ms2 t) fullShare ((dats m 0 c).after 2 t) from by
    unfold Dat.leavesExact; rw [liveIn 2 (by decide) t], after_2]
  rw [show (dats m 0 c).leavesExact 3 t = owns (c : Thread nD τ) (ms3 t) fullShare ((dats m 0 c).after 3 t) from by
    unfold Dat.leavesExact; rw [liveIn 3 (by decide) t], after_3]
  rw [show (dats m 0 c).leavesExact 4 t = owns (c : Thread nD τ) (ms4 t) fullShare ((dats m 0 c).after 4 t) from by
    unfold Dat.leavesExact; rw [liveIn 4 (by decide) t], after_4]
  rw [show (dats m 0 c).leavesExact 5 t = owns (c : Thread nD τ) (ms5 t) fullShare ((dats m 0 c).after 5 t) from by
    unfold Dat.leavesExact; rw [liveIn 5 (by decide) t], after_5]
  rw [show (dats m 0 c).leavesExact 6 t = owns (c : Thread nD τ) (ms6 t) fullShare ((dats m 0 c).after 6 t) from by
    unfold Dat.leavesExact; rw [liveIn 6 (by decide) t], after_6]
  rw [show (dats m 0 c).leavesExact 7 t = owns (c : Thread nD τ) (ms7 t) fullShare ((dats m 0 c).after 7 t) from by
    unfold Dat.leavesExact; rw [liveIn 7 (by decide) t], after_7]
  rw [show (dats m 0 c).leavesExact 8 t = owns (c : Thread nD τ) (ms8 t) fullShare ((dats m 0 c).after 8 t) from by
    unfold Dat.leavesExact; rw [liveIn 8 (by decide) t], after_8]
  rw [show (dats m 0 c).leavesExact 9 t = owns (c : Thread nD τ) (ms9 t) fullShare ((dats m 0 c).after 9 t) from by
    unfold Dat.leavesExact; rw [liveIn 9 (by decide) t], after_9]
  rw [show (dats m 0 c).leavesExact 10 t = owns (c : Thread nD τ) (ms10 t) fullShare ((dats m 0 c).after 10 t) from by
    unfold Dat.leavesExact; rw [liveIn 10 (by decide) t], after_10]
  rw [show (dats m 0 c).leavesExact 11 t = owns (c : Thread nD τ) (ms11 t) fullShare ((dats m 0 c).after 11 t) from by
    unfold Dat.leavesExact; rw [liveIn 11 (by decide) t], after_11]
  rw [show (dats m 0 c).leavesExact 12 t = owns (c : Thread nD τ) (ms12 t) fullShare ((dats m 0 c).after 12 t) from by
    unfold Dat.leavesExact; rw [liveIn 12 (by decide) t], after_12]
  rw [show (dats m 0 c).leavesExact 13 t = owns (c : Thread nD τ) (ms13 t) fullShare ((dats m 0 c).after 13 t) from by
    unfold Dat.leavesExact; rw [liveIn 13 (by decide) t], after_13]
  rw [show (dats m 0 c).leavesExact 14 t = owns (c : Thread nD τ) (ms14 t) fullShare ((dats m 0 c).after 14 t) from by
    unfold Dat.leavesExact; rw [liveIn 14 (by decide) t], after_14]
  rw [show (dats m 0 c).leavesExact 15 t = owns (c : Thread nD τ) (ms15 t) fullShare ((dats m 0 c).after 15 t) from by
    unfold Dat.leavesExact; rw [liveIn 15 (by decide) t], after_15]
  rw [show (dats m 0 c).leavesExact 16 t = owns (c : Thread nD τ) (ms16 t) fullShare ((dats m 0 c).after 16 t) from by
    unfold Dat.leavesExact; rw [liveIn 16 (by decide) t], after_16]
  rw [show (dats m 0 c).leavesExact 17 t = owns (c : Thread nD τ) (ms17 t) fullShare ((dats m 0 c).after 17 t) from by
    unfold Dat.leavesExact; rw [liveIn 17 (by decide) t], after_17]
  rw [show (dats m 0 c).leavesExact 18 t = owns (c : Thread nD τ) (ms18 t) fullShare ((dats m 0 c).after 18 t) from by
    unfold Dat.leavesExact; rw [liveIn 18 (by decide) t], after_18]
  rw [show (dats m 0 c).leavesExact 19 t = owns (c : Thread nD τ) (ms19 t) fullShare ((dats m 0 c).after 19 t) from by
    unfold Dat.leavesExact; rw [liveIn 19 (by decide) t], after_19]
  rw [show (dats m 0 c).leavesExact 20 t = owns (c : Thread nD τ) (ms20 t) fullShare ((dats m 0 c).after 20 t) from by
    unfold Dat.leavesExact; rw [liveIn 20 (by decide) t], after_20]
  rw [show (dats m 0 c).leavesExact 21 t = owns (c : Thread nD τ) (ms21 t) fullShare ((dats m 0 c).after 21 t) from by
    unfold Dat.leavesExact; rw [liveIn 21 (by decide) t], after_21]
  rw [show (dats m 0 c).leavesExact 22 t = owns (c : Thread nD τ) (ms22 t) fullShare ((dats m 0 c).after 22 t) from by
    unfold Dat.leavesExact; rw [liveIn 22 (by decide) t], after_22]
  rw [show (dats m 0 c).leavesExact 23 t = owns (c : Thread nD τ) (ms23 t) fullShare ((dats m 0 c).after 23 t) from by
    unfold Dat.leavesExact; rw [liveIn 23 (by decide) t], after_23]
  rw [show (dats m 0 c).leavesExact 24 t = owns (c : Thread nD τ) (ms24 t) fullShare ((dats m 0 c).after 24 t) from by
    unfold Dat.leavesExact; rw [liveIn 24 (by decide) t], after_24]
  by_cases h0 : t.val = 0
  · rw [show (dats m 0 c).leavesExact 25 t = owns (c : Thread nD τ) (ms25 t) fullShare ((dats m 0 c).after 25 t) from by
      unfold Dat.leavesExact; rw [liveOut0 t h0], after_25]
    rw [stAt_A m c t h0]
    unfold stA; dsimp only
    rw [PhiS_castSucc m c t, PhiS_zero m c _ _ h0]
    iintro ⟨⟨⟨%e0, HS0⟩, ⟨%e1, HS1⟩, ⟨%e2, HS2⟩, ⟨%e3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) ((hc1 t).mpr h0) ((hc2 t).mpr h0) (fun h => (hc3 t).mp h h0) (fun h => absurd ((hc4 t).mp h) (by rw [h0]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.2 _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, ⟨%f25, H25⟩, ⟨%f0, HS0⟩, ⟨%f1, HS1⟩, ⟨%f2, HS2⟩, ⟨%f3, HS3⟩⟩
    isplitl [HS0 HS1 HS2 HS3]
    · isplitl [HS0]
      · unfold owns; iexists _; isplitr
        swap; · iexact HS0
        ipureintro; exact View.read_writes_of_cover _ _ _ _ _ (coverA_z0 m c t h0)
      isplitl [HS1]
      · unfold owns; iexists _; isplitr
        swap; · iexact HS1
        ipureintro; exact View.read_writes_of_cover _ _ _ _ _ (coverA_z1 m c t h0)
      isplitl [HS2]
      · unfold owns; iexists _; isplitr
        swap; · iexact HS2
        ipureintro; exact View.read_writes_of_cover _ _ _ _ _ (coverA_z2 m c t h0)
      unfold owns; iexists _; isplitr
      swap; · iexact HS3
      ipureintro; exact View.read_writes_of_cover _ _ _ _ _ (coverA_a m c t h0)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    unfold owns; iexists _; isplitr
    swap; · iexact H25
    ipureintro; exact View.read_writes_of_cover _ _ _ _ _ (coverA_o m c t h0)
  · by_cases h63 : t.val = 63
    · rw [show (dats m 0 c).leavesExact 25 t = owns (c : Thread nD τ) (ms25 t) fullShare ((dats m 0 c).after 25 t) from by
        unfold Dat.leavesExact; rw [liveOut63 t h63], after_25]
      simp only [before_25 m c t h0]
      rw [stAt_C m c t h63]
      unfold stC; dsimp only
      rw [PhiS_castSucc m c t, PhiS_pos m c _ _ h0]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => absurd ((hc1 t).mp h) (by rw [h63]; decide)) (fun h => absurd ((hc2 t).mp h) (by rw [h63]; decide)) ((hc3 t).mpr (by rw [h63]; decide)) ((hc4 t).mpr h63) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (stAt m c (t.val - 1) (Nat.lt_of_le_of_lt (Nat.sub_le _ _) t.isLt)).o (stAt m c (t.val - 1) (Nat.lt_of_le_of_lt (Nat.sub_le _ _) t.isLt)).z0 (stAt m c (t.val - 1) (Nat.lt_of_le_of_lt (Nat.sub_le _ _) t.isLt)).z1 (stAt m c (t.val - 1) (Nat.lt_of_le_of_lt (Nat.sub_le _ _) t.isLt)).z2 (stAt m c (t.val - 1) (Nat.lt_of_le_of_lt (Nat.sub_le _ _) t.isLt)).a).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, H21, H22, H23, H24, ⟨%f25, H25⟩, HS0, HS1, HS2, ⟨%f3, HS3⟩⟩
      isplitl [HS0 HS1 HS2 HS3]
      · isplitl [HS0]; · iexact HS0
        isplitl [HS1]; · iexact HS1
        isplitl [HS2]; · iexact HS2
        unfold owns; iexists _; isplitr
        swap; · iexact HS3
        ipureintro; exact View.read_writes_of_cover _ _ _ _ _ (coverC_a m c t h63 (stAt m c (t.val - 1) (Nat.lt_of_le_of_lt (Nat.sub_le _ _) t.isLt)))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      unfold owns; iexists _; isplitr
      swap; · iexact H25
      ipureintro; exact View.read_writes_of_cover _ _ _ _ _ (coverC_o m c t h63 (stAt m c (t.val - 1) (Nat.lt_of_le_of_lt (Nat.sub_le _ _) t.isLt)))
    · rw [Dat.leavesExact_idle (dats m 0 c) 25 t (idleMid t h0 h63) (noFlushMid t h63)]
      rw [stAt_B m c t h0 h63]
      unfold stB; dsimp only
      rw [PhiS_castSucc m c t, PhiS_pos m c _ _ h0]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) scM0 (Memref.isWhole_whole _) scM1 (Memref.isWhole_whole _) scM2 (Memref.isWhole_whole _) scM3 (Memref.isWhole_whole _) (fun h => h0 ((hc1 t).mp h)) (fun h => h0 ((hc2 t).mp h)) ((hc3 t).mpr h0) (fun h => h63 ((hc4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (stAt m c (t.val - 1) (Nat.lt_of_le_of_lt (Nat.sub_le _ _) t.isLt)).z0 (stAt m c (t.val - 1) (Nat.lt_of_le_of_lt (Nat.sub_le _ _) t.isLt)).z1 (stAt m c (t.val - 1) (Nat.lt_of_le_of_lt (Nat.sub_le _ _) t.isLt)).z2 (stAt m c (t.val - 1) (Nat.lt_of_le_of_lt (Nat.sub_le _ _) t.isLt)).a).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, H21, H22, H23, H24, H25, HS0, HS1, HS2, ⟨%f3, HS3⟩⟩
      isplitl [HS0 HS1 HS2 HS3]
      · isplitl [HS0]; · iexact HS0
        isplitl [HS1]; · iexact HS1
        isplitl [HS2]; · iexact HS2
        unfold owns; iexists _; isplitr
        swap; · iexact HS3
        ipureintro; exact View.read_writes_of_cover _ _ _ _ _ (coverB_a m c t h0 h63 (stAt m c (t.val - 1) (Nat.lt_of_le_of_lt (Nat.sub_le _ _) t.isLt)))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexists _; iexact H25

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KVal.lean ====
import proofs.«140626_g76854144795175_cont_sun_m_49_16_alg».proof.Proof.Gen.KernelIdeal.Skeleton
import Idealize.ShloMosaic.Lib.Pipeline.FrameBody

set_option synthInstance.maxSize 4096

noncomputable section

namespace Cert.KernelIdeal.Gen.KVal

open Idealize.ShloMosaic Idealize.SL.Sem

variable {F : FTy → Type} [FloatOps F]

/-! The kernel's own state after each grid point, as pure functions of the blocks its 25 input windows hold.

    `B w t` is what input window `w` holds at point `t`. Windows 0 and 1 hold the left and right column halves of a
    128-row slab of the rank-1 neighbourhood matrix, window 2 a 128-row slab of the rank-2-to-1 matrix, windows 3 and 4 the
    halves of a slab of the rank-0-to-1 matrix; every other window holds its whole array at every point. The state is the
    result's staging buffer `o`, the three weighted feature arrays `z0`, `z1`, `z2` and the running row sum `a`. -/

/-- The upper and the lower 4096 rows of an 8192-row array. -/
def topH (z : Vec F S8192x64 .f32) : Vec F S4096x64 .f32 :=
  View.ld z (Rect.unit (s := S8192x64) ![0, 0] S4096x64.size inb_S8192x64_S4096x64_0_0)
def botH (z : Vec F S8192x64 .f32) : Vec F S4096x64 .f32 :=
  View.ld z (Rect.unit (s := S8192x64) ![4096, 0] S4096x64.size inb_S8192x64_S4096x64_4096_0)

structure KSt (F : FTy → Type) where
  o : Vec F S1x16 .f32
  z0 : Vec F S8192x64 .f32
  z1 : Vec F S8192x64 .f32
  z2 : Vec F S4096x64 .f32
  a : Vec F S1x64 .f32

/-- The three weighted feature arrays, formed at the first point: projected features (dense layer, unit) times the
    message weights. -/
def kz0 (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (t : Fin cfg0.N) : Vec F S8192x64 .f32 := k0_pay10 (k0_pay5 (B5 t) (B8 t) (B9 t)) (B16 t)
def kz1 (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (t : Fin cfg0.N) : Vec F S8192x64 .f32 := k0_pay11 (k0_pay6 (B6 t) (B10 t) (B11 t)) (B14 t)
def kz2 (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (t : Fin cfg0.N) : Vec F S4096x64 .f32 := k0_pay12 (k0_pay7 (B7 t) (B12 t) (B13 t)) k0_pay8 (B15 t)
/-- The result seeded with the averaged heads of ranks 0 and 2. -/
def ko0 (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (t : Fin cfg0.N) : Vec F S1x16 .f32 :=
  k0_pay16 (k0_pay13 (k0_pay7 (B7 t) (B12 t) (B13 t)) k0_pay8) (k0_pay14 (k0_pay5 (B5 t) (B8 t) (B9 t)) (B19 t))
    (k0_pay15 (B20 t)) (B23 t) (B24 t)

/-- The first point. -/
def kA (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (t : Fin cfg0.N) : KSt F :=
  let z : KSt F := ⟨ko0 B0 B1 B2 B3 B4 B5 B6 B7 B8 B9 B10 B11 B12 B13 B14 B15 B16 B17 B18 B19 B20 B21 B22 B23 B24 t, kz0 B0 B1 B2 B3 B4 B5 B6 B7 B8 B9 B10 B11 B12 B13 B14 B15 B16 B17 B18 B19 B20 B21 B22 B23 B24 t, kz1 B0 B1 B2 B3 B4 B5 B6 B7 B8 B9 B10 B11 B12 B13 B14 B15 B16 B17 B18 B19 B20 B21 B22 B23 B24 t, kz2 B0 B1 B2 B3 B4 B5 B6 B7 B8 B9 B10 B11 B12 B13 B14 B15 B16 B17 B18 B19 B20 B21 B22 B23 B24 t, fun _ => Scalar.ofBits .f32 0x00000000#32⟩
  ⟨z.o, z.z0, z.z1, z.z2, k0_pay2 (k0_pay17 (B2 t) z.z2) (k0_pay18 (B3 t) (topH z.z0) (B4 t) (botH z.z0)) (k0_pay19 (B0 t) (topH z.z1) (B1 t) (botH z.z1)) (k0_pay20 (B2 t) z.z2) (B17 t) (B18 t)⟩

/-- A point strictly between the first and the last: the slab's row sum is added to the running sum. -/
def kB (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (t : Fin cfg0.N) (p : KSt F) : KSt F :=
  ⟨p.o, p.z0, p.z1, p.z2, k0_pay3 (k0_pay17 (B2 t) p.z2) (k0_pay18 (B3 t) (topH p.z0) (B4 t) (botH p.z0)) (k0_pay19 (B0 t) (topH p.z1) (B1 t) (botH p.z1)) (k0_pay20 (B2 t) p.z2) (B17 t) (B18 t) p.a⟩

/-- The last point: the same, then the rank-1 head of the averaged sum is added to the result. -/
def kC (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (t : Fin cfg0.N) (p : KSt F) : KSt F :=
  ⟨k0_pay4 (k0_pay3 (k0_pay17 (B2 t) p.z2) (k0_pay18 (B3 t) (topH p.z0) (B4 t) (botH p.z0)) (k0_pay19 (B0 t) (topH p.z1) (B1 t) (botH p.z1)) (k0_pay20 (B2 t) p.z2) (B17 t) (B18 t) p.a) p.o (B21 t) (B22 t), p.z0, p.z1, p.z2,
   k0_pay3 (k0_pay17 (B2 t) p.z2) (k0_pay18 (B3 t) (topH p.z0) (B4 t) (botH p.z0)) (k0_pay19 (B0 t) (topH p.z1) (B1 t) (botH p.z1)) (k0_pay20 (B2 t) p.z2) (B17 t) (B18 t) p.a⟩

/-- The state after point `n`. -/
def kAt (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) : (n : ℕ) → n < cfg0.N → KSt F
  | 0, hn => kA B0 B1 B2 B3 B4 B5 B6 B7 B8 B9 B10 B11 B12 B13 B14 B15 B16 B17 B18 B19 B20 B21 B22 B23 B24 ⟨0, hn⟩
  | n + 1, hn =>
    if n + 1 = 63 then kC B0 B1 B2 B3 B4 B5 B6 B7 B8 B9 B10 B11 B12 B13 B14 B15 B16 B17 B18 B19 B20 B21 B22 B23 B24 ⟨n + 1, hn⟩ (kAt B0 B1 B2 B3 B4 B5 B6 B7 B8 B9 B10 B11 B12 B13 B14 B15 B16 B17 B18 B19 B20 B21 B22 B23 B24 n (Nat.lt_of_succ_lt hn))
    else kB B0 B1 B2 B3 B4 B5 B6 B7 B8 B9 B10 B11 B12 B13 B14 B15 B16 B17 B18 B19 B20 B21 B22 B23 B24 ⟨n + 1, hn⟩ (kAt B0 B1 B2 B3 B4 B5 B6 B7 B8 B9 B10 B11 B12 B13 B14 B15 B16 B17 B18 B19 B20 B21 B22 B23 B24 n (Nat.lt_of_succ_lt hn))

/-- What the program returns: the result after the last point, as a length-16 vector. -/
def result (B0 : Fin cfg0.N → Vec F S128x4096 .f32) (B1 : Fin cfg0.N → Vec F S128x4096 .f32) (B2 : Fin cfg0.N → Vec F S128x4096 .f32) (B3 : Fin cfg0.N → Vec F S128x4096 .f32) (B4 : Fin cfg0.N → Vec F S128x4096 .f32) (B5 : Fin cfg0.N → Vec F S8192x128 .f32) (B6 : Fin cfg0.N → Vec F S8192x128 .f32) (B7 : Fin cfg0.N → Vec F S4096x128 .f32) (B8 : Fin cfg0.N → Vec F S128x64 .f32) (B9 : Fin cfg0.N → Vec F S1x64 .f32) (B10 : Fin cfg0.N → Vec F S128x64 .f32) (B11 : Fin cfg0.N → Vec F S1x64 .f32) (B12 : Fin cfg0.N → Vec F S128x64 .f32) (B13 : Fin cfg0.N → Vec F S1x64 .f32) (B14 : Fin cfg0.N → Vec F S64x64 .f32) (B15 : Fin cfg0.N → Vec F S64x64 .f32) (B16 : Fin cfg0.N → Vec F S64x64 .f32) (B17 : Fin cfg0.N → Vec F S64x64 .f32) (B18 : Fin cfg0.N → Vec F S1x64 .f32) (B19 : Fin cfg0.N → Vec F S64x16 .f32) (B20 : Fin cfg0.N → Vec F S1x16 .f32) (B21 : Fin cfg0.N → Vec F S64x16 .f32) (B22 : Fin cfg0.N → Vec F S1x16 .f32) (B23 : Fin cfg0.N → Vec F S64x16 .f32) (B24 : Fin cfg0.N → Vec F S1x16 .f32) (h63 : 63 < cfg0.N) : FVec F S16 .f32 :=
  shapeCast S16 (kAt B0 B1 B2 B3 B4 B5 B6 B7 B8 B9 B10 B11 B12 B13 B14 B15 B16 B17 B18 B19 B20 B21 B22 B23 B24 63 h63).o shapeCasts_S1x16_S16

end Cert.KernelIdeal.Gen.KVal

end
-- ==== Proof.KStepI.lean ====
import proofs.«140626_g76854144795175_cont_sun_m_49_16_alg».proof.Proof.KBodyI
import proofs.«140626_g76854144795175_cont_sun_m_49_16_alg».proof.Proof.KVal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Two zeros, however spelt. -/
theorem hz2 : (![0, 0] : Fin 2 → ℕ) = fun _ => 0 := by funext a; fin_cases a <;> rfl

/-- Reading a scratch buffer that holds `X` reads `X`. -/
theorem rd_sc0 (h : scM0.IsWhole) (X : Vec F S8192x64 .f32) : View.read (Elt F) scM0.view (h.unread X) = X := h.read_unread X
theorem rd_sc1 (h : scM1.IsWhole) (X : Vec F S8192x64 .f32) : View.read (Elt F) scM1.view (h.unread X) = X := h.read_unread X
theorem rd_sc2 (h : scM2.IsWhole) (X : Vec F S4096x64 .f32) : View.read (Elt F) scM2.view (h.unread X) = X := h.read_unread X
theorem rd_sc3 (h : scM3.IsWhole) (X : Vec F S1x64 .f32) : View.read (Elt F) scM3.view (h.unread X) = X := h.read_unread X
theorem rd_sc0' (h : scM0.IsWhole) (X : Vec F S8192x64 .f32) : View.read (Elt F) (View.whole cc0_scratch0) (h.unread X) = X := h.read_unread X
theorem rd_sc1' (h : scM1.IsWhole) (X : Vec F S8192x64 .f32) : View.read (Elt F) (View.whole cc0_scratch1) (h.unread X) = X := h.read_unread X
theorem rd_sc2' (h : scM2.IsWhole) (X : Vec F S4096x64 .f32) : View.read (Elt F) (View.whole cc0_scratch2) (h.unread X) = X := h.read_unread X
theorem rd_sc3' (h : scM3.IsWhole) (X : Vec F S1x64 .f32) : View.read (Elt F) (View.whole cc0_scratch3) (h.unread X) = X := h.read_unread X

/-- A load through any rectangle of what ONE whole store left reads the stored payload at the rectangle's indices. -/
theorem readCov_whole_ld {sig' : RefSig} {κ : Kind} {sp : Space} {S : Shape} {e : EltTy} {Val : EltTy → Type} [∀ e, Nonempty (Val e)]
    (v : View sig' κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩), View.canon_unit_zero h]

/-! ## What each case leaves, as payload functions of the blocks and the state before -/

set_option maxHeartbeats 4000000 in
theorem stB_a (c : Dev nD) (t : Fin cfg0.N) (h0 : t.val ≠ 0) (h63 : t.val ≠ 63) (p : St F) :
    (stB m c t h0 h63 p).a = k0_pay3 (k0_pay17 (iblk m c 2 t) p.z2) (k0_pay18 (iblk m c 3 t) (View.ld p.z0 (Rect.unit (s := S8192x64) ![0, 0] S4096x64.size inb_S8192x64_S4096x64_0_0)) (iblk m c 4 t) (View.ld p.z0 (Rect.unit (s := S8192x64) ![4096, 0] S4096x64.size inb_S8192x64_S4096x64_4096_0))) (k0_pay19 (iblk m c 0 t) (View.ld p.z1 (Rect.unit (s := S8192x64) ![0, 0] S4096x64.size inb_S8192x64_S4096x64_0_0)) (iblk m c 1 t) (View.ld p.z1 (Rect.unit (s := S8192x64) ![4096, 0] S4096x64.size inb_S8192x64_S4096x64_4096_0))) (k0_pay20 (iblk m c 2 t) p.z2) (iblk m c 17 t) (iblk m c 18 t) p.a := by
  unfold stB; dsimp only
  rw [View.read_writes_eq_canon _ _ _ (coverB_a m c t h0 h63 p)]
  unfold runB; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

set_option maxHeartbeats 4000000 in
theorem stC_a (c : Dev nD) (t : Fin cfg0.N) (h63 : t.val = 63) (p : St F) :
    (stC m c t h63 p).a = k0_pay3 (k0_pay17 (iblk m c 2 t) p.z2) (k0_pay18 (iblk m c 3 t) (View.ld p.z0 (Rect.unit (s := S8192x64) ![0, 0] S4096x64.size inb_S8192x64_S4096x64_0_0)) (iblk m c 4 t) (View.ld p.z0 (Rect.unit (s := S8192x64) ![4096, 0] S4096x64.size inb_S8192x64_S4096x64_4096_0))) (k0_pay19 (iblk m c 0 t) (View.ld p.z1 (Rect.unit (s := S8192x64) ![0, 0] S4096x64.size inb_S8192x64_S4096x64_0_0)) (iblk m c 1 t) (View.ld p.z1 (Rect.unit (s := S8192x64) ![4096, 0] S4096x64.size inb_S8192x64_S4096x64_4096_0))) (k0_pay20 (iblk m c 2 t) p.z2) (iblk m c 17 t) (iblk m c 18 t) p.a := by
  unfold stC; dsimp only
  rw [View.read_writes_eq_canon _ _ _ (coverC_a m c t h63 p)]
  unfold runC; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

set_option maxHeartbeats 4000000 in
theorem stC_o (c : Dev nD) (t : Fin cfg0.N) (h63 : t.val = 63) (p : St F) :
    (stC m c t h63 p).o = k0_pay4 (k0_pay3 (k0_pay17 (iblk m c 2 t) p.z2) (k0_pay18 (iblk m c 3 t) (View.ld p.z0 (Rect.unit (s := S8192x64) ![0, 0] S4096x64.size inb_S8192x64_S4096x64_0_0)) (iblk m c 4 t) (View.ld p.z0 (Rect.unit (s := S8192x64) ![4096, 0] S4096x64.size inb_S8192x64_S4096x64_4096_0))) (k0_pay19 (iblk m c 0 t) (View.ld p.z1 (Rect.unit (s := S8192x64) ![0, 0] S4096x64.size inb_S8192x64_S4096x64_0_0)) (iblk m c 1 t) (View.ld p.z1 (Rect.unit (s := S8192x64) ![4096, 0] S4096x64.size inb_S8192x64_S4096x64_4096_0))) (k0_pay20 (iblk m c 2 t) p.z2) (iblk m c 17 t) (iblk m c 18 t) p.a) p.o (iblk m c 21 t) (iblk m c 22 t) := by
  unfold stC; dsimp only
  rw [View.read_writes_eq_canon _ _ _ (coverC_o m c t h63 p)]
  unfold runC; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

set_option maxHeartbeats 4000000 in
theorem stA_z0 (c : Dev nD) (t : Fin cfg0.N) (h0 : t.val = 0) : (stA m c t h0).z0 = (k0_pay10 (k0_pay5 (iblk m c 5 t) (iblk m c 8 t) (iblk m c 9 t)) (iblk m c 16 t)) := by
  unfold stA; dsimp only
  rw [View.read_writes_eq_canon _ _ _ (coverA_z0 m c t h0)]
  unfold runA; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

set_option maxHeartbeats 4000000 in
theorem stA_z1 (c : Dev nD) (t : Fin cfg0.N) (h0 : t.val = 0) : (stA m c t h0).z1 = (k0_pay11 (k0_pay6 (iblk m c 6 t) (iblk m c 10 t) (iblk m c 11 t)) (iblk m c 14 t)) := by
  unfold stA; dsimp only
  rw [View.read_writes_eq_canon _ _ _ (coverA_z1 m c t h0)]
  unfold runA; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

set_option maxHeartbeats 4000000 in
theorem stA_z2 (c : Dev nD) (t : Fin cfg0.N) (h0 : t.val = 0) : (stA m c t h0).z2 = (k0_pay12 (k0_pay7 (iblk m c 7 t) (iblk m c 12 t) (iblk m c 13 t)) k0_pay8 (iblk m c 15 t)) := by
  unfold stA; dsimp only
  rw [View.read_writes_eq_canon _ _ _ (coverA_z2 m c t h0)]
  unfold runA; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

set_option maxHeartbeats 4000000 in
theorem stA_o (c : Dev nD) (t : Fin cfg0.N) (h0 : t.val = 0) : (stA m c t h0).o = (k0_pay16 (k0_pay13 (k0_pay7 (iblk m c 7 t) (iblk m c 12 t) (iblk m c 13 t)) k0_pay8) (k0_pay14 (k0_pay5 (iblk m c 5 t) (iblk m c 8 t) (iblk m c 9 t)) (iblk m c 19 t)) (k0_pay15 (iblk m c 20 t)) (iblk m c 23 t) (iblk m c 24 t)) := by
  unfold stA; dsimp only
  rw [View.read_writes_eq_canon _ _ _ (coverA_o m c t h0)]
  unfold runA; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

set_option maxHeartbeats 4000000 in
theorem stA_a (c : Dev nD) (t : Fin cfg0.N) (h0 : t.val = 0) : (stA m c t h0).a = k0_pay2 (k0_pay17 (iblk m c 2 t) (k0_pay12 (k0_pay7 (iblk m c 7 t) (iblk m c 12 t) (iblk m c 13 t)) k0_pay8 (iblk m c 15 t))) (k0_pay18 (iblk m c 3 t) (View.ld (k0_pay10 (k0_pay5 (iblk m c 5 t) (iblk m c 8 t) (iblk m c 9 t)) (iblk m c 16 t)) (Rect.unit (s := S8192x64) ![0, 0] S4096x64.size inb_S8192x64_S4096x64_0_0)) (iblk m c 4 t) (View.ld (k0_pay10 (k0_pay5 (iblk m c 5 t) (iblk m c 8 t) (iblk m c 9 t)) (iblk m c 16 t)) (Rect.unit (s := S8192x64) ![4096, 0] S4096x64.size inb_S8192x64_S4096x64_4096_0))) (k0_pay19 (iblk m c 0 t) (View.ld (k0_pay11 (k0_pay6 (iblk m c 6 t) (iblk m c 10 t) (iblk m c 11 t)) (iblk m c 14 t)) (Rect.unit (s := S8192x64) ![0, 0] S4096x64.size inb_S8192x64_S4096x64_0_0)) (iblk m c 1 t) (View.ld (k0_pay11 (k0_pay6 (iblk m c 6 t) (iblk m c 10 t) (iblk m c 11 t)) (iblk m c 14 t)) (Rect.unit (s := S8192x64) ![4096, 0] S4096x64.size inb_S8192x64_S4096x64_4096_0))) (k0_pay20 (iblk m c 2 t) (k0_pay12 (k0_pay7 (iblk m c 7 t) (iblk m c 12 t) (iblk m c 13 t)) k0_pay8 (iblk m c 15 t))) (iblk m c 17 t) (iblk m c 18 t) := by
  unfold stA; dsimp only
  rw [View.read_writes_eq_canon _ _ _ (coverA_a m c t h0)]
  unfold runA; dsimp only
  sl_unfold_words
  (try dsimp only)
  simp only [View.canon_unit_zero (S := S1x64) hz2, View.canon_unit_zero (S := S1x16) hz2, View.canon_unit_zero (S := S8192x64) hz2, View.canon_unit_zero (S := S4096x64) hz2, View.readAt_eq_ld, Memref.IsWhole.read_unread, rd_sc0, rd_sc1, rd_sc2, rd_sc3, rd_sc0', rd_sc1', rd_sc2', rd_sc3', View.ld_unit_zero (S := S128x4096) hz2, View.ld_unit_zero (S := S8192x128) hz2, View.ld_unit_zero (S := S4096x128) hz2, View.ld_unit_zero (S := S128x64) hz2, View.ld_unit_zero (S := S1x64) hz2, View.ld_unit_zero (S := S64x64) hz2, View.ld_unit_zero (S := S64x16) hz2, View.ld_unit_zero (S := S1x16) hz2, View.ld_unit_zero (S := S8192x64) hz2, View.ld_unit_zero (S := S4096x64) hz2, View.readCov_unit_zero (S := S1x64) _ hz2, View.readCov_unit_zero (S := S1x16) _ hz2, View.readCov_unit_zero (S := S8192x64) _ hz2, View.readCov_unit_zero (S := S4096x64) _ hz2, readCov_whole_ld (S := S8192x64) _ hz2, KVal.topH, KVal.botH]
  (try rfl)

end Cert.KernelIdeal.Hand

end
-- ==== Proof.KValI.lean ====
import proofs.«140626_g76854144795175_cont_sun_m_49_16_alg».proof.Proof.KStepI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The state the frame run names is the pure recursion over the blocks -/

/-- What each input window holds at each point. -/
abbrev Bf0 (c : Dev nD) : Fin cfg0.N → Vec F S128x4096 .f32 := fun t => iblk m c 0 t
abbrev Bf1 (c : Dev nD) : Fin cfg0.N → Vec F S128x4096 .f32 := fun t => iblk m c 1 t
abbrev Bf2 (c : Dev nD) : Fin cfg0.N → Vec F S128x4096 .f32 := fun t => iblk m c 2 t
abbrev Bf3 (c : Dev nD) : Fin cfg0.N → Vec F S128x4096 .f32 := fun t => iblk m c 3 t
abbrev Bf4 (c : Dev nD) : Fin cfg0.N → Vec F S128x4096 .f32 := fun t => iblk m c 4 t
abbrev Bf5 (c : Dev nD) : Fin cfg0.N → Vec F S8192x128 .f32 := fun t => iblk m c 5 t
abbrev Bf6 (c : Dev nD) : Fin cfg0.N → Vec F S8192x128 .f32 := fun t => iblk m c 6 t
abbrev Bf7 (c : Dev nD) : Fin cfg0.N → Vec F S4096x128 .f32 := fun t => iblk m c 7 t
abbrev Bf8 (c : Dev nD) : Fin cfg0.N → Vec F S128x64 .f32 := fun t => iblk m c 8 t
abbrev Bf9 (c : Dev nD) : Fin cfg0.N → Vec F S1x64 .f32 := fun t => iblk m c 9 t
abbrev Bf10 (c : Dev nD) : Fin cfg0.N → Vec F S128x64 .f32 := fun t => iblk m c 10 t
abbrev Bf11 (c : Dev nD) : Fin cfg0.N → Vec F S1x64 .f32 := fun t => iblk m c 11 t
abbrev Bf12 (c : Dev nD) : Fin cfg0.N → Vec F S128x64 .f32 := fun t => iblk m c 12 t
abbrev Bf13 (c : Dev nD) : Fin cfg0.N → Vec F S1x64 .f32 := fun t => iblk m c 13 t
abbrev Bf14 (c : Dev nD) : Fin cfg0.N → Vec F S64x64 .f32 := fun t => iblk m c 14 t
abbrev Bf15 (c : Dev nD) : Fin cfg0.N → Vec F S64x64 .f32 := fun t => iblk m c 15 t
abbrev Bf16 (c : Dev nD) : Fin cfg0.N → Vec F S64x64 .f32 := fun t => iblk m c 16 t
abbrev Bf17 (c : Dev nD) : Fin cfg0.N → Vec F S64x64 .f32 := fun t => iblk m c 17 t
abbrev Bf18 (c : Dev nD) : Fin cfg0.N → Vec F S1x64 .f32 := fun t => iblk m c 18 t
abbrev Bf19 (c : Dev nD) : Fin cfg0.N → Vec F S64x16 .f32 := fun t => iblk m c 19 t
abbrev Bf20 (c : Dev nD) : Fin cfg0.N → Vec F S1x16 .f32 := fun t => iblk m c 20 t
abbrev Bf21 (c : Dev nD) : Fin cfg0.N → Vec F S64x16 .f32 := fun t => iblk m c 21 t
abbrev Bf22 (c : Dev nD) : Fin cfg0.N → Vec F S1x16 .f32 := fun t => iblk m c 22 t
abbrev Bf23 (c : Dev nD) : Fin cfg0.N → Vec F S64x16 .f32 := fun t => iblk m c 23 t
abbrev Bf24 (c : Dev nD) : Fin cfg0.N → Vec F S1x16 .f32 := fun t => iblk m c 24 t

set_option maxHeartbeats 8000000 in
/-- After every point the five arrays of the kernel's state are those of the pure recursion. -/
theorem stAt_eq (c : Dev nD) : ∀ (n : ℕ) (hn : n < cfg0.N),
    (stAt m c n hn).o = (KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) n hn).o ∧ (stAt m c n hn).z0 = (KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) n hn).z0
      ∧ (stAt m c n hn).z1 = (KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) n hn).z1 ∧ (stAt m c n hn).z2 = (KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) n hn).z2
      ∧ (stAt m c n hn).a = (KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) n hn).a
  | 0, hn => by
    have e1 : stAt m c 0 hn = stA m c ⟨0, hn⟩ rfl := rfl
    have e2 : KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) 0 hn = KVal.kA (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) ⟨0, hn⟩ := rfl
    rw [e1, e2]
    refine ⟨?_, ?_, ?_, ?_, ?_⟩
    · rw [stA_o]; rfl
    · rw [stA_z0]; rfl
    · rw [stA_z1]; rfl
    · rw [stA_z2]; rfl
    · rw [stA_a]; rfl
  | n + 1, hn => by
    obtain ⟨io, i0, i1, i2, ia⟩ := stAt_eq c n (Nat.lt_of_succ_lt hn)
    by_cases h63 : n + 1 = 63
    · have e1 : stAt m c (n + 1) hn = stC m c ⟨n + 1, hn⟩ h63 (stAt m c n (Nat.lt_of_succ_lt hn)) := dif_pos h63
      have e2 : KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) (n + 1) hn = KVal.kC (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) ⟨n + 1, hn⟩ (KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) n (Nat.lt_of_succ_lt hn)) := if_pos h63
      rw [e1, e2]
      refine ⟨?_, i0, i1, i2, ?_⟩
      · rw [stC_o, io, i0, i1, i2, ia]; rfl
      · rw [stC_a, i0, i1, i2, ia]; rfl
    · have e1 : stAt m c (n + 1) hn = stB m c ⟨n + 1, hn⟩ (Nat.succ_ne_zero n) h63 (stAt m c n (Nat.lt_of_succ_lt hn)) := dif_neg h63
      have e2 : KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) (n + 1) hn = KVal.kB (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) ⟨n + 1, hn⟩ (KVal.kAt (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) n (Nat.lt_of_succ_lt hn)) := if_neg h63
      rw [e1, e2]
      refine ⟨io, i0, i1, i2, ?_⟩
      rw [stB_a, i0, i1, i2, ia]; rfl

end Cert.KernelIdeal.Hand

end
-- ==== Proof.KArrI.lean ====
import proofs.«140626_g76854144795175_cont_sun_m_49_16_alg».proof.Proof.KDatI
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' arrays and the buffers behind them

Twenty-six windows read twenty-four buffers: the neighbourhood matrix of rank 1 is read through windows 0 and 1 (its
left and right column halves), that of rank 0 through windows 3 and 4. Each such pair holds its buffer by halves of the
share; every other window holds its buffer whole. -/

abbrev arrRefs : List (Ref sig .tc) := [main_arg3, main_arg4, main_arg5, main_arg0, main_arg1, main_arg2, main_arg6, main_v0, main_arg8, main_v1, main_arg10, main_v2, main_arg12, main_arg13, main_arg14, main_arg15, main_v3, main_arg17, main_v4, main_arg19, main_v5, main_arg21, main_v6, main_v7]

/-- The distinct buffers behind the arrays, one by one, each whole at the full share. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg6) ↦{fullShare} V main_arg6) ∗ (((c : Thread nD τ).loc main_v0) ↦{fullShare} V main_v0) ∗ (((c : Thread nD τ).loc main_arg8) ↦{fullShare} V main_arg8) ∗ (((c : Thread nD τ).loc main_v1) ↦{fullShare} V main_v1) ∗ (((c : Thread nD τ).loc main_arg10) ↦{fullShare} V main_arg10) ∗ (((c : Thread nD τ).loc main_v2) ↦{fullShare} V main_v2) ∗ (((c : Thread nD τ).loc main_arg12) ↦{fullShare} V main_arg12) ∗ (((c : Thread nD τ).loc main_arg13) ↦{fullShare} V main_arg13) ∗ (((c : Thread nD τ).loc main_arg14) ↦{fullShare} V main_arg14) ∗ (((c : Thread nD τ).loc main_arg15) ↦{fullShare} V main_arg15) ∗ (((c : Thread nD τ).loc main_v3) ↦{fullShare} V main_v3) ∗ (((c : Thread nD τ).loc main_arg17) ↦{fullShare} V main_arg17) ∗ (((c : Thread nD τ).loc main_v4) ↦{fullShare} V main_v4) ∗ (((c : Thread nD τ).loc main_arg19) ↦{fullShare} V main_arg19) ∗ (((c : Thread nD τ).loc main_v5) ↦{fullShare} V main_v5) ∗ (((c : Thread nD τ).loc main_arg21) ↦{fullShare} V main_arg21) ∗ (((c : Thread nD τ).loc main_v6) ↦{fullShare} V main_v6) ∗ (((c : Thread nD τ).loc main_v7) ↦{fullShare} V main_v7)) := by
  unfold Pipeline.arrBufs; exact bigSep_eq_bigSepL_of_eq arrRefs (by decide) (by decide) _

/-- Each window's array is a whole buffer, held at the window's share. -/
theorem e0 (c : Dev nD) (V : (b : Ref sig .tc) → Buf (Elt F) ((c : Thread nD τ).loc b)) :
    (((cfg0.win 0).arr.view.loc (c : Thread nD τ)) ↦[(cfg0.win 0).arr.view.set]{(dats m 0 c).share 0} V (Pipeline.arrRef spec0 0) : sProp 𝕄)
      = (((c : Thread nD τ).loc main_arg3) ↦{fullShare.left} V main_arg3) := by rw [(arr_whole0 0).set_eq_univ]; rfl
theorem e1 (c : Dev nD) (V : (b : Ref sig .tc) → Buf (Elt F) ((c : Thread nD τ).loc b)) :
    (((cfg0.win 1).arr.view.loc (c : Thread nD τ)) ↦[(cfg0.win 1).arr.view.set]{(dats m 0 c).share 1} V (Pipeline.arrRef spec0 1) : sProp 𝕄)
      = (((c : Thread nD τ).loc main_arg3) ↦{fullShare.right} V main_arg3) := by rw [(arr_whole0 1).set_eq_univ]; rfl
theorem e2 (c : Dev nD) (V : (b : Ref sig .tc) → Buf (Elt F) ((c : Thread nD τ).loc b)) :
    (((cfg0.win 2).arr.view.loc (c : Thread nD τ)) ↦[(cfg0.win 2).arr.view.set]{(dats m 0 c).share 2} V (Pipeline.arrRef spec0 2) : sProp 𝕄)
      = (((c : Thread nD τ).loc main_arg4) ↦{fullShare} V main_arg4) := by rw [(arr_whole0 2).set_eq_univ]; rfl
theorem e3 (c : Dev nD) (V : (b : Ref sig .tc) → Buf (Elt F) ((c : Thread nD τ).loc b)) :
    (((cfg0.win 3).arr.view.loc (c : Thread nD τ)) ↦[(cfg0.win 3).arr.view.set]{(dats m 0 c).share 3} V (Pipeline.arrRef spec0 3) : sProp 𝕄)
      = (((c : Thread nD τ).loc main_arg5) ↦{fullShare.left} V main_arg5) := by rw [(arr_whole0 3).set_eq_univ]; rfl
theorem e4 (c : Dev nD) (V : (b : Ref sig .tc) → Buf (Elt F) ((c : Thread nD τ).loc b)) :
    (((cfg0.win 4).arr.view.loc (c : Thread nD τ)) ↦[(cfg0.win 4).arr.view.set]{(dats m 0 c).share 4} V (Pipeline.arrRef spec0 4) : sProp 𝕄)
      = (((c : Thread nD τ).loc main_arg5) ↦{fullShare.right} V main_arg5) := by rw [(arr_whole0 4).set_eq_univ]; rfl
theorem e5 (c : Dev nD) (V : (b : Ref sig .tc) → Buf (Elt F) ((c : Thread nD τ).loc b)) :
    (((cfg0.win 5).arr.view.loc (c : Thread nD τ)) ↦[(cfg0.win 5).arr.view.set]{(dats m 0 c).share 5} V (Pipeline.arrRef spec0 5) : sProp 𝕄)
      = (((c : Thread nD τ).loc main_arg0) ↦{fullShare} V main_arg0) := by rw [(arr_whole0 5).set_eq_univ]; rfl
theorem e6 (c : Dev nD) (V : (b : Ref sig .tc) → Buf (Elt F) ((c : Thread nD τ).loc b)) :
    (((cfg0.win 6).arr.view.loc (c : Thread nD τ)) ↦[(cfg0.win 6).arr.view.set]{(dats m 0 c).share 6} V (Pipeline.arrRef spec0 6) : sProp 𝕄)
      = (((c : Thread nD τ).loc main_arg1) ↦{fullShare} V main_arg1) := by rw [(arr_whole0 6).set_eq_univ]; rfl
theorem e7 (c : Dev nD) (V : (b : Ref sig .tc) → Buf (Elt F) ((c : Thread nD τ).loc b)) :
    (((cfg0.win 7).arr.view.loc (c : Thread nD τ)) ↦[(cfg0.win 7).arr.view.set]{(dats m 0 c).share 7} V (Pipeline.arrRef spec0 7) : sProp 𝕄)
      = (((c : Thread nD τ).loc main_arg2) ↦{fullShare} V main_arg2) := by rw [(arr_whole0 7).set_eq_univ]; rfl
theorem e8 (c : Dev nD) (V : (b : Ref sig .tc) → Buf (Elt F) ((c : Thread nD τ).loc b)) :
    (((cfg0.win 8).arr.view.loc (c : Thread nD τ)) ↦[(cfg0.win 8).arr.view.set]{(dats m 0 c).share 8} V (Pipeline.arrRef spec0 8) : sProp 𝕄)
      = (((c : Thread nD τ).loc main_arg6) ↦{fullShare} V main_arg6) := by rw [(arr_whole0 8).set_eq_univ]; rfl
theorem e9 (c : Dev nD) (V : (b : Ref sig .tc) → Buf (Elt F) ((c : Thread nD τ).loc b)) :
    (((cfg0.win 9).arr.view.loc (c : Thread nD τ)) ↦[(cfg0.win 9).arr.view.set]{(dats m 0 c).share 9} V (Pipeline.arrRef spec0 9) : sProp 𝕄)
      = (((c : Thread nD τ).loc main_v0) ↦{fullShare} V main_v0) := by rw [(arr_whole0 9).set_eq_univ]; rfl
theorem e10 (c : Dev nD) (V : (b : Ref sig .tc) → Buf (Elt F) ((c : Thread nD τ).loc b)) :
    (((cfg0.win 10).arr.view.loc (c : Thread nD τ)) ↦[(cfg0.win 10).arr.view.set]{(dats m 0 c).share 10} V (Pipeline.arrRef spec0 10) : sProp 𝕄)
      = (((c : Thread nD τ).loc main_arg8) ↦{fullShare} V main_arg8) := by rw [(arr_whole0 10).set_eq_univ]; rfl
theorem e11 (c : Dev nD) (V : (b : Ref sig .tc) → Buf (Elt F) ((c : Thread nD τ).loc b)) :
    (((cfg0.win 11).arr.view.loc (c : Thread nD τ)) ↦[(cfg0.win 11).arr.view.set]{(dats m 0 c).share 11} V (Pipeline.arrRef spec0 11) : sProp 𝕄)
      = (((c : Thread nD τ).loc main_v1) ↦{fullShare} V main_v1) := by rw [(arr_whole0 11).set_eq_univ]; rfl
theorem e12 (c : Dev nD) (V : (b : Ref sig .tc) → Buf (Elt F) ((c : Thread nD τ).loc b)) :
    (((cfg0.win 12).arr.view.loc (c : Thread nD τ)) ↦[(cfg0.win 12).arr.view.set]{(dats m 0 c).share 12} V (Pipeline.arrRef spec0 12) : sProp 𝕄)
      = (((c : Thread nD τ).loc main_arg10) ↦{fullShare} V main_arg10) := by rw [(arr_whole0 12).set_eq_univ]; rfl
theorem e13 (c : Dev nD) (V : (b : Ref sig .tc) → Buf (Elt F) ((c : Thread nD τ).loc b)) :
    (((cfg0.win 13).arr.view.loc (c : Thread nD τ)) ↦[(cfg0.win 13).arr.view.set]{(dats m 0 c).share 13} V (Pipeline.arrRef spec0 13) : sProp 𝕄)
      = (((c : Thread nD τ).loc main_v2) ↦{fullShare} V main_v2) := by rw [(arr_whole0 13).set_eq_univ]; rfl
theorem e14 (c : Dev nD) (V : (b : Ref sig .tc) → Buf (Elt F) ((c : Thread nD τ).loc b)) :
    (((cfg0.win 14).arr.view.loc (c : Thread nD τ)) ↦[(cfg0.win 14).arr.view.set]{(dats m 0 c).share 14} V (Pipeline.arrRef spec0 14) : sProp 𝕄)
      = (((c : Thread nD τ).loc main_arg12) ↦{fullShare} V main_arg12) := by rw [(arr_whole0 14).set_eq_univ]; rfl
theorem e15 (c : Dev nD) (V : (b : Ref sig .tc) → Buf (Elt F) ((c : Thread nD τ).loc b)) :
    (((cfg0.win 15).arr.view.loc (c : Thread nD τ)) ↦[(cfg0.win 15).arr.view.set]{(dats m 0 c).share 15} V (Pipeline.arrRef spec0 15) : sProp 𝕄)
      = (((c : Thread nD τ).loc main_arg13) ↦{fullShare} V main_arg13) := by rw [(arr_whole0 15).set_eq_univ]; rfl
theorem e16 (c : Dev nD) (V : (b : Ref sig .tc) → Buf (Elt F) ((c : Thread nD τ).loc b)) :
    (((cfg0.win 16).arr.view.loc (c : Thread nD τ)) ↦[(cfg0.win 16).arr.view.set]{(dats m 0 c).share 16} V (Pipeline.arrRef spec0 16) : sProp 𝕄)
      = (((c : Thread nD τ).loc main_arg14) ↦{fullShare} V main_arg14) := by rw [(arr_whole0 16).set_eq_univ]; rfl
theorem e17 (c : Dev nD) (V : (b : Ref sig .tc) → Buf (Elt F) ((c : Thread nD τ).loc b)) :
    (((cfg0.win 17).arr.view.loc (c : Thread nD τ)) ↦[(cfg0.win 17).arr.view.set]{(dats m 0 c).share 17} V (Pipeline.arrRef spec0 17) : sProp 𝕄)
      = (((c : Thread nD τ).loc main_arg15) ↦{fullShare} V main_arg15) := by rw [(arr_whole0 17).set_eq_univ]; rfl
theorem e18 (c : Dev nD) (V : (b : Ref sig .tc) → Buf (Elt F) ((c : Thread nD τ).loc b)) :
    (((cfg0.win 18).arr.view.loc (c : Thread nD τ)) ↦[(cfg0.win 18).arr.view.set]{(dats m 0 c).share 18} V (Pipeline.arrRef spec0 18) : sProp 𝕄)
      = (((c : Thread nD τ).loc main_v3) ↦{fullShare} V main_v3) := by rw [(arr_whole0 18).set_eq_univ]; rfl
theorem e19 (c : Dev nD) (V : (b : Ref sig .tc) → Buf (Elt F) ((c : Thread nD τ).loc b)) :
    (((cfg0.win 19).arr.view.loc (c : Thread nD τ)) ↦[(cfg0.win 19).arr.view.set]{(dats m 0 c).share 19} V (Pipeline.arrRef spec0 19) : sProp 𝕄)
      = (((c : Thread nD τ).loc main_arg17) ↦{fullShare} V main_arg17) := by rw [(arr_whole0 19).set_eq_univ]; rfl
theorem e20 (c : Dev nD) (V : (b : Ref sig .tc) → Buf (Elt F) ((c : Thread nD τ).loc b)) :
    (((cfg0.win 20).arr.view.loc (c : Thread nD τ)) ↦[(cfg0.win 20).arr.view.set]{(dats m 0 c).share 20} V (Pipeline.arrRef spec0 20) : sProp 𝕄)
      = (((c : Thread nD τ).loc main_v4) ↦{fullShare} V main_v4) := by rw [(arr_whole0 20).set_eq_univ]; rfl
theorem e21 (c : Dev nD) (V : (b : Ref sig .tc) → Buf (Elt F) ((c : Thread nD τ).loc b)) :
    (((cfg0.win 21).arr.view.loc (c : Thread nD τ)) ↦[(cfg0.win 21).arr.view.set]{(dats m 0 c).share 21} V (Pipeline.arrRef spec0 21) : sProp 𝕄)
      = (((c : Thread nD τ).loc main_arg19) ↦{fullShare} V main_arg19) := by rw [(arr_whole0 21).set_eq_univ]; rfl
theorem e22 (c : Dev nD) (V : (b : Ref sig .tc) → Buf (Elt F) ((c : Thread nD τ).loc b)) :
    (((cfg0.win 22).arr.view.loc (c : Thread nD τ)) ↦[(cfg0.win 22).arr.view.set]{(dats m 0 c).share 22} V (Pipeline.arrRef spec0 22) : sProp 𝕄)
      = (((c : Thread nD τ).loc main_v5) ↦{fullShare} V main_v5) := by rw [(arr_whole0 22).set_eq_univ]; rfl
theorem e23 (c : Dev nD) (V : (b : Ref sig .tc) → Buf (Elt F) ((c : Thread nD τ).loc b)) :
    (((cfg0.win 23).arr.view.loc (c : Thread nD τ)) ↦[(cfg0.win 23).arr.view.set]{(dats m 0 c).share 23} V (Pipeline.arrRef spec0 23) : sProp 𝕄)
      = (((c : Thread nD τ).loc main_arg21) ↦{fullShare} V main_arg21) := by rw [(arr_whole0 23).set_eq_univ]; rfl
theorem e24 (c : Dev nD) (V : (b : Ref sig .tc) → Buf (Elt F) ((c : Thread nD τ).loc b)) :
    (((cfg0.win 24).arr.view.loc (c : Thread nD τ)) ↦[(cfg0.win 24).arr.view.set]{(dats m 0 c).share 24} V (Pipeline.arrRef spec0 24) : sProp 𝕄)
      = (((c : Thread nD τ).loc main_v6) ↦{fullShare} V main_v6) := by rw [(arr_whole0 24).set_eq_univ]; rfl
theorem e25 (c : Dev nD) (V : (b : Ref sig .tc) → Buf (Elt F) ((c : Thread nD τ).loc b)) :
    (((cfg0.win 25).arr.view.loc (c : Thread nD τ)) ↦[(cfg0.win 25).arr.view.set]{(dats m 0 c).share 25} V (Pipeline.arrRef spec0 25) : sProp 𝕄)
      = (((c : Thread nD τ).loc main_v7) ↦{fullShare} V main_v7) := by rw [(arr_whole0 25).set_eq_univ]; rfl

set_option maxHeartbeats 8000000 in
/-- The proof data's arrays at `V`, window by window. -/
theorem arrays_chain (c : Dev nD) (V : (b : Ref sig .tc) → Buf (Elt F) ((c : Thread nD τ).loc b)) :
    ((dats m 0 c).arrays fun w => V (Pipeline.arrRef spec0 w))
      = iprop((((c : Thread nD τ).loc main_arg3) ↦{fullShare.left} V main_arg3) ∗ (((c : Thread nD τ).loc main_arg3) ↦{fullShare.right} V main_arg3) ∗ (((c : Thread nD τ).loc main_arg4) ↦{fullShare} V main_arg4) ∗ (((c : Thread nD τ).loc main_arg5) ↦{fullShare.left} V main_arg5) ∗ (((c : Thread nD τ).loc main_arg5) ↦{fullShare.right} V main_arg5) ∗ (((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg6) ↦{fullShare} V main_arg6) ∗ (((c : Thread nD τ).loc main_v0) ↦{fullShare} V main_v0) ∗ (((c : Thread nD τ).loc main_arg8) ↦{fullShare} V main_arg8) ∗ (((c : Thread nD τ).loc main_v1) ↦{fullShare} V main_v1) ∗ (((c : Thread nD τ).loc main_arg10) ↦{fullShare} V main_arg10) ∗ (((c : Thread nD τ).loc main_v2) ↦{fullShare} V main_v2) ∗ (((c : Thread nD τ).loc main_arg12) ↦{fullShare} V main_arg12) ∗ (((c : Thread nD τ).loc main_arg13) ↦{fullShare} V main_arg13) ∗ (((c : Thread nD τ).loc main_arg14) ↦{fullShare} V main_arg14) ∗ (((c : Thread nD τ).loc main_arg15) ↦{fullShare} V main_arg15) ∗ (((c : Thread nD τ).loc main_v3) ↦{fullShare} V main_v3) ∗ (((c : Thread nD τ).loc main_arg17) ↦{fullShare} V main_arg17) ∗ (((c : Thread nD τ).loc main_v4) ↦{fullShare} V main_v4) ∗ (((c : Thread nD τ).loc main_arg19) ↦{fullShare} V main_arg19) ∗ (((c : Thread nD τ).loc main_v5) ↦{fullShare} V main_v5) ∗ (((c : Thread nD τ).loc main_arg21) ↦{fullShare} V main_arg21) ∗ (((c : Thread nD τ).loc main_v6) ↦{fullShare} V main_v6) ∗ (((c : Thread nD τ).loc main_v7) ↦{fullShare} V main_v7)) := by
  unfold Dat.arrays; rw [bigSep_W0]
  simp only [e0 m c V, e1 m c V, e2 m c V, e3 m c V, e4 m c V, e5 m c V, e6 m c V, e7 m c V, e8 m c V, e9 m c V, e10 m c V, e11 m c V, e12 m c V, e13 m c V, e14 m c V, e15 m c V, e16 m c V, e17 m c V, e18 m c V, e19 m c V, e20 m c V, e21 m c V, e22 m c V, e23 m c V, e24 m c V, e25 m c V]

/-- The buffers, each whole at the full share at `V`, make the proof data's arrays at `V`: the two shared buffers are split. -/
theorem arrays_of_arrBufs (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      ⊢ (dats m 0 c).arrays fun w => V (Pipeline.arrRef spec0 w) := by
  rw [arrBufs_chain, arrays_chain]
  iintro ⟨H_arg3, H_arg4, H_arg5, H_arg0, H_arg1, H_arg2, H_arg6, H_v0, H_arg8, H_v1, H_arg10, H_v2, H_arg12, H_arg13, H_arg14, H_arg15, H_v3, H_arg17, H_v4, H_arg19, H_v5, H_arg21, H_v6, H_v7⟩
  ihave H3s := (pointsTo_share (PosShare.mem_left_op_right fullShare)).1 $$ H_arg3
  icases H3s with ⟨H3l, H3r⟩
  ihave H5s := (pointsTo_share (PosShare.mem_left_op_right fullShare)).1 $$ H_arg5
  icases H5s with ⟨H5l, H5r⟩
  isplitl [H3l]; · iexact H3l
  isplitl [H3r]; · iexact H3r
  isplitl [H_arg4]; · iexact H_arg4
  isplitl [H5l]; · iexact H5l
  isplitl [H5r]; · iexact H5r
  isplitl [H_arg0]; · iexact H_arg0
  isplitl [H_arg1]; · iexact H_arg1
  isplitl [H_arg2]; · iexact H_arg2
  isplitl [H_arg6]; · iexact H_arg6
  isplitl [H_v0]; · iexact H_v0
  isplitl [H_arg8]; · iexact H_arg8
  isplitl [H_v1]; · iexact H_v1
  isplitl [H_arg10]; · iexact H_arg10
  isplitl [H_v2]; · iexact H_v2
  isplitl [H_arg12]; · iexact H_arg12
  isplitl [H_arg13]; · iexact H_arg13
  isplitl [H_arg14]; · iexact H_arg14
  isplitl [H_arg15]; · iexact H_arg15
  isplitl [H_v3]; · iexact H_v3
  isplitl [H_arg17]; · iexact H_arg17
  isplitl [H_v4]; · iexact H_v4
  isplitl [H_arg19]; · iexact H_arg19
  isplitl [H_v5]; · iexact H_v5
  isplitl [H_arg21]; · iexact H_arg21
  isplitl [H_v6]; · iexact H_v6
  iexact H_v7

/-- And back: the arrays at `V` give the buffers whole at `V`: the halves are rejoined. -/
theorem arrBufs_of_arrays (c : Dev nD) (V : (b : Ref sig .tc) → Buf (Elt F) ((c : Thread nD τ).loc b)) :
    ((dats m 0 c).arrays fun w => V (Pipeline.arrRef spec0 w))
      ⊢ (Pipeline.arrBufs (Ix := Unit) (Name := ℕ) (U := UR sig nD τ) (Lvl := ℕ) spec0 c V : sProp 𝕄) := by
  rw [arrBufs_chain, arrays_chain]
  iintro ⟨G0, G1, G2, G3, G4, G5, G6, G7, G8, G9, G10, G11, G12, G13, G14, G15, G16, G17, G18, G19, G20, G21, G22, G23, G24, G25⟩
  isplitl [G0 G1]
  · iapply (pointsTo_share (PosShare.mem_left_op_right fullShare)).2
    isplitl [G0] <;> iassumption
  isplitl [G2]; · iexact G2
  isplitl [G3 G4]
  · iapply (pointsTo_share (PosShare.mem_left_op_right fullShare)).2
    isplitl [G3] <;> iassumption
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  isplitl [G23]; · iexact G23
  isplitl [G24]; · iexact G24
  iexact G25

end Cert.KernelIdeal.Hand

end
-- ==== Proof.KLaunchI.lean ====
import proofs.«140626_g76854144795175_cont_sun_m_49_16_alg».proof.Proof.KBodyI
import proofs.«140626_g76854144795175_cont_sun_m_49_16_alg».proof.Proof.KArrI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The buffers' contents through the program -/

/-- At launch. -/
abbrev W0 : Dev nD → Valuation τ sig (Elt F) := fun c b => m ((c : Dev nD), b)
/-- After the region: the result's array at what the pipeline leaves, every other buffer as the region found it. -/
def W2 (c : Dev nD) : Valuation τ sig (Elt F) :=
  Function.update (V0 m c) (Proc.devRef .tc main_v7) ((dats m 0 c).arrAt 25 cfg0.N)
abbrev V2 (c : Dev nD) (b : Ref sig .tc) : Buf (Elt F) ((c : Thread nD τ).loc b) := W2 m c (Proc.devRef .tc b)
/-- After the last reshape. -/
abbrev W3 : Dev nD → Valuation τ sig (Elt F) := fun c => StableHlo.after hostOps1 (W2 m c)

theorem V2_v7 (c : Dev nD) : V2 m c main_v7 = (dats m 0 c).arrAt 25 cfg0.N := Function.update_self ..
theorem V2_of_ne (c : Dev nD) (b : Ref sig .tc) (hb : b ≠ main_v7) : V2 m c b = V m c b :=
  Function.update_of_ne (StableHlo.devRef_ne_of_ne hb) ..

theorem inOf : ∀ w : Fin 26, w ≠ 25 → (cfg0.win w).isOut = false := by decide
theorem arrNe : ∀ w : Fin 26, w ≠ 25 → Pipeline.arrRef spec0 w ≠ main_v7 := by decide

/-- At the region's exit each array holds what `V2` says: an input as the region found it, the result what the pipeline leaves. -/
theorem hF2 (c : Dev nD) : ((dats m 0 c).arrAt · cfg0.N) = fun w => V2 m c (Pipeline.arrRef spec0 w) := by
  funext w
  by_cases h : w = 25
  · subst h; exact (V2_v7 m c).symm
  · rw [(dats m 0 c).arrAt_in w (inOf w h) _, A_eq]; exact (V2_of_ne m c _ (arrNe w h)).symm

/-- Off the arrays the region changes nothing: the bypassing buffers at the exit contents are those at the entry contents. -/
theorem rest_eq (c : Dev nD) :
    (Pipeline.unscopedRest (Ix := Unit) (Name := ℕ) (U := UR sig nD τ) (Lvl := ℕ) spec0 c (V2 m c) : sProp 𝕄)
      = Pipeline.unscopedRest (Ix := Unit) (Name := ℕ) (U := UR sig nD τ) (Lvl := ℕ) spec0 c (V m c) := by
  rw [unscopedRest0_eq c (V2 m c), unscopedRest0_eq c (V m c), V2_of_ne m c main_arg7 (by decide), V2_of_ne m c main_arg9 (by decide), V2_of_ne m c main_arg11 (by decide), V2_of_ne m c main_arg16 (by decide), V2_of_ne m c main_arg18 (by decide), V2_of_ne m c main_arg20 (by decide), V2_of_ne m c main_arg22 (by decide), V2_of_ne m c main_v8 (by decide)]

/-! ### The arguments end as launched: no host operation writes one, and the region reads them only -/

theorem W3_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Function.update_of_ne (StableHlo.devRef_ne_of_ne (by decide)) ..
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Function.update_of_ne (StableHlo.devRef_ne_of_ne (by decide)) ..
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg2) := Function.update_of_ne (StableHlo.devRef_ne_of_ne (by decide)) ..
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg3) := Function.update_of_ne (StableHlo.devRef_ne_of_ne (by decide)) ..
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg4) := Function.update_of_ne (StableHlo.devRef_ne_of_ne (by decide)) ..
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg5) := Function.update_of_ne (StableHlo.devRef_ne_of_ne (by decide)) ..
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg6) := Function.update_of_ne (StableHlo.devRef_ne_of_ne (by decide)) ..
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg7) := Function.update_of_ne (StableHlo.devRef_ne_of_ne (by decide)) ..
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W3_arg8 (c : Dev nD) : W3 m c (Proc.devRef .tc main_arg8) = m ((c : Thread nD τ).loc main_arg8) :=
  calc W3 m c (Proc.devRef .tc main_arg8)
    _ = W2 m c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg8) := Function.update_of_ne (StableHlo.devRef_ne_of_ne (by decide)) ..
    _ = W0 m c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W3_arg9 (c : Dev nD) : W3 m c (Proc.devRef .tc main_arg9) = m ((c : Thread nD τ).loc main_arg9) :=
  calc W3 m c (Proc.devRef .tc main_arg9)
    _ = W2 m c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg9) := Function.update_of_ne (StableHlo.devRef_ne_of_ne (by decide)) ..
    _ = W0 m c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W3_arg10 (c : Dev nD) : W3 m c (Proc.devRef .tc main_arg10) = m ((c : Thread nD τ).loc main_arg10) :=
  calc W3 m c (Proc.devRef .tc main_arg10)
    _ = W2 m c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg10) := Function.update_of_ne (StableHlo.devRef_ne_of_ne (by decide)) ..
    _ = W0 m c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W3_arg11 (c : Dev nD) : W3 m c (Proc.devRef .tc main_arg11) = m ((c : Thread nD τ).loc main_arg11) :=
  calc W3 m c (Proc.devRef .tc main_arg11)
    _ = W2 m c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg11) := Function.update_of_ne (StableHlo.devRef_ne_of_ne (by decide)) ..
    _ = W0 m c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W3_arg12 (c : Dev nD) : W3 m c (Proc.devRef .tc main_arg12) = m ((c : Thread nD τ).loc main_arg12) :=
  calc W3 m c (Proc.devRef .tc main_arg12)
    _ = W2 m c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg12) := Function.update_of_ne (StableHlo.devRef_ne_of_ne (by decide)) ..
    _ = W0 m c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W3_arg13 (c : Dev nD) : W3 m c (Proc.devRef .tc main_arg13) = m ((c : Thread nD τ).loc main_arg13) :=
  calc W3 m c (Proc.devRef .tc main_arg13)
    _ = W2 m c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg13) := Function.update_of_ne (StableHlo.devRef_ne_of_ne (by decide)) ..
    _ = W0 m c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
theorem W3_arg14 (c : Dev nD) : W3 m c (Proc.devRef .tc main_arg14) = m ((c : Thread nD τ).loc main_arg14) :=
  calc W3 m c (Proc.devRef .tc main_arg14)
    _ = W2 m c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg14) := Function.update_of_ne (StableHlo.devRef_ne_of_ne (by decide)) ..
    _ = W0 m c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
theorem W3_arg15 (c : Dev nD) : W3 m c (Proc.devRef .tc main_arg15) = m ((c : Thread nD τ).loc main_arg15) :=
  calc W3 m c (Proc.devRef .tc main_arg15)
    _ = W2 m c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg15) := Function.update_of_ne (StableHlo.devRef_ne_of_ne (by decide)) ..
    _ = W0 m c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
theorem W3_arg16 (c : Dev nD) : W3 m c (Proc.devRef .tc main_arg16) = m ((c : Thread nD τ).loc main_arg16) :=
  calc W3 m c (Proc.devRef .tc main_arg16)
    _ = W2 m c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg16) := Function.update_of_ne (StableHlo.devRef_ne_of_ne (by decide)) ..
    _ = W0 m c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
theorem W3_arg17 (c : Dev nD) : W3 m c (Proc.devRef .tc main_arg17) = m ((c : Thread nD τ).loc main_arg17) :=
  calc W3 m c (Proc.devRef .tc main_arg17)
    _ = W2 m c (Proc.devRef .tc main_arg17) := StableHlo.after_of_forall_not_mem (b := Proc.devRef .tc main_arg17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg17) := Function.update_of_ne (StableHlo.devRef_ne_of_ne (by decide)) ..
    _ = W0 m c (Proc.devRef .tc main_arg17) := StableHlo.after_of_forall_not_mem (b := Proc.devRef .tc main_arg17) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
theorem W3_arg18 (c : Dev nD) : W3 m c (Proc.devRef .tc main_arg18) = m ((c : Thread nD τ).loc main_arg18) :=
  calc W3 m c (Proc.devRef .tc main_arg18)
    _ = W2 m c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg18) := Function.update_of_ne (StableHlo.devRef_ne_of_ne (by decide)) ..
    _ = W0 m c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl
theorem W3_arg19 (c : Dev nD) : W3 m c (Proc.devRef .tc main_arg19) = m ((c : Thread nD τ).loc main_arg19) :=
  calc W3 m c (Proc.devRef .tc main_arg19)
    _ = W2 m c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg19) := Function.update_of_ne (StableHlo.devRef_ne_of_ne (by decide)) ..
    _ = W0 m c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl
theorem W3_arg20 (c : Dev nD) : W3 m c (Proc.devRef .tc main_arg20) = m ((c : Thread nD τ).loc main_arg20) :=
  calc W3 m c (Proc.devRef .tc main_arg20)
    _ = W2 m c (Proc.devRef .tc main_arg20) := StableHlo.after_of_forall_not_mem (b := Proc.devRef .tc main_arg20) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg20) := Function.update_of_ne (StableHlo.devRef_ne_of_ne (by decide)) ..
    _ = W0 m c (Proc.devRef .tc main_arg20) := StableHlo.after_of_forall_not_mem (b := Proc.devRef .tc main_arg20) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl
theorem W3_arg21 (c : Dev nD) : W3 m c (Proc.devRef .tc main_arg21) = m ((c : Thread nD τ).loc main_arg21) :=
  calc W3 m c (Proc.devRef .tc main_arg21)
    _ = W2 m c (Proc.devRef .tc main_arg21) := StableHlo.after_of_forall_not_mem (b := Proc.devRef .tc main_arg21) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg21) := Function.update_of_ne (StableHlo.devRef_ne_of_ne (by decide)) ..
    _ = W0 m c (Proc.devRef .tc main_arg21) := StableHlo.after_of_forall_not_mem (b := Proc.devRef .tc main_arg21) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl
theorem W3_arg22 (c : Dev nD) : W3 m c (Proc.devRef .tc main_arg22) = m ((c : Thread nD τ).loc main_arg22) :=
  calc W3 m c (Proc.devRef .tc main_arg22)
    _ = W2 m c (Proc.devRef .tc main_arg22) := StableHlo.after_of_forall_not_mem (b := Proc.devRef .tc main_arg22) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg22) := Function.update_of_ne (StableHlo.devRef_ne_of_ne (by decide)) ..
    _ = W0 m c (Proc.devRef .tc main_arg22) := StableHlo.after_of_forall_not_mem (b := Proc.devRef .tc main_arg22) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-! ## The region as a segment -/

set_option backward.isDefEq.respectTransparency.types false in
set_option maxHeartbeats 4000000 in
/-- The region over the thread state: entered from every unscoped buffer at the contents after the first reshapes, left
    with the result's array at what the pipeline computes. The arrays are split out of the unscoped buffers (the two shared
    ones by halves) and put back; the scratch buffers are the invariant's; nothing is owed; no semaphore of the kernel's own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V m c) ∗ ∃ r, prngReg c r)
  hentry c := by
    rw [Pipeline.ownSems0_none]
    rw [← Pipeline.unscopedBufs_held c (V0 m c)]
    rw [Pipeline.unscopedBufs_split₀ cfgs (0 : Fin 1) winFacts₀0.arr_unscoped c]
    rw [show ((dats m 0 c).arrAt · 0) = fun w => V m c (Pipeline.arrRef spec0 w) from funext fun w => A_eq m c w]
    iintro ⟨⟨⟨Ha, Hrest⟩, Hp, HO⟩, -, -⟩
    imodintro
    isplitl [Ha]; · iapply (arrays_of_arrBufs m c (V m c)); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (dats m 0 c).Φ 0 = PhiS m c 0 (Nat.zero_le _) from rfl, PhiS_zero m c 0 _ rfl]
    iintro ⟨-, -, Hr⟩
    iapply (Entails.of_eq (scoped_eq c)); iexact Hr
  hout c := by
    rw [Pipeline.ownSems0_none, show (dats m 0 c).Φ (Fin.last _) = PhiS m c cfg0.N (Nat.le_refl _) from rfl,
      PhiS_pos m c _ _ (by have : cfg0.N = 64 := N_0; omega)]
    iintro ⟨H0, H1, H2, H3⟩
    isplitr; · iempintro
    isplitr; · iempintro
    iapply (Entails.of_eq (scoped_eq c).symm)
    isplitl [H0]; · iexists _; iexact H0
    isplitl [H1]; · iexists _; iexact H1
    isplitl [H2]; · iexists _; iexact H2
    iexists _; iexact H3
  hexit c := by
    rw [hF2 m c]
    rw [← Pipeline.unscopedBufs_held c (W2 m c)]
    rw [Pipeline.unscopedBufs_split₀ cfgs (0 : Fin 1) winFacts₀0.arr_unscoped c]
    rw [rest_eq m c]
    iintro ⟨Ha, HO, -, ⟨Hrest, Hp⟩⟩
    imodintro
    isplitl [Ha Hrest]
    · isplitl [Ha]; · iapply (arrBufs_of_arrays m c (V2 m c)); iexact Ha
      iexact Hrest
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (dats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W3 m c) ∗ ∃ r, prngReg c r)

set_option backward.isDefEq.respectTransparency.types false in
set_option maxHeartbeats 4000000 in
/-- From any memory with zero counters every weakly fair execution of @main terminates, nothing faulting, with the result
    buffer at the last valuation's contents and every argument array as launched. -/
theorem run_main : θ_run defs (onTc (τ := τ) (main (F := F))) ⟨m, fun _ => 0, ρ⟩ (fun r => ∀ c : Dev nD,
      r.2.mem ((c.tc : Thread nD τ).loc main_v8) = W3 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c.tc : Thread nD τ) (Pipeline.ucRefs τ sig) (StableHlo.after hostOps1 (W2 m c)) ∗ R c) : sProp 𝕄)
        ⊢ iprop(Tₙ m c ∗ ∃ W, owes (c.tc : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v8 (by decide)), (h c _ (mem_uc main_arg0 (by decide))).trans (W3_arg0 m c), (h c _ (mem_uc main_arg1 (by decide))).trans (W3_arg1 m c), (h c _ (mem_uc main_arg2 (by decide))).trans (W3_arg2 m c), (h c _ (mem_uc main_arg3 (by decide))).trans (W3_arg3 m c), (h c _ (mem_uc main_arg4 (by decide))).trans (W3_arg4 m c), (h c _ (mem_uc main_arg5 (by decide))).trans (W3_arg5 m c), (h c _ (mem_uc main_arg6 (by decide))).trans (W3_arg6 m c), (h c _ (mem_uc main_arg7 (by decide))).trans (W3_arg7 m c), (h c _ (mem_uc main_arg8 (by decide))).trans (W3_arg8 m c), (h c _ (mem_uc main_arg9 (by decide))).trans (W3_arg9 m c), (h c _ (mem_uc main_arg10 (by decide))).trans (W3_arg10 m c), (h c _ (mem_uc main_arg11 (by decide))).trans (W3_arg11 m c), (h c _ (mem_uc main_arg12 (by decide))).trans (W3_arg12 m c), (h c _ (mem_uc main_arg13 (by decide))).trans (W3_arg13 m c), (h c _ (mem_uc main_arg14 (by decide))).trans (W3_arg14 m c), (h c _ (mem_uc main_arg15 (by decide))).trans (W3_arg15 m c), (h c _ (mem_uc main_arg16 (by decide))).trans (W3_arg16 m c), (h c _ (mem_uc main_arg17 (by decide))).trans (W3_arg17 m c), (h c _ (mem_uc main_arg18 (by decide))).trans (W3_arg18 m c), (h c _ (mem_uc main_arg19 (by decide))).trans (W3_arg19 m c), (h c _ (mem_uc main_arg20 (by decide))).trans (W3_arg20 m c), (h c _ (mem_uc main_arg21 (by decide))).trans (W3_arg21 m c), (h c _ (mem_uc main_arg22 (by decide))).trans (W3_arg22 m c)⟩)

end Cert.KernelIdeal.Hand

end
-- ==== Proof.KBlkI.lean ====
/- The blocks the kernel's input windows hold, as rows and columns of the arrays the region finds, and those arrays in
   terms of the launch memory: the five slab windows index by index, the twenty whole-array windows as whole arrays,
   the arguments untouched by the host reshapes and each reshaped bias its argument vector as one row; and the result
   array after the run, which is the last point's staging buffer. -/
import proofs.«140626_g76854144795175_cont_sun_m_49_16_alg».proof.Proof.KDatI
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
/-! ## The five slab windows, index by index

A block's coordinate along an axis is its block index times the block size plus the coordinate inside the block; the
block indices are decided once over the 64 grid points. -/

theorem idx0 : ∀ t : Fin cfg0.N, win0_0.index t (0 : Fin 2) = t.val ∧ win0_0.index t (1 : Fin 2) = 0 :=
  (by decide +kernel : ∀ t : Fin grid0.N, _)

theorem iblk0_apply (c : Dev nD) (t : Fin cfg0.N) (r : Fin 128) (k : Fin 4096) (i j : Fin 8192)
    (hi : i.val = 128 * t.val + r.val) (hj : j.val = k.val) :
    iblk m c 0 t (ValueIdx.ix2 r k) = V m c main_arg3 (ValueIdx.ix2 i j) := by
  obtain ⟨e0, e1⟩ := idx0 t
  show V m c main_arg3 (((cfg0.win 0).blk t).view.emb (ValueIdx.ix2 r k)) = V m c main_arg3 (ValueIdx.ix2 i j)
  refine congrArg (V m c main_arg3) (funext fun a => Fin.ext ?_)
  match a with
  | ⟨0, _⟩ => show win0_0.index t (0 : Fin 2) * 128 + 1 * r.val = i.val; omega
  | ⟨1, _⟩ => show win0_0.index t (1 : Fin 2) * 4096 + 1 * k.val = j.val; omega

theorem idx1 : ∀ t : Fin cfg0.N, win0_1.index t (0 : Fin 2) = t.val ∧ win0_1.index t (1 : Fin 2) = 1 :=
  (by decide +kernel : ∀ t : Fin grid0.N, _)

theorem iblk1_apply (c : Dev nD) (t : Fin cfg0.N) (r : Fin 128) (k : Fin 4096) (i j : Fin 8192)
    (hi : i.val = 128 * t.val + r.val) (hj : j.val = 4096 + k.val) :
    iblk m c 1 t (ValueIdx.ix2 r k) = V m c main_arg3 (ValueIdx.ix2 i j) := by
  obtain ⟨e0, e1⟩ := idx1 t
  show V m c main_arg3 (((cfg0.win 1).blk t).view.emb (ValueIdx.ix2 r k)) = V m c main_arg3 (ValueIdx.ix2 i j)
  refine congrArg (V m c main_arg3) (funext fun a => Fin.ext ?_)
  match a with
  | ⟨0, _⟩ => show win0_1.index t (0 : Fin 2) * 128 + 1 * r.val = i.val; omega
  | ⟨1, _⟩ => show win0_1.index t (1 : Fin 2) * 4096 + 1 * k.val = j.val; omega

theorem idx2 : ∀ t : Fin cfg0.N, win0_2.index t (0 : Fin 2) = t.val ∧ win0_2.index t (1 : Fin 2) = 0 :=
  (by decide +kernel : ∀ t : Fin grid0.N, _)

theorem iblk2_apply (c : Dev nD) (t : Fin cfg0.N) (r : Fin 128) (k : Fin 4096) (i : Fin 8192)
    (hi : i.val = 128 * t.val + r.val) :
    iblk m c 2 t (ValueIdx.ix2 r k) = V m c main_arg4 (ValueIdx.ix2 i k) := by
  obtain ⟨e0, e1⟩ := idx2 t
  show V m c main_arg4 (((cfg0.win 2).blk t).view.emb (ValueIdx.ix2 r k)) = V m c main_arg4 (ValueIdx.ix2 i k)
  refine congrArg (V m c main_arg4) (funext fun a => Fin.ext ?_)
  match a with
  | ⟨0, _⟩ => show win0_2.index t (0 : Fin 2) * 128 + 1 * r.val = i.val; omega
  | ⟨1, _⟩ => show win0_2.index t (1 : Fin 2) * 4096 + 1 * k.val = k.val; omega

theorem idx3 : ∀ t : Fin cfg0.N, win0_3.index t (0 : Fin 2) = t.val ∧ win0_3.index t (1 : Fin 2) = 0 :=
  (by decide +kernel : ∀ t : Fin grid0.N, _)

theorem iblk3_apply (c : Dev nD) (t : Fin cfg0.N) (r : Fin 128) (k : Fin 4096) (i j : Fin 8192)
    (hi : i.val = 128 * t.val + r.val) (hj : j.val = k.val) :
    iblk m c 3 t (ValueIdx.ix2 r k) = V m c main_arg5 (ValueIdx.ix2 i j) := by
  obtain ⟨e0, e1⟩ := idx3 t
  show V m c main_arg5 (((cfg0.win 3).blk t).view.emb (ValueIdx.ix2 r k)) = V m c main_arg5 (ValueIdx.ix2 i j)
  refine congrArg (V m c main_arg5) (funext fun a => Fin.ext ?_)
  match a with
  | ⟨0, _⟩ => show win0_3.index t (0 : Fin 2) * 128 + 1 * r.val = i.val; omega
  | ⟨1, _⟩ => show win0_3.index t (1 : Fin 2) * 4096 + 1 * k.val = j.val; omega

theorem idx4 : ∀ t : Fin cfg0.N, win0_4.index t (0 : Fin 2) = t.val ∧ win0_4.index t (1 : Fin 2) = 1 :=
  (by decide +kernel : ∀ t : Fin grid0.N, _)

theorem iblk4_apply (c : Dev nD) (t : Fin cfg0.N) (r : Fin 128) (k : Fin 4096) (i j : Fin 8192)
    (hi : i.val = 128 * t.val + r.val) (hj : j.val = 4096 + k.val) :
    iblk m c 4 t (ValueIdx.ix2 r k) = V m c main_arg5 (ValueIdx.ix2 i j) := by
  obtain ⟨e0, e1⟩ := idx4 t
  show V m c main_arg5 (((cfg0.win 4).blk t).view.emb (ValueIdx.ix2 r k)) = V m c main_arg5 (ValueIdx.ix2 i j)
  refine congrArg (V m c main_arg5) (funext fun a => Fin.ext ?_)
  match a with
  | ⟨0, _⟩ => show win0_4.index t (0 : Fin 2) * 128 + 1 * r.val = i.val; omega
  | ⟨1, _⟩ => show win0_4.index t (1 : Fin 2) * 4096 + 1 * k.val = j.val; omega

/-! ## The twenty whole-array windows: at every point the block is the whole array -/

theorem idx5 : ∀ t : Fin cfg0.N, win0_5.index t (0 : Fin 2) = 0 ∧ win0_5.index t (1 : Fin 2) = 0 :=
  (by decide +kernel : ∀ t : Fin grid0.N, _)

theorem iblk5_eq (c : Dev nD) (t : Fin cfg0.N) : (iblk m c 5 t : Vec F S8192x128 .f32) = V m c main_arg0 := by
  obtain ⟨e0, e1⟩ := idx5 t
  funext y
  show V m c main_arg0 (((cfg0.win 5).blk t).view.emb y) = V m c main_arg0 y
  refine congrArg (V m c main_arg0) (funext fun a => Fin.ext ?_)
  match a with
  | ⟨0, _⟩ => show win0_5.index t (0 : Fin 2) * 8192 + 1 * (y 0).val = (y 0).val; omega
  | ⟨1, _⟩ => show win0_5.index t (1 : Fin 2) * 128 + 1 * (y 1).val = (y 1).val; omega

theorem idx6 : ∀ t : Fin cfg0.N, win0_6.index t (0 : Fin 2) = 0 ∧ win0_6.index t (1 : Fin 2) = 0 :=
  (by decide +kernel : ∀ t : Fin grid0.N, _)

theorem iblk6_eq (c : Dev nD) (t : Fin cfg0.N) : (iblk m c 6 t : Vec F S8192x128 .f32) = V m c main_arg1 := by
  obtain ⟨e0, e1⟩ := idx6 t
  funext y
  show V m c main_arg1 (((cfg0.win 6).blk t).view.emb y) = V m c main_arg1 y
  refine congrArg (V m c main_arg1) (funext fun a => Fin.ext ?_)
  match a with
  | ⟨0, _⟩ => show win0_6.index t (0 : Fin 2) * 8192 + 1 * (y 0).val = (y 0).val; omega
  | ⟨1, _⟩ => show win0_6.index t (1 : Fin 2) * 128 + 1 * (y 1).val = (y 1).val; omega

theorem idx7 : ∀ t : Fin cfg0.N, win0_7.index t (0 : Fin 2) = 0 ∧ win0_7.index t (1 : Fin 2) = 0 :=
  (by decide +kernel : ∀ t : Fin grid0.N, _)

theorem iblk7_eq (c : Dev nD) (t : Fin cfg0.N) : (iblk m c 7 t : Vec F S4096x128 .f32) = V m c main_arg2 := by
  obtain ⟨e0, e1⟩ := idx7 t
  funext y
  show V m c main_arg2 (((cfg0.win 7).blk t).view.emb y) = V m c main_arg2 y
  refine congrArg (V m c main_arg2) (funext fun a => Fin.ext ?_)
  match a with
  | ⟨0, _⟩ => show win0_7.index t (0 : Fin 2) * 4096 + 1 * (y 0).val = (y 0).val; omega
  | ⟨1, _⟩ => show win0_7.index t (1 : Fin 2) * 128 + 1 * (y 1).val = (y 1).val; omega

theorem idx8 : ∀ t : Fin cfg0.N, win0_8.index t (0 : Fin 2) = 0 ∧ win0_8.index t (1 : Fin 2) = 0 :=
  (by decide +kernel : ∀ t : Fin grid0.N, _)

theorem iblk8_eq (c : Dev nD) (t : Fin cfg0.N) : (iblk m c 8 t : Vec F S128x64 .f32) = V m c main_arg6 := by
  obtain ⟨e0, e1⟩ := idx8 t
  funext y
  show V m c main_arg6 (((cfg0.win 8).blk t).view.emb y) = V m c main_arg6 y
  refine congrArg (V m c main_arg6) (funext fun a => Fin.ext ?_)
  match a with
  | ⟨0, _⟩ => show win0_8.index t (0 : Fin 2) * 128 + 1 * (y 0).val = (y 0).val; omega
  | ⟨1, _⟩ => show win0_8.index t (1 : Fin 2) * 64 + 1 * (y 1).val = (y 1).val; omega

theorem idx9 : ∀ t : Fin cfg0.N, win0_9.index t (0 : Fin 2) = 0 ∧ win0_9.index t (1 : Fin 2) = 0 :=
  (by decide +kernel : ∀ t : Fin grid0.N, _)

theorem iblk9_eq (c : Dev nD) (t : Fin cfg0.N) : (iblk m c 9 t : Vec F S1x64 .f32) = V m c main_v0 := by
  obtain ⟨e0, e1⟩ := idx9 t
  funext y
  show V m c main_v0 (((cfg0.win 9).blk t).view.emb y) = V m c main_v0 y
  refine congrArg (V m c main_v0) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

theorem idx10 : ∀ t : Fin cfg0.N, win0_10.index t (0 : Fin 2) = 0 ∧ win0_10.index t (1 : Fin 2) = 0 :=
  (by decide +kernel : ∀ t : Fin grid0.N, _)

theorem iblk10_eq (c : Dev nD) (t : Fin cfg0.N) : (iblk m c 10 t : Vec F S128x64 .f32) = V m c main_arg8 := by
  obtain ⟨e0, e1⟩ := idx10 t
  funext y
  show V m c main_arg8 (((cfg0.win 10).blk t).view.emb y) = V m c main_arg8 y
  refine congrArg (V m c main_arg8) (funext fun a => Fin.ext ?_)
  match a with
  | ⟨0, _⟩ => show win0_10.index t (0 : Fin 2) * 128 + 1 * (y 0).val = (y 0).val; omega
  | ⟨1, _⟩ => show win0_10.index t (1 : Fin 2) * 64 + 1 * (y 1).val = (y 1).val; omega

theorem idx11 : ∀ t : Fin cfg0.N, win0_11.index t (0 : Fin 2) = 0 ∧ win0_11.index t (1 : Fin 2) = 0 :=
  (by decide +kernel : ∀ t : Fin grid0.N, _)

theorem iblk11_eq (c : Dev nD) (t : Fin cfg0.N) : (iblk m c 11 t : Vec F S1x64 .f32) = V m c main_v1 := by
  obtain ⟨e0, e1⟩ := idx11 t
  funext y
  show V m c main_v1 (((cfg0.win 11).blk t).view.emb y) = V m c main_v1 y
  refine congrArg (V m c main_v1) (funext fun a => Fin.ext ?_)
  match a with
  | ⟨0, _⟩ => show win0_11.index t (0 : Fin 2) * 1 + 1 * (y 0).val = (y 0).val; omega
  | ⟨1, _⟩ => show win0_11.index t (1 : Fin 2) * 64 + 1 * (y 1).val = (y 1).val; omega

theorem idx12 : ∀ t : Fin cfg0.N, win0_12.index t (0 : Fin 2) = 0 ∧ win0_12.index t (1 : Fin 2) = 0 :=
  (by decide +kernel : ∀ t : Fin grid0.N, _)

theorem iblk12_eq (c : Dev nD) (t : Fin cfg0.N) : (iblk m c 12 t : Vec F S128x64 .f32) = V m c main_arg10 := by
  obtain ⟨e0, e1⟩ := idx12 t
  funext y
  show V m c main_arg10 (((cfg0.win 12).blk t).view.emb y) = V m c main_arg10 y
  refine congrArg (V m c main_arg10) (funext fun a => Fin.ext ?_)
  match a with
  | ⟨0, _⟩ => show win0_12.index t (0 : Fin 2) * 128 + 1 * (y 0).val = (y 0).val; omega
  | ⟨1, _⟩ => show win0_12.index t (1 : Fin 2) * 64 + 1 * (y 1).val = (y 1).val; omega

theorem idx13 : ∀ t : Fin cfg0.N, win0_13.index t (0 : Fin 2) = 0 ∧ win0_13.index t (1 : Fin 2) = 0 :=
  (by decide +kernel : ∀ t : Fin grid0.N, _)

theorem iblk13_eq (c : Dev nD) (t : Fin cfg0.N) : (iblk m c 13 t : Vec F S1x64 .f32) = V m c main_v2 := by
  obtain ⟨e0, e1⟩ := idx13 t
  funext y
  show V m c main_v2 (((cfg0.win 13).blk t).view.emb y) = V m c main_v2 y
  refine congrArg (V m c main_v2) (funext fun a => Fin.ext ?_)
  match a with
  | ⟨0, _⟩ => show win0_13.index t (0 : Fin 2) * 1 + 1 * (y 0).val = (y 0).val; omega
  | ⟨1, _⟩ => show win0_13.index t (1 : Fin 2) * 64 + 1 * (y 1).val = (y 1).val; omega

theorem idx14 : ∀ t : Fin cfg0.N, win0_14.index t (0 : Fin 2) = 0 ∧ win0_14.index t (1 : Fin 2) = 0 :=
  (by decide +kernel : ∀ t : Fin grid0.N, _)

theorem iblk14_eq (c : Dev nD) (t : Fin cfg0.N) : (iblk m c 14 t : Vec F S64x64 .f32) = V m c main_arg12 := by
  obtain ⟨e0, e1⟩ := idx14 t
  funext y
  show V m c main_arg12 (((cfg0.win 14).blk t).view.emb y) = V m c main_arg12 y
  refine congrArg (V m c main_arg12) (funext fun a => Fin.ext ?_)
  match a with
  | ⟨0, _⟩ => show win0_14.index t (0 : Fin 2) * 64 + 1 * (y 0).val = (y 0).val; omega
  | ⟨1, _⟩ => show win0_14.index t (1 : Fin 2) * 64 + 1 * (y 1).val = (y 1).val; omega

theorem idx15 : ∀ t : Fin cfg0.N, win0_15.index t (0 : Fin 2) = 0 ∧ win0_15.index t (1 : Fin 2) = 0 :=
  (by decide +kernel : ∀ t : Fin grid0.N, _)

theorem iblk15_eq (c : Dev nD) (t : Fin cfg0.N) : (iblk m c 15 t : Vec F S64x64 .f32) = V m c main_arg13 := by
  obtain ⟨e0, e1⟩ := idx15 t
  funext y
  show V m c main_arg13 (((cfg0.win 15).blk t).view.emb y) = V m c main_arg13 y
  refine congrArg (V m c main_arg13) (funext fun a => Fin.ext ?_)
  match a with
  | ⟨0, _⟩ => show win0_15.index t (0 : Fin 2) * 64 + 1 * (y 0).val = (y 0).val; omega
  | ⟨1, _⟩ => show win0_15.index t (1 : Fin 2) * 64 + 1 * (y 1).val = (y 1).val; omega

theorem idx16 : ∀ t : Fin cfg0.N, win0_16.index t (0 : Fin 2) = 0 ∧ win0_16.index t (1 : Fin 2) = 0 :=
  (by decide +kernel : ∀ t : Fin grid0.N, _)

theorem iblk16_eq (c : Dev nD) (t : Fin cfg0.N) : (iblk m c 16 t : Vec F S64x64 .f32) = V m c main_arg14 := by
  obtain ⟨e0, e1⟩ := idx16 t
  funext y
  show V m c main_arg14 (((cfg0.win 16).blk t).view.emb y) = V m c main_arg14 y
  refine congrArg (V m c main_arg14) (funext fun a => Fin.ext ?_)
  match a with
  | ⟨0, _⟩ => show win0_16.index t (0 : Fin 2) * 64 + 1 * (y 0).val = (y 0).val; omega
  | ⟨1, _⟩ => show win0_16.index t (1 : Fin 2) * 64 + 1 * (y 1).val = (y 1).val; omega

theorem idx17 : ∀ t : Fin cfg0.N, win0_17.index t (0 : Fin 2) = 0 ∧ win0_17.index t (1 : Fin 2) = 0 :=
  (by decide +kernel : ∀ t : Fin grid0.N, _)

theorem iblk17_eq (c : Dev nD) (t : Fin cfg0.N) : (iblk m c 17 t : Vec F S64x64 .f32) = V m c main_arg15 := by
  obtain ⟨e0, e1⟩ := idx17 t
  funext y
  show V m c main_arg15 (((cfg0.win 17).blk t).view.emb y) = V m c main_arg15 y
  refine congrArg (V m c main_arg15) (funext fun a => Fin.ext ?_)
  match a with
  | ⟨0, _⟩ => show win0_17.index t (0 : Fin 2) * 64 + 1 * (y 0).val = (y 0).val; omega
  | ⟨1, _⟩ => show win0_17.index t (1 : Fin 2) * 64 + 1 * (y 1).val = (y 1).val; omega

theorem idx18 : ∀ t : Fin cfg0.N, win0_18.index t (0 : Fin 2) = 0 ∧ win0_18.index t (1 : Fin 2) = 0 :=
  (by decide +kernel : ∀ t : Fin grid0.N, _)

theorem iblk18_eq (c : Dev nD) (t : Fin cfg0.N) : (iblk m c 18 t : Vec F S1x64 .f32) = V m c main_v3 := by
  obtain ⟨e0, e1⟩ := idx18 t
  funext y
  show V m c main_v3 (((cfg0.win 18).blk t).view.emb y) = V m c main_v3 y
  refine congrArg (V m c main_v3) (funext fun a => Fin.ext ?_)
  match a with
  | ⟨0, _⟩ => show win0_18.index t (0 : Fin 2) * 1 + 1 * (y 0).val = (y 0).val; omega
  | ⟨1, _⟩ => show win0_18.index t (1 : Fin 2) * 64 + 1 * (y 1).val = (y 1).val; omega

theorem idx19 : ∀ t : Fin cfg0.N, win0_19.index t (0 : Fin 2) = 0 ∧ win0_19.index t (1 : Fin 2) = 0 :=
  (by decide +kernel : ∀ t : Fin grid0.N, _)

theorem iblk19_eq (c : Dev nD) (t : Fin cfg0.N) : (iblk m c 19 t : Vec F S64x16 .f32) = V m c main_arg17 := by
  obtain ⟨e0, e1⟩ := idx19 t
  funext y
  show V m c main_arg17 (((cfg0.win 19).blk t).view.emb y) = V m c main_arg17 y
  refine congrArg (V m c main_arg17) (funext fun a => Fin.ext ?_)
  match a with
  | ⟨0, _⟩ => show win0_19.index t (0 : Fin 2) * 64 + 1 * (y 0).val = (y 0).val; omega
  | ⟨1, _⟩ => show win0_19.index t (1 : Fin 2) * 16 + 1 * (y 1).val = (y 1).val; omega

theorem idx20 : ∀ t : Fin cfg0.N, win0_20.index t (0 : Fin 2) = 0 ∧ win0_20.index t (1 : Fin 2) = 0 :=
  (by decide +kernel : ∀ t : Fin grid0.N, _)

theorem iblk20_eq (c : Dev nD) (t : Fin cfg0.N) : (iblk m c 20 t : Vec F S1x16 .f32) = V m c main_v4 := by
  obtain ⟨e0, e1⟩ := idx20 t
  funext y
  show V m c main_v4 (((cfg0.win 20).blk t).view.emb y) = V m c main_v4 y
  refine congrArg (V m c main_v4) (funext fun a => Fin.ext ?_)
  match a with
  | ⟨0, _⟩ => show win0_20.index t (0 : Fin 2) * 1 + 1 * (y 0).val = (y 0).val; omega
  | ⟨1, _⟩ => show win0_20.index t (1 : Fin 2) * 16 + 1 * (y 1).val = (y 1).val; omega

theorem idx21 : ∀ t : Fin cfg0.N, win0_21.index t (0 : Fin 2) = 0 ∧ win0_21.index t (1 : Fin 2) = 0 :=
  (by decide +kernel : ∀ t : Fin grid0.N, _)

theorem iblk21_eq (c : Dev nD) (t : Fin cfg0.N) : (iblk m c 21 t : Vec F S64x16 .f32) = V m c main_arg19 := by
  obtain ⟨e0, e1⟩ := idx21 t
  funext y
  show V m c main_arg19 (((cfg0.win 21).blk t).view.emb y) = V m c main_arg19 y
  refine congrArg (V m c main_arg19) (funext fun a => Fin.ext ?_)
  match a with
  | ⟨0, _⟩ => show win0_21.index t (0 : Fin 2) * 64 + 1 * (y 0).val = (y 0).val; omega
  | ⟨1, _⟩ => show win0_21.index t (1 : Fin 2) * 16 + 1 * (y 1).val = (y 1).val; omega

theorem idx22 : ∀ t : Fin cfg0.N, win0_22.index t (0 : Fin 2) = 0 ∧ win0_22.index t (1 : Fin 2) = 0 :=
  (by decide +kernel : ∀ t : Fin grid0.N, _)

theorem iblk22_eq (c : Dev nD) (t : Fin cfg0.N) : (iblk m c 22 t : Vec F S1x16 .f32) = V m c main_v5 := by
  obtain ⟨e0, e1⟩ := idx22 t
  funext y
  show V m c main_v5 (((cfg0.win 22).blk t).view.emb y) = V m c main_v5 y
  refine congrArg (V m c main_v5) (funext fun a => Fin.ext ?_)
  match a with
  | ⟨0, _⟩ => show win0_22.index t (0 : Fin 2) * 1 + 1 * (y 0).val = (y 0).val; omega
  | ⟨1, _⟩ => show win0_22.index t (1 : Fin 2) * 16 + 1 * (y 1).val = (y 1).val; omega

theorem idx23 : ∀ t : Fin cfg0.N, win0_23.index t (0 : Fin 2) = 0 ∧ win0_23.index t (1 : Fin 2) = 0 :=
  (by decide +kernel : ∀ t : Fin grid0.N, _)

theorem iblk23_eq (c : Dev nD) (t : Fin cfg0.N) : (iblk m c 23 t : Vec F S64x16 .f32) = V m c main_arg21 := by
  obtain ⟨e0, e1⟩ := idx23 t
  funext y
  show V m c main_arg21 (((cfg0.win 23).blk t).view.emb y) = V m c main_arg21 y
  refine congrArg (V m c main_arg21) (funext fun a => Fin.ext ?_)
  match a with
  | ⟨0, _⟩ => show win0_23.index t (0 : Fin 2) * 64 + 1 * (y 0).val = (y 0).val; omega
  | ⟨1, _⟩ => show win0_23.index t (1 : Fin 2) * 16 + 1 * (y 1).val = (y 1).val; omega

theorem idx24 : ∀ t : Fin cfg0.N, win0_24.index t (0 : Fin 2) = 0 ∧ win0_24.index t (1 : Fin 2) = 0 :=
  (by decide +kernel : ∀ t : Fin grid0.N, _)

theorem iblk24_eq (c : Dev nD) (t : Fin cfg0.N) : (iblk m c 24 t : Vec F S1x16 .f32) = V m c main_v6 := by
  obtain ⟨e0, e1⟩ := idx24 t
  funext y
  show V m c main_v6 (((cfg0.win 24).blk t).view.emb y) = V m c main_v6 y
  refine congrArg (V m c main_v6) (funext fun a => Fin.ext ?_)
  match a with
  | ⟨0, _⟩ => show win0_24.index t (0 : Fin 2) * 1 + 1 * (y 0).val = (y 0).val; omega
  | ⟨1, _⟩ => show win0_24.index t (1 : Fin 2) * 16 + 1 * (y 1).val = (y 1).val; omega

/-! ## The arrays as the region finds them, in terms of the launch memory

No host reshape writes an argument; each reshaped bias is its argument vector as one row. -/

theorem V_arg0 (c : Dev nD) : V m c main_arg0 = m ((c : Thread nD τ).loc main_arg0) := by
  have e : (V m c main_arg0 : S8192x128.Idx → Elt F .f32) = m ((c : Thread nD τ).loc main_arg0) := by
    dsimp only [V, V0, hostOps0]
    after_results
    all_goals rfl
  exact e

theorem V_arg1 (c : Dev nD) : V m c main_arg1 = m ((c : Thread nD τ).loc main_arg1) := by
  have e : (V m c main_arg1 : S8192x128.Idx → Elt F .f32) = m ((c : Thread nD τ).loc main_arg1) := by
    dsimp only [V, V0, hostOps0]
    after_results
    all_goals rfl
  exact e

theorem V_arg2 (c : Dev nD) : V m c main_arg2 = m ((c : Thread nD τ).loc main_arg2) := by
  have e : (V m c main_arg2 : S4096x128.Idx → Elt F .f32) = m ((c : Thread nD τ).loc main_arg2) := by
    dsimp only [V, V0, hostOps0]
    after_results
    all_goals rfl
  exact e

theorem V_arg3 (c : Dev nD) : V m c main_arg3 = m ((c : Thread nD τ).loc main_arg3) := by
  have e : (V m c main_arg3 : S8192x8192.Idx → Elt F .f32) = m ((c : Thread nD τ).loc main_arg3) := by
    dsimp only [V, V0, hostOps0]
    after_results
    all_goals rfl
  exact e

theorem V_arg4 (c : Dev nD) : V m c main_arg4 = m ((c : Thread nD τ).loc main_arg4) := by
  have e : (V m c main_arg4 : S8192x4096.Idx → Elt F .f32) = m ((c : Thread nD τ).loc main_arg4) := by
    dsimp only [V, V0, hostOps0]
    after_results
    all_goals rfl
  exact e

theorem V_arg5 (c : Dev nD) : V m c main_arg5 = m ((c : Thread nD τ).loc main_arg5) := by
  have e : (V m c main_arg5 : S8192x8192.Idx → Elt F .f32) = m ((c : Thread nD τ).loc main_arg5) := by
    dsimp only [V, V0, hostOps0]
    after_results
    all_goals rfl
  exact e

theorem V_arg6 (c : Dev nD) : V m c main_arg6 = m ((c : Thread nD τ).loc main_arg6) := by
  have e : (V m c main_arg6 : S128x64.Idx → Elt F .f32) = m ((c : Thread nD τ).loc main_arg6) := by
    dsimp only [V, V0, hostOps0]
    after_results
    all_goals rfl
  exact e

theorem V_arg8 (c : Dev nD) : V m c main_arg8 = m ((c : Thread nD τ).loc main_arg8) := by
  have e : (V m c main_arg8 : S128x64.Idx → Elt F .f32) = m ((c : Thread nD τ).loc main_arg8) := by
    dsimp only [V, V0, hostOps0]
    after_results
    all_goals rfl
  exact e

theorem V_arg10 (c : Dev nD) : V m c main_arg10 = m ((c : Thread nD τ).loc main_arg10) := by
  have e : (V m c main_arg10 : S128x64.Idx → Elt F .f32) = m ((c : Thread nD τ).loc main_arg10) := by
    dsimp only [V, V0, hostOps0]
    after_results
    all_goals rfl
  exact e

theorem V_arg12 (c : Dev nD) : V m c main_arg12 = m ((c : Thread nD τ).loc main_arg12) := by
  have e : (V m c main_arg12 : S64x64.Idx → Elt F .f32) = m ((c : Thread nD τ).loc main_arg12) := by
    dsimp only [V, V0, hostOps0]
    after_results
    all_goals rfl
  exact e

theorem V_arg13 (c : Dev nD) : V m c main_arg13 = m ((c : Thread nD τ).loc main_arg13) := by
  have e : (V m c main_arg13 : S64x64.Idx → Elt F .f32) = m ((c : Thread nD τ).loc main_arg13) := by
    dsimp only [V, V0, hostOps0]
    after_results
    all_goals rfl
  exact e

theorem V_arg14 (c : Dev nD) : V m c main_arg14 = m ((c : Thread nD τ).loc main_arg14) := by
  have e : (V m c main_arg14 : S64x64.Idx → Elt F .f32) = m ((c : Thread nD τ).loc main_arg14) := by
    dsimp only [V, V0, hostOps0]
    after_results
    all_goals rfl
  exact e

theorem V_arg15 (c : Dev nD) : V m c main_arg15 = m ((c : Thread nD τ).loc main_arg15) := by
  have e : (V m c main_arg15 : S64x64.Idx → Elt F .f32) = m ((c : Thread nD τ).loc main_arg15) := by
    dsimp only [V, V0, hostOps0]
    after_results
    all_goals rfl
  exact e

theorem V_arg17 (c : Dev nD) : V m c main_arg17 = m ((c : Thread nD τ).loc main_arg17) := by
  have e : (V m c main_arg17 : S64x16.Idx → Elt F .f32) = m ((c : Thread nD τ).loc main_arg17) := by
    dsimp only [V, V0, hostOps0]
    after_results
    all_goals rfl
  exact e

theorem V_arg19 (c : Dev nD) : V m c main_arg19 = m ((c : Thread nD τ).loc main_arg19) := by
  have e : (V m c main_arg19 : S64x16.Idx → Elt F .f32) = m ((c : Thread nD τ).loc main_arg19) := by
    dsimp only [V, V0, hostOps0]
    after_results
    all_goals rfl
  exact e

theorem V_arg21 (c : Dev nD) : V m c main_arg21 = m ((c : Thread nD τ).loc main_arg21) := by
  have e : (V m c main_arg21 : S64x16.Idx → Elt F .f32) = m ((c : Thread nD τ).loc main_arg21) := by
    dsimp only [V, V0, hostOps0]
    after_results
    all_goals rfl
  exact e

theorem V_v0 (c : Dev nD) : V m c main_v0 = shapeCast S1x64 (m ((c : Thread nD τ).loc main_arg7)) shapeCasts_S64_S1x64 := by
  have e : (V m c main_v0 : S1x64.Idx → Elt F .f32) = shapeCast S1x64 (m ((c : Thread nD τ).loc main_arg7)) shapeCasts_S64_S1x64 := by
    dsimp only [V, V0, hostOps0]
    after_results
    all_goals rfl
  exact e

theorem V_v1 (c : Dev nD) : V m c main_v1 = shapeCast S1x64 (m ((c : Thread nD τ).loc main_arg9)) shapeCasts_S64_S1x64 := by
  have e : (V m c main_v1 : S1x64.Idx → Elt F .f32) = shapeCast S1x64 (m ((c : Thread nD τ).loc main_arg9)) shapeCasts_S64_S1x64 := by
    dsimp only [V, V0, hostOps0]
    after_results
    all_goals rfl
  exact e

theorem V_v2 (c : Dev nD) : V m c main_v2 = shapeCast S1x64 (m ((c : Thread nD τ).loc main_arg11)) shapeCasts_S64_S1x64 := by
  have e : (V m c main_v2 : S1x64.Idx → Elt F .f32) = shapeCast S1x64 (m ((c : Thread nD τ).loc main_arg11)) shapeCasts_S64_S1x64 := by
    dsimp only [V, V0, hostOps0]
    after_results
    all_goals rfl
  exact e

theorem V_v3 (c : Dev nD) : V m c main_v3 = shapeCast S1x64 (m ((c : Thread nD τ).loc main_arg16)) shapeCasts_S64_S1x64 := by
  have e : (V m c main_v3 : S1x64.Idx → Elt F .f32) = shapeCast S1x64 (m ((c : Thread nD τ).loc main_arg16)) shapeCasts_S64_S1x64 := by
    dsimp only [V, V0, hostOps0]
    after_results
    all_goals rfl
  exact e

theorem V_v4 (c : Dev nD) : V m c main_v4 = shapeCast S1x16 (m ((c : Thread nD τ).loc main_arg18)) shapeCasts_S16_S1x16 := by
  have e : (V m c main_v4 : S1x16.Idx → Elt F .f32) = shapeCast S1x16 (m ((c : Thread nD τ).loc main_arg18)) shapeCasts_S16_S1x16 := by
    dsimp only [V, V0, hostOps0]
    after_results
    all_goals rfl
  exact e

theorem V_v5 (c : Dev nD) : V m c main_v5 = shapeCast S1x16 (m ((c : Thread nD τ).loc main_arg20)) shapeCasts_S16_S1x16 := by
  have e : (V m c main_v5 : S1x16.Idx → Elt F .f32) = shapeCast S1x16 (m ((c : Thread nD τ).loc main_arg20)) shapeCasts_S16_S1x16 := by
    dsimp only [V, V0, hostOps0]
    after_results
    all_goals rfl
  exact e

theorem V_v6 (c : Dev nD) : V m c main_v6 = shapeCast S1x16 (m ((c : Thread nD τ).loc main_arg22)) shapeCasts_S16_S1x16 := by
  have e : (V m c main_v6 : S1x16.Idx → Elt F .f32) = shapeCast S1x16 (m ((c : Thread nD τ).loc main_arg22)) shapeCasts_S16_S1x16 := by
    dsimp only [V, V0, hostOps0]
    after_results
    all_goals rfl
  exact e

/-! ## The result array after the run: the last point's staging buffer, whole -/

theorem idx25 : ∀ t : Fin cfg0.N, win0_25.index t (0 : Fin 2) = 0 ∧ win0_25.index t (1 : Fin 2) = 0 :=
  (by decide +kernel : ∀ t : Fin grid0.N, _)

/-- An index of the result array is in point t's block iff each coordinate is in the block's range on its axis. -/
theorem mem_blk25 (t : Fin cfg0.N) (i : S1x16.Idx) :
    i ∈ ((cfg0.win 25).blk t).view.set ↔ ∀ a : Fin 2, win0_25.index t a * S1x16.size a ≤ (i a).val ∧ (i a).val < win0_25.index t a * S1x16.size a + S1x16.size a := by
  show i ∈ ((View.whole main_v7).slice (win0_25.rect t)).set ↔ _
  rw [View.set_slice_whole, Rect.mem_set_unit]
  exact Iff.rfl

theorem arrAt_out (c : Dev nD) (h63 : 63 < cfg0.N) : (dats m 0 c).arrAt 25 cfg0.N = (stAt m c 63 h63).o := by
  refine (dats m 0 c).arrAt_eq_of_cover 25 (stAt m c 63 h63).o ?_ ?_
  · intro t hf
    have ht : t.val = 63 := by rw [flushOut] at hf; exact of_decide_eq_true hf
    obtain rfl : t = ⟨63, h63⟩ := Fin.ext ht
    obtain ⟨e0, e1⟩ := idx25 ⟨63, h63⟩
    show (cfg0.win 25).cut (grid0.coords ⟨63, h63⟩) ((dats m 0 c).after 25 ⟨63, h63⟩) = _
    rw [after_25]
    funext y
    show (stAt m c 63 h63).o y = (stAt m c 63 h63).o (((cfg0.win 25).blk ⟨63, h63⟩).view.emb y)
    refine congrArg (stAt m c 63 h63).o (funext fun a => Fin.ext ?_)
    match a with
    | ⟨0, _⟩ => show (y 0).val = win0_25.index ⟨63, h63⟩ (0 : Fin 2) * 1 + 1 * (y 0).val; omega
    | ⟨1, _⟩ => show (y 1).val = win0_25.index ⟨63, h63⟩ (1 : Fin 2) * 16 + 1 * (y 1).val; omega
  · intro i
    obtain ⟨e0, e1⟩ := idx25 ⟨63, h63⟩
    refine ⟨⟨63, h63⟩, by rw [flushOut]; exact decide_eq_true rfl, ?_⟩
    rw [mem_blk25]
    intro a
    match a with
    | ⟨0, _⟩ =>
      show win0_25.index ⟨63, h63⟩ (0 : Fin 2) * 1 ≤ (i 0).val ∧ (i 0).val < win0_25.index ⟨63, h63⟩ (0 : Fin 2) * 1 + 1
      have hi : (i 0).val < 1 := (i 0).isLt
      omega
    | ⟨1, _⟩ =>
      show win0_25.index ⟨63, h63⟩ (1 : Fin 2) * 16 ≤ (i 1).val ∧ (i 1).val < win0_25.index ⟨63, h63⟩ (1 : Fin 2) * 16 + 16
      have hi : (i 1).val < 16 := (i 1).isLt
      omega

end Cert.KernelIdeal.Hand
end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibElu.lean ====
import Idealize.ShloMosaic.PureOps.Ideal
import Idealize.ShloMosaic.PureOps.Ideal.Laws

noncomputable section

namespace Cert.LibElu

open Idealize.ShloMosaic

/-- The exponential linear unit on the extended reals: the identity on the positive half-line and
    `exp x - 1` on the rest. -/
def elu (x : EReal) : EReal := if 0 < x then x else Ideal.exp x - 1

/-- The single-precision pattern of one denotes the real number one. -/
theorem one_f32 : Ideal.ofBits .f32 0x3F800000#32 = 1 := by
  simp [Ideal.ofBits, Ideal.ieee, -EReal.coe_mul]; norm_num

/-- First spelling: a selection between `x` and `exp x - 1` on the sign of `x`, the zero and the one being
    broadcast scalars. Index by index it is `elu`. -/
theorem select_exp_sub_one {s : Shape} (x : FVec Ideal s .f32) :
    select (cmpf .ogt x (broadcast s (Scalar.ofBits (F := Ideal) .f32 0x00000000#32)))
      x (subf (exp x) (broadcast s (Scalar.ofBits (F := Ideal) .f32 0x3F800000#32)))
    = fun i => elu (x i) := by
  funext i
  simp only [select, cmpf, broadcast, subf, exp, Scalar.select, Scalar.ofBits, Ideal.cmpf_def, Ideal.cmp,
    Ideal.subf_def, Ideal.exp_def, Ideal.ofBits_def, Ideal.ofBits_zero_f32, one_f32, elu]
  by_cases h : (0 : EReal) < x i <;> simp [h]

/-- Second spelling (the host's): a selection between `x` and `1 * expm1 (x')`, where `x'` is `x` with its
    positive entries replaced by zero before the exponential is taken; the outer and the inner selection test the same
    sign. Index by index it is `elu` again: where `x` is not positive `x' = x`, and `expm1 x = exp x - 1`. -/
theorem select_one_mul_expm1 {s : Shape} (x : FVec Ideal s .f32) (zero zero' one : FVec Ideal s .f32)
    (hz : ∀ i, zero i = Ideal.ofBits .f32 0x00000000#32) (hz' : ∀ i, zero' i = Ideal.ofBits .f32 0x00000000#32)
    (ho : ∀ i, one i = Ideal.ofBits .f32 0x3F800000#32) :
    select (cmpf .ogt x zero) x (mulf one (Host.expm1 (select (cmpf .ogt x zero) zero' x)))
    = fun i => elu (x i) := by
  funext i
  simp only [select, cmpf, mulf, Host.expm1, Scalar.select, Ideal.cmpf_def, Ideal.cmp,
    Ideal.mulf_def, Ideal.hostUnary_expm1_def, hz, hz', ho, Ideal.ofBits_zero_f32, one_f32, elu]
  by_cases h : (0 : EReal) < x i <;> simp [h]

end Cert.LibElu

end
-- ==== Proof.Spec.lean ====
import proofs.«140626_g76854144795175_cont_sun_m_49_16_alg».proof.Proof.LibPlainDot
import proofs.«140626_g76854144795175_cont_sun_m_49_16_alg».proof.Proof.LibElu

noncomputable section

namespace Cert.Spec

open Idealize.ShloMosaic Idealize.ShloMosaic.ValueIdx Cert.Lib.PlainDot Cert.LibElu

/-! The network as one function of its 23 argument arrays, on the extended reals.

    Three cell ranks carry features `x0` (8192 rows), `x1` (8192 rows), `x2` (4096 rows), 128 features each.
    Each is projected to 64 features by a dense layer followed by the exponential linear unit. The rank-1 cells
    are then updated from their neighbours: three neighbourhood matrices act on the projected features (each through
    its own 64×64 weight), the three messages pass through the unit and are added, and a dense layer with the unit
    gives the new rank-1 features. Each rank has a linear head to 16 classes; the heads' outputs are averaged over the
    rows of their rank and the three averages are added. -/

/-- An `m × n` array and a length-`n` vector of extended reals. -/
abbrev Mat (m n : Nat) : Type := (⟨2, ![m, n]⟩ : Shape).Idx → EReal
abbrev Vc (n : Nat) : Type := (⟨1, ![n]⟩ : Shape).Idx → EReal

/-- A dense layer followed by the unit: `elu (x · W + b)`, the bias added along the rows. -/
def dense {M K N : Nat} (x : Mat M K) (W : Mat K N) (b : Vc N) : Mat M N :=
  fun j => elu (mm x W j + b (ix1 (j 1)))

/-- A linear head: `x · W + b`. -/
def head {M K N : Nat} (x : Mat M K) (W : Mat K N) (b : Vc N) : Mat M N :=
  fun j => mm x W j + b (ix1 (j 1))

/-- The mean over the rows: the column sum, started from zero, divided by `n`. -/
def rowMean {M N : Nat} (n : EReal) (y : Mat M N) : Vc N :=
  fun j => Ideal.div (0 + ∑ r : Fin M, y (ix2 r (j 0))) n

/-- The three messages into the rank-1 cells, each through the unit, added: upper adjacency, coboundary, boundary. -/
def messages (x0p : Mat 8192 64) (x1p : Mat 8192 64) (x2p : Mat 4096 64)
    (N11 : Mat 8192 8192) (N21 : Mat 8192 4096) (N01 : Mat 8192 8192)
    (Wc11 Wc21 Wc01 : Mat 64 64) : Mat 8192 64 :=
  fun j => (elu (mm N11 (mm x1p Wc11) j) + elu (mm N21 (mm x2p Wc21) j)) + elu (mm N01 (mm x0p Wc01) j)

/-- The result: the sum of the three ranks' averaged heads, in the order rank 2, rank 1, rank 0. -/
def G (x0 x1 : Mat 8192 128) (x2 : Mat 4096 128) (N11 : Mat 8192 8192) (N21 : Mat 8192 4096) (N01 : Mat 8192 8192)
    (Wp0 : Mat 128 64) (bp0 : Vc 64) (Wp1 : Mat 128 64) (bp1 : Vc 64) (Wp2 : Mat 128 64) (bp2 : Vc 64)
    (Wc11 Wc21 Wc01 Wup : Mat 64 64) (bup : Vc 64)
    (Wl0 : Mat 64 16) (bl0 : Vc 16) (Wl1 : Mat 64 16) (bl1 : Vc 16) (Wl2 : Mat 64 16) (bl2 : Vc 16) : Vc 16 :=
  let x0p := dense x0 Wp0 bp0
  let x1p := dense x1 Wp1 bp1
  let x2p := dense x2 Wp2 bp2
  let x1n := dense (messages x0p x1p x2p N11 N21 N01 Wc11 Wc21 Wc01) Wup bup
  fun j => (rowMean ((4096 : ℝ) : EReal) (head x2p Wl2 bl2) j + rowMean ((8192 : ℝ) : EReal) (head x1n Wl1 bl1) j)
    + rowMean ((8192 : ℝ) : EReal) (head x0p Wl0 bl0) j

end Cert.Spec

end
-- ==== Proof.KBrPay.lean ====
/- The kernel's payload functions read on the extended reals: each is a matrix product, a dense layer with the
   exponential linear unit, a column sum divided by the row count, or a sum of such, index by index. -/
import proofs.«140626_g76854144795175_cont_sun_m_49_16_alg».proof.Proof.KVal
import proofs.«140626_g76854144795175_cont_sun_m_49_16_alg».proof.Proof.Spec
import Idealize.ShloMosaic.Lib.ValueLayout
import Idealize.ShloMosaic.Lib.Pipeline.Value

noncomputable section

namespace Cert.KBridge

open Cert.KernelIdeal Cert.KernelIdeal.Gen Cert.KernelIdeal.Gen.KVal Idealize.ShloMosaic Idealize.ShloMosaic.ValueIdx
open Cert.Lib.PlainDot Cert.LibElu Cert.Spec

/-- Two arrays with two axes that agree at every pair of coordinates are equal. -/
theorem ext2 {M N : Nat} {α : Type} {f g : (⟨2, ![M, N]⟩ : Shape).Idx → α} (h : ∀ r c, f (ix2 r c) = g (ix2 r c)) : f = g :=
  funext fun j => (congrArg f (eq_ix2 j)).trans ((h _ _).trans (congrArg g (eq_ix2 j).symm))

/-- A bias vector as one row. -/
abbrev r64 (b : Vc 64) : Vec Ideal S1x64 .f32 := shapeCast S1x64 b shapeCasts_S64_S1x64
abbrev r16 (b : Vc 16) : Vec Ideal S1x16 .f32 := shapeCast S1x16 b shapeCasts_S16_S1x16

theorem r64_apply (b : Vc 64) (u : Fin 1) (h : Fin 64) : r64 b (ix2 u h) = b (ix1 h) :=
  shapeCast_a_1a_apply b _ u h
theorem r16_apply (b : Vc 16) (u : Fin 1) (h : Fin 16) : r16 b (ix2 u h) = b (ix1 h) :=
  shapeCast_a_1a_apply b _ u h

/-- The accelerator's product into a zero accumulator, over printed dimension numbers that are the plain ones. -/
theorem mat_eq_mm {M K N : Nat} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) :
    matmul (F := Ideal) D none l r (constant (F := Ideal) ⟨2, ![M, N]⟩ .f32 0x00000000#32) = mm l r := by
  subst hD; exact matmul_zero none l r

theorem d1_plain : dot_S128x64_S64x64_S128x64_1_0_0_1_n_n = DotDims.plain 128 64 64 := rfl
theorem mm_d1 (l : FVec Ideal ⟨2, ![128, 64]⟩ .f32) (r : FVec Ideal ⟨2, ![64, 64]⟩ .f32) :
    matmul (F := Ideal) dot_S128x64_S64x64_S128x64_1_0_0_1_n_n none l r (constant (F := Ideal) ⟨2, ![128, 64]⟩ .f32 0x00000000#32) = mm l r :=
  mat_eq_mm _ d1_plain l r
theorem d2_plain : dot_S1x64_S64x16_S1x16_1_0_0_1_n_n = DotDims.plain 1 64 16 := rfl
theorem mm_d2 (l : FVec Ideal ⟨2, ![1, 64]⟩ .f32) (r : FVec Ideal ⟨2, ![64, 16]⟩ .f32) :
    matmul (F := Ideal) dot_S1x64_S64x16_S1x16_1_0_0_1_n_n none l r (constant (F := Ideal) ⟨2, ![1, 16]⟩ .f32 0x00000000#32) = mm l r :=
  mat_eq_mm _ d2_plain l r
theorem d3_plain : dot_S8192x128_S128x64_S8192x64_1_0_0_1_n_n = DotDims.plain 8192 128 64 := rfl
theorem mm_d3 (l : FVec Ideal ⟨2, ![8192, 128]⟩ .f32) (r : FVec Ideal ⟨2, ![128, 64]⟩ .f32) :
    matmul (F := Ideal) dot_S8192x128_S128x64_S8192x64_1_0_0_1_n_n none l r (constant (F := Ideal) ⟨2, ![8192, 64]⟩ .f32 0x00000000#32) = mm l r :=
  mat_eq_mm _ d3_plain l r
theorem d4_plain : dot_S4096x128_S128x64_S4096x64_1_0_0_1_n_n = DotDims.plain 4096 128 64 := rfl
theorem mm_d4 (l : FVec Ideal ⟨2, ![4096, 128]⟩ .f32) (r : FVec Ideal ⟨2, ![128, 64]⟩ .f32) :
    matmul (F := Ideal) dot_S4096x128_S128x64_S4096x64_1_0_0_1_n_n none l r (constant (F := Ideal) ⟨2, ![4096, 64]⟩ .f32 0x00000000#32) = mm l r :=
  mat_eq_mm _ d4_plain l r
theorem d5_plain : dot_S8192x64_S64x64_S8192x64_1_0_0_1_n_n = DotDims.plain 8192 64 64 := rfl
theorem mm_d5 (l : FVec Ideal ⟨2, ![8192, 64]⟩ .f32) (r : FVec Ideal ⟨2, ![64, 64]⟩ .f32) :
    matmul (F := Ideal) dot_S8192x64_S64x64_S8192x64_1_0_0_1_n_n none l r (constant (F := Ideal) ⟨2, ![8192, 64]⟩ .f32 0x00000000#32) = mm l r :=
  mat_eq_mm _ d5_plain l r
theorem d6_plain : dot_S4096x64_S64x64_S4096x64_1_0_0_1_n_n = DotDims.plain 4096 64 64 := rfl
theorem mm_d6 (l : FVec Ideal ⟨2, ![4096, 64]⟩ .f32) (r : FVec Ideal ⟨2, ![64, 64]⟩ .f32) :
    matmul (F := Ideal) dot_S4096x64_S64x64_S4096x64_1_0_0_1_n_n none l r (constant (F := Ideal) ⟨2, ![4096, 64]⟩ .f32 0x00000000#32) = mm l r :=
  mat_eq_mm _ d6_plain l r
theorem d7_plain : dot_S128x4096_S4096x64_S128x64_1_0_0_1_n_n = DotDims.plain 128 4096 64 := rfl
theorem mm_d7 (l : FVec Ideal ⟨2, ![128, 4096]⟩ .f32) (r : FVec Ideal ⟨2, ![4096, 64]⟩ .f32) :
    matmul (F := Ideal) dot_S128x4096_S4096x64_S128x64_1_0_0_1_n_n none l r (constant (F := Ideal) ⟨2, ![128, 64]⟩ .f32 0x00000000#32) = mm l r :=
  mat_eq_mm _ d7_plain l r

theorem f32_4096 : Scalar.ofBits (F := Ideal) .f32 0x45800000#32 = ((4096 : ℝ) : EReal) := by
  simp [Scalar.ofBits, Ideal.ofBits, Ideal.ieee, -EReal.coe_mul]; norm_num
theorem f32_8192 : Scalar.ofBits (F := Ideal) .f32 0x46000000#32 = ((8192 : ℝ) : EReal) := by
  simp [Scalar.ofBits, Ideal.ofBits, Ideal.ieee, -EReal.coe_mul]; norm_num
theorem f32_inv8192 : Scalar.ofBits (F := Ideal) .f32 0x39000000#32 = (((1 : ℝ) / 8192 : ℝ) : EReal) := by
  simp [Scalar.ofBits, Ideal.ofBits, Ideal.ieee, -EReal.coe_mul]; norm_num

/-- A bias row broadcast along the rows, read at an index. -/
theorem bias_row {M N : Nat} (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (r : Fin M) (h : Fin N) :
    broadcastTo ⟨2, ![M, N]⟩ (shapeCast ⟨2, ![1, N]⟩ b hc) hb (ix2 r h) = b (ix2 (0 : Fin 1) h) := by
  rw [shapeCast_self]; exact broadcastTo_1b_ab_apply b hb r h

/-- A dense layer with the unit, index by index, over any printed product record that is the plain one. -/
theorem dense_apply {M K N : Nat} (D : DotDims ⟨2, ![M, K]⟩ ⟨2, ![K, N]⟩ ⟨2, ![M, N]⟩) (hD : D = DotDims.plain M K N)
    (x : FVec Ideal ⟨2, ![M, K]⟩ .f32) (W : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (r : Fin M) (h : Fin N) :
    addf (matmul (F := Ideal) D none x W (constant (F := Ideal) ⟨2, ![M, N]⟩ .f32 0x00000000#32))
      (broadcastTo ⟨2, ![M, N]⟩ (shapeCast ⟨2, ![1, N]⟩ b hc) hb) (ix2 r h) = mm x W (ix2 r h) + b (ix2 (0 : Fin 1) h) := by
  rw [addf_apply, mat_eq_mm D hD, bias_row]

theorem pay5_apply (x : FVec Ideal S8192x128 .f32) (W : FVec Ideal S128x64 .f32) (b : Vc 64) (r : Fin 8192) (h : Fin 64) :
    k0_pay5 (F := Ideal) x W (r64 b) (ix2 r h) = elu (mm x W (ix2 r h) + b (ix1 h)) := by
  unfold k0_pay5
  try dsimp only
  rw [select_exp_sub_one]
  beta_reduce
  rw [dense_apply _ d3_plain, r64_apply]

theorem pay5_eq (x : FVec Ideal S8192x128 .f32) (W : FVec Ideal S128x64 .f32) (b : Vc 64) :
    k0_pay5 (F := Ideal) x W (r64 b) = dense x W b :=
  ext2 fun r h => pay5_apply x W b r h

theorem pay6_apply (x : FVec Ideal S8192x128 .f32) (W : FVec Ideal S128x64 .f32) (b : Vc 64) (r : Fin 8192) (h : Fin 64) :
    k0_pay6 (F := Ideal) x W (r64 b) (ix2 r h) = elu (mm x W (ix2 r h) + b (ix1 h)) := by
  unfold k0_pay6
  try dsimp only
  rw [select_exp_sub_one]
  beta_reduce
  rw [dense_apply _ d3_plain, r64_apply]

theorem pay6_eq (x : FVec Ideal S8192x128 .f32) (W : FVec Ideal S128x64 .f32) (b : Vc 64) :
    k0_pay6 (F := Ideal) x W (r64 b) = dense x W b :=
  ext2 fun r h => pay6_apply x W b r h

theorem pay79_apply (x : FVec Ideal S4096x128 .f32) (W : FVec Ideal S128x64 .f32) (b : Vc 64) (r : Fin 4096) (h : Fin 64) :
    k0_pay9 (F := Ideal) (k0_pay7 (F := Ideal) x W (r64 b)) (k0_pay8 (F := Ideal)) (ix2 r h) = elu (mm x W (ix2 r h) + b (ix1 h)) := by
  unfold k0_pay9 k0_pay8 k0_pay7
  try dsimp only
  rw [select_exp_sub_one]
  beta_reduce
  rw [dense_apply _ d4_plain, r64_apply]

theorem pay79_eq (x : FVec Ideal S4096x128 .f32) (W : FVec Ideal S128x64 .f32) (b : Vc 64) :
    k0_pay9 (F := Ideal) (k0_pay7 (F := Ideal) x W (r64 b)) (k0_pay8 (F := Ideal)) = dense x W b :=
  ext2 fun r h => pay79_apply x W b r h

theorem pay10_eq (v : FVec Ideal S8192x64 .f32) (W : FVec Ideal S64x64 .f32) : k0_pay10 (F := Ideal) v W = mm v W := by
  unfold k0_pay10; (try dsimp only); rw [shapeCast_self, mm_d5]
theorem pay11_eq (v : FVec Ideal S8192x64 .f32) (W : FVec Ideal S64x64 .f32) : k0_pay11 (F := Ideal) v W = mm v W := by
  unfold k0_pay11; (try dsimp only); rw [shapeCast_self, mm_d5]
theorem pay12_eq (v u : FVec Ideal S4096x64 .f32) (W : FVec Ideal S64x64 .f32) :
    k0_pay12 (F := Ideal) v u W = mm (k0_pay9 (F := Ideal) v u) W := by
  unfold k0_pay12; (try dsimp only); rw [shapeCast_self, mm_d6]

theorem pay17_eq (A : FVec Ideal S128x4096 .f32) (z : FVec Ideal S4096x64 .f32) : k0_pay17 (F := Ideal) A z = mm A z := by
  unfold k0_pay17; (try dsimp only); rw [mm_d7]
theorem pay18_eq (A : FVec Ideal S128x4096 .f32) (z : FVec Ideal S4096x64 .f32) (A' : FVec Ideal S128x4096 .f32)
    (z' : FVec Ideal S4096x64 .f32) : k0_pay18 (F := Ideal) A z A' z' = fun i => mm A z i + mm A' z' i := by
  unfold k0_pay18; (try dsimp only); rw [mm_d7, mm_d7]; rfl
theorem pay19_eq (A : FVec Ideal S128x4096 .f32) (z : FVec Ideal S4096x64 .f32) (A' : FVec Ideal S128x4096 .f32)
    (z' : FVec Ideal S4096x64 .f32) : k0_pay19 (F := Ideal) A z A' z' = fun i => elu (mm A z i + mm A' z' i) := by
  unfold k0_pay19; (try dsimp only); rw [select_exp_sub_one, mm_d7, mm_d7]; rfl

theorem lift_rows {M N : Nat} (hr : (⟨2, ![M, N]⟩ : Shape).Reduces [0] ⟨1, ![N]⟩) (h : Fin N) (r : Fin M) :
    hr.lift (ix1 h) r = ix2 r h :=
  funext fun a => by
    match a with
    | ⟨0, _⟩ => rfl
    | ⟨1, _⟩ => rfl

theorem pay13_apply (v u : FVec Ideal S4096x64 .f32) (w : Fin 1) (h : Fin 64) :
    k0_pay13 (F := Ideal) v u (ix2 w h)
      = Ideal.div (∑ r : Fin 4096, k0_pay9 (F := Ideal) v u (ix2 r h)) ((4096 : ℝ) : EReal) := by
  unfold k0_pay13
  try dsimp only
  rw [divf_apply, shapeCast_a_1a_apply]
  refine congr (congrArg Ideal.div ?_) f32_4096
  refine (Ideal.multiReduction_add_single _ _ _ _ _ _).trans ?_
  exact Finset.sum_congr rfl fun r _ => congrArg _ (lift_rows _ h r)

theorem pay14_apply (X : FVec Ideal S8192x64 .f32) (W : FVec Ideal S64x16 .f32) (w : Fin 1) (j : Fin 16) :
    k0_pay14 (F := Ideal) X W (ix2 w j)
      = ∑ k : Fin 64, Ideal.div (∑ r : Fin 8192, X (ix2 r k)) ((8192 : ℝ) : EReal) * W (ix2 k j) := by
  unfold k0_pay14
  try dsimp only
  rw [mm_d2, mm_apply]
  refine Finset.sum_congr rfl fun k _ => congrArg (· * W (ix2 k j)) ?_
  rw [divf_apply, shapeCast_a_1a_apply]
  refine congr (congrArg Ideal.div ?_) f32_8192
  refine (Ideal.multiReduction_add_single _ _ _ _ _ _).trans ?_
  exact Finset.sum_congr rfl fun r _ => congrArg _ (lift_rows _ k r)

theorem pay15_eq (v : FVec Ideal S1x16 .f32) : k0_pay15 (F := Ideal) v = v := by
  unfold k0_pay15; (try dsimp only); rw [shapeCast_self]

theorem pay16_apply (m : FVec Ideal S1x64 .f32) (p q : FVec Ideal S1x16 .f32) (W : FVec Ideal S64x16 .f32)
    (b : FVec Ideal S1x16 .f32) (i : S1x16.Idx) :
    k0_pay16 (F := Ideal) m p q W b i = ((p i + q i) + mm m W i) + b i := by
  unfold k0_pay16; (try dsimp only); rw [shapeCast_self, mm_d2]; rfl

theorem pay4_apply (a : FVec Ideal S1x64 .f32) (o : FVec Ideal S1x16 .f32) (W : FVec Ideal S64x16 .f32)
    (b : FVec Ideal S1x16 .f32) (i : S1x16.Idx) :
    k0_pay4 (F := Ideal) a o W b i = (o i + mm (fun i => a i * (((1 : ℝ) / 8192 : ℝ) : EReal)) W i) + b i := by
  unfold k0_pay4; (try dsimp only); rw [shapeCast_self, shapeCast_self, mm_d2]
  show (o i + mm (fun i => a i * Scalar.ofBits (F := Ideal) .f32 0x39000000#32) W i) + b i = _
  rw [f32_inv8192]

theorem pay20_eq (A : FVec Ideal S128x4096 .f32) (z : FVec Ideal S4096x64 .f32) :
    k0_pay20 (F := Ideal) A z = cmpf .ogt (mm A z) (broadcast S128x64 (Scalar.ofBits (F := Ideal) .f32 0x00000000#32)) := by
  unfold k0_pay20; (try dsimp only); rw [pay17_eq]

/-- The slab's contribution: the row sum of the updated features of its 128 rows. -/
theorem pay1_apply (v12 v19 v25 : FVec Ideal S128x64 .f32) (W : FVec Ideal S64x64 .f32) (bb : FVec Ideal S1x64 .f32)
    (w : Fin 1) (h : Fin 64) :
    k0_pay1 (F := Ideal) v12 v19 v25 (cmpf .ogt v12 (broadcast S128x64 (Scalar.ofBits (F := Ideal) .f32 0x00000000#32))) W bb (ix2 w h)
      = ∑ r : Fin 128, elu (mm (fun i => (v25 i + elu (v12 i)) + elu (v19 i)) W (ix2 r h) + bb (ix2 (0 : Fin 1) h)) := by
  unfold k0_pay1
  try dsimp only
  rw [select_exp_sub_one, select_exp_sub_one, select_exp_sub_one, shapeCast_a_1a_apply]
  refine (Ideal.multiReduction_add_single _ _ _ _ _ _).trans ?_
  show (∑ r : Fin 128, _) = _
  refine Finset.sum_congr rfl fun r _ => ?_
  refine Eq.trans (congrArg (fun idx => elu (addf (matmul (F := Ideal) dot_S128x64_S64x64_S128x64_1_0_0_1_n_n none
      (addf (addf v25 fun i => elu (v12 i)) fun i => elu (v19 i)) W (constant (F := Ideal) S128x64 .f32 0x00000000#32))
      (broadcastTo S128x64 (shapeCast S1x64 bb shapeCasts_S1x64_S1x64) broadcasts_S1x64_S128x64) idx))
      (lift_rows reduces_S128x64_S64 h r)) ?_
  exact congrArg elu (dense_apply _ d1_plain _ W bb _ _ r h)

theorem pay2_eq (v12 v19 v25 : FVec Ideal S128x64 .f32) (c : IVec S128x64 1) (W : FVec Ideal S64x64 .f32) (bb : FVec Ideal S1x64 .f32) :
    k0_pay2 (F := Ideal) v12 v19 v25 c W bb = k0_pay1 (F := Ideal) v12 v19 v25 c W bb := by
  unfold k0_pay2; (try dsimp only); rw [shapeCast_self]

theorem pay3_apply (v12 v19 v25 : FVec Ideal S128x64 .f32) (c : IVec S128x64 1) (W : FVec Ideal S64x64 .f32) (bb : FVec Ideal S1x64 .f32)
    (a : FVec Ideal S1x64 .f32) (i : S1x64.Idx) :
    k0_pay3 (F := Ideal) v12 v19 v25 c W bb a i = a i + k0_pay1 (F := Ideal) v12 v19 v25 c W bb i := by
  unfold k0_pay3; (try dsimp only); rw [shapeCast_self]; rfl

end Cert.KBridge
end
-- ==== Proof.KBrBlocks.lean ====
/- A 128-row slab of a neighbourhood matrix applied to a weighted feature array is the same 128 rows of the whole
   product: a row of a product reads only that row of the left operand, and a sum over 8192 columns is the sum over
   the left 4096 plus the sum over the right 4096 (associativity and commutativity only, valid on all extended reals). -/
import proofs.«140626_g76854144795175_cont_sun_m_49_16_alg».proof.Proof.KBrPay

noncomputable section

namespace Cert.KBridge

open Cert.KernelIdeal Cert.KernelIdeal.Gen Cert.KernelIdeal.Gen.KVal Idealize.ShloMosaic Idealize.ShloMosaic.ValueIdx
open Cert.Lib.PlainDot Cert.LibElu Cert.Spec

theorem topH_apply (z : Vec Ideal S8192x64 .f32) (k : Fin 4096) (h : Fin 64) (j : Fin 8192) (hj : j.val = k.val) :
    topH (F := Ideal) z (ix2 k h) = z (ix2 j h) := by
  unfold topH
  show z _ = z _
  refine congrArg z (funext fun a => Fin.ext ?_)
  match a with
  | ⟨0, _⟩ => show 0 + 1 * k.val = j.val; omega
  | ⟨1, _⟩ => show 0 + 1 * h.val = h.val; omega

theorem botH_apply (z : Vec Ideal S8192x64 .f32) (k : Fin 4096) (h : Fin 64) (j : Fin 8192) (hj : j.val = 4096 + k.val) :
    botH (F := Ideal) z (ix2 k h) = z (ix2 j h) := by
  unfold botH
  show z _ = z _
  refine congrArg z (funext fun a => Fin.ext ?_)
  match a with
  | ⟨0, _⟩ => show 4096 + 1 * k.val = j.val; omega
  | ⟨1, _⟩ => show 0 + 1 * h.val = h.val; omega

/-- The product split over the two column halves of the left operand is the whole product. -/
theorem split_mm (N : Mat 8192 8192) (z : Mat 8192 64) (A A' : FVec Ideal S128x4096 .f32) (i : Fin 8192) (r : Fin 128)
    (h : Fin 64)
    (hA : ∀ (k : Fin 4096) (j : Fin 8192), j.val = k.val → A (ix2 r k) = N (ix2 i j))
    (hA' : ∀ (k : Fin 4096) (j : Fin 8192), j.val = 4096 + k.val → A' (ix2 r k) = N (ix2 i j)) :
    mm A (topH (F := Ideal) z) (ix2 r h) + mm A' (botH (F := Ideal) z) (ix2 r h) = mm N z (ix2 i h) := by
  rw [mm_apply, mm_apply, mm_apply]
  have e : (∑ k : Fin 8192, N (ix2 i k) * z (ix2 k h)) = ∑ k : Fin (4096 + 4096), N (ix2 i k) * z (ix2 k h) := rfl
  rw [e, Fin.sum_univ_add]
  refine congr (congrArg HAdd.hAdd (Finset.sum_congr rfl fun k _ => ?_)) (Finset.sum_congr rfl fun k _ => ?_)
  · rw [hA k (Fin.castAdd 4096 k) rfl, topH_apply z k h (Fin.castAdd 4096 k) rfl]
  · rw [hA' k (Fin.natAdd 4096 k) rfl, botH_apply z k h (Fin.natAdd 4096 k) rfl]

/-- One row of a slab's updated features is the corresponding row of the whole array's. -/
theorem slab_row (N11 N01 : Mat 8192 8192) (N21 : Mat 8192 4096) (Z0 Z1 : Mat 8192 64) (Z2 : Mat 4096 64) (Wup : Mat 64 64)
    (bup : Vc 64) (b0 b1 b2 b3 b4 : FVec Ideal S128x4096 .f32) (i : Fin 8192) (r : Fin 128) (h : Fin 64)
    (h0 : ∀ (k : Fin 4096) (j : Fin 8192), j.val = k.val → b0 (ix2 r k) = N11 (ix2 i j))
    (h1 : ∀ (k : Fin 4096) (j : Fin 8192), j.val = 4096 + k.val → b1 (ix2 r k) = N11 (ix2 i j))
    (h2 : ∀ k : Fin 4096, b2 (ix2 r k) = N21 (ix2 i k))
    (h3 : ∀ (k : Fin 4096) (j : Fin 8192), j.val = k.val → b3 (ix2 r k) = N01 (ix2 i j))
    (h4 : ∀ (k : Fin 4096) (j : Fin 8192), j.val = 4096 + k.val → b4 (ix2 r k) = N01 (ix2 i j)) :
    elu (mm (fun q => (elu (mm b0 (topH (F := Ideal) Z1) q + mm b1 (botH (F := Ideal) Z1) q) + elu (mm b2 Z2 q))
          + elu (mm b3 (topH (F := Ideal) Z0) q + mm b4 (botH (F := Ideal) Z0) q)) Wup (ix2 r h) + r64 bup (ix2 (0 : Fin 1) h))
      = elu (mm (fun q => (elu (mm N11 Z1 q) + elu (mm N21 Z2 q)) + elu (mm N01 Z0 q)) Wup (ix2 i h) + bup (ix1 h)) := by
  rw [r64_apply]
  refine congrArg elu (congrArg (· + bup (ix1 h)) ?_)
  refine mm_row _ _ Wup i r h fun k => ?_
  show (elu (mm b0 (topH (F := Ideal) Z1) (ix2 r k) + mm b1 (botH (F := Ideal) Z1) (ix2 r k)) + elu (mm b2 Z2 (ix2 r k)))
      + elu (mm b3 (topH (F := Ideal) Z0) (ix2 r k) + mm b4 (botH (F := Ideal) Z0) (ix2 r k)) = _
  rw [split_mm N11 Z1 b0 b1 i r k h0 h1, split_mm N01 Z0 b3 b4 i r k h3 h4, mm_row N21 b2 Z2 i r k h2]

end Cert.KBridge
end
-- ==== Proof.KBrSum.lean ====
/- The kernel's state after each grid point: the three weighted feature arrays and the seeded result stay what the
   first point made them, and the running sum after point n is the sum of the first n + 1 slabs' row sums. -/
import proofs.«140626_g76854144795175_cont_sun_m_49_16_alg».proof.Proof.KBrBlocks

noncomputable section

namespace Cert.KBridge

open Cert.KernelIdeal Cert.KernelIdeal.Gen Cert.KernelIdeal.Gen.KVal Idealize.ShloMosaic Idealize.ShloMosaic.ValueIdx
open Cert.Lib.PlainDot Cert.LibElu Cert.Spec

section

variable (B0 : Fin cfg0.N → Vec Ideal S128x4096 .f32) (B1 : Fin cfg0.N → Vec Ideal S128x4096 .f32) (B2 : Fin cfg0.N → Vec Ideal S128x4096 .f32) (B3 : Fin cfg0.N → Vec Ideal S128x4096 .f32) (B4 : Fin cfg0.N → Vec Ideal S128x4096 .f32) (B5 : Fin cfg0.N → Vec Ideal S8192x128 .f32) (B6 : Fin cfg0.N → Vec Ideal S8192x128 .f32) (B7 : Fin cfg0.N → Vec Ideal S4096x128 .f32) (B8 : Fin cfg0.N → Vec Ideal S128x64 .f32) (B9 : Fin cfg0.N → Vec Ideal S1x64 .f32) (B10 : Fin cfg0.N → Vec Ideal S128x64 .f32) (B11 : Fin cfg0.N → Vec Ideal S1x64 .f32) (B12 : Fin cfg0.N → Vec Ideal S128x64 .f32) (B13 : Fin cfg0.N → Vec Ideal S1x64 .f32) (B14 : Fin cfg0.N → Vec Ideal S64x64 .f32) (B15 : Fin cfg0.N → Vec Ideal S64x64 .f32) (B16 : Fin cfg0.N → Vec Ideal S64x64 .f32) (B17 : Fin cfg0.N → Vec Ideal S64x64 .f32) (B18 : Fin cfg0.N → Vec Ideal S1x64 .f32) (B19 : Fin cfg0.N → Vec Ideal S64x16 .f32) (B20 : Fin cfg0.N → Vec Ideal S1x16 .f32) (B21 : Fin cfg0.N → Vec Ideal S64x16 .f32) (B22 : Fin cfg0.N → Vec Ideal S1x16 .f32) (B23 : Fin cfg0.N → Vec Ideal S64x16 .f32) (B24 : Fin cfg0.N → Vec Ideal S1x16 .f32)

local notation "KAT" => kAt B0 B1 B2 B3 B4 B5 B6 B7 B8 B9 B10 B11 B12 B13 B14 B15 B16 B17 B18 B19 B20 B21 B22 B23 B24
local notation "KZ0" => kz0 B0 B1 B2 B3 B4 B5 B6 B7 B8 B9 B10 B11 B12 B13 B14 B15 B16 B17 B18 B19 B20 B21 B22 B23 B24
local notation "KZ1" => kz1 B0 B1 B2 B3 B4 B5 B6 B7 B8 B9 B10 B11 B12 B13 B14 B15 B16 B17 B18 B19 B20 B21 B22 B23 B24
local notation "KZ2" => kz2 B0 B1 B2 B3 B4 B5 B6 B7 B8 B9 B10 B11 B12 B13 B14 B15 B16 B17 B18 B19 B20 B21 B22 B23 B24
local notation "KO0" => ko0 B0 B1 B2 B3 B4 B5 B6 B7 B8 B9 B10 B11 B12 B13 B14 B15 B16 B17 B18 B19 B20 B21 B22 B23 B24

/-- The row sum of the updated features of slab t, from given weighted feature arrays. -/
def slabSum (z0 z1 : Vec Ideal S8192x64 .f32) (z2 : Vec Ideal S4096x64 .f32) (t : Fin cfg0.N) : Vec Ideal S1x64 .f32 :=
  k0_pay1 (k0_pay17 (B2 t) z2) (k0_pay18 (B3 t) (topH z0) (B4 t) (botH z0)) (k0_pay19 (B0 t) (topH z1) (B1 t) (botH z1))
    (k0_pay20 (B2 t) z2) (B17 t) (B18 t)

local notation "SLAB" => slabSum B0 B1 B2 B3 B4 B17 B18

theorem kAt_fix (h0 : 0 < cfg0.N) : ∀ (n : ℕ) (hn : n < cfg0.N),
    (KAT n hn).z0 = KZ0 ⟨0, h0⟩ ∧ (KAT n hn).z1 = KZ1 ⟨0, h0⟩ ∧ (KAT n hn).z2 = KZ2 ⟨0, h0⟩ := by
  intro n
  induction n with
  | zero => intro hn; exact ⟨rfl, rfl, rfl⟩
  | succ n ih =>
    intro hn
    obtain ⟨e0, e1, e2⟩ := ih (Nat.lt_of_succ_lt hn)
    rw [kAt]
    split
    · exact ⟨e0, e1, e2⟩
    · exact ⟨e0, e1, e2⟩

theorem kAt_o (h0 : 0 < cfg0.N) : ∀ (n : ℕ) (hn : n < cfg0.N), n ≤ 62 → (KAT n hn).o = KO0 ⟨0, h0⟩ := by
  intro n
  induction n with
  | zero => intro hn _; rfl
  | succ n ih =>
    intro hn hle
    rw [kAt, if_neg (by omega)]
    exact ih (Nat.lt_of_succ_lt hn) (by omega)

theorem kAt_a (h0 : 0 < cfg0.N) : ∀ (n : ℕ) (hn : n < cfg0.N) (i : S1x64.Idx),
    (KAT n hn).a i = ∑ t ∈ Finset.range (n + 1),
      (if ht : t < cfg0.N then SLAB (KZ0 ⟨0, h0⟩) (KZ1 ⟨0, h0⟩) (KZ2 ⟨0, h0⟩) ⟨t, ht⟩ i else 0) := by
  intro n
  induction n with
  | zero =>
    intro hn i
    rw [Finset.sum_range_one, dif_pos hn]
    show k0_pay2 _ _ _ _ _ _ i = _
    rw [pay2_eq]
    rfl
  | succ n ih =>
    intro hn i
    obtain ⟨e0, e1, e2⟩ := kAt_fix B0 B1 B2 B3 B4 B5 B6 B7 B8 B9 B10 B11 B12 B13 B14 B15 B16 B17 B18 B19 B20 B21 B22 B23 B24 h0 n (Nat.lt_of_succ_lt hn)
    have ha : (KAT (n + 1) hn).a i = (KAT n (Nat.lt_of_succ_lt hn)).a i
        + SLAB (KAT n (Nat.lt_of_succ_lt hn)).z0 (KAT n (Nat.lt_of_succ_lt hn)).z1 (KAT n (Nat.lt_of_succ_lt hn)).z2 ⟨n + 1, hn⟩ i := by
      rw [kAt]
      split
      · exact pay3_apply _ _ _ _ _ _ _ i
      · exact pay3_apply _ _ _ _ _ _ _ i
    rw [ha, e0, e1, e2, ih (Nat.lt_of_succ_lt hn) i, Finset.sum_range_succ _ (n + 1), dif_pos hn]

theorem kAt_o63 (h0 : 0 < cfg0.N) (h63 : 63 < cfg0.N) :
    (KAT 63 h63).o = k0_pay4 (KAT 63 h63).a (KO0 ⟨0, h0⟩) (B21 ⟨63, h63⟩) (B22 ⟨63, h63⟩) := by
  have e : (KAT 63 h63).o = k0_pay4 (KAT 63 h63).a (KAT 62 (Nat.lt_of_succ_lt h63)).o (B21 ⟨63, h63⟩) (B22 ⟨63, h63⟩) := by
    show (KAT (62 + 1) h63).o = k0_pay4 (KAT (62 + 1) h63).a _ _ _
    rw [kAt, if_pos rfl]
    rfl
  rw [e, kAt_o B0 B1 B2 B3 B4 B5 B6 B7 B8 B9 B10 B11 B12 B13 B14 B15 B16 B17 B18 B19 B20 B21 B22 B23 B24 h0 62 _ (le_refl _)]

end

end Cert.KBridge
end
-- ==== Proof.LibERealFin.lean ====
/-
  Finite sums and maxima of real numbers, read inside the extended reals.

  The extended reals carry the reals as a sub-structure closed under finite sums, finite maxima, products,
  exponentials and quotients by a nonzero real; each lemma below says that one such operation, applied to
  (coerced) real numbers, yields the (coerced) real result.
-/
import Mathlib
import Idealize.ShloMosaic.PureOps.Ideal

namespace Cert.LibERealFin

open Finset Idealize.ShloMosaic

/-- A finite sum of reals, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem max_coe (x y : ℝ) : max (x : EReal) (y : EReal) = ((max x y : ℝ) : EReal) :=
  (EReal.coe_strictMono.monotone.map_max (a := x) (b := y)).symm

/-- The bottom element is neutral for the maximum with a real. -/
theorem max_bot_coe (x : ℝ) : max (⊥ : EReal) (x : EReal) = (x : EReal) :=
  max_eq_right bot_le

/-- The bottom element is neutral for the maximum, on the right. -/
theorem max_coe_bot (x : ℝ) : max (x : EReal) (⊥ : EReal) = (x : EReal) :=
  max_eq_left bot_le

/-- The supremum of a nonempty finite family of reals, taken in the extended reals, is the real supremum. -/
theorem sup_coe {ι : Type*} (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun x : ℝ => (x : EReal)) (fun x y => (max_coe x y).symm)).symm

/-- Folding the maximum from the bottom element over a finite family is its supremum. -/
theorem fold_max_eq_sup {ι : Type*} (s : Finset ι) (g : ι → EReal) :
    s.fold max (⊥ : EReal) g = s.sup g := by
  classical
  induction s using Finset.induction_on with
  | empty => simp
  | insert a s ha ih => rw [Finset.fold_insert ha, Finset.sup_insert, ih]

/-- Folding the maximum from the bottom element over a nonempty finite family of reals gives the real supremum. -/
theorem fold_max_coe {ι : Type*} (s : Finset ι) (hs : s.Nonempty) (f : ι → ℝ) :
    s.fold max (⊥ : EReal) (fun i => ((f i : ℝ) : EReal)) = ((s.sup' hs f : ℝ) : EReal) := by
  rw [fold_max_eq_sup, sup_coe s hs f]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The exponential of a real, taken in the extended reals, is the real exponential. -/
theorem exp_coe (x : ℝ) : Ideal.exp (x : EReal) = ((Real.exp x : ℝ) : EReal) := rfl

/-- The exponential of a difference of reals. -/
theorem exp_coe_sub (x y : ℝ) :
    Ideal.exp ((x : EReal) - (y : EReal)) = ((Real.exp (x - y) : ℝ) : EReal) := by
  rw [← EReal.coe_sub]; rfl

/-- The bottom element minus a real is the bottom element. -/
theorem bot_sub_coe (x : ℝ) : (⊥ : EReal) - (x : EReal) = ⊥ := by
  rw [sub_eq_add_neg, EReal.bot_add]

/-- The exponential of the bottom element minus a real is zero. -/
theorem exp_bot_sub_coe (x : ℝ) : Ideal.exp ((⊥ : EReal) - (x : EReal)) = 0 := by
  rw [bot_sub_coe]; rfl

/-- A vanishing product added on the left changes nothing. -/
theorem zero_mul_zero_add (x : EReal) : (0 : EReal) * 0 + x = x := by
  rw [zero_mul, zero_add]

/-- A zero factor on the left, added on the left, changes nothing. -/
theorem zero_mul_add (y x : EReal) : (0 : EReal) * y + x = x := by
  rw [zero_mul, zero_add]

/-- The product of two reals, taken in the extended reals, is the real product. -/
theorem mul_coe (x y : ℝ) : (x : EReal) * (y : EReal) = ((x * y : ℝ) : EReal) :=
  (EReal.coe_mul x y).symm

/-- The sum of two reals, taken in the extended reals, is the real sum. -/
theorem add_coe (x y : ℝ) : (x : EReal) + (y : EReal) = ((x + y : ℝ) : EReal) :=
  (EReal.coe_add x y).symm

/-- The difference of two reals, taken in the extended reals, is the real difference. -/
theorem sub_coe (x y : ℝ) : (x : EReal) - (y : EReal) = ((x - y : ℝ) : EReal) :=
  (EReal.coe_sub x y).symm

/-- A sum over a finite type of reals, taken in the extended reals, is the real sum. -/
theorem coe_sum_univ {ι : Type*} [Fintype ι] (f : ι → ℝ) :
    (∑ i, ((f i : ℝ) : EReal)) = ((∑ i, f i : ℝ) : EReal) :=
  coe_sum Finset.univ f

end Cert.LibERealFin
-- ==== Proof.LibMeanAffine.lean ====
import Mathlib
import Idealize.ShloMosaic.PureOps.Ideal
import proofs.«140626_g76854144795175_cont_sun_m_49_16_alg».proof.Proof.LibERealFin

namespace Cert.LibMeanAffine

open Finset Idealize.ShloMosaic Cert.LibERealFin

/-! The row mean commutes with an affine head. For real data `a r k` (rows `r`, features `k`), weights `w k` and a
    bias `b`, the mean over the rows of `(∑ k, a r k * w k) + b` is `(∑ k, (mean over the rows of a r k) * w k) + b`:
    the sum over rows and the sum over features commute, the common factor `1 / n` comes out, and the bias, added
    once per row, survives the mean because there are `n` rows. The law is distributivity, so it is stated for real
    data; the extended-real forms below are the two sides as the programs spell them (sums started from zero,
    quotients by the row count). -/

/-- The law over the reals, the mean as a quotient by the row count. -/
theorem mean_affine_real {R K : Type*} [Fintype R] [Fintype K] (a : R → K → ℝ) (w : K → ℝ) (b n : ℝ)
    (hn : n ≠ 0) (hR : (Fintype.card R : ℝ) = n) :
    (∑ r, ((∑ k, a r k * w k) + b)) / n = (∑ k, ((∑ r, a r k) / n) * w k) + b := by
  rw [Finset.sum_add_distrib, Finset.sum_const, Finset.card_univ, nsmul_eq_mul, hR, add_div,
    mul_div_cancel_left₀ _ hn, Finset.sum_comm, Finset.sum_div]
  congr 1
  refine Finset.sum_congr rfl fun k _ => ?_
  rw [← Finset.sum_mul, div_mul_eq_mul_div]

/-- The same with the mean taken as a product with the reciprocal `c` of the row count. -/
theorem mean_affine_real_recip {R K : Type*} [Fintype R] [Fintype K] (a : R → K → ℝ) (w : K → ℝ) (b n c : ℝ)
    (hn : n ≠ 0) (hc : c = 1 / n) (hR : (Fintype.card R : ℝ) = n) :
    (∑ r, ((∑ k, a r k * w k) + b)) / n = (∑ k, ((∑ r, a r k) * c) * w k) + b := by
  rw [mean_affine_real a w b n hn hR, hc]
  congr 1
  refine Finset.sum_congr rfl fun k _ => ?_
  rw [mul_one_div]

/-- On the extended reals, for real data: the mean (a quotient by the real row count) of the rows of
    `(0 + ∑ k, a r k * w k) + b`, summed from zero, is `(0 + ∑ k, (0 + ∑ r, a r k) / n * w k) + b`. -/
theorem mean_affine {R K : Type*} [Fintype R] [Fintype K] (a : R → K → ℝ) (w : K → ℝ) (b n : ℝ)
    (hn : n ≠ 0) (hR : (Fintype.card R : ℝ) = n) :
    Ideal.div (0 + ∑ r, ((0 + ∑ k, ((a r k : ℝ) : EReal) * ((w k : ℝ) : EReal)) + ((b : ℝ) : EReal))) ((n : ℝ) : EReal)
    = (0 + ∑ k, Ideal.div (0 + ∑ r, ((a r k : ℝ) : EReal)) ((n : ℝ) : EReal) * ((w k : ℝ) : EReal)) + ((b : ℝ) : EReal) := by
  simp only [zero_add, mul_coe, coe_sum_univ, add_coe, fun x : ℝ => div_coe_coe x hn]
  exact congrArg _ (mean_affine_real a w b n hn hR)

/-- The same, the right-hand mean a product with the real reciprocal `c` of the row count. -/
theorem mean_affine_recip {R K : Type*} [Fintype R] [Fintype K] (a : R → K → ℝ) (w : K → ℝ) (b n c : ℝ)
    (hn : n ≠ 0) (hc : c = 1 / n) (hR : (Fintype.card R : ℝ) = n) :
    Ideal.div (0 + ∑ r, ((0 + ∑ k, ((a r k : ℝ) : EReal) * ((w k : ℝ) : EReal)) + ((b : ℝ) : EReal))) ((n : ℝ) : EReal)
    = (0 + ∑ k, ((0 + ∑ r, ((a r k : ℝ) : EReal)) * ((c : ℝ) : EReal)) * ((w k : ℝ) : EReal)) + ((b : ℝ) : EReal) := by
  simp only [zero_add, mul_coe, coe_sum_univ, add_coe, fun x : ℝ => div_coe_coe x hn]
  exact congrArg _ (mean_affine_real_recip a w b n c hn hc hR)

end Cert.LibMeanAffine
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.KBrReal.lean ====
/- Real-valuedness through the network, and the mean over the rows of a linear head of real data: the mean commutes
   with the head (the only step that needs the data real, since it is distributivity). -/
import proofs.«140626_g76854144795175_cont_sun_m_49_16_alg».proof.Proof.Spec
import proofs.«140626_g76854144795175_cont_sun_m_49_16_alg».proof.Proof.LibMeanAffine
import proofs.«140626_g76854144795175_cont_sun_m_49_16_alg».proof.Proof.LibReal

noncomputable section

namespace Cert.KBridge

open Idealize.ShloMosaic Idealize.ShloMosaic.ValueIdx Cert.Lib.PlainDot Cert.LibElu Cert.Spec
open Cert.Lib.Real (IsReal)

theorem isReal_elu {x : EReal} (hx : IsReal x) : IsReal (elu x) := by
  obtain ⟨r, rfl⟩ := hx
  unfold elu
  split
  · exact ⟨r, rfl⟩
  · rw [Cert.LibERealFin.exp_coe]; exact (Cert.Lib.Real.isReal_coe _).sub Cert.Lib.Real.isReal_one

theorem isReal_mm {M K N : Nat} (l : Mat M K) (r : Mat K N) (hl : ∀ i, IsReal (l i)) (hr : ∀ i, IsReal (r i))
    (j : (⟨2, ![M, N]⟩ : Shape).Idx) : IsReal (mm l r j) :=
  Cert.Lib.Real.isReal_sum _ _ fun _ _ => (hl _).mul (hr _)

theorem isReal_dense {M K N : Nat} (x : Mat M K) (W : Mat K N) (b : Vc N) (hx : ∀ i, IsReal (x i)) (hW : ∀ i, IsReal (W i))
    (hb : ∀ i, IsReal (b i)) (j : (⟨2, ![M, N]⟩ : Shape).Idx) : IsReal (dense x W b j) :=
  isReal_elu ((isReal_mm x W hx hW j).add (hb _))

theorem isReal_messages (x0p x1p : Mat 8192 64) (x2p : Mat 4096 64) (N11 : Mat 8192 8192) (N21 : Mat 8192 4096)
    (N01 : Mat 8192 8192) (W11 W21 W01 : Mat 64 64)
    (h0 : ∀ i, IsReal (x0p i)) (h1 : ∀ i, IsReal (x1p i)) (h2 : ∀ i, IsReal (x2p i))
    (hN11 : ∀ i, IsReal (N11 i)) (hN21 : ∀ i, IsReal (N21 i)) (hN01 : ∀ i, IsReal (N01 i))
    (hW11 : ∀ i, IsReal (W11 i)) (hW21 : ∀ i, IsReal (W21 i)) (hW01 : ∀ i, IsReal (W01 i))
    (j : (⟨2, ![8192, 64]⟩ : Shape).Idx) : IsReal (messages x0p x1p x2p N11 N21 N01 W11 W21 W01 j) :=
  ((isReal_elu (isReal_mm _ _ hN11 (isReal_mm _ _ h1 hW11) j)).add
    (isReal_elu (isReal_mm _ _ hN21 (isReal_mm _ _ h2 hW21) j))).add
    (isReal_elu (isReal_mm _ _ hN01 (isReal_mm _ _ h0 hW01) j))

/-- The mean over the rows of a linear head of real data is the head of the column means. -/
theorem mean_head {M K N : Nat} (x : Mat M K) (W : Mat K N) (b : Vc N) (hx : ∀ i, IsReal (x i)) (hW : ∀ i, IsReal (W i))
    (hb : ∀ i, IsReal (b i)) (n : ℝ) (hn : n ≠ 0) (hM : (M : ℝ) = n) (j : Fin N) :
    rowMean ((n : ℝ) : EReal) (head x W b) (ix1 j)
      = (∑ k : Fin K, Ideal.div (∑ r : Fin M, x (ix2 r k)) ((n : ℝ) : EReal) * W (ix2 k j)) + b (ix1 j) := by
  choose xr hxr using hx
  choose wr hwr using hW
  choose br hbr using hb
  show Ideal.div (0 + ∑ r : Fin M, ((∑ k : Fin K, x (ix2 r k) * W (ix2 k j)) + b (ix1 j))) ((n : ℝ) : EReal) = _
  simp only [hxr, hwr, hbr]
  have := Cert.LibMeanAffine.mean_affine (fun (r : Fin M) (k : Fin K) => xr (ix2 r k)) (fun k => wr (ix2 k j)) (br (ix1 j)) n hn
    (by rw [Fintype.card_fin]; exact hM)
  simp only [zero_add] at this ⊢
  exact this

/-- The same, the column means taken as products with the reciprocal of the row count. -/
theorem mean_head_recip {M K N : Nat} (x : Mat M K) (W : Mat K N) (b : Vc N) (hx : ∀ i, IsReal (x i)) (hW : ∀ i, IsReal (W i))
    (hb : ∀ i, IsReal (b i)) (n c : ℝ) (hn : n ≠ 0) (hc : c = 1 / n) (hM : (M : ℝ) = n) (j : Fin N) :
    rowMean ((n : ℝ) : EReal) (head x W b) (ix1 j)
      = (∑ k : Fin K, ((∑ r : Fin M, x (ix2 r k)) * ((c : ℝ) : EReal)) * W (ix2 k j)) + b (ix1 j) := by
  choose xr hxr using hx
  choose wr hwr using hW
  choose br hbr using hb
  show Ideal.div (0 + ∑ r : Fin M, ((∑ k : Fin K, x (ix2 r k) * W (ix2 k j)) + b (ix1 j))) ((n : ℝ) : EReal) = _
  simp only [hxr, hwr, hbr]
  have := Cert.LibMeanAffine.mean_affine_recip (fun (r : Fin M) (k : Fin K) => xr (ix2 r k)) (fun k => wr (ix2 k j)) (br (ix1 j)) n c hn hc
    (by rw [Fintype.card_fin]; exact hM)
  simp only [zero_add] at this ⊢
  exact this

end Cert.KBridge
end
-- ==== Proof.LibTileSum.lean ====
/-
  A sum over the rows of an array taken tile by tile: for N = T * R, the sum over all N rows is the sum over the T
  tiles of the sum over the R rows of each tile, row R * t + r being row r of tile t. Only commutativity and
  associativity of the addition are used, so the law holds in any commutative additive monoid (the extended reals
  included, infinities and all).
-/
import Mathlib.Algebra.BigOperators.Fin
import Mathlib.Logic.Equiv.Fin.Basic

namespace Cert.Lib.TileSum

open Finset

theorem row_lt {T R N : ℕ} (hN : T * R = N) (t : Fin T) (r : Fin R) : R * t.val + r.val < N := by
  have h1 : R * t.val + r.val < R * (t.val + 1) := by
    rw [Nat.mul_succ]; exact Nat.add_lt_add_left r.isLt _
  have h2 : R * (t.val + 1) ≤ R * T := Nat.mul_le_mul_left _ t.isLt
  rw [← hN, Nat.mul_comm T R]; exact lt_of_lt_of_le h1 h2

/-- The sum over N = T * R indices is the sum over T tiles of the sum over the R indices of each tile. -/
theorem sum_tiles {M : Type*} [AddCommMonoid M] (T R N : ℕ) (hN : T * R = N) (f : Fin N → M) :
    ∑ k : Fin N, f k = ∑ t : Fin T, ∑ r : Fin R, f ⟨R * t.val + r.val, row_lt hN t r⟩ := by
  subst hN
  rw [← (finProdFinEquiv (m := T) (n := R)).sum_comp, Fintype.sum_prod_type]
  refine Finset.sum_congr rfl fun t _ => Finset.sum_congr rfl fun r _ => ?_
  refine congrArg f (Fin.ext ?_)
  show r.val + R * t.val = R * t.val + r.val
  exact Nat.add_comm _ _

end Cert.Lib.TileSum
-- ==== Proof.KBrMean.lean ====
/- The kernel's result is the specification's function of the 23 argument arrays: the slabs' row sums add up to the
   column sums of the updated rank-1 features, the three averaged heads are the heads of the column means (real data),
   and the kernel's order of adding the three ranks is the specification's up to commutativity and associativity. -/
import proofs.«140626_g76854144795175_cont_sun_m_49_16_alg».proof.Proof.KBrSum
import proofs.«140626_g76854144795175_cont_sun_m_49_16_alg».proof.Proof.KBrReal
import proofs.«140626_g76854144795175_cont_sun_m_49_16_alg».proof.Proof.LibTileSum

noncomputable section

namespace Cert.KBridge

open Cert.KernelIdeal Cert.KernelIdeal.Gen Cert.KernelIdeal.Gen.KVal Idealize.ShloMosaic Idealize.ShloMosaic.ValueIdx
open Cert.Lib.PlainDot Cert.LibElu Cert.Spec

open Cert.Lib.Real (IsReal)

/-- Two vectors that agree at every coordinate are equal. -/
theorem ext1 {N : Nat} {α : Type} {f g : (⟨1, ![N]⟩ : Shape).Idx → α} (h : ∀ c, f (ix1 c) = g (ix1 c)) : f = g :=
  funext fun j => (congrArg f (eq_ix1 j)).trans ((h _).trans (congrArg g (eq_ix1 j).symm))

set_option maxHeartbeats 4000000 in
theorem result_eq_G (a0 : Mat 8192 128) (a1 : Mat 8192 128) (a2 : Mat 4096 128) (a3 : Mat 8192 8192) (a4 : Mat 8192 4096) (a5 : Mat 8192 8192) (a6 : Mat 128 64) (a7 : Vc 64) (a8 : Mat 128 64) (a9 : Vc 64) (a10 : Mat 128 64) (a11 : Vc 64) (a12 : Mat 64 64) (a13 : Mat 64 64) (a14 : Mat 64 64) (a15 : Mat 64 64) (a16 : Vc 64) (a17 : Mat 64 16) (a18 : Vc 16) (a19 : Mat 64 16) (a20 : Vc 16) (a21 : Mat 64 16) (a22 : Vc 16)
    (h0 : ∀ i, ∃ r : ℝ, a0 i = (r : EReal))
    (h1 : ∀ i, ∃ r : ℝ, a1 i = (r : EReal))
    (h2 : ∀ i, ∃ r : ℝ, a2 i = (r : EReal))
    (h3 : ∀ i, ∃ r : ℝ, a3 i = (r : EReal))
    (h4 : ∀ i, ∃ r : ℝ, a4 i = (r : EReal))
    (h5 : ∀ i, ∃ r : ℝ, a5 i = (r : EReal))
    (h6 : ∀ i, ∃ r : ℝ, a6 i = (r : EReal))
    (h7 : ∀ i, ∃ r : ℝ, a7 i = (r : EReal))
    (h8 : ∀ i, ∃ r : ℝ, a8 i = (r : EReal))
    (h9 : ∀ i, ∃ r : ℝ, a9 i = (r : EReal))
    (h10 : ∀ i, ∃ r : ℝ, a10 i = (r : EReal))
    (h11 : ∀ i, ∃ r : ℝ, a11 i = (r : EReal))
    (h12 : ∀ i, ∃ r : ℝ, a12 i = (r : EReal))
    (h13 : ∀ i, ∃ r : ℝ, a13 i = (r : EReal))
    (h14 : ∀ i, ∃ r : ℝ, a14 i = (r : EReal))
    (h15 : ∀ i, ∃ r : ℝ, a15 i = (r : EReal))
    (h16 : ∀ i, ∃ r : ℝ, a16 i = (r : EReal))
    (h17 : ∀ i, ∃ r : ℝ, a17 i = (r : EReal))
    (h18 : ∀ i, ∃ r : ℝ, a18 i = (r : EReal))
    (h19 : ∀ i, ∃ r : ℝ, a19 i = (r : EReal))
    (h20 : ∀ i, ∃ r : ℝ, a20 i = (r : EReal))
    (h21 : ∀ i, ∃ r : ℝ, a21 i = (r : EReal))
    (h22 : ∀ i, ∃ r : ℝ, a22 i = (r : EReal))
    (B0 : Fin cfg0.N → Vec Ideal S128x4096 .f32) (B1 : Fin cfg0.N → Vec Ideal S128x4096 .f32) (B2 : Fin cfg0.N → Vec Ideal S128x4096 .f32) (B3 : Fin cfg0.N → Vec Ideal S128x4096 .f32) (B4 : Fin cfg0.N → Vec Ideal S128x4096 .f32) (B5 : Fin cfg0.N → Vec Ideal S8192x128 .f32) (B6 : Fin cfg0.N → Vec Ideal S8192x128 .f32) (B7 : Fin cfg0.N → Vec Ideal S4096x128 .f32) (B8 : Fin cfg0.N → Vec Ideal S128x64 .f32) (B9 : Fin cfg0.N → Vec Ideal S1x64 .f32) (B10 : Fin cfg0.N → Vec Ideal S128x64 .f32) (B11 : Fin cfg0.N → Vec Ideal S1x64 .f32) (B12 : Fin cfg0.N → Vec Ideal S128x64 .f32) (B13 : Fin cfg0.N → Vec Ideal S1x64 .f32) (B14 : Fin cfg0.N → Vec Ideal S64x64 .f32) (B15 : Fin cfg0.N → Vec Ideal S64x64 .f32) (B16 : Fin cfg0.N → Vec Ideal S64x64 .f32) (B17 : Fin cfg0.N → Vec Ideal S64x64 .f32) (B18 : Fin cfg0.N → Vec Ideal S1x64 .f32) (B19 : Fin cfg0.N → Vec Ideal S64x16 .f32) (B20 : Fin cfg0.N → Vec Ideal S1x16 .f32) (B21 : Fin cfg0.N → Vec Ideal S64x16 .f32) (B22 : Fin cfg0.N → Vec Ideal S1x16 .f32) (B23 : Fin cfg0.N → Vec Ideal S64x16 .f32) (B24 : Fin cfg0.N → Vec Ideal S1x16 .f32)
    (hB0 : ∀ (t : Fin cfg0.N) (r : Fin 128) (k : Fin 4096) (i j : Fin 8192), i.val = 128 * t.val + r.val → j.val = k.val → B0 t (ValueIdx.ix2 r k) = a3 (ValueIdx.ix2 i j))
    (hB1 : ∀ (t : Fin cfg0.N) (r : Fin 128) (k : Fin 4096) (i j : Fin 8192), i.val = 128 * t.val + r.val → j.val = 4096 + k.val → B1 t (ValueIdx.ix2 r k) = a3 (ValueIdx.ix2 i j))
    (hB2 : ∀ (t : Fin cfg0.N) (r : Fin 128) (k : Fin 4096) (i : Fin 8192), i.val = 128 * t.val + r.val → B2 t (ValueIdx.ix2 r k) = a4 (ValueIdx.ix2 i k))
    (hB3 : ∀ (t : Fin cfg0.N) (r : Fin 128) (k : Fin 4096) (i j : Fin 8192), i.val = 128 * t.val + r.val → j.val = k.val → B3 t (ValueIdx.ix2 r k) = a5 (ValueIdx.ix2 i j))
    (hB4 : ∀ (t : Fin cfg0.N) (r : Fin 128) (k : Fin 4096) (i j : Fin 8192), i.val = 128 * t.val + r.val → j.val = 4096 + k.val → B4 t (ValueIdx.ix2 r k) = a5 (ValueIdx.ix2 i j))
    (hB5 : ∀ t, B5 t = a0)
    (hB6 : ∀ t, B6 t = a1)
    (hB7 : ∀ t, B7 t = a2)
    (hB8 : ∀ t, B8 t = a6)
    (hB9 : ∀ t, B9 t = r64 a7)
    (hB10 : ∀ t, B10 t = a8)
    (hB11 : ∀ t, B11 t = r64 a9)
    (hB12 : ∀ t, B12 t = a10)
    (hB13 : ∀ t, B13 t = r64 a11)
    (hB14 : ∀ t, B14 t = a12)
    (hB15 : ∀ t, B15 t = a13)
    (hB16 : ∀ t, B16 t = a14)
    (hB17 : ∀ t, B17 t = a15)
    (hB18 : ∀ t, B18 t = r64 a16)
    (hB19 : ∀ t, B19 t = a17)
    (hB20 : ∀ t, B20 t = r16 a18)
    (hB21 : ∀ t, B21 t = a19)
    (hB22 : ∀ t, B22 t = r16 a20)
    (hB23 : ∀ t, B23 t = a21)
    (hB24 : ∀ t, B24 t = r16 a22)
    (h63 : 63 < cfg0.N) :
    Cert.KernelIdeal.Gen.KVal.result (F := Ideal) B0 B1 B2 B3 B4 B5 B6 B7 B8 B9 B10 B11 B12 B13 B14 B15 B16 B17 B18 B19 B20 B21 B22 B23 B24 h63 = Cert.Spec.G a0 a1 a2 a3 a4 a5 a6 a7 a8 a9 a10 a11 a12 a13 a14 a15 a16 a17 a18 a19 a20 a21 a22 := by
  have hN : cfg0.N = 64 := by decide
  have hpos : 0 < cfg0.N := by omega
  obtain rfl : B5 = fun _ => a0 := funext hB5
  obtain rfl : B6 = fun _ => a1 := funext hB6
  obtain rfl : B7 = fun _ => a2 := funext hB7
  obtain rfl : B8 = fun _ => a6 := funext hB8
  obtain rfl : B9 = fun _ => r64 a7 := funext hB9
  obtain rfl : B10 = fun _ => a8 := funext hB10
  obtain rfl : B11 = fun _ => r64 a9 := funext hB11
  obtain rfl : B12 = fun _ => a10 := funext hB12
  obtain rfl : B13 = fun _ => r64 a11 := funext hB13
  obtain rfl : B14 = fun _ => a12 := funext hB14
  obtain rfl : B15 = fun _ => a13 := funext hB15
  obtain rfl : B16 = fun _ => a14 := funext hB16
  obtain rfl : B17 = fun _ => a15 := funext hB17
  obtain rfl : B18 = fun _ => r64 a16 := funext hB18
  obtain rfl : B19 = fun _ => a17 := funext hB19
  obtain rfl : B20 = fun _ => r16 a18 := funext hB20
  obtain rfl : B21 = fun _ => a19 := funext hB21
  obtain rfl : B22 = fun _ => r16 a20 := funext hB22
  obtain rfl : B23 = fun _ => a21 := funext hB23
  obtain rfl : B24 = fun _ => r16 a22 := funext hB24
  -- the data through the network is real
  have rX0 : ∀ i, IsReal ((dense a0 a6 a7) i) := isReal_dense a0 a6 a7 h0 h6 h7
  have rX1 : ∀ i, IsReal ((dense a1 a8 a9) i) := isReal_dense a1 a8 a9 h1 h8 h9
  have rX2 : ∀ i, IsReal ((dense a2 a10 a11) i) := isReal_dense a2 a10 a11 h2 h10 h11
  have rMSG : ∀ i, IsReal ((messages (dense a0 a6 a7) (dense a1 a8 a9) (dense a2 a10 a11) a3 a4 a5 a12 a13 a14) i) :=
    isReal_messages (dense a0 a6 a7) (dense a1 a8 a9) (dense a2 a10 a11) a3 a4 a5 a12 a13 a14 rX0 rX1 rX2 h3 h4 h5 h12 h13 h14
  have rX1N : ∀ i, IsReal ((dense (messages (dense a0 a6 a7) (dense a1 a8 a9) (dense a2 a10 a11) a3 a4 a5 a12 a13 a14) a15 a16) i) := isReal_dense (messages (dense a0 a6 a7) (dense a1 a8 a9) (dense a2 a10 a11) a3 a4 a5 a12 a13 a14) a15 a16 rMSG h15 h16
  -- the weighted feature arrays
  have hz0 : kz0 B0 B1 B2 B3 B4 (fun _ => a0) (fun _ => a1) (fun _ => a2) (fun _ => a6) (fun _ => r64 a7) (fun _ => a8) (fun _ => r64 a9) (fun _ => a10) (fun _ => r64 a11) (fun _ => a12) (fun _ => a13) (fun _ => a14) (fun _ => a15) (fun _ => r64 a16) (fun _ => a17) (fun _ => r16 a18) (fun _ => a19) (fun _ => r16 a20) (fun _ => a21) (fun _ => r16 a22) ⟨0, hpos⟩ = (mm (dense a0 a6 a7) a14) := by
    show k0_pay10 (k0_pay5 a0 a6 (r64 a7)) a14 = _
    rw [pay5_eq, pay10_eq]
  have hz1 : kz1 B0 B1 B2 B3 B4 (fun _ => a0) (fun _ => a1) (fun _ => a2) (fun _ => a6) (fun _ => r64 a7) (fun _ => a8) (fun _ => r64 a9) (fun _ => a10) (fun _ => r64 a11) (fun _ => a12) (fun _ => a13) (fun _ => a14) (fun _ => a15) (fun _ => r64 a16) (fun _ => a17) (fun _ => r16 a18) (fun _ => a19) (fun _ => r16 a20) (fun _ => a21) (fun _ => r16 a22) ⟨0, hpos⟩ = (mm (dense a1 a8 a9) a12) := by
    show k0_pay11 (k0_pay6 a1 a8 (r64 a9)) a12 = _
    rw [pay6_eq, pay11_eq]
  have hz2 : kz2 B0 B1 B2 B3 B4 (fun _ => a0) (fun _ => a1) (fun _ => a2) (fun _ => a6) (fun _ => r64 a7) (fun _ => a8) (fun _ => r64 a9) (fun _ => a10) (fun _ => r64 a11) (fun _ => a12) (fun _ => a13) (fun _ => a14) (fun _ => a15) (fun _ => r64 a16) (fun _ => a17) (fun _ => r16 a18) (fun _ => a19) (fun _ => r16 a20) (fun _ => a21) (fun _ => r16 a22) ⟨0, hpos⟩ = (mm (dense a2 a10 a11) a13) := by
    show k0_pay12 (k0_pay7 a2 a10 (r64 a11)) k0_pay8 a13 = _
    rw [pay12_eq, pay79_eq]
  -- a slab's row sum is the sum of its 128 rows of the updated features
  have hslab : ∀ (t : Fin cfg0.N) (h : Fin 64) (f : Fin 128 → Fin 8192) (hf : ∀ r, (f r).val = 128 * t.val + r.val),
      slabSum B0 B1 B2 B3 B4 (fun _ => a15) (fun _ => r64 a16) (mm (dense a0 a6 a7) a14) (mm (dense a1 a8 a9) a12) (mm (dense a2 a10 a11) a13) t (ix2 (0 : Fin 1) h)
        = ∑ r : Fin 128, (dense (messages (dense a0 a6 a7) (dense a1 a8 a9) (dense a2 a10 a11) a3 a4 a5 a12 a13 a14) a15 a16) (ix2 (f r) h) := by
    intro t h f hf
    unfold slabSum
    rw [pay17_eq, pay18_eq, pay19_eq, pay20_eq, pay1_apply]
    refine Finset.sum_congr rfl fun r _ => ?_
    exact slab_row a3 a5 a4 (mm (dense a0 a6 a7) a14) (mm (dense a1 a8 a9) a12) (mm (dense a2 a10 a11) a13) a15 a16 (B0 t) (B1 t) (B2 t) (B3 t) (B4 t) (f r) r h
      (fun k j hj => hB0 t r k (f r) j (hf r) hj) (fun k j hj => hB1 t r k (f r) j (hf r) hj)
      (fun k => hB2 t r k (f r) (hf r))
      (fun k j hj => hB3 t r k (f r) j (hf r) hj) (fun k j hj => hB4 t r k (f r) j (hf r) hj)
  -- the running sum after the last point is the column sum of the updated features
  have ha : ∀ h : Fin 64, (kAt B0 B1 B2 B3 B4 (fun _ => a0) (fun _ => a1) (fun _ => a2) (fun _ => a6) (fun _ => r64 a7) (fun _ => a8) (fun _ => r64 a9) (fun _ => a10) (fun _ => r64 a11) (fun _ => a12) (fun _ => a13) (fun _ => a14) (fun _ => a15) (fun _ => r64 a16) (fun _ => a17) (fun _ => r16 a18) (fun _ => a19) (fun _ => r16 a20) (fun _ => a21) (fun _ => r16 a22) 63 h63).a (ix2 (0 : Fin 1) h) = ∑ i : Fin 8192, (dense (messages (dense a0 a6 a7) (dense a1 a8 a9) (dense a2 a10 a11) a3 a4 a5 a12 a13 a14) a15 a16) (ix2 i h) := by
    intro h
    rw [kAt_a _ _ _ _ _ _ _ _ _ _ _ _ _ _ _ _ _ _ _ _ _ _ _ _ _ hpos 63 h63, hz0, hz1, hz2, Finset.sum_range,
      Cert.Lib.TileSum.sum_tiles 64 128 8192 rfl (fun i => (dense (messages (dense a0 a6 a7) (dense a1 a8 a9) (dense a2 a10 a11) a3 a4 a5 a12 a13 a14) a15 a16) (ix2 i h))]
    refine Finset.sum_congr rfl fun t _ => ?_
    rw [dif_pos (by omega : t.val < cfg0.N)]
    exact hslab ⟨t.val, by omega⟩ h _ (fun r => rfl)
  -- the seeded result
  have hko : ∀ j : Fin 16, ko0 B0 B1 B2 B3 B4 (fun _ => a0) (fun _ => a1) (fun _ => a2) (fun _ => a6) (fun _ => r64 a7) (fun _ => a8) (fun _ => r64 a9) (fun _ => a10) (fun _ => r64 a11) (fun _ => a12) (fun _ => a13) (fun _ => a14) (fun _ => a15) (fun _ => r64 a16) (fun _ => a17) (fun _ => r16 a18) (fun _ => a19) (fun _ => r16 a20) (fun _ => a21) (fun _ => r16 a22) ⟨0, hpos⟩ (ix2 (0 : Fin 1) j)
      = (((∑ k : Fin 64, Ideal.div (∑ r : Fin 8192, (dense a0 a6 a7) (ix2 r k)) ((8192 : ℝ) : EReal) * a17 (ix2 k j)) + a18 (ix1 j))
          + (∑ k : Fin 64, Ideal.div (∑ r : Fin 4096, (dense a2 a10 a11) (ix2 r k)) ((4096 : ℝ) : EReal) * a21 (ix2 k j))) + a22 (ix1 j) := by
    intro j
    show k0_pay16 (k0_pay13 (k0_pay7 a2 a10 (r64 a11)) k0_pay8) (k0_pay14 (k0_pay5 a0 a6 (r64 a7)) a17) (k0_pay15 (r16 a18)) a21
      (r16 a22) (ix2 (0 : Fin 1) j) = _
    rw [pay16_apply, pay14_apply, pay15_eq, r16_apply, r16_apply, pay5_eq, mm_apply]
    simp only [pay13_apply]
    rw [pay79_eq]
  unfold Cert.KernelIdeal.Gen.KVal.result
  refine ext1 fun j => ?_
  rw [shapeCast_1a_a_apply, kAt_o63 _ _ _ _ _ _ _ _ _ _ _ _ _ _ _ _ _ _ _ _ _ _ _ _ _ hpos h63, pay4_apply, hko, r16_apply, mm_apply]
  simp only [ha]
  have hG : Cert.Spec.G a0 a1 a2 a3 a4 a5 a6 a7 a8 a9 a10 a11 a12 a13 a14 a15 a16 a17 a18 a19 a20 a21 a22 (ix1 j)
      = (rowMean ((4096 : ℝ) : EReal) (head (dense a2 a10 a11) a21 a22) (ix1 j) + rowMean ((8192 : ℝ) : EReal) (head (dense (messages (dense a0 a6 a7) (dense a1 a8 a9) (dense a2 a10 a11) a3 a4 a5 a12 a13 a14) a15 a16) a19 a20) (ix1 j))
        + rowMean ((8192 : ℝ) : EReal) (head (dense a0 a6 a7) a17 a18) (ix1 j) := rfl
  rw [hG, mean_head (dense a2 a10 a11) a21 a22 rX2 h21 h22 4096 (by norm_num) (by norm_num) j,
    mean_head_recip (dense (messages (dense a0 a6 a7) (dense a1 a8 a9) (dense a2 a10 a11) a3 a4 a5 a12 a13 a14) a15 a16) a19 a20 rX1N h19 h20 8192 (1 / 8192) (by norm_num) rfl (by norm_num) j,
    mean_head (dense a0 a6 a7) a17 a18 rX0 h17 h18 8192 (by norm_num) (by norm_num) j]
  ac_rfl

end Cert.KBridge
end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«140626_g76854144795175_cont_sun_m_49_16_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.FinReal.lean ====
/- The precondition decoded: the printed predicate says, array by array, that every magnitude is below +∞ and takes
   the conjunction of the 23 answers; stated to be 1, it makes every entry of every argument array a real number. -/
import proofs.«140626_g76854144795175_cont_sun_m_49_16_alg».proof.Defs
import proofs.«140626_g76854144795175_cont_sun_m_49_16_alg».proof.Proof.Gen.Pre_finite_inputs
import proofs.«140626_g76854144795175_cont_sun_m_49_16_alg».proof.Proof.LibFinite

noncomputable section

namespace Cert.FinReal

open Idealize.ShloMosaic Idealize.ShloMosaic.TcCoe Idealize.SL.Sem Cert.Lib.Finite

set_option maxHeartbeats 4000000 in
set_option maxRecDepth 8192 in
/-- Under the precondition every entry of each of the 23 argument arrays is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, (m ((c.tc : Thread Cert.KernelIdeal.nD Cert.KernelIdeal.τ).loc Cert.KernelIdeal.main_arg0)) i = (r : EReal))
    ∧ (∀ i, ∃ r : ℝ, (m ((c.tc : Thread Cert.KernelIdeal.nD Cert.KernelIdeal.τ).loc Cert.KernelIdeal.main_arg1)) i = (r : EReal))
    ∧ (∀ i, ∃ r : ℝ, (m ((c.tc : Thread Cert.KernelIdeal.nD Cert.KernelIdeal.τ).loc Cert.KernelIdeal.main_arg2)) i = (r : EReal))
    ∧ (∀ i, ∃ r : ℝ, (m ((c.tc : Thread Cert.KernelIdeal.nD Cert.KernelIdeal.τ).loc Cert.KernelIdeal.main_arg3)) i = (r : EReal))
    ∧ (∀ i, ∃ r : ℝ, (m ((c.tc : Thread Cert.KernelIdeal.nD Cert.KernelIdeal.τ).loc Cert.KernelIdeal.main_arg4)) i = (r : EReal))
    ∧ (∀ i, ∃ r : ℝ, (m ((c.tc : Thread Cert.KernelIdeal.nD Cert.KernelIdeal.τ).loc Cert.KernelIdeal.main_arg5)) i = (r : EReal))
    ∧ (∀ i, ∃ r : ℝ, (m ((c.tc : Thread Cert.KernelIdeal.nD Cert.KernelIdeal.τ).loc Cert.KernelIdeal.main_arg6)) i = (r : EReal))
    ∧ (∀ i, ∃ r : ℝ, (m ((c.tc : Thread Cert.KernelIdeal.nD Cert.KernelIdeal.τ).loc Cert.KernelIdeal.main_arg7)) i = (r : EReal))
    ∧ (∀ i, ∃ r : ℝ, (m ((c.tc : Thread Cert.KernelIdeal.nD Cert.KernelIdeal.τ).loc Cert.KernelIdeal.main_arg8)) i = (r : EReal))
    ∧ (∀ i, ∃ r : ℝ, (m ((c.tc : Thread Cert.KernelIdeal.nD Cert.KernelIdeal.τ).loc Cert.KernelIdeal.main_arg9)) i = (r : EReal))
    ∧ (∀ i, ∃ r : ℝ, (m ((c.tc : Thread Cert.KernelIdeal.nD Cert.KernelIdeal.τ).loc Cert.KernelIdeal.main_arg10)) i = (r : EReal))
    ∧ (∀ i, ∃ r : ℝ, (m ((c.tc : Thread Cert.KernelIdeal.nD Cert.KernelIdeal.τ).loc Cert.KernelIdeal.main_arg11)) i = (r : EReal))
    ∧ (∀ i, ∃ r : ℝ, (m ((c.tc : Thread Cert.KernelIdeal.nD Cert.KernelIdeal.τ).loc Cert.KernelIdeal.main_arg12)) i = (r : EReal))
    ∧ (∀ i, ∃ r : ℝ, (m ((c.tc : Thread Cert.KernelIdeal.nD Cert.KernelIdeal.τ).loc Cert.KernelIdeal.main_arg13)) i = (r : EReal))
    ∧ (∀ i, ∃ r : ℝ, (m ((c.tc : Thread Cert.KernelIdeal.nD Cert.KernelIdeal.τ).loc Cert.KernelIdeal.main_arg14)) i = (r : EReal))
    ∧ (∀ i, ∃ r : ℝ, (m ((c.tc : Thread Cert.KernelIdeal.nD Cert.KernelIdeal.τ).loc Cert.KernelIdeal.main_arg15)) i = (r : EReal))
    ∧ (∀ i, ∃ r : ℝ, (m ((c.tc : Thread Cert.KernelIdeal.nD Cert.KernelIdeal.τ).loc Cert.KernelIdeal.main_arg16)) i = (r : EReal))
    ∧ (∀ i, ∃ r : ℝ, (m ((c.tc : Thread Cert.KernelIdeal.nD Cert.KernelIdeal.τ).loc Cert.KernelIdeal.main_arg17)) i = (r : EReal))
    ∧ (∀ i, ∃ r : ℝ, (m ((c.tc : Thread Cert.KernelIdeal.nD Cert.KernelIdeal.τ).loc Cert.KernelIdeal.main_arg18)) i = (r : EReal))
    ∧ (∀ i, ∃ r : ℝ, (m ((c.tc : Thread Cert.KernelIdeal.nD Cert.KernelIdeal.τ).loc Cert.KernelIdeal.main_arg19)) i = (r : EReal))
    ∧ (∀ i, ∃ r : ℝ, (m ((c.tc : Thread Cert.KernelIdeal.nD Cert.KernelIdeal.τ).loc Cert.KernelIdeal.main_arg20)) i = (r : EReal))
    ∧ (∀ i, ∃ r : ℝ, (m ((c.tc : Thread Cert.KernelIdeal.nD Cert.KernelIdeal.τ).loc Cert.KernelIdeal.main_arg21)) i = (r : EReal))
    ∧ (∀ i, ∃ r : ℝ, (m ((c.tc : Thread Cert.KernelIdeal.nD Cert.KernelIdeal.τ).loc Cert.KernelIdeal.main_arg22)) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, andi] at h0
  simp only [IntOp.andi_eq_one] at h0
  obtain ⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩ := h0
  exact ⟨allReal_of_all_finite _ _ _ _ e0,
    allReal_of_all_finite _ _ _ _ e1,
    allReal_of_all_finite _ _ _ _ e2,
    allReal_of_all_finite _ _ _ _ e3,
    allReal_of_all_finite _ _ _ _ e4,
    allReal_of_all_finite _ _ _ _ e5,
    allReal_of_all_finite _ _ _ _ e6,
    allReal_of_all_finite _ _ _ _ e7,
    allReal_of_all_finite _ _ _ _ e8,
    allReal_of_all_finite _ _ _ _ e9,
    allReal_of_all_finite _ _ _ _ e10,
    allReal_of_all_finite _ _ _ _ e11,
    allReal_of_all_finite _ _ _ _ e12,
    allReal_of_all_finite _ _ _ _ e13,
    allReal_of_all_finite _ _ _ _ e14,
    allReal_of_all_finite _ _ _ _ e15,
    allReal_of_all_finite _ _ _ _ e16,
    allReal_of_all_finite _ _ _ _ e17,
    allReal_of_all_finite _ _ _ _ e18,
    allReal_of_all_finite _ _ _ _ e19,
    allReal_of_all_finite _ _ _ _ e20,
    allReal_of_all_finite _ _ _ _ e21,
    allReal_of_all_finite _ _ _ _ e22⟩

end Cert.FinReal

end
-- ==== Proof.KAlgI.lean ====
import proofs.«140626_g76854144795175_cont_sun_m_49_16_alg».proof.Proof.KValI
import proofs.«140626_g76854144795175_cont_sun_m_49_16_alg».proof.Proof.KLaunchI
import proofs.«140626_g76854144795175_cont_sun_m_49_16_alg».proof.Proof.KBlkI
import proofs.«140626_g76854144795175_cont_sun_m_49_16_alg».proof.Proof.KBrMean
import proofs.«140626_g76854144795175_cont_sun_m_49_16_alg».proof.Proof.FinReal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The grid has a point 63. -/
theorem h63 : 63 < cfg0.N := by have : cfg0.N = 64 := N_0; omega

/-- The program's last operation reshapes the [1,16] result array to length 16. -/
theorem W3_v8 (c : Dev nD) :
    (W3 (F := Ideal) m c (Proc.devRef .tc main_v8) : S16.Idx → Ideal .f32) = shapeCast S16 (V2 (F := Ideal) m c main_v7) shapeCasts_S1x16_S16 := by
  dsimp only [W3, hostOps1]; after_results; rfl

/-- So the returned buffer is the pure recursion's result at the blocks the windows hold. -/
theorem result_K (c : Dev nD) :
    (W3 (F := Ideal) m c (Proc.devRef .tc main_v8) : S16.Idx → Ideal .f32) = KVal.result (F := Ideal) (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c) h63 := by
  rw [W3_v8, V2_v7, arrAt_out m c h63]
  unfold KVal.result
  rw [(stAt_eq m c 63 h63).1]

/-- For finite inputs the returned buffer is the network's function of the 23 argument arrays. -/
theorem result_G (hpre : Cert.Pre_KernelIdeal (hPre_finite_inputs := Cert.Pre_finite_inputs.Gen.facts) m) (c : Dev nD) :
    (W3 (F := Ideal) m c (Proc.devRef .tc main_v8) : S16.Idx → Ideal .f32)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [result_K]
  obtain ⟨r0, r1, r2, r3, r4, r5, r6, r7, r8, r9, r10, r11, r12, r13, r14, r15, r16, r17, r18, r19, r20, r21, r22⟩ := Cert.FinReal.real_of_pre m hpre c
  exact Cert.KBridge.result_eq_G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      r0 r1 r2 r3 r4 r5 r6 r7 r8 r9 r10 r11 r12 r13 r14 r15 r16 r17 r18 r19 r20 r21 r22
      (Bf0 m c) (Bf1 m c) (Bf2 m c) (Bf3 m c) (Bf4 m c) (Bf5 m c) (Bf6 m c) (Bf7 m c) (Bf8 m c) (Bf9 m c) (Bf10 m c) (Bf11 m c) (Bf12 m c) (Bf13 m c) (Bf14 m c) (Bf15 m c) (Bf16 m c) (Bf17 m c) (Bf18 m c) (Bf19 m c) (Bf20 m c) (Bf21 m c) (Bf22 m c) (Bf23 m c) (Bf24 m c)
      (fun t r k i j hi hj => (iblk0_apply m c t r k i j hi hj).trans (congrFun (V_arg3 m c) _))
      (fun t r k i j hi hj => (iblk1_apply m c t r k i j hi hj).trans (congrFun (V_arg3 m c) _))
      (fun t r k i hi => (iblk2_apply m c t r k i hi).trans (congrFun (V_arg4 m c) _))
      (fun t r k i j hi hj => (iblk3_apply m c t r k i j hi hj).trans (congrFun (V_arg5 m c) _))
      (fun t r k i j hi hj => (iblk4_apply m c t r k i j hi hj).trans (congrFun (V_arg5 m c) _))
      (fun t => (iblk5_eq m c t).trans (V_arg0 m c))
      (fun t => (iblk6_eq m c t).trans (V_arg1 m c))
      (fun t => (iblk7_eq m c t).trans (V_arg2 m c))
      (fun t => (iblk8_eq m c t).trans (V_arg6 m c))
      (fun t => (iblk9_eq m c t).trans (V_v0 m c))
      (fun t => (iblk10_eq m c t).trans (V_arg8 m c))
      (fun t => (iblk11_eq m c t).trans (V_v1 m c))
      (fun t => (iblk12_eq m c t).trans (V_arg10 m c))
      (fun t => (iblk13_eq m c t).trans (V_v2 m c))
      (fun t => (iblk14_eq m c t).trans (V_arg12 m c))
      (fun t => (iblk15_eq m c t).trans (V_arg13 m c))
      (fun t => (iblk16_eq m c t).trans (V_arg14 m c))
      (fun t => (iblk17_eq m c t).trans (V_arg15 m c))
      (fun t => (iblk18_eq m c t).trans (V_v3 m c))
      (fun t => (iblk19_eq m c t).trans (V_arg17 m c))
      (fun t => (iblk20_eq m c t).trans (V_v4 m c))
      (fun t => (iblk21_eq m c t).trans (V_arg19 m c))
      (fun t => (iblk22_eq m c t).trans (V_v5 m c))
      (fun t => (iblk23_eq m c t).trans (V_arg21 m c))
      (fun t => (iblk24_eq m c t).trans (V_v6 m c))
      h63

end Cert.KernelIdeal.Hand

end
-- ==== Proof.RefRun.lean ====
/- The reference program's @main as a list of its host operations, the operations of each outlined function listed at its
   call over that call's buffers, and its run read back: every weakly fair execution terminates with each buffer at the
   fold of the operations' results over the launch contents. The list is cut into eleven consecutive stages (one per
   layer of the network), so that what a stage computes can be read off separately. -/
import proofs.«140626_g76854144795175_cont_sun_m_49_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 0: the rank-0 projection: product, bias, sum, unit. -/
abbrev st0 : List (HloOp τ sig (Elt F)) :=
  [ StableHlo.binary main_arg0 main_arg6 main_v0 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    StableHlo.unary main_arg7 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S8192x64 ![0, 1] bcast_S1x64_S8192x64_0_1 : (⟨S1x64, .f32⟩ : BufTy).Contents (Elt F) → (⟨S8192x64, .f32⟩ : BufTy).Contents (Elt F)),
    StableHlo.binary main_v0 main_v2 main_v3 (addf : (⟨S8192x64, .f32⟩ : BufTy).Contents (Elt F) → (⟨S8192x64, .f32⟩ : BufTy).Contents (Elt F) → (⟨S8192x64, .f32⟩ : BufTy).Contents (Elt F)),
    StableHlo.TRef.nullary main_call0.cst (constant S_ .f32 0x00000000#32),
    StableHlo.TRef.unary main_call0.cst main_call0.v0 (broadcastInDim S8192x64 ![] bcast_S_S8192x64),
    StableHlo.TRef.binary (.of main_v3) main_call0.v0 main_call0.v1 (cmpf .ogt),
    StableHlo.TRef.nullary main_call0.cst_0 (constant S_ .f32 0x00000000#32),
    StableHlo.TRef.unary main_call0.cst_0 main_call0.v2 (broadcastInDim S8192x64 ![] bcast_S_S8192x64),
    StableHlo.TRef.binary (.of main_v3) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S8192x64 ![] bcast_S_S8192x64),
    StableHlo.TRef.ternary main_call0.v3 main_call0.call0.v1 (.of main_v3) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S8192x64 ![] bcast_S_S8192x64),
    StableHlo.TRef.binary main_call0.v6 main_call0.v5 main_call0.v7 mulf,
    StableHlo.TRef.ternary main_call0.v1 (.of main_v3) main_call0.v7 main_call0.call1.v0 select ]

/-- Stage 1: the rank-1 projection. -/
abbrev st1 : List (HloOp τ sig (Elt F)) :=
  [ StableHlo.binary main_arg1 main_arg8 main_v5 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    StableHlo.unary main_arg9 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S8192x64 ![0, 1] bcast_S1x64_S8192x64_0_1 : (⟨S1x64, .f32⟩ : BufTy).Contents (Elt F) → (⟨S8192x64, .f32⟩ : BufTy).Contents (Elt F)),
    StableHlo.binary main_v5 main_v7 main_v8 (addf : (⟨S8192x64, .f32⟩ : BufTy).Contents (Elt F) → (⟨S8192x64, .f32⟩ : BufTy).Contents (Elt F) → (⟨S8192x64, .f32⟩ : BufTy).Contents (Elt F)),
    StableHlo.TRef.nullary main_call1.cst (constant S_ .f32 0x00000000#32),
    StableHlo.TRef.unary main_call1.cst main_call1.v0 (broadcastInDim S8192x64 ![] bcast_S_S8192x64),
    StableHlo.TRef.binary (.of main_v8) main_call1.v0 main_call1.v1 (cmpf .ogt),
    StableHlo.TRef.nullary main_call1.cst_0 (constant S_ .f32 0x00000000#32),
    StableHlo.TRef.unary main_call1.cst_0 main_call1.v2 (broadcastInDim S8192x64 ![] bcast_S_S8192x64),
    StableHlo.TRef.binary (.of main_v8) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S8192x64 ![] bcast_S_S8192x64),
    StableHlo.TRef.ternary main_call1.v3 main_call1.call0.v1 (.of main_v8) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S8192x64 ![] bcast_S_S8192x64),
    StableHlo.TRef.binary main_call1.v6 main_call1.v5 main_call1.v7 mulf,
    StableHlo.TRef.ternary main_call1.v1 (.of main_v8) main_call1.v7 main_call1.call1.v0 select ]

/-- Stage 2: the rank-2 projection. -/
abbrev st2 : List (HloOp τ sig (Elt F)) :=
  [ StableHlo.binary main_arg2 main_arg10 main_v10 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    StableHlo.unary main_arg11 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S4096x64 ![0, 1] bcast_S1x64_S4096x64_0_1 : (⟨S1x64, .f32⟩ : BufTy).Contents (Elt F) → (⟨S4096x64, .f32⟩ : BufTy).Contents (Elt F)),
    StableHlo.binary main_v10 main_v12 main_v13 (addf : (⟨S4096x64, .f32⟩ : BufTy).Contents (Elt F) → (⟨S4096x64, .f32⟩ : BufTy).Contents (Elt F) → (⟨S4096x64, .f32⟩ : BufTy).Contents (Elt F)),
    StableHlo.TRef.nullary main_call2.cst (constant S_ .f32 0x00000000#32),
    StableHlo.TRef.unary main_call2.cst main_call2.v0 (broadcastInDim S4096x64 ![] bcast_S_S4096x64),
    StableHlo.TRef.binary (.of main_v13) main_call2.v0 main_call2.v1 (cmpf .ogt),
    StableHlo.TRef.nullary main_call2.cst_0 (constant S_ .f32 0x00000000#32),
    StableHlo.TRef.unary main_call2.cst_0 main_call2.v2 (broadcastInDim S4096x64 ![] bcast_S_S4096x64),
    StableHlo.TRef.binary (.of main_v13) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S4096x64 ![] bcast_S_S4096x64),
    StableHlo.TRef.ternary main_call2.v3 main_call2.call0.v1 (.of main_v13) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S4096x64 ![] bcast_S_S4096x64),
    StableHlo.TRef.binary main_call2.v6 main_call2.v5 main_call2.v7 mulf,
    StableHlo.TRef.ternary main_call2.v1 (.of main_v13) main_call2.v7 main_call2.call1.v0 select ]

/-- Stage 3: the message along the upper adjacency. -/
abbrev st3 : List (HloOp τ sig (Elt F)) :=
  [ StableHlo.binary main_v9 main_arg12 main_v15 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.binary main_arg3 main_v15 main_v16 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    StableHlo.TRef.nullary main_call3.cst (constant S_ .f32 0x00000000#32),
    StableHlo.TRef.unary main_call3.cst main_call3.v0 (broadcastInDim S8192x64 ![] bcast_S_S8192x64),
    StableHlo.TRef.binary (.of main_v16) main_call3.v0 main_call3.v1 (cmpf .ogt),
    StableHlo.TRef.nullary main_call3.cst_0 (constant S_ .f32 0x00000000#32),
    StableHlo.TRef.unary main_call3.cst_0 main_call3.v2 (broadcastInDim S8192x64 ![] bcast_S_S8192x64),
    StableHlo.TRef.binary (.of main_v16) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S8192x64 ![] bcast_S_S8192x64),
    StableHlo.TRef.ternary main_call3.v3 main_call3.call0.v1 (.of main_v16) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S8192x64 ![] bcast_S_S8192x64),
    StableHlo.TRef.binary main_call3.v6 main_call3.v5 main_call3.v7 mulf,
    StableHlo.TRef.ternary main_call3.v1 (.of main_v16) main_call3.v7 main_call3.call1.v0 select ]

/-- Stage 4: the message along the coboundary, and its sum with the previous one. -/
abbrev st4 : List (HloOp τ sig (Elt F)) :=
  [ StableHlo.binary main_v14 main_arg13 main_v18 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.binary main_arg4 main_v18 main_v19 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    StableHlo.TRef.nullary main_call4.cst (constant S_ .f32 0x00000000#32),
    StableHlo.TRef.unary main_call4.cst main_call4.v0 (broadcastInDim S8192x64 ![] bcast_S_S8192x64),
    StableHlo.TRef.binary (.of main_v19) main_call4.v0 main_call4.v1 (cmpf .ogt),
    StableHlo.TRef.nullary main_call4.cst_0 (constant S_ .f32 0x00000000#32),
    StableHlo.TRef.unary main_call4.cst_0 main_call4.v2 (broadcastInDim S8192x64 ![] bcast_S_S8192x64),
    StableHlo.TRef.binary (.of main_v19) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S8192x64 ![] bcast_S_S8192x64),
    StableHlo.TRef.ternary main_call4.v3 main_call4.call0.v1 (.of main_v19) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S8192x64 ![] bcast_S_S8192x64),
    StableHlo.TRef.binary main_call4.v6 main_call4.v5 main_call4.v7 mulf,
    StableHlo.TRef.ternary main_call4.v1 (.of main_v19) main_call4.v7 main_call4.call1.v0 select,
    StableHlo.binary main_v17 main_v20 main_v21 (addf : (⟨S8192x64, .f32⟩ : BufTy).Contents (Elt F) → (⟨S8192x64, .f32⟩ : BufTy).Contents (Elt F) → (⟨S8192x64, .f32⟩ : BufTy).Contents (Elt F)) ]

/-- Stage 5: the message along the boundary, and the sum of the three. -/
abbrev st5 : List (HloOp τ sig (Elt F)) :=
  [ StableHlo.binary main_v4 main_arg14 main_v22 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.binary main_arg5 main_v22 main_v23 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    StableHlo.TRef.nullary main_call5.cst (constant S_ .f32 0x00000000#32),
    StableHlo.TRef.unary main_call5.cst main_call5.v0 (broadcastInDim S8192x64 ![] bcast_S_S8192x64),
    StableHlo.TRef.binary (.of main_v23) main_call5.v0 main_call5.v1 (cmpf .ogt),
    StableHlo.TRef.nullary main_call5.cst_0 (constant S_ .f32 0x00000000#32),
    StableHlo.TRef.unary main_call5.cst_0 main_call5.v2 (broadcastInDim S8192x64 ![] bcast_S_S8192x64),
    StableHlo.TRef.binary (.of main_v23) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S8192x64 ![] bcast_S_S8192x64),
    StableHlo.TRef.ternary main_call5.v3 main_call5.call0.v1 (.of main_v23) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S8192x64 ![] bcast_S_S8192x64),
    StableHlo.TRef.binary main_call5.v6 main_call5.v5 main_call5.v7 mulf,
    StableHlo.TRef.ternary main_call5.v1 (.of main_v23) main_call5.v7 main_call5.call1.v0 select,
    StableHlo.binary main_v21 main_v24 main_v25 (addf : (⟨S8192x64, .f32⟩ : BufTy).Contents (Elt F) → (⟨S8192x64, .f32⟩ : BufTy).Contents (Elt F) → (⟨S8192x64, .f32⟩ : BufTy).Contents (Elt F)) ]

/-- Stage 6: the update of the rank-1 features. -/
abbrev st6 : List (HloOp τ sig (Elt F)) :=
  [ StableHlo.binary main_v25 main_arg15 main_v26 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg16 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S8192x64 ![0, 1] bcast_S1x64_S8192x64_0_1 : (⟨S1x64, .f32⟩ : BufTy).Contents (Elt F) → (⟨S8192x64, .f32⟩ : BufTy).Contents (Elt F)),
    StableHlo.binary main_v26 main_v28 main_v29 (addf : (⟨S8192x64, .f32⟩ : BufTy).Contents (Elt F) → (⟨S8192x64, .f32⟩ : BufTy).Contents (Elt F) → (⟨S8192x64, .f32⟩ : BufTy).Contents (Elt F)),
    StableHlo.TRef.nullary main_call6.cst (constant S_ .f32 0x00000000#32),
    StableHlo.TRef.unary main_call6.cst main_call6.v0 (broadcastInDim S8192x64 ![] bcast_S_S8192x64),
    StableHlo.TRef.binary (.of main_v29) main_call6.v0 main_call6.v1 (cmpf .ogt),
    StableHlo.TRef.nullary main_call6.cst_0 (constant S_ .f32 0x00000000#32),
    StableHlo.TRef.unary main_call6.cst_0 main_call6.v2 (broadcastInDim S8192x64 ![] bcast_S_S8192x64),
    StableHlo.TRef.binary (.of main_v29) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S8192x64 ![] bcast_S_S8192x64),
    StableHlo.TRef.ternary main_call6.v3 main_call6.call0.v1 (.of main_v29) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S8192x64 ![] bcast_S_S8192x64),
    StableHlo.TRef.binary main_call6.v6 main_call6.v5 main_call6.v7 mulf,
    StableHlo.TRef.ternary main_call6.v1 (.of main_v29) main_call6.v7 main_call6.call1.v0 select ]

/-- Stage 7: the three linear heads. -/
abbrev st7 : List (HloOp τ sig (Elt F)) :=
  [ StableHlo.binary main_v4 main_arg17 main_v31 ((fun l r => Host.dotGeneral dot_S8192x64_S64x16_S8192x16_1_0_0_1_n_n none l r) : (⟨S8192x64, .f32⟩ : BufTy).Contents (Elt F) → (⟨S64x16, .f32⟩ : BufTy).Contents (Elt F) → (⟨S8192x16, .f32⟩ : BufTy).Contents (Elt F)),
    StableHlo.unary main_arg18 main_v32 (broadcastInDim S1x16 ![1] bcast_S16_S1x16_1 : (⟨S16, .f32⟩ : BufTy).Contents (Elt F) → (⟨S1x16, .f32⟩ : BufTy).Contents (Elt F)),
    StableHlo.unary main_v32 main_v33 (broadcastInDim S8192x16 ![0, 1] bcast_S1x16_S8192x16_0_1 : (⟨S1x16, .f32⟩ : BufTy).Contents (Elt F) → (⟨S8192x16, .f32⟩ : BufTy).Contents (Elt F)),
    StableHlo.binary main_v31 main_v33 main_v34 (addf : (⟨S8192x16, .f32⟩ : BufTy).Contents (Elt F) → (⟨S8192x16, .f32⟩ : BufTy).Contents (Elt F) → (⟨S8192x16, .f32⟩ : BufTy).Contents (Elt F)),
    StableHlo.binary main_v30 main_arg19 main_v35 ((fun l r => Host.dotGeneral dot_S8192x64_S64x16_S8192x16_1_0_0_1_n_n none l r) : (⟨S8192x64, .f32⟩ : BufTy).Contents (Elt F) → (⟨S64x16, .f32⟩ : BufTy).Contents (Elt F) → (⟨S8192x16, .f32⟩ : BufTy).Contents (Elt F)),
    StableHlo.unary main_arg20 main_v36 (broadcastInDim S1x16 ![1] bcast_S16_S1x16_1 : (⟨S16, .f32⟩ : BufTy).Contents (Elt F) → (⟨S1x16, .f32⟩ : BufTy).Contents (Elt F)),
    StableHlo.unary main_v36 main_v37 (broadcastInDim S8192x16 ![0, 1] bcast_S1x16_S8192x16_0_1 : (⟨S1x16, .f32⟩ : BufTy).Contents (Elt F) → (⟨S8192x16, .f32⟩ : BufTy).Contents (Elt F)),
    StableHlo.binary main_v35 main_v37 main_v38 (addf : (⟨S8192x16, .f32⟩ : BufTy).Contents (Elt F) → (⟨S8192x16, .f32⟩ : BufTy).Contents (Elt F) → (⟨S8192x16, .f32⟩ : BufTy).Contents (Elt F)),
    StableHlo.binary main_v14 main_arg21 main_v39 ((fun l r => Host.dotGeneral dot_S4096x64_S64x16_S4096x16_1_0_0_1_n_n none l r) : (⟨S4096x64, .f32⟩ : BufTy).Contents (Elt F) → (⟨S64x16, .f32⟩ : BufTy).Contents (Elt F) → (⟨S4096x16, .f32⟩ : BufTy).Contents (Elt F)),
    StableHlo.unary main_arg22 main_v40 (broadcastInDim S1x16 ![1] bcast_S16_S1x16_1 : (⟨S16, .f32⟩ : BufTy).Contents (Elt F) → (⟨S1x16, .f32⟩ : BufTy).Contents (Elt F)),
    StableHlo.unary main_v40 main_v41 (broadcastInDim S4096x16 ![0, 1] bcast_S1x16_S4096x16_0_1 : (⟨S1x16, .f32⟩ : BufTy).Contents (Elt F) → (⟨S4096x16, .f32⟩ : BufTy).Contents (Elt F)),
    StableHlo.binary main_v39 main_v41 main_v42 (addf : (⟨S4096x16, .f32⟩ : BufTy).Contents (Elt F) → (⟨S4096x16, .f32⟩ : BufTy).Contents (Elt F) → (⟨S4096x16, .f32⟩ : BufTy).Contents (Elt F)) ]

/-- Stage 8: the mean of the rank-2 head over its rows. -/
abbrev st8 : List (HloOp τ sig (Elt F)) :=
  [ StableHlo.TRef.binary (.of main_v42) (.of main_v42) main_call7.v0 (cmpf .une),
    StableHlo.TRef.unary main_call7.v0 main_call7.v1 noti,
    StableHlo.TRef.unary main_call7.v1 main_call7.v2 (extui 32 · natLt_1_32),
    StableHlo.TRef.unary main_call7.v2 main_call7.v3 (sitofp .f32),
    StableHlo.TRef.nullary main_call7.cst (constant S_ .f32 0x00000000#32),
    StableHlo.TRef.binary main_call7.v3 main_call7.cst main_call7.v4 (fun x v => Host.reduceAdd x v reducesTo_S4096x16_S16_d0 h_S_),
    StableHlo.TRef.binary (.of main_v42) (.of main_v42) main_call7.call0.v0 (cmpf .une),
    StableHlo.TRef.nullary main_call7.call0.cst (constant S_ .f32 0x00000000#32),
    StableHlo.TRef.unary main_call7.call0.cst main_call7.call0.call0.v0 (broadcastInDim S4096x16 ![] bcast_S_S4096x16),
    StableHlo.TRef.ternary main_call7.call0.v0 main_call7.call0.call0.v0 (.of main_v42) main_call7.call0.call0.v1 select,
    StableHlo.TRef.nullary main_call7.call0.cst_0 (constant S_ .f32 0x00000000#32),
    StableHlo.TRef.binary main_call7.call0.call0.v1 main_call7.call0.cst_0 main_call7.call0.v2 (fun x v => Host.reduceAdd x v reducesTo_S4096x16_S16_d0 h_S_),
    StableHlo.TRef.binary main_call7.call0.v2 main_call7.v4 main_call7.v6 Host.divf,
    StableHlo.binary main_v43 main_v43 main_v44 (cmpf .une : (⟨S16, .f32⟩ : BufTy).Contents (Elt F) → (⟨S16, .f32⟩ : BufTy).Contents (Elt F) → (⟨S16, .i1⟩ : BufTy).Contents (Elt F)),
    StableHlo.nullary main_cst (constant S_ .f32 0x00000000#32),
    StableHlo.unary main_cst main_v45 (broadcastInDim S16 ![] bcast_S_S16 : (⟨S_, .f32⟩ : BufTy).Contents (Elt F) → (⟨S16, .f32⟩ : BufTy).Contents (Elt F)),
    StableHlo.TRef.ternary (.of main_v44) (.of main_v45) (.of main_v43) main_call8.v0 select ]

/-- Stage 9: the mean of the rank-1 head, added. -/
abbrev st9 : List (HloOp τ sig (Elt F)) :=
  [ StableHlo.TRef.binary (.of main_v38) (.of main_v38) main_call9.v0 (cmpf .une),
    StableHlo.TRef.unary main_call9.v0 main_call9.v1 noti,
    StableHlo.TRef.unary main_call9.v1 main_call9.v2 (extui 32 · natLt_1_32),
    StableHlo.TRef.unary main_call9.v2 main_call9.v3 (sitofp .f32),
    StableHlo.TRef.nullary main_call9.cst (constant S_ .f32 0x00000000#32),
    StableHlo.TRef.binary main_call9.v3 main_call9.cst main_call9.v4 (fun x v => Host.reduceAdd x v reducesTo_S8192x16_S16_d0 h_S_),
    StableHlo.TRef.binary (.of main_v38) (.of main_v38) main_call9.call0.v0 (cmpf .une),
    StableHlo.TRef.nullary main_call9.call0.cst (constant S_ .f32 0x00000000#32),
    StableHlo.TRef.unary main_call9.call0.cst main_call9.call0.call0.v0 (broadcastInDim S8192x16 ![] bcast_S_S8192x16),
    StableHlo.TRef.ternary main_call9.call0.v0 main_call9.call0.call0.v0 (.of main_v38) main_call9.call0.call0.v1 select,
    StableHlo.TRef.nullary main_call9.call0.cst_0 (constant S_ .f32 0x00000000#32),
    StableHlo.TRef.binary main_call9.call0.call0.v1 main_call9.call0.cst_0 main_call9.call0.v2 (fun x v => Host.reduceAdd x v reducesTo_S8192x16_S16_d0 h_S_),
    StableHlo.TRef.binary main_call9.call0.v2 main_call9.v4 main_call9.v6 Host.divf,
    StableHlo.binary main_v47 main_v47 main_v48 (cmpf .une : (⟨S16, .f32⟩ : BufTy).Contents (Elt F) → (⟨S16, .f32⟩ : BufTy).Contents (Elt F) → (⟨S16, .i1⟩ : BufTy).Contents (Elt F)),
    StableHlo.nullary main_cst_0 (constant S_ .f32 0x00000000#32),
    StableHlo.unary main_cst_0 main_v49 (broadcastInDim S16 ![] bcast_S_S16 : (⟨S_, .f32⟩ : BufTy).Contents (Elt F) → (⟨S16, .f32⟩ : BufTy).Contents (Elt F)),
    StableHlo.TRef.ternary (.of main_v48) (.of main_v49) (.of main_v47) main_call10.v0 select,
    StableHlo.binary main_v46 main_v50 main_v51 (addf : (⟨S16, .f32⟩ : BufTy).Contents (Elt F) → (⟨S16, .f32⟩ : BufTy).Contents (Elt F) → (⟨S16, .f32⟩ : BufTy).Contents (Elt F)) ]

/-- Stage 10: the mean of the rank-0 head, added. -/
abbrev st10 : List (HloOp τ sig (Elt F)) :=
  [ StableHlo.TRef.binary (.of main_v34) (.of main_v34) main_call11.v0 (cmpf .une),
    StableHlo.TRef.unary main_call11.v0 main_call11.v1 noti,
    StableHlo.TRef.unary main_call11.v1 main_call11.v2 (extui 32 · natLt_1_32),
    StableHlo.TRef.unary main_call11.v2 main_call11.v3 (sitofp .f32),
    StableHlo.TRef.nullary main_call11.cst (constant S_ .f32 0x00000000#32),
    StableHlo.TRef.binary main_call11.v3 main_call11.cst main_call11.v4 (fun x v => Host.reduceAdd x v reducesTo_S8192x16_S16_d0 h_S_),
    StableHlo.TRef.binary (.of main_v34) (.of main_v34) main_call11.call0.v0 (cmpf .une),
    StableHlo.TRef.nullary main_call11.call0.cst (constant S_ .f32 0x00000000#32),
    StableHlo.TRef.unary main_call11.call0.cst main_call11.call0.call0.v0 (broadcastInDim S8192x16 ![] bcast_S_S8192x16),
    StableHlo.TRef.ternary main_call11.call0.v0 main_call11.call0.call0.v0 (.of main_v34) main_call11.call0.call0.v1 select,
    StableHlo.TRef.nullary main_call11.call0.cst_0 (constant S_ .f32 0x00000000#32),
    StableHlo.TRef.binary main_call11.call0.call0.v1 main_call11.call0.cst_0 main_call11.call0.v2 (fun x v => Host.reduceAdd x v reducesTo_S8192x16_S16_d0 h_S_),
    StableHlo.TRef.binary main_call11.call0.v2 main_call11.v4 main_call11.v6 Host.divf,
    StableHlo.binary main_v52 main_v52 main_v53 (cmpf .une : (⟨S16, .f32⟩ : BufTy).Contents (Elt F) → (⟨S16, .f32⟩ : BufTy).Contents (Elt F) → (⟨S16, .i1⟩ : BufTy).Contents (Elt F)),
    StableHlo.nullary main_cst_1 (constant S_ .f32 0x00000000#32),
    StableHlo.unary main_cst_1 main_v54 (broadcastInDim S16 ![] bcast_S_S16 : (⟨S_, .f32⟩ : BufTy).Contents (Elt F) → (⟨S16, .f32⟩ : BufTy).Contents (Elt F)),
    StableHlo.TRef.ternary (.of main_v53) (.of main_v54) (.of main_v52) main_call12.v0 select,
    StableHlo.binary main_v51 main_v55 main_v56 (addf : (⟨S16, .f32⟩ : BufTy).Contents (Elt F) → (⟨S16, .f32⟩ : BufTy).Contents (Elt F) → (⟨S16, .f32⟩ : BufTy).Contents (Elt F)) ]

/-- @main's operations, in order. -/
abbrev ops : List (HloOp τ sig (Elt F)) :=
  st0 ++ (st1 ++ (st2 ++ (st3 ++ (st4 ++ (st5 ++ (st6 ++ (st7 ++ (st8 ++ (st9 ++ (st10))))))))))

-- one hundred and ninety-four binds re-associated: the rewrite under the chain recurses once per statement
set_option maxRecDepth 16384 in
set_option maxHeartbeats 4000000 in
/-- @main is that straight line: the functions' definitions unfolded at their calls and the records at their fields,
    both sides are one chain of steps once sequencing is reassociated. -/
theorem main_eq (c : Dev nD) : main (F := F) c = seq ops := by
  simp only [main, main_part0, main_part1, fn_elu.body, fn_elu_1.body, fn_where.body, fn_where_0.body, fn_where_2.body,
    fn_where_3.body, fn_where_4.body, fn_where_5.body, fn_where_8.body, fn_nansum.body, fn_nansum_7.body, fn_nanmean.body,
    fn_nanmean_6.body, seq, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  · exact h₁ x h
  · exact h₂ x h

theorem st0_sub : (st0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem st0_fresh : ∀ op ∈ (st0 : List (HloOp τ sig (Elt F))), op.fresh = ∅ := by
  intro _ h; (repeat (cases h with | head => rfl | tail _ h => ?_)); exact nomatch h

theorem st1_sub : (st1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem st1_fresh : ∀ op ∈ (st1 : List (HloOp τ sig (Elt F))), op.fresh = ∅ := by
  intro _ h; (repeat (cases h with | head => rfl | tail _ h => ?_)); exact nomatch h

theorem st2_sub : (st2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem st2_fresh : ∀ op ∈ (st2 : List (HloOp τ sig (Elt F))), op.fresh = ∅ := by
  intro _ h; (repeat (cases h with | head => rfl | tail _ h => ?_)); exact nomatch h

theorem st3_sub : (st3 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem st3_fresh : ∀ op ∈ (st3 : List (HloOp τ sig (Elt F))), op.fresh = ∅ := by
  intro _ h; (repeat (cases h with | head => rfl | tail _ h => ?_)); exact nomatch h

theorem st4_sub : (st4 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩
theorem st4_fresh : ∀ op ∈ (st4 : List (HloOp τ sig (Elt F))), op.fresh = ∅ := by
  intro _ h; (repeat (cases h with | head => rfl | tail _ h => ?_)); exact nomatch h

theorem st5_sub : (st5 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩
theorem st5_fresh : ∀ op ∈ (st5 : List (HloOp τ sig (Elt F))), op.fresh = ∅ := by
  intro _ h; (repeat (cases h with | head => rfl | tail _ h => ?_)); exact nomatch h

theorem st6_sub : (st6 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem st6_fresh : ∀ op ∈ (st6 : List (HloOp τ sig (Elt F))), op.fresh = ∅ := by
  intro _ h; (repeat (cases h with | head => rfl | tail _ h => ?_)); exact nomatch h

theorem st7_sub : (st7 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩
theorem st7_fresh : ∀ op ∈ (st7 : List (HloOp τ sig (Elt F))), op.fresh = ∅ := by
  intro _ h; (repeat (cases h with | head => rfl | tail _ h => ?_)); exact nomatch h

theorem st8_sub : (st8 : List (HloOp τ sig (Elt F))).Forall fun op => op.bufs ⊆ tcRefs τ sig :=
  ⟨binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., binary_bufs_sub .., nullary_bufs_sub .., unary_bufs_sub .., ternary_bufs_sub ..⟩
theorem st8_fresh : ∀ op ∈ (st8 : List (HloOp τ sig (Elt F))), op.fresh = ∅ := by
  intro _ h; (repeat (cases h with | head => rfl | tail _ h => ?_)); exact nomatch h

theorem st9_sub : (st9 : List (HloOp τ sig (Elt F))).Forall fun op => op.bufs ⊆ tcRefs τ sig :=
  ⟨binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., binary_bufs_sub .., nullary_bufs_sub .., unary_bufs_sub .., ternary_bufs_sub .., binary_bufs_sub ..⟩
theorem st9_fresh : ∀ op ∈ (st9 : List (HloOp τ sig (Elt F))), op.fresh = ∅ := by
  intro _ h; (repeat (cases h with | head => rfl | tail _ h => ?_)); exact nomatch h

theorem st10_sub : (st10 : List (HloOp τ sig (Elt F))).Forall fun op => op.bufs ⊆ tcRefs τ sig :=
  ⟨binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., binary_bufs_sub .., nullary_bufs_sub .., unary_bufs_sub .., ternary_bufs_sub .., binary_bufs_sub ..⟩
theorem st10_fresh : ∀ op ∈ (st10 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  forall_append st0_sub (forall_append st1_sub (forall_append st2_sub (forall_append st3_sub (forall_append st4_sub (forall_append st5_sub (forall_append st6_sub (forall_append st7_sub (forall_append st8_sub (forall_append st9_sub (st10_sub))))))))))

theorem ops_fresh : ∀ op ∈ (ops : List (HloOp τ sig (Elt F))), op.fresh = ∅ := by
  intro op h
  simp only [List.mem_append] at h
  rcases h with h | h | h | h | h | h | h | h | h | h | h
  · exact st0_fresh op h
  · exact st1_fresh op h
  · exact st2_fresh op h
  · exact st3_fresh op h
  · exact st4_fresh op h
  · exact st5_fresh op h
  · exact st6_fresh op h
  · exact st7_fresh op h
  · exact st8_fresh op h
  · exact st9_fresh op h
  · exact st10_fresh op h

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefRun

end
-- ==== Proof.LibNanMean.lean ====
import Idealize.ShloMosaic.PureOps.Ideal
import Idealize.ShloMosaic.PureOps.Ideal.Laws

noncomputable section

namespace Cert.LibNanMean

open Idealize.ShloMosaic

/-! The mean that skips NaN entries, read on the extended reals. There every value equals itself, so the test
    `x ≠ x` never fires: the masked array is the array, every count entry is one, and the count along an axis is
    that axis' extent. -/

/-- An extended real is never different from itself: the unordered-or-unequal comparison of a value with itself
    is the zero bit. -/
theorem une_self {s : Shape} (x : FVec Ideal s .f32) : cmpf .une x x = fun _ => 0#1 := by
  funext i
  simp only [cmpf, Ideal.cmpf_def, Ideal.cmp, ne_eq, not_true_eq_false, decide_false, BitVec.ofBool_false]
  rfl

/-- Replacing the entries that differ from themselves by anything changes nothing. -/
theorem select_une_self {s : Shape} (x z : FVec Ideal s .f32) : select (cmpf .une x x) z x = x := by
  funext i
  rw [une_self]
  simp [select, Scalar.select]

/-- Each entry counts once: the negated test, widened to a 32-bit integer and converted, is the real number one. -/
theorem count_entry {s : Shape} (x : FVec Ideal s .f32) :
    sitofp (F := Ideal) .f32 (extui 32 (noti (cmpf .une x x))) = fun _ => (1 : EReal) := by
  funext i
  rw [une_self]
  show (((BitVec.setWidth 32 (~~~(0#1 : BitVec 1))).toInt : ℝ) : EReal) = 1
  have : (BitVec.setWidth 32 (~~~(0#1 : BitVec 1))).toInt = 1 := by decide
  rw [this]; norm_num

/-- A host sum of ones along one axis, started from zero, is that axis' extent. -/
theorem sum_ones {s t : Shape} {a : Fin s.rank} (h' : s.ReducesTo [a] t) (h : s.Reduces [a] t) (j : t.Idx) :
    Ideal.hostReduceAdd h' (fun _ => (1 : EReal)) 0 j = ((s.size a : ℕ) : EReal) := by
  rw [Ideal.hostReduceAdd_single h' h, zero_add, Finset.sum_const, Finset.card_univ, Fintype.card_fin]
  induction s.size a with
  | zero => simp
  | succ n ih => rw [succ_nsmul, ih]; push_cast; rfl

end Cert.LibNanMean

end
-- ==== Proof.RefPure.lean ====
/- The pure terms the reference's operations compose to, read on the extended reals: a dense layer with the
   exponential linear unit, a linear head, and the mean over the rows that skips entries different from themselves
   (there are none) are the functions of the specification. -/
import proofs.«140626_g76854144795175_cont_sun_m_49_16_alg».proof.Proof.Gen.ReferenceIdeal
import proofs.«140626_g76854144795175_cont_sun_m_49_16_alg».proof.Proof.Spec
import proofs.«140626_g76854144795175_cont_sun_m_49_16_alg».proof.Proof.LibNanMean
import Idealize.ShloMosaic.Lib.Pipeline.Value

noncomputable section

namespace Cert.ReferenceIdeal.RefPure

open Cert.ReferenceIdeal Cert.ReferenceIdeal.Gen Idealize.ShloMosaic Idealize.ShloMosaic.ValueIdx Cert.Lib.PlainDot Cert.LibElu Cert.LibNanMean Cert.Spec

/-- The host's spelling of the unit, the zero and the one being broadcast scalar constants. -/
theorem elu_block {s : Shape} (h : S_.BroadcastsInDim s (![] : Fin 0 → Fin s.rank)) (x : FVec Ideal s .f32) :
    select (cmpf .ogt x (broadcastInDim s ![] h (constant S_ .f32 0x00000000#32))) x
      (mulf (broadcastInDim s ![] h (constant S_ .f32 0x3F800000#32))
        (Host.expm1 (select (cmpf .ogt x (broadcastInDim s ![] h (constant S_ .f32 0x00000000#32)))
          (broadcastInDim s ![] h (id (constant S_ .f32 0x00000000#32))) x)))
    = fun i => elu (x i) :=
  select_one_mul_expm1 x _ _ _ (fun _ => rfl) (fun _ => rfl) (fun _ => rfl)

/-- A bias vector broadcast first to one row and then along the rows, read at an index: the bias at the column. -/
theorem bias_apply {M N : Nat} (hN : N ≠ 1)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → EReal) (j : (⟨2, ![M, N]⟩ : Shape).Idx) :
    broadcastInDim ⟨2, ![M, N]⟩ ![0, 1] h2 (broadcastInDim ⟨2, ![1, N]⟩ ![1] h1 b) j = b (ix1 (j 1)) := by
  refine (broadcastInDim_apply _ h2 _ j (ix2 (0 : Fin 1) (j 1)) ?_).trans (broadcastInDim_apply _ h1 b _ (ix1 (j 1)) ?_)
  · intro a
    match a with
    | ⟨0, _⟩ => simp
    | ⟨1, _⟩ => simp [hN]
  · intro a
    match a with
    | ⟨0, _⟩ => simp [hN]

/-- The host's product over the printed dimension numbers, when these are the plain ones, is the matrix product. -/
theorem dot_eq_mm {M K N : Nat} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) :
    Host.dotGeneral (F := Ideal) D none l r = mm l r := by
  subst hD; exact dotGeneral none l r

/-- A dense layer with the unit, the unit already read index by index: the specification's. -/
theorem dense_pre {M K N : Nat} (hN : N ≠ 1) (D : DotDims ⟨2, ![M, K]⟩ ⟨2, ![K, N]⟩ ⟨2, ![M, N]⟩) (hD : D = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (W : FVec Ideal ⟨2, ![K, N]⟩ .f32) (b : FVec Ideal ⟨1, ![N]⟩ .f32) :
    (fun i => elu (addf (Host.dotGeneral (F := Ideal) D none x W)
        (broadcastInDim ⟨2, ![M, N]⟩ ![0, 1] h2 (broadcastInDim ⟨2, ![1, N]⟩ ![1] h1 b)) i)) = dense x W b := by
  funext j
  unfold dense
  rw [addf_apply, dot_eq_mm D hD, bias_apply hN]

/-- A linear head: the product plus the broadcast bias. -/
theorem head_pre {M K N : Nat} (hN : N ≠ 1) (D : DotDims ⟨2, ![M, K]⟩ ⟨2, ![K, N]⟩ ⟨2, ![M, N]⟩) (hD : D = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (W : FVec Ideal ⟨2, ![K, N]⟩ .f32) (b : FVec Ideal ⟨1, ![N]⟩ .f32) :
    addf (Host.dotGeneral (F := Ideal) D none x W)
        (broadcastInDim ⟨2, ![M, N]⟩ ![0, 1] h2 (broadcastInDim ⟨2, ![1, N]⟩ ![1] h1 b)) = head x W b := by
  funext j
  unfold head
  rw [addf_apply, dot_eq_mm D hD, bias_apply hN]

/-- A message: a neighbourhood matrix applied to the features through their weight, the two products the host's. -/
theorem msg_pre {M K L N : Nat} (D1 : DotDims ⟨2, ![K, L]⟩ ⟨2, ![L, N]⟩ ⟨2, ![K, N]⟩) (hD1 : D1 = DotDims.plain K L N)
    (D2 : DotDims ⟨2, ![M, K]⟩ ⟨2, ![K, N]⟩ ⟨2, ![M, N]⟩) (hD2 : D2 = DotDims.plain M K N)
    (A : FVec Ideal ⟨2, ![M, K]⟩ .f32) (x : FVec Ideal ⟨2, ![K, L]⟩ .f32) (W : FVec Ideal ⟨2, ![L, N]⟩ .f32) :
    Host.dotGeneral (F := Ideal) D2 none A (Host.dotGeneral (F := Ideal) D1 none x W) = mm A (mm x W) := by
  rw [dot_eq_mm D1 hD1, dot_eq_mm D2 hD2]

/-- The mean over the rows that skips the entries different from themselves, with the final replacement of such an
    entry of the mean by zero: no entry is, so it is the column sum divided by the row count. -/
theorem mean_block {M N : Nat} (n : EReal) (hn : ((M : ℕ) : EReal) = n)
    (hR : (⟨2, ![M, N]⟩ : Shape).ReducesTo [0] ⟨1, ![N]⟩) (h : (⟨2, ![M, N]⟩ : Shape).Reduces [0] ⟨1, ![N]⟩)
    (hS : 0 < S_.numel) (hb : S_.BroadcastsInDim ⟨2, ![M, N]⟩ (![] : Fin 0 → Fin 2))
    (hb1 : S_.BroadcastsInDim ⟨1, ![N]⟩ (![] : Fin 0 → Fin 1)) (hlt : 1 < 32) (y : FVec Ideal ⟨2, ![M, N]⟩ .f32) :
    select
      (cmpf .une
        (Host.divf
          (Host.reduceAdd (select (cmpf .une y y) (broadcastInDim ⟨2, ![M, N]⟩ ![] hb (constant S_ .f32 0x00000000#32)) y)
            (constant S_ .f32 0x00000000#32) hR hS)
          (Host.reduceAdd (sitofp .f32 (extui 32 (noti (cmpf .une y y)) hlt)) (constant S_ .f32 0x00000000#32) hR hS))
        (Host.divf
          (Host.reduceAdd (select (cmpf .une y y) (broadcastInDim ⟨2, ![M, N]⟩ ![] hb (constant S_ .f32 0x00000000#32)) y)
            (constant S_ .f32 0x00000000#32) hR hS)
          (Host.reduceAdd (sitofp .f32 (extui 32 (noti (cmpf .une y y)) hlt)) (constant S_ .f32 0x00000000#32) hR hS)))
      (broadcastInDim ⟨1, ![N]⟩ ![] hb1 (constant S_ .f32 0x00000000#32))
      (Host.divf
        (Host.reduceAdd (select (cmpf .une y y) (broadcastInDim ⟨2, ![M, N]⟩ ![] hb (constant S_ .f32 0x00000000#32)) y)
          (constant S_ .f32 0x00000000#32) hR hS)
        (Host.reduceAdd (sitofp .f32 (extui 32 (noti (cmpf .une y y)) hlt)) (constant S_ .f32 0x00000000#32) hR hS))
    = rowMean n y := by
  rw [select_une_self, select_une_self, count_entry]
  funext j
  show Ideal.div (Ideal.hostReduceAdd hR y (Ideal.ofBits .f32 0x00000000#32) j)
      (Ideal.hostReduceAdd hR (fun _ => (1 : EReal)) (Ideal.ofBits .f32 0x00000000#32) j) = _
  rw [Ideal.ofBits_zero_f32, sum_ones hR h j, Ideal.hostReduceAdd_single hR h]
  unfold rowMean
  have e : ∀ k : Fin M, h.lift j k = ix2 k (j 0) := fun k => funext fun a => by
    match a with
    | ⟨0, _⟩ => rfl
    | ⟨1, _⟩ => rfl
  have hs : ((((⟨2, ![M, N]⟩ : Shape).size 0 : ℕ)) : EReal) = n := hn
  rw [hs]
  exact congrArg (fun t => Ideal.div (0 + t) n) (Finset.sum_congr rfl fun k _ => congrArg y (e k))

/-- The row counts, as natural-number casts and as real-number casts, are the same extended reals. -/
theorem natCast_4096 : ((4096 : ℕ) : EReal) = ((4096 : ℝ) : EReal) := by
  rw [← EReal.coe_natCast]; norm_num

theorem natCast_8192 : ((8192 : ℕ) : EReal) = ((8192 : ℝ) : EReal) := by
  rw [← EReal.coe_natCast]; norm_num

end Cert.ReferenceIdeal.RefPure

end
-- ==== Proof.RefIsG.lean ====
/- What each stage of the reference's operations leaves in the buffers it writes, as a function of what the buffers it
   reads held, and that it leaves every other buffer alone; chained, the result buffer holds the specification's function
   of the 23 argument arrays, and the argument arrays are unchanged. -/
import proofs.«140626_g76854144795175_cont_sun_m_49_16_alg».proof.Proof.RefRun
import proofs.«140626_g76854144795175_cont_sun_m_49_16_alg».proof.Proof.RefPure

noncomputable section

namespace Cert.ReferenceIdeal.RefRun

open Cert.ReferenceIdeal Cert.ReferenceIdeal.Gen Idealize.ShloMosaic Idealize.ShloMosaic.TcCoe Idealize.SL.Sem Idealize.ShloMosaic.StableHlo

/-- An operation that writes one buffer, a member of a list, writes inside the list. -/
theorem writes_sub {Wl : List (Ref sig .tc)} {op : HloOp τ sig (Elt Ideal)} (y : Ref sig .tc)
    (hw : op.writes = {Proc.devRef .tc y}) (hy : y ∈ Wl) : op.writes ⊆ (Wl.map (Proc.devRef (τ := τ) .tc)).toFinset := by
  rw [hw]
  exact Finset.singleton_subset_iff.mpr (List.mem_toFinset.mpr (List.mem_map_of_mem hy))

/-- The buffers stage 0 writes. -/
abbrev wr0 : List (Ref sig .tc) :=
  [main_v0, main_v1, main_v2, main_v3, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]

theorem st0_writes : (st0 (F := Ideal)).Forall fun op => op.writes ⊆ ((wr0).map (Proc.devRef (τ := τ) .tc)).toFinset :=
  ⟨writes_sub (main_v0) rfl (by decide),
    writes_sub (main_v1) rfl (by decide),
    writes_sub (main_v2) rfl (by decide),
    writes_sub (main_v3) rfl (by decide),
    writes_sub (main_call0.cst.ref) rfl (by decide),
    writes_sub (main_call0.v0.ref) rfl (by decide),
    writes_sub (main_call0.v1.ref) rfl (by decide),
    writes_sub (main_call0.cst_0.ref) rfl (by decide),
    writes_sub (main_call0.v2.ref) rfl (by decide),
    writes_sub (main_call0.v3.ref) rfl (by decide),
    writes_sub (main_call0.cst_1.ref) rfl (by decide),
    writes_sub (main_call0.call0.v0.ref) rfl (by decide),
    writes_sub (main_call0.call0.v1.ref) rfl (by decide),
    writes_sub (main_call0.call0.v2.ref) rfl (by decide),
    writes_sub (main_call0.v5.ref) rfl (by decide),
    writes_sub (main_call0.cst_2.ref) rfl (by decide),
    writes_sub (main_call0.v6.ref) rfl (by decide),
    writes_sub (main_call0.v7.ref) rfl (by decide),
    writes_sub (main_call0.call1.v0.ref) rfl (by decide)⟩

/-- Stage 0 leaves a buffer it does not write alone. -/
theorem st0_frame (W : Valuation τ sig (Elt Ideal)) {r : Ref sig .tc} (hr : r ∉ wr0) :
    after (st0 (F := Ideal)) W (Proc.devRef .tc r) = W (Proc.devRef .tc r) :=
  after_of_writes_sub st0 W st0_writes hr

/-- The buffers stage 1 writes. -/
abbrev wr1 : List (Ref sig .tc) :=
  [main_v5, main_v6, main_v7, main_v8, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]

theorem st1_writes : (st1 (F := Ideal)).Forall fun op => op.writes ⊆ ((wr1).map (Proc.devRef (τ := τ) .tc)).toFinset :=
  ⟨writes_sub (main_v5) rfl (by decide),
    writes_sub (main_v6) rfl (by decide),
    writes_sub (main_v7) rfl (by decide),
    writes_sub (main_v8) rfl (by decide),
    writes_sub (main_call1.cst.ref) rfl (by decide),
    writes_sub (main_call1.v0.ref) rfl (by decide),
    writes_sub (main_call1.v1.ref) rfl (by decide),
    writes_sub (main_call1.cst_0.ref) rfl (by decide),
    writes_sub (main_call1.v2.ref) rfl (by decide),
    writes_sub (main_call1.v3.ref) rfl (by decide),
    writes_sub (main_call1.cst_1.ref) rfl (by decide),
    writes_sub (main_call1.call0.v0.ref) rfl (by decide),
    writes_sub (main_call1.call0.v1.ref) rfl (by decide),
    writes_sub (main_call1.call0.v2.ref) rfl (by decide),
    writes_sub (main_call1.v5.ref) rfl (by decide),
    writes_sub (main_call1.cst_2.ref) rfl (by decide),
    writes_sub (main_call1.v6.ref) rfl (by decide),
    writes_sub (main_call1.v7.ref) rfl (by decide),
    writes_sub (main_call1.call1.v0.ref) rfl (by decide)⟩

/-- Stage 1 leaves a buffer it does not write alone. -/
theorem st1_frame (W : Valuation τ sig (Elt Ideal)) {r : Ref sig .tc} (hr : r ∉ wr1) :
    after (st1 (F := Ideal)) W (Proc.devRef .tc r) = W (Proc.devRef .tc r) :=
  after_of_writes_sub st1 W st1_writes hr

/-- The buffers stage 2 writes. -/
abbrev wr2 : List (Ref sig .tc) :=
  [main_v10, main_v11, main_v12, main_v13, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]

theorem st2_writes : (st2 (F := Ideal)).Forall fun op => op.writes ⊆ ((wr2).map (Proc.devRef (τ := τ) .tc)).toFinset :=
  ⟨writes_sub (main_v10) rfl (by decide),
    writes_sub (main_v11) rfl (by decide),
    writes_sub (main_v12) rfl (by decide),
    writes_sub (main_v13) rfl (by decide),
    writes_sub (main_call2.cst.ref) rfl (by decide),
    writes_sub (main_call2.v0.ref) rfl (by decide),
    writes_sub (main_call2.v1.ref) rfl (by decide),
    writes_sub (main_call2.cst_0.ref) rfl (by decide),
    writes_sub (main_call2.v2.ref) rfl (by decide),
    writes_sub (main_call2.v3.ref) rfl (by decide),
    writes_sub (main_call2.cst_1.ref) rfl (by decide),
    writes_sub (main_call2.call0.v0.ref) rfl (by decide),
    writes_sub (main_call2.call0.v1.ref) rfl (by decide),
    writes_sub (main_call2.call0.v2.ref) rfl (by decide),
    writes_sub (main_call2.v5.ref) rfl (by decide),
    writes_sub (main_call2.cst_2.ref) rfl (by decide),
    writes_sub (main_call2.v6.ref) rfl (by decide),
    writes_sub (main_call2.v7.ref) rfl (by decide),
    writes_sub (main_call2.call1.v0.ref) rfl (by decide)⟩

/-- Stage 2 leaves a buffer it does not write alone. -/
theorem st2_frame (W : Valuation τ sig (Elt Ideal)) {r : Ref sig .tc} (hr : r ∉ wr2) :
    after (st2 (F := Ideal)) W (Proc.devRef .tc r) = W (Proc.devRef .tc r) :=
  after_of_writes_sub st2 W st2_writes hr

/-- The buffers stage 3 writes. -/
abbrev wr3 : List (Ref sig .tc) :=
  [main_v15, main_v16, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]

theorem st3_writes : (st3 (F := Ideal)).Forall fun op => op.writes ⊆ ((wr3).map (Proc.devRef (τ := τ) .tc)).toFinset :=
  ⟨writes_sub (main_v15) rfl (by decide),
    writes_sub (main_v16) rfl (by decide),
    writes_sub (main_call3.cst.ref) rfl (by decide),
    writes_sub (main_call3.v0.ref) rfl (by decide),
    writes_sub (main_call3.v1.ref) rfl (by decide),
    writes_sub (main_call3.cst_0.ref) rfl (by decide),
    writes_sub (main_call3.v2.ref) rfl (by decide),
    writes_sub (main_call3.v3.ref) rfl (by decide),
    writes_sub (main_call3.cst_1.ref) rfl (by decide),
    writes_sub (main_call3.call0.v0.ref) rfl (by decide),
    writes_sub (main_call3.call0.v1.ref) rfl (by decide),
    writes_sub (main_call3.call0.v2.ref) rfl (by decide),
    writes_sub (main_call3.v5.ref) rfl (by decide),
    writes_sub (main_call3.cst_2.ref) rfl (by decide),
    writes_sub (main_call3.v6.ref) rfl (by decide),
    writes_sub (main_call3.v7.ref) rfl (by decide),
    writes_sub (main_call3.call1.v0.ref) rfl (by decide)⟩

/-- Stage 3 leaves a buffer it does not write alone. -/
theorem st3_frame (W : Valuation τ sig (Elt Ideal)) {r : Ref sig .tc} (hr : r ∉ wr3) :
    after (st3 (F := Ideal)) W (Proc.devRef .tc r) = W (Proc.devRef .tc r) :=
  after_of_writes_sub st3 W st3_writes hr

/-- The buffers stage 4 writes. -/
abbrev wr4 : List (Ref sig .tc) :=
  [main_v18, main_v19, main_call4.cst.ref, main_call4.v0.ref, main_call4.v1.ref, main_call4.cst_0.ref, main_call4.v2.ref, main_call4.v3.ref, main_call4.cst_1.ref, main_call4.call0.v0.ref, main_call4.call0.v1.ref, main_call4.call0.v2.ref, main_call4.v5.ref, main_call4.cst_2.ref, main_call4.v6.ref, main_call4.v7.ref, main_call4.call1.v0.ref, main_v21]

theorem st4_writes : (st4 (F := Ideal)).Forall fun op => op.writes ⊆ ((wr4).map (Proc.devRef (τ := τ) .tc)).toFinset :=
  ⟨writes_sub (main_v18) rfl (by decide),
    writes_sub (main_v19) rfl (by decide),
    writes_sub (main_call4.cst.ref) rfl (by decide),
    writes_sub (main_call4.v0.ref) rfl (by decide),
    writes_sub (main_call4.v1.ref) rfl (by decide),
    writes_sub (main_call4.cst_0.ref) rfl (by decide),
    writes_sub (main_call4.v2.ref) rfl (by decide),
    writes_sub (main_call4.v3.ref) rfl (by decide),
    writes_sub (main_call4.cst_1.ref) rfl (by decide),
    writes_sub (main_call4.call0.v0.ref) rfl (by decide),
    writes_sub (main_call4.call0.v1.ref) rfl (by decide),
    writes_sub (main_call4.call0.v2.ref) rfl (by decide),
    writes_sub (main_call4.v5.ref) rfl (by decide),
    writes_sub (main_call4.cst_2.ref) rfl (by decide),
    writes_sub (main_call4.v6.ref) rfl (by decide),
    writes_sub (main_call4.v7.ref) rfl (by decide),
    writes_sub (main_call4.call1.v0.ref) rfl (by decide),
    writes_sub (main_v21) rfl (by decide)⟩

/-- Stage 4 leaves a buffer it does not write alone. -/
theorem st4_frame (W : Valuation τ sig (Elt Ideal)) {r : Ref sig .tc} (hr : r ∉ wr4) :
    after (st4 (F := Ideal)) W (Proc.devRef .tc r) = W (Proc.devRef .tc r) :=
  after_of_writes_sub st4 W st4_writes hr

/-- The buffers stage 5 writes. -/
abbrev wr5 : List (Ref sig .tc) :=
  [main_v22, main_v23, main_call5.cst.ref, main_call5.v0.ref, main_call5.v1.ref, main_call5.cst_0.ref, main_call5.v2.ref, main_call5.v3.ref, main_call5.cst_1.ref, main_call5.call0.v0.ref, main_call5.call0.v1.ref, main_call5.call0.v2.ref, main_call5.v5.ref, main_call5.cst_2.ref, main_call5.v6.ref, main_call5.v7.ref, main_call5.call1.v0.ref, main_v25]

theorem st5_writes : (st5 (F := Ideal)).Forall fun op => op.writes ⊆ ((wr5).map (Proc.devRef (τ := τ) .tc)).toFinset :=
  ⟨writes_sub (main_v22) rfl (by decide),
    writes_sub (main_v23) rfl (by decide),
    writes_sub (main_call5.cst.ref) rfl (by decide),
    writes_sub (main_call5.v0.ref) rfl (by decide),
    writes_sub (main_call5.v1.ref) rfl (by decide),
    writes_sub (main_call5.cst_0.ref) rfl (by decide),
    writes_sub (main_call5.v2.ref) rfl (by decide),
    writes_sub (main_call5.v3.ref) rfl (by decide),
    writes_sub (main_call5.cst_1.ref) rfl (by decide),
    writes_sub (main_call5.call0.v0.ref) rfl (by decide),
    writes_sub (main_call5.call0.v1.ref) rfl (by decide),
    writes_sub (main_call5.call0.v2.ref) rfl (by decide),
    writes_sub (main_call5.v5.ref) rfl (by decide),
    writes_sub (main_call5.cst_2.ref) rfl (by decide),
    writes_sub (main_call5.v6.ref) rfl (by decide),
    writes_sub (main_call5.v7.ref) rfl (by decide),
    writes_sub (main_call5.call1.v0.ref) rfl (by decide),
    writes_sub (main_v25) rfl (by decide)⟩

/-- Stage 5 leaves a buffer it does not write alone. -/
theorem st5_frame (W : Valuation τ sig (Elt Ideal)) {r : Ref sig .tc} (hr : r ∉ wr5) :
    after (st5 (F := Ideal)) W (Proc.devRef .tc r) = W (Proc.devRef .tc r) :=
  after_of_writes_sub st5 W st5_writes hr

/-- The buffers stage 6 writes. -/
abbrev wr6 : List (Ref sig .tc) :=
  [main_v26, main_v27, main_v28, main_v29, main_call6.cst.ref, main_call6.v0.ref, main_call6.v1.ref, main_call6.cst_0.ref, main_call6.v2.ref, main_call6.v3.ref, main_call6.cst_1.ref, main_call6.call0.v0.ref, main_call6.call0.v1.ref, main_call6.call0.v2.ref, main_call6.v5.ref, main_call6.cst_2.ref, main_call6.v6.ref, main_call6.v7.ref, main_call6.call1.v0.ref]

theorem st6_writes : (st6 (F := Ideal)).Forall fun op => op.writes ⊆ ((wr6).map (Proc.devRef (τ := τ) .tc)).toFinset :=
  ⟨writes_sub (main_v26) rfl (by decide),
    writes_sub (main_v27) rfl (by decide),
    writes_sub (main_v28) rfl (by decide),
    writes_sub (main_v29) rfl (by decide),
    writes_sub (main_call6.cst.ref) rfl (by decide),
    writes_sub (main_call6.v0.ref) rfl (by decide),
    writes_sub (main_call6.v1.ref) rfl (by decide),
    writes_sub (main_call6.cst_0.ref) rfl (by decide),
    writes_sub (main_call6.v2.ref) rfl (by decide),
    writes_sub (main_call6.v3.ref) rfl (by decide),
    writes_sub (main_call6.cst_1.ref) rfl (by decide),
    writes_sub (main_call6.call0.v0.ref) rfl (by decide),
    writes_sub (main_call6.call0.v1.ref) rfl (by decide),
    writes_sub (main_call6.call0.v2.ref) rfl (by decide),
    writes_sub (main_call6.v5.ref) rfl (by decide),
    writes_sub (main_call6.cst_2.ref) rfl (by decide),
    writes_sub (main_call6.v6.ref) rfl (by decide),
    writes_sub (main_call6.v7.ref) rfl (by decide),
    writes_sub (main_call6.call1.v0.ref) rfl (by decide)⟩

/-- Stage 6 leaves a buffer it does not write alone. -/
theorem st6_frame (W : Valuation τ sig (Elt Ideal)) {r : Ref sig .tc} (hr : r ∉ wr6) :
    after (st6 (F := Ideal)) W (Proc.devRef .tc r) = W (Proc.devRef .tc r) :=
  after_of_writes_sub st6 W st6_writes hr

/-- The buffers stage 7 writes. -/
abbrev wr7 : List (Ref sig .tc) :=
  [main_v31, main_v32, main_v33, main_v34, main_v35, main_v36, main_v37, main_v38, main_v39, main_v40, main_v41, main_v42]

theorem st7_writes : (st7 (F := Ideal)).Forall fun op => op.writes ⊆ ((wr7).map (Proc.devRef (τ := τ) .tc)).toFinset :=
  ⟨writes_sub (main_v31) rfl (by decide),
    writes_sub (main_v32) rfl (by decide),
    writes_sub (main_v33) rfl (by decide),
    writes_sub (main_v34) rfl (by decide),
    writes_sub (main_v35) rfl (by decide),
    writes_sub (main_v36) rfl (by decide),
    writes_sub (main_v37) rfl (by decide),
    writes_sub (main_v38) rfl (by decide),
    writes_sub (main_v39) rfl (by decide),
    writes_sub (main_v40) rfl (by decide),
    writes_sub (main_v41) rfl (by decide),
    writes_sub (main_v42) rfl (by decide)⟩

/-- Stage 7 leaves a buffer it does not write alone. -/
theorem st7_frame (W : Valuation τ sig (Elt Ideal)) {r : Ref sig .tc} (hr : r ∉ wr7) :
    after (st7 (F := Ideal)) W (Proc.devRef .tc r) = W (Proc.devRef .tc r) :=
  after_of_writes_sub st7 W st7_writes hr

/-- The buffers stage 8 writes. -/
abbrev wr8 : List (Ref sig .tc) :=
  [main_call7.v0.ref, main_call7.v1.ref, main_call7.v2.ref, main_call7.v3.ref, main_call7.cst.ref, main_call7.v4.ref, main_call7.call0.v0.ref, main_call7.call0.cst.ref, main_call7.call0.call0.v0.ref, main_call7.call0.call0.v1.ref, main_call7.call0.cst_0.ref, main_call7.call0.v2.ref, main_call7.v6.ref, main_v44, main_cst, main_v45, main_call8.v0.ref]

theorem st8_writes : (st8 (F := Ideal)).Forall fun op => op.writes ⊆ ((wr8).map (Proc.devRef (τ := τ) .tc)).toFinset :=
  ⟨writes_sub (main_call7.v0.ref) rfl (by decide),
    writes_sub (main_call7.v1.ref) rfl (by decide),
    writes_sub (main_call7.v2.ref) rfl (by decide),
    writes_sub (main_call7.v3.ref) rfl (by decide),
    writes_sub (main_call7.cst.ref) rfl (by decide),
    writes_sub (main_call7.v4.ref) rfl (by decide),
    writes_sub (main_call7.call0.v0.ref) rfl (by decide),
    writes_sub (main_call7.call0.cst.ref) rfl (by decide),
    writes_sub (main_call7.call0.call0.v0.ref) rfl (by decide),
    writes_sub (main_call7.call0.call0.v1.ref) rfl (by decide),
    writes_sub (main_call7.call0.cst_0.ref) rfl (by decide),
    writes_sub (main_call7.call0.v2.ref) rfl (by decide),
    writes_sub (main_call7.v6.ref) rfl (by decide),
    writes_sub (main_v44) rfl (by decide),
    writes_sub (main_cst) rfl (by decide),
    writes_sub (main_v45) rfl (by decide),
    writes_sub (main_call8.v0.ref) rfl (by decide)⟩

/-- Stage 8 leaves a buffer it does not write alone. -/
theorem st8_frame (W : Valuation τ sig (Elt Ideal)) {r : Ref sig .tc} (hr : r ∉ wr8) :
    after (st8 (F := Ideal)) W (Proc.devRef .tc r) = W (Proc.devRef .tc r) :=
  after_of_writes_sub st8 W st8_writes hr

/-- The buffers stage 9 writes. -/
abbrev wr9 : List (Ref sig .tc) :=
  [main_call9.v0.ref, main_call9.v1.ref, main_call9.v2.ref, main_call9.v3.ref, main_call9.cst.ref, main_call9.v4.ref, main_call9.call0.v0.ref, main_call9.call0.cst.ref, main_call9.call0.call0.v0.ref, main_call9.call0.call0.v1.ref, main_call9.call0.cst_0.ref, main_call9.call0.v2.ref, main_call9.v6.ref, main_v48, main_cst_0, main_v49, main_call10.v0.ref, main_v51]

theorem st9_writes : (st9 (F := Ideal)).Forall fun op => op.writes ⊆ ((wr9).map (Proc.devRef (τ := τ) .tc)).toFinset :=
  ⟨writes_sub (main_call9.v0.ref) rfl (by decide),
    writes_sub (main_call9.v1.ref) rfl (by decide),
    writes_sub (main_call9.v2.ref) rfl (by decide),
    writes_sub (main_call9.v3.ref) rfl (by decide),
    writes_sub (main_call9.cst.ref) rfl (by decide),
    writes_sub (main_call9.v4.ref) rfl (by decide),
    writes_sub (main_call9.call0.v0.ref) rfl (by decide),
    writes_sub (main_call9.call0.cst.ref) rfl (by decide),
    writes_sub (main_call9.call0.call0.v0.ref) rfl (by decide),
    writes_sub (main_call9.call0.call0.v1.ref) rfl (by decide),
    writes_sub (main_call9.call0.cst_0.ref) rfl (by decide),
    writes_sub (main_call9.call0.v2.ref) rfl (by decide),
    writes_sub (main_call9.v6.ref) rfl (by decide),
    writes_sub (main_v48) rfl (by decide),
    writes_sub (main_cst_0) rfl (by decide),
    writes_sub (main_v49) rfl (by decide),
    writes_sub (main_call10.v0.ref) rfl (by decide),
    writes_sub (main_v51) rfl (by decide)⟩

/-- Stage 9 leaves a buffer it does not write alone. -/
theorem st9_frame (W : Valuation τ sig (Elt Ideal)) {r : Ref sig .tc} (hr : r ∉ wr9) :
    after (st9 (F := Ideal)) W (Proc.devRef .tc r) = W (Proc.devRef .tc r) :=
  after_of_writes_sub st9 W st9_writes hr

/-- The buffers stage 10 writes. -/
abbrev wr10 : List (Ref sig .tc) :=
  [main_call11.v0.ref, main_call11.v1.ref, main_call11.v2.ref, main_call11.v3.ref, main_call11.cst.ref, main_call11.v4.ref, main_call11.call0.v0.ref, main_call11.call0.cst.ref, main_call11.call0.call0.v0.ref, main_call11.call0.call0.v1.ref, main_call11.call0.cst_0.ref, main_call11.call0.v2.ref, main_call11.v6.ref, main_v53, main_cst_1, main_v54, main_call12.v0.ref, main_v56]

theorem st10_writes : (st10 (F := Ideal)).Forall fun op => op.writes ⊆ ((wr10).map (Proc.devRef (τ := τ) .tc)).toFinset :=
  ⟨writes_sub (main_call11.v0.ref) rfl (by decide),
    writes_sub (main_call11.v1.ref) rfl (by decide),
    writes_sub (main_call11.v2.ref) rfl (by decide),
    writes_sub (main_call11.v3.ref) rfl (by decide),
    writes_sub (main_call11.cst.ref) rfl (by decide),
    writes_sub (main_call11.v4.ref) rfl (by decide),
    writes_sub (main_call11.call0.v0.ref) rfl (by decide),
    writes_sub (main_call11.call0.cst.ref) rfl (by decide),
    writes_sub (main_call11.call0.call0.v0.ref) rfl (by decide),
    writes_sub (main_call11.call0.call0.v1.ref) rfl (by decide),
    writes_sub (main_call11.call0.cst_0.ref) rfl (by decide),
    writes_sub (main_call11.call0.v2.ref) rfl (by decide),
    writes_sub (main_call11.v6.ref) rfl (by decide),
    writes_sub (main_v53) rfl (by decide),
    writes_sub (main_cst_1) rfl (by decide),
    writes_sub (main_v54) rfl (by decide),
    writes_sub (main_call12.v0.ref) rfl (by decide),
    writes_sub (main_v56) rfl (by decide)⟩

/-- Stage 10 leaves a buffer it does not write alone. -/
theorem st10_frame (W : Valuation τ sig (Elt Ideal)) {r : Ref sig .tc} (hr : r ∉ wr10) :
    after (st10 (F := Ideal)) W (Proc.devRef .tc r) = W (Proc.devRef .tc r) :=
  after_of_writes_sub st10 W st10_writes hr

set_option maxHeartbeats 4000000 in
theorem st0_main_v4 (W : Valuation τ sig (Elt Ideal)) :
    after (st0 (F := Ideal)) W (main_v4 : DevRef τ sig) = Cert.Spec.dense (W (main_arg0 : DevRef τ sig)) (W (main_arg6 : DevRef τ sig)) (W (main_arg7 : DevRef τ sig)) := by
  after_results
  try simp only [TRef.ofBuf, TRef.toBuf, cast_eq]
  exact (RefPure.elu_block _ _).trans (RefPure.dense_pre (by decide) _ (by rfl) _ _ _ _ _)

set_option maxHeartbeats 4000000 in
theorem st1_main_v9 (W : Valuation τ sig (Elt Ideal)) :
    after (st1 (F := Ideal)) W (main_v9 : DevRef τ sig) = Cert.Spec.dense (W (main_arg1 : DevRef τ sig)) (W (main_arg8 : DevRef τ sig)) (W (main_arg9 : DevRef τ sig)) := by
  after_results
  try simp only [TRef.ofBuf, TRef.toBuf, cast_eq]
  exact (RefPure.elu_block _ _).trans (RefPure.dense_pre (by decide) _ (by rfl) _ _ _ _ _)

set_option maxHeartbeats 4000000 in
theorem st2_main_v14 (W : Valuation τ sig (Elt Ideal)) :
    after (st2 (F := Ideal)) W (main_v14 : DevRef τ sig) = Cert.Spec.dense (W (main_arg2 : DevRef τ sig)) (W (main_arg10 : DevRef τ sig)) (W (main_arg11 : DevRef τ sig)) := by
  after_results
  try simp only [TRef.ofBuf, TRef.toBuf, cast_eq]
  exact (RefPure.elu_block _ _).trans (RefPure.dense_pre (by decide) _ (by rfl) _ _ _ _ _)

set_option maxHeartbeats 4000000 in
theorem st3_main_v17 (W : Valuation τ sig (Elt Ideal)) :
    after (st3 (F := Ideal)) W (main_v17 : DevRef τ sig) = fun j => Cert.LibElu.elu (Cert.Lib.PlainDot.mm (W (main_arg3 : DevRef τ sig)) (Cert.Lib.PlainDot.mm (W (main_v9 : DevRef τ sig)) (W (main_arg12 : DevRef τ sig))) j) := by
  after_results
  try simp only [TRef.ofBuf, TRef.toBuf, cast_eq]
  exact (RefPure.elu_block _ _).trans (congrArg (fun (f : FVec Ideal S8192x64 .f32) => fun i => Cert.LibElu.elu (f i)) (RefPure.msg_pre _ (by rfl) _ (by rfl) _ _ _))

set_option maxHeartbeats 4000000 in
theorem st4_main_v21 (W : Valuation τ sig (Elt Ideal)) :
    after (st4 (F := Ideal)) W (main_v21 : DevRef τ sig) = addf (F := Ideal) (s := S8192x64) (φ := .f32) (W (main_v17 : DevRef τ sig)) (fun j => Cert.LibElu.elu (Cert.Lib.PlainDot.mm (W (main_arg4 : DevRef τ sig)) (Cert.Lib.PlainDot.mm (W (main_v14 : DevRef τ sig)) (W (main_arg13 : DevRef τ sig))) j)) := by
  after_results
  try simp only [TRef.ofBuf, TRef.toBuf, cast_eq]
  exact congrArg (addf (F := Ideal) (s := S8192x64) (φ := .f32) (W (main_v17 : DevRef τ sig))) ((RefPure.elu_block _ _).trans (congrArg (fun (f : FVec Ideal S8192x64 .f32) => fun i => Cert.LibElu.elu (f i)) (RefPure.msg_pre _ (by rfl) _ (by rfl) _ _ _)))

set_option maxHeartbeats 4000000 in
theorem st5_main_v25 (W : Valuation τ sig (Elt Ideal)) :
    after (st5 (F := Ideal)) W (main_v25 : DevRef τ sig) = addf (F := Ideal) (s := S8192x64) (φ := .f32) (W (main_v21 : DevRef τ sig)) (fun j => Cert.LibElu.elu (Cert.Lib.PlainDot.mm (W (main_arg5 : DevRef τ sig)) (Cert.Lib.PlainDot.mm (W (main_v4 : DevRef τ sig)) (W (main_arg14 : DevRef τ sig))) j)) := by
  after_results
  try simp only [TRef.ofBuf, TRef.toBuf, cast_eq]
  exact congrArg (addf (F := Ideal) (s := S8192x64) (φ := .f32) (W (main_v21 : DevRef τ sig))) ((RefPure.elu_block _ _).trans (congrArg (fun (f : FVec Ideal S8192x64 .f32) => fun i => Cert.LibElu.elu (f i)) (RefPure.msg_pre _ (by rfl) _ (by rfl) _ _ _)))

set_option maxHeartbeats 4000000 in
theorem st6_main_v30 (W : Valuation τ sig (Elt Ideal)) :
    after (st6 (F := Ideal)) W (main_v30 : DevRef τ sig) = Cert.Spec.dense (W (main_v25 : DevRef τ sig)) (W (main_arg15 : DevRef τ sig)) (W (main_arg16 : DevRef τ sig)) := by
  after_results
  try simp only [TRef.ofBuf, TRef.toBuf, cast_eq]
  exact (RefPure.elu_block _ _).trans (RefPure.dense_pre (by decide) _ (by rfl) _ _ _ _ _)

set_option maxHeartbeats 4000000 in
theorem st7_main_v34 (W : Valuation τ sig (Elt Ideal)) :
    after (st7 (F := Ideal)) W (main_v34 : DevRef τ sig) = Cert.Spec.head (W (main_v4 : DevRef τ sig)) (W (main_arg17 : DevRef τ sig)) (W (main_arg18 : DevRef τ sig)) := by
  after_results
  try simp only [TRef.ofBuf, TRef.toBuf, cast_eq]
  exact RefPure.head_pre (by decide) _ (by rfl) _ _ _ _ _

set_option maxHeartbeats 4000000 in
theorem st7_main_v38 (W : Valuation τ sig (Elt Ideal)) :
    after (st7 (F := Ideal)) W (main_v38 : DevRef τ sig) = Cert.Spec.head (W (main_v30 : DevRef τ sig)) (W (main_arg19 : DevRef τ sig)) (W (main_arg20 : DevRef τ sig)) := by
  after_results
  try simp only [TRef.ofBuf, TRef.toBuf, cast_eq]
  exact RefPure.head_pre (by decide) _ (by rfl) _ _ _ _ _

set_option maxHeartbeats 4000000 in
theorem st7_main_v42 (W : Valuation τ sig (Elt Ideal)) :
    after (st7 (F := Ideal)) W (main_v42 : DevRef τ sig) = Cert.Spec.head (W (main_v14 : DevRef τ sig)) (W (main_arg21 : DevRef τ sig)) (W (main_arg22 : DevRef τ sig)) := by
  after_results
  try simp only [TRef.ofBuf, TRef.toBuf, cast_eq]
  exact RefPure.head_pre (by decide) _ (by rfl) _ _ _ _ _

set_option maxHeartbeats 4000000 in
theorem st8_main_v46 (W : Valuation τ sig (Elt Ideal)) :
    after (st8 (F := Ideal)) W (main_v46 : DevRef τ sig) = Cert.Spec.rowMean ((4096 : ℝ) : EReal) (W (main_v42 : DevRef τ sig)) := by
  after_results
  try simp only [TRef.ofBuf, TRef.toBuf, cast_eq]
  exact RefPure.mean_block (M := 4096) (N := 16) _ (RefPure.natCast_4096) _ (by decide) _ _ _ _ _

set_option maxHeartbeats 4000000 in
theorem st9_main_v51 (W : Valuation τ sig (Elt Ideal)) :
    after (st9 (F := Ideal)) W (main_v51 : DevRef τ sig) = addf (F := Ideal) (s := S16) (φ := .f32) (W (main_v46 : DevRef τ sig)) (Cert.Spec.rowMean ((8192 : ℝ) : EReal) (W (main_v38 : DevRef τ sig))) := by
  after_results
  try simp only [TRef.ofBuf, TRef.toBuf, cast_eq]
  exact congrArg (addf (F := Ideal) (s := S16) (φ := .f32) (W (main_v46 : DevRef τ sig))) (RefPure.mean_block (M := 8192) (N := 16) _ (RefPure.natCast_8192) _ (by decide) _ _ _ _ _)

set_option maxHeartbeats 4000000 in
theorem st10_main_v56 (W : Valuation τ sig (Elt Ideal)) :
    after (st10 (F := Ideal)) W (main_v56 : DevRef τ sig) = addf (F := Ideal) (s := S16) (φ := .f32) (W (main_v51 : DevRef τ sig)) (Cert.Spec.rowMean ((8192 : ℝ) : EReal) (W (main_v34 : DevRef τ sig))) := by
  after_results
  try simp only [TRef.ofBuf, TRef.toBuf, cast_eq]
  exact congrArg (addf (F := Ideal) (s := S16) (φ := .f32) (W (main_v51 : DevRef τ sig))) (RefPure.mean_block (M := 8192) (N := 16) _ (RefPure.natCast_8192) _ (by decide) _ _ _ _ _)

set_option maxHeartbeats 4000000 in
/-- The result buffer after the whole line: the specification's function of the argument arrays. Read backwards from
    the last stage: each stage's result is its function of the buffers it reads, every other buffer passes through. -/
theorem out_eq (V : Valuation τ sig (Elt Ideal)) :
    after (ops (F := Ideal)) V (main_v56 : DevRef τ sig)
      = Cert.Spec.G (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) := by
  simp only [ops, after_append]
  rw [st10_main_v56,
    st9_main_v51,
    st9_frame _ (r := main_v34) (by decide),
    st8_main_v46,
    st8_frame _ (r := main_v38) (by decide),
    st8_frame _ (r := main_v34) (by decide),
    st7_main_v42,
    st7_main_v38,
    st7_main_v34,
    st6_frame _ (r := main_v14) (by decide),
    st6_frame _ (r := main_arg21) (by decide),
    st6_frame _ (r := main_arg22) (by decide),
    st6_main_v30,
    st6_frame _ (r := main_arg19) (by decide),
    st6_frame _ (r := main_arg20) (by decide),
    st6_frame _ (r := main_v4) (by decide),
    st6_frame _ (r := main_arg17) (by decide),
    st6_frame _ (r := main_arg18) (by decide),
    st5_frame _ (r := main_v14) (by decide),
    st5_frame _ (r := main_arg21) (by decide),
    st5_frame _ (r := main_arg22) (by decide),
    st5_main_v25,
    st5_frame _ (r := main_arg15) (by decide),
    st5_frame _ (r := main_arg16) (by decide),
    st5_frame _ (r := main_arg19) (by decide),
    st5_frame _ (r := main_arg20) (by decide),
    st5_frame _ (r := main_v4) (by decide),
    st5_frame _ (r := main_arg17) (by decide),
    st5_frame _ (r := main_arg18) (by decide),
    st4_frame _ (r := main_v14) (by decide),
    st4_frame _ (r := main_arg21) (by decide),
    st4_frame _ (r := main_arg22) (by decide),
    st4_main_v21,
    st4_frame _ (r := main_arg5) (by decide),
    st4_frame _ (r := main_v4) (by decide),
    st4_frame _ (r := main_arg14) (by decide),
    st4_frame _ (r := main_arg15) (by decide),
    st4_frame _ (r := main_arg16) (by decide),
    st4_frame _ (r := main_arg19) (by decide),
    st4_frame _ (r := main_arg20) (by decide),
    st4_frame _ (r := main_arg17) (by decide),
    st4_frame _ (r := main_arg18) (by decide),
    st3_frame _ (r := main_v14) (by decide),
    st3_frame _ (r := main_arg21) (by decide),
    st3_frame _ (r := main_arg22) (by decide),
    st3_main_v17,
    st3_frame _ (r := main_arg4) (by decide),
    st3_frame _ (r := main_arg13) (by decide),
    st3_frame _ (r := main_arg5) (by decide),
    st3_frame _ (r := main_v4) (by decide),
    st3_frame _ (r := main_arg14) (by decide),
    st3_frame _ (r := main_arg15) (by decide),
    st3_frame _ (r := main_arg16) (by decide),
    st3_frame _ (r := main_arg19) (by decide),
    st3_frame _ (r := main_arg20) (by decide),
    st3_frame _ (r := main_arg17) (by decide),
    st3_frame _ (r := main_arg18) (by decide),
    st2_main_v14,
    st2_frame _ (r := main_arg21) (by decide),
    st2_frame _ (r := main_arg22) (by decide),
    st2_frame _ (r := main_arg3) (by decide),
    st2_frame _ (r := main_v9) (by decide),
    st2_frame _ (r := main_arg12) (by decide),
    st2_frame _ (r := main_arg4) (by decide),
    st2_frame _ (r := main_arg13) (by decide),
    st2_frame _ (r := main_arg5) (by decide),
    st2_frame _ (r := main_v4) (by decide),
    st2_frame _ (r := main_arg14) (by decide),
    st2_frame _ (r := main_arg15) (by decide),
    st2_frame _ (r := main_arg16) (by decide),
    st2_frame _ (r := main_arg19) (by decide),
    st2_frame _ (r := main_arg20) (by decide),
    st2_frame _ (r := main_arg17) (by decide),
    st2_frame _ (r := main_arg18) (by decide),
    st1_frame _ (r := main_arg2) (by decide),
    st1_frame _ (r := main_arg10) (by decide),
    st1_frame _ (r := main_arg11) (by decide),
    st1_frame _ (r := main_arg21) (by decide),
    st1_frame _ (r := main_arg22) (by decide),
    st1_frame _ (r := main_arg3) (by decide),
    st1_main_v9,
    st1_frame _ (r := main_arg12) (by decide),
    st1_frame _ (r := main_arg4) (by decide),
    st1_frame _ (r := main_arg13) (by decide),
    st1_frame _ (r := main_arg5) (by decide),
    st1_frame _ (r := main_v4) (by decide),
    st1_frame _ (r := main_arg14) (by decide),
    st1_frame _ (r := main_arg15) (by decide),
    st1_frame _ (r := main_arg16) (by decide),
    st1_frame _ (r := main_arg19) (by decide),
    st1_frame _ (r := main_arg20) (by decide),
    st1_frame _ (r := main_arg17) (by decide),
    st1_frame _ (r := main_arg18) (by decide),
    st0_frame _ (r := main_arg2) (by decide),
    st0_frame _ (r := main_arg10) (by decide),
    st0_frame _ (r := main_arg11) (by decide),
    st0_frame _ (r := main_arg21) (by decide),
    st0_frame _ (r := main_arg22) (by decide),
    st0_frame _ (r := main_arg3) (by decide),
    st0_frame _ (r := main_arg1) (by decide),
    st0_frame _ (r := main_arg8) (by decide),
    st0_frame _ (r := main_arg9) (by decide),
    st0_frame _ (r := main_arg12) (by decide),
    st0_frame _ (r := main_arg4) (by decide),
    st0_frame _ (r := main_arg13) (by decide),
    st0_frame _ (r := main_arg5) (by decide),
    st0_main_v4,
    st0_frame _ (r := main_arg14) (by decide),
    st0_frame _ (r := main_arg15) (by decide),
    st0_frame _ (r := main_arg16) (by decide),
    st0_frame _ (r := main_arg19) (by decide),
    st0_frame _ (r := main_arg20) (by decide),
    st0_frame _ (r := main_arg17) (by decide),
    st0_frame _ (r := main_arg18) (by decide)]
  rfl

/-- A buffer no stage writes keeps its contents through the whole line. -/
theorem keep_eq (V : Valuation τ sig (Elt Ideal)) {r : Ref sig .tc}
    (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) :
    after (ops (F := Ideal)) V (Proc.devRef .tc r) = V (Proc.devRef .tc r) := by
  simp only [ops, after_append]
  rw [st10_frame _ h10, st9_frame _ h9, st8_frame _ h8, st7_frame _ h7, st6_frame _ h6, st5_frame _ h5, st4_frame _ h4, st3_frame _ h3, st2_frame _ h2, st1_frame _ h1, st0_frame _ h0]

set_option maxHeartbeats 4000000 in
/-- On every device, from any memory with zero counters: every weakly fair execution of @main terminates with the result
    buffer at the specification's function of the 23 argument arrays, and these unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD,
        r.2.mem ((c.tc : Thread nD τ).loc main_v56)
          = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)) :=
  (θ_run defs _ _).mono (fun _ h c => ⟨(h c main_v56).trans (out_eq _),
      (h c main_arg0).trans (keep_eq _ (by decide) (by decide) (by decide) (by decide) (by decide) (by decide) (by decide) (by decide) (by decide) (by decide) (by decide)),
      (h c main_arg1).trans (keep_eq _ (by decide) (by decide) (by decide) (by decide) (by decide) (by decide) (by decide) (by decide) (by decide) (by decide) (by decide)),
      (h c main_arg2).trans (keep_eq _ (by decide) (by decide) (by decide) (by decide) (by decide) (by decide) (by decide) (by decide) (by decide) (by decide) (by decide)),
      (h c main_arg3).trans (keep_eq _ (by decide) (by decide) (by decide) (by decide) (by decide) (by decide) (by decide) (by decide) (by decide) (by decide) (by decide)),
      (h c main_arg4).trans (keep_eq _ (by decide) (by decide) (by decide) (by decide) (by decide) (by decide) (by decide) (by decide) (by decide) (by decide) (by decide)),
      (h c main_arg5).trans (keep_eq _ (by decide) (by decide) (by decide) (by decide) (by decide) (by decide) (by decide) (by decide) (by decide) (by decide) (by decide)),
      (h c main_arg6).trans (keep_eq _ (by decide) (by decide) (by decide) (by decide) (by decide) (by decide) (by decide) (by decide) (by decide) (by decide) (by decide)),
      (h c main_arg7).trans (keep_eq _ (by decide) (by decide) (by decide) (by decide) (by decide) (by decide) (by decide) (by decide) (by decide) (by decide) (by decide)),
      (h c main_arg8).trans (keep_eq _ (by decide) (by decide) (by decide) (by decide) (by decide) (by decide) (by decide) (by decide) (by decide) (by decide) (by decide)),
      (h c main_arg9).trans (keep_eq _ (by decide) (by decide) (by decide) (by decide) (by decide) (by decide) (by decide) (by decide) (by decide) (by decide) (by decide)),
      (h c main_arg10).trans (keep_eq _ (by decide) (by decide) (by decide) (by decide) (by decide) (by decide) (by decide) (by decide) (by decide) (by decide) (by decide)),
      (h c main_arg11).trans (keep_eq _ (by decide) (by decide) (by decide) (by decide) (by decide) (by decide) (by decide) (by decide) (by decide) (by decide) (by decide)),
      (h c main_arg12).trans (keep_eq _ (by decide) (by decide) (by decide) (by decide) (by decide) (by decide) (by decide) (by decide) (by decide) (by decide) (by decide)),
      (h c main_arg13).trans (keep_eq _ (by decide) (by decide) (by decide) (by decide) (by decide) (by decide) (by decide) (by decide) (by decide) (by decide) (by decide)),
      (h c main_arg14).trans (keep_eq _ (by decide) (by decide) (by decide) (by decide) (by decide) (by decide) (by decide) (by decide) (by decide) (by decide) (by decide)),
      (h c main_arg15).trans (keep_eq _ (by decide) (by decide) (by decide) (by decide) (by decide) (by decide) (by decide) (by decide) (by decide) (by decide) (by decide)),
      (h c main_arg16).trans (keep_eq _ (by decide) (by decide) (by decide) (by decide) (by decide) (by decide) (by decide) (by decide) (by decide) (by decide) (by decide)),
      (h c main_arg17).trans (keep_eq _ (by decide) (by decide) (by decide) (by decide) (by decide) (by decide) (by decide) (by decide) (by decide) (by decide) (by decide)),
      (h c main_arg18).trans (keep_eq _ (by decide) (by decide) (by decide) (by decide) (by decide) (by decide) (by decide) (by decide) (by decide) (by decide) (by decide)),
      (h c main_arg19).trans (keep_eq _ (by decide) (by decide) (by decide) (by decide) (by decide) (by decide) (by decide) (by decide) (by decide) (by decide) (by decide)),
      (h c main_arg20).trans (keep_eq _ (by decide) (by decide) (by decide) (by decide) (by decide) (by decide) (by decide) (by decide) (by decide) (by decide) (by decide)),
      (h c main_arg21).trans (keep_eq _ (by decide) (by decide) (by decide) (by decide) (by decide) (by decide) (by decide) (by decide) (by decide) (by decide) (by decide)),
      (h c main_arg22).trans (keep_eq _ (by decide) (by decide) (by decide) (by decide) (by decide) (by decide) (by decide) (by decide) (by decide) (by decide) (by decide))⟩)
    (run_main m ρ)

end Cert.ReferenceIdeal.RefRun

end
-- ==== Proof.lean ====
/-
  A cellular message-passing layer with three averaged heads, computed two ways, is one function.

  Both programs take features on cells of ranks 0, 1, 2 (8192, 8192 and 4096 rows of 128 features), project each rank to
  64 features by a dense layer followed by the exponential linear unit, update the rank-1 cells from three neighbourhood
  matrices acting on the projected features (each through its own 64×64 weight, each message through the unit, the three
  added, then a dense layer with the unit), apply a linear head to 16 classes on each rank, average each head over its
  rows and add the three averages.

  The reference does this array by array. The accelerator program walks the 8192 rows of the neighbourhood matrices in 64
  slabs of 128 rows. At the first slab it projects the three ranks, stores the three weighted feature arrays, and seeds
  the result with the rank-0 and rank-2 heads applied to the ROW MEANS of the projected features; for each slab it forms
  the slab's messages from the stored arrays — the two 8192-column matrices by their left and right column halves against
  the upper and lower 4096 rows —, applies the update layer and adds the slab's row sum to a running sum; at the last slab
  it scales the running sum by 1/8192 and adds the rank-1 head of it to the result.

  On the extended reals the two agree for finite inputs:
  * the unit is spelt `select (x > 0) x (exp x - 1)` on one side and `select (x > 0) x (1 * expm1 (select (x > 0) 0 x))` on
    the other; `expm1 x` is `exp x - 1`, and where `x` is not positive the inner selection is `x`;
  * a product over 8192 columns is the sum of the products over its two halves, and a sum over 8192 rows is the sum over
    64 slabs of the sums over their 128 rows (associativity and commutativity only);
  * the mean over the rows of `x · W + b` is `(mean of x) · W + b`: sums over rows and over features commute, `1 / n` comes
    out and the bias, added once per row, survives the mean. This is distributivity, which fails at infinities: it is where
    finiteness of the inputs is used — every intermediate value is then a real;
  * the reference's mean skips NaN entries; an extended real is never different from itself, so nothing is skipped and the
    count is the row count; `1/8192` and the divisors 8192 and 4096 are exact;
  * the three averaged heads are added in different orders.

  Each program's run (it terminates, nothing faults, the argument arrays end unchanged) is proved with its result named:
  for the accelerator program at the word level and at the exact values alike (one development, generic in the float
  instance), through the proof data of its pipeline — the result's staging buffer, the three feature arrays and the
  running sum after every slab —; for the reference by reading its host operations in order. No operation of the
  accelerator program is rewritten by idealization, so that claim is trivial.
-/
import proofs.«140626_g76854144795175_cont_sun_m_49_16_alg».proof.Defs
import proofs.«140626_g76854144795175_cont_sun_m_49_16_alg».proof.Proof.Gen.Kernel
import proofs.«140626_g76854144795175_cont_sun_m_49_16_alg».proof.Proof.Gen.KernelIdeal
import proofs.«140626_g76854144795175_cont_sun_m_49_16_alg».proof.Proof.Gen.ReferenceIdeal
import proofs.«140626_g76854144795175_cont_sun_m_49_16_alg».proof.Proof.Gen.Pre_finite_inputs
import proofs.«140626_g76854144795175_cont_sun_m_49_16_alg».proof.Proof.KLaunchB
import proofs.«140626_g76854144795175_cont_sun_m_49_16_alg».proof.Proof.KAlgI
import proofs.«140626_g76854144795175_cont_sun_m_49_16_alg».proof.Proof.RefIsG
import Idealize.ShloMosaic.Adequacy
import Idealize.ShloMosaic.Init

set_option maxRecDepth 16384

noncomputable section

namespace Cert.Proof

open Idealize.ShloMosaic Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does the same program read at the exact values. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- And the reference. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run_G m ρ)

/-- From memories agreeing on the arguments, which are finite, both programs end with the network's function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun _ h c => ⟨(h c).1.trans (Cert.KernelIdeal.Hand.result_G m hpre c), (h c).2⟩)
      (Cert.KernelIdeal.Hand.run_main (F := Ideal) m ρ)
  · refine (θ_run Cert.ReferenceIdeal.defs _ _).mono (fun _ h c => ⟨?_, (h c).2⟩) (Cert.ReferenceIdeal.RefRun.run_G m' ρ')
    obtain ⟨e0, e1, e2, e3, e4, e5, e6, e7, e8, e9, e10, e11, e12, e13, e14, e15, e16, e17, e18, e19, e20, e21, e22⟩ := hagree c
    rw [(h c).1, e0, e1, e2, e3, e4, e5, e6, e7, e8, e9, e10, e11, e12, e13, e14, e15, e16, e17, e18, e19, e20, e21, e22]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
